-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16384x3 : Shape := ⟨3, ![8, 16384, 3]⟩
abbrev S64x3 : Shape := ⟨2, ![64, 3]⟩
abbrev S64 : Shape := ⟨1, ![64]⟩
abbrev S128x64 : Shape := ⟨2, ![128, 64]⟩
abbrev S128 : Shape := ⟨1, ![128]⟩
abbrev S1024x128 : Shape := ⟨2, ![1024, 128]⟩
abbrev S1024 : Shape := ⟨1, ![1024]⟩
abbrev S_ : Shape := ⟨0, ![]⟩

class Facts : Prop where
  bcast_S_S8x16384x3 : S_.BroadcastsInDim S8x16384x3 (![] : Fin 0 → Fin S8x16384x3.rank)
  reducesTo_S8x16384x3_S_d0_1_2 : S8x16384x3.ReducesTo [0, 1, 2] S_
  h_S_ : 0 < S_.numel
  bcast_S_S64x3 : S_.BroadcastsInDim S64x3 (![] : Fin 0 → Fin S64x3.rank)
  reducesTo_S64x3_S_d0_1 : S64x3.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S1024x128 : S_.BroadcastsInDim S1024x128 (![] : Fin 0 → Fin S1024x128.rank)
  reducesTo_S1024x128_S_d0_1 : S1024x128.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024 .f32) (main_arg12 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  main_v63

def fn_part2 {F : FTy → Type} [FloatOps F] (main_arg7 : FVec F S128 .f32) (main_arg8 : FVec F S128 .f32) (main_arg9 : FVec F S1024x128 .f32) (main_arg10 : FVec F S1024 .f32) (main_arg11 : FVec F S1024 .f32) (main_arg12 : FVec F S1024 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S1024x128 .f32 := Host.absf main_arg9
  let main_cst_16 : FVec F S_ .f32 := constant S_ .f32 0x7F800000#32
  let main_v45 : FVec F S1024x128 .f32 := broadcastInDim S1024x128 ![] bcast_S_S1024x128 main_cst_16
  let main_v46 : IVec S1024x128 1 := cmpf .olt main_v44 main_v45
  let main_c_17 : IVec S_ 1 := constantI S_ 1 1#1
  let main_v47 : IVec S_ 1 := (fun x v => Host.reduce IntOp.andi x v reducesTo_S1024x128_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_v48 main_v49 main_v50

def fn_part1 {F : FTy → Type} [FloatOps F] (main_arg4 : FVec F S64 .f32) (main_arg5 : FVec F S128x64 .f32) (main_arg6 : FVec F S128 .f32) (main_arg7 : FVec F S128 .f32) (main_arg8 : FVec F S128 .f32) (main_arg9 : FVec F S1024x128 .f32) (main_arg10 : FVec F S1024 .f32) (main_arg11 : FVec F S1024 .f32) (main_arg12 : FVec F S1024 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8x16384x3 .f32) (main_arg1 : FVec F S64x3 .f32) (main_arg2 : FVec F S64 .f32) (main_arg3 : FVec F S64 .f32) (main_arg4 : FVec F S64 .f32) (main_arg5 : FVec F S128x64 .f32) (main_arg6 : FVec F S128 .f32) (main_arg7 : FVec F S128 .f32) (main_arg8 : FVec F S128 .f32) (main_arg9 : FVec F S1024x128 .f32) (main_arg10 : FVec F S1024 .f32) (main_arg11 : FVec F S1024 .f32) (main_arg12 : FVec F S1024 .f32) : IVec S_ 1 :=
  let main_v0 : FVec F S8x16384x3 .f32 := Host.absf main_arg0
  let main_cst : FVec F S_ .f32 := constant S_ .f32 0x7F800000#32
  let main_v1 : FVec F S8x16384x3 .f32 := broadcastInDim S8x16384x3 ![] bcast_S_S8x16384x3 main_cst
  let main_v2 : IVec S8x16384x3 1 := cmpf .olt main_v0 main_v1
  let main_c : IVec S_ 1 := constantI S_ 1 1#1
  let main_v3 : IVec S_ 1 := (fun x v => Host.reduce IntOp.andi x v reducesTo_S8x16384x3_S_d0_1_2 h_S_) main_v2 main_c
  let main_v4 : FVec F S64x3 .f32 := Host.absf main_arg1
  let main_cst_0 : FVec F S_ .f32 := constant S_ .f32 0x7F800000#32
  let main_v5 : FVec F S64x3 .f32 := broadcastInDim S64x3 ![] bcast_S_S64x3 main_cst_0
  let main_v6 : IVec S64x3 1 := cmpf .olt main_v4 main_v5
  let main_c_1 : IVec S_ 1 := constantI S_ 1 1#1
  let main_v7 : IVec S_ 1 := (fun x v => Host.reduce IntOp.andi x v reducesTo_S64x3_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_v13 main_v16
-- ==== Kernel.lean ====
abbrev S8x16384x3 : Shape := ⟨3, ![8, 16384, 3]⟩
abbrev S64x3 : Shape := ⟨2, ![64, 3]⟩
abbrev S64 : Shape := ⟨1, ![64]⟩
abbrev S128x64 : Shape := ⟨2, ![128, 64]⟩
abbrev S128 : Shape := ⟨1, ![128]⟩
abbrev S1024x128 : Shape := ⟨2, ![1024, 128]⟩
abbrev S1024 : Shape := ⟨1, ![1024]⟩
abbrev S131072x3 : Shape := ⟨2, ![131072, 3]⟩
abbrev S3x64 : Shape := ⟨2, ![3, 64]⟩
abbrev S1x64 : Shape := ⟨2, ![1, 64]⟩
abbrev S64x128 : Shape := ⟨2, ![64, 128]⟩
abbrev S1x128 : Shape := ⟨2, ![1, 128]⟩
abbrev S128x1024 : Shape := ⟨2, ![128, 1024]⟩
abbrev S1x1024 : Shape := ⟨2, ![1, 1024]⟩
abbrev S131072x64 : Shape := ⟨2, ![131072, 64]⟩
abbrev S2x64 : Shape := ⟨2, ![2, 64]⟩
abbrev S16384x3 : Shape := ⟨2, ![16384, 3]⟩
abbrev S16384x64 : Shape := ⟨2, ![16384, 64]⟩
abbrev S_ : Shape := ⟨0, ![]⟩
abbrev S131072x128 : Shape := ⟨2, ![131072, 128]⟩
abbrev S2x128 : Shape := ⟨2, ![2, 128]⟩
abbrev S16384x128 : Shape := ⟨2, ![16384, 128]⟩
abbrev S131072x1024 : Shape := ⟨2, ![131072, 1024]⟩
abbrev S2x1024 : Shape := ⟨2, ![2, 1024]⟩
abbrev S4096x128 : Shape := ⟨2, ![4096, 128]⟩
abbrev S4096x1024 : Shape := ⟨2, ![4096, 1024]⟩
abbrev S8x16384x1024 : Shape := ⟨3, ![8, 16384, 1024]⟩
abbrev S8x1x1024 : Shape := ⟨3, ![8, 1, 1024]⟩
abbrev S1x4096x1024 : Shape := ⟨3, ![1, 4096, 1024]⟩
abbrev S1x1x1024 : Shape := ⟨3, ![1, 1, 1024]⟩
abbrev S8x16384x64 : Shape := ⟨3, ![8, 16384, 64]⟩
abbrev S8x1088x16384 : Shape := ⟨3, ![8, 1088, 16384]⟩
abbrev S1x4096x64 : Shape := ⟨3, ![1, 4096, 64]⟩
abbrev S1x1088x4096 : Shape := ⟨3, ![1, 1088, 4096]⟩
abbrev S4096x64 : Shape := ⟨2, ![4096, 64]⟩
abbrev S64x4096 : Shape := ⟨2, ![64, 4096]⟩
abbrev S1024x1 : Shape := ⟨2, ![1024, 1]⟩
abbrev S1024x4096 : Shape := ⟨2, ![1024, 4096]⟩
abbrev S1088x4096 : Shape := ⟨2, ![1088, 4096]⟩

abbrev nBuf : Space → Nat
  | .hbm => 97
  | .vmem => 39
  | .smem => 0
  | _ => 0

abbrev bufTy : (tb : Table) → Fin (tcTables nBuf tb) → BufTy
  | .hbm, ⟨0, _⟩ => ⟨S8x16384x3, .f32⟩
  | .hbm, ⟨1, _⟩ => ⟨S64x3, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128x64, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1024x128, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S131072x3, .f32⟩
  | .hbm, ⟨14, _⟩ => ⟨S3x64, .f32⟩
  | .hbm, ⟨15, _⟩ => ⟨S1x64, .f32⟩
  | .hbm, ⟨16, _⟩ => ⟨S64x128, .f32⟩
  | .hbm, ⟨17, _⟩ => ⟨S1x128, .f32⟩
  | .hbm, ⟨18, _⟩ => ⟨S128x1024, .f32⟩
  | .hbm, ⟨19, _⟩ => ⟨S1x1024, .f32⟩
  | .hbm, ⟨20, _⟩ => ⟨S131072x64, .f32⟩
  | .hbm, ⟨21, _⟩ => ⟨S2x64, .f32⟩
  | .hbm, ⟨22, _⟩ => ⟨S1x64, .f32⟩
  | .hbm, ⟨23, _⟩ => ⟨S1x64, .f32⟩
  | .hbm, ⟨24, _⟩ => ⟨S_, .f32⟩
  | .hbm, ⟨25, _⟩ => ⟨S1x64, .f32⟩
  | .hbm, ⟨26, _⟩ => ⟨S1x64, .f32⟩
  | .hbm, ⟨27, _⟩ => ⟨S_, .f32⟩
  | .hbm, ⟨28, _⟩ => ⟨S1x64, .f32⟩
  | .hbm, ⟨29, _⟩ => ⟨S1x64, .f32⟩
  | .hbm, ⟨30, _⟩ => ⟨S1x64, .f32⟩
  | .hbm, ⟨31, _⟩ => ⟨S1x64, .f32⟩
  | .hbm, ⟨32, _⟩ => ⟨S_, .f32⟩
  | .hbm, ⟨33, _⟩ => ⟨S1x64, .f32⟩
  | .hbm, ⟨34, _⟩ => ⟨S1x64, .f32⟩
  | .hbm, ⟨35, _⟩ => ⟨S1x64, .f32⟩
  | .hbm, ⟨36, _⟩ => ⟨S_, .f32⟩
  | .hbm, ⟨37, _⟩ => ⟨S1x64, .f32⟩
  | .hbm, ⟨38, _⟩ => ⟨S1x64, .f32⟩
  | .hbm, ⟨39, _⟩ => ⟨S1x64, .f32⟩
  | .hbm, ⟨40, _⟩ => ⟨S1x64, .f32⟩
  | .hbm, ⟨41, _⟩ => ⟨S1x64, .f32⟩
  | .hbm, ⟨42, _⟩ => ⟨S1x64, .f32⟩
  | .hbm, ⟨43, _⟩ => ⟨S1x64, .f32⟩
  | .hbm, ⟨44, _⟩ => ⟨S131072x64, .f32⟩
  | .hbm, ⟨45, _⟩ => ⟨S131072x128, .f32⟩
  | .hbm, ⟨46, _⟩ => ⟨S2x128, .f32⟩
  | .hbm, ⟨47, _⟩ => ⟨S1x128, .f32⟩
  | .hbm, ⟨48, _⟩ => ⟨S1x128, .f32⟩
  | .hbm, ⟨49, _⟩ => ⟨S_, .f32⟩
  | .hbm, ⟨50, _⟩ => ⟨S1x128, .f32⟩
  | .hbm, ⟨51, _⟩ => ⟨S1x128, .f32⟩
  | .hbm, ⟨52, _⟩ => ⟨S_, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S_, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S_, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S131072x1024, .f32⟩
  | .hbm, ⟨70, _⟩ => ⟨S2x1024, .f32⟩
  | .hbm, ⟨71, _⟩ => ⟨S1x1024, .f32⟩
  | .hbm, ⟨72, _⟩ => ⟨S1x1024, .f32⟩
  | .hbm, ⟨73, _⟩ => ⟨S_, .f32⟩
  | .hbm, ⟨74, _⟩ => ⟨S1x1024, .f32⟩
  | .hbm, ⟨75, _⟩ => ⟨S1x1024, .f32⟩
  | .hbm, ⟨76, _⟩ => ⟨S_, .f32⟩
  | .hbm, ⟨77, _⟩ => ⟨S1x1024, .f32⟩
  | .hbm, ⟨78, _⟩ => ⟨S1x1024, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S_, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S8x16384x1024, .f32⟩
  | .hbm, ⟨94, _⟩ => ⟨S8x1x1024, .f32⟩
  | .hbm, ⟨95, _⟩ => ⟨S8x16384x64, .f32⟩
  | .hbm, ⟨96, _⟩ => ⟨S8x1088x16384, .f32⟩
  | .local _ .vmem, ⟨0, _⟩ => ⟨S16384x3, .f32⟩
  | .local _ .vmem, ⟨1, _⟩ => ⟨S16384x3, .f32⟩
  | .local _ .vmem, ⟨2, _⟩ => ⟨S3x64, .f32⟩
  | .local _ .vmem, ⟨3, _⟩ => ⟨S1x64, .f32⟩
  | .local _ .vmem, ⟨4, _⟩ => ⟨S16384x64, .f32⟩
  | .local _ .vmem, ⟨5, _⟩ => ⟨S16384x64, .f32⟩
  | .local _ .vmem, ⟨6, _⟩ => ⟨S2x64, .f32⟩
  | .local _ .vmem, ⟨7, _⟩ => ⟨S16384x64, .f32⟩
  | .local _ .vmem, ⟨8, _⟩ => ⟨S16384x64, .f32⟩
  | .local _ .vmem, ⟨9, _⟩ => ⟨S1x64, .f32⟩
  | .local _ .vmem, ⟨10, _⟩ => ⟨S1x64, .f32⟩
  | .local _ .vmem, ⟨11, _⟩ => ⟨S64x128, .f32⟩
  | .local _ .vmem, ⟨12, _⟩ => ⟨S1x128, .f32⟩
  | .local _ .vmem, ⟨13, _⟩ => ⟨S16384x64, .f32⟩
  | .local _ .vmem, ⟨14, _⟩ => ⟨S16384x64, .f32⟩
  | .local _ .vmem, ⟨15, _⟩ => ⟨S16384x128, .f32⟩
  | .local _ .vmem, ⟨16, _⟩ => ⟨S16384x128, .f32⟩
  | .local _ .vmem, ⟨17, _⟩ => ⟨S2x128, .f32⟩
  | .local _ .vmem, ⟨18, _⟩ => ⟨S4096x128, .f32⟩
  | .local _ .vmem, ⟨19, _⟩ => ⟨S4096x128, .f32⟩
  | .local _ .vmem, ⟨20, _⟩ => ⟨S1x128, .f32⟩
  | .local _ .vmem, ⟨21, _⟩ => ⟨S1x128, .f32⟩
  | .local _ .vmem, ⟨22, _⟩ => ⟨S128x1024, .f32⟩
  | .local _ .vmem, ⟨23, _⟩ => ⟨S1x1024, .f32⟩
  | .local _ .vmem, ⟨24, _⟩ => ⟨S4096x1024, .f32⟩
  | .local _ .vmem, ⟨25, _⟩ => ⟨S4096x1024, .f32⟩
  | .local _ .vmem, ⟨26, _⟩ => ⟨S2x1024, .f32⟩
  | .local _ .vmem, ⟨27, _⟩ => ⟨S1x4096x1024, .f32⟩
  | .local _ .vmem, ⟨28, _⟩ => ⟨S1x4096x1024, .f32⟩
  | .local _ .vmem, ⟨29, _⟩ => ⟨S1x1024, .f32⟩
  | .local _ .vmem, ⟨30, _⟩ => ⟨S1x1024, .f32⟩
  | .local _ .vmem, ⟨31, _⟩ => ⟨S1x1x1024, .f32⟩
  | .local _ .vmem, ⟨32, _⟩ => ⟨S1x1x1024, .f32⟩
  | .local _ .vmem, ⟨33, _⟩ => ⟨S1x4096x64, .f32⟩
  | .local _ .vmem, ⟨34, _⟩ => ⟨S1x4096x64, .f32⟩
  | .local _ .vmem, ⟨35, _⟩ => ⟨S1x1x1024, .f32⟩
  | .local _ .vmem, ⟨36, _⟩ => ⟨S1x1x1024, .f32⟩
  | .local _ .vmem, ⟨37, _⟩ => ⟨S1x1088x4096, .f32⟩
  | .local _ .vmem, ⟨38, _⟩ => ⟨S1x1088x4096, .f32⟩
  | _, _ => ⟨S8x16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26_0 : Ref sig .tc := ⟨.hbm, 44, rfl⟩
abbrev main_v26_1 : Ref sig .tc := ⟨.hbm, 45, rfl⟩
abbrev main_v26_2 : Ref sig .tc := ⟨.hbm, 46, rfl⟩
abbrev main_v27 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_5 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45_0 : Ref sig .tc := ⟨.hbm, 69, rfl⟩
abbrev main_v45_1 : Ref sig .tc := ⟨.hbm, 70, rfl⟩
abbrev main_v46 : Ref sig .tc := ⟨.hbm, 71, rfl⟩
abbrev main_v47 : Ref sig .tc := ⟨.hbm, 72, rfl⟩
abbrev main_cst_7 : Ref sig .tc := ⟨.hbm, 73, rfl⟩
abbrev main_v48 : Ref sig .tc := ⟨.hbm, 74, rfl⟩
abbrev main_v49 : Ref sig .tc := ⟨.hbm, 75, rfl⟩
abbrev main_cst_8 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_9 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_10 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg2_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16
abbrev cc1_sem7_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem3_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem2_1 : DmaSem sig := 38

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16384x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S16384x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S16384x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S16384x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S2x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4096x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S2x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨2, ![8, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x4096x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S1x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1x1x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![8, 4], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage4_0 : Fin 2 → Memref sig .tc .vmem S1x4096x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x1x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x1088x4096 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

class Facts₀ : Prop where
  shapeCasts_S8x16384x3_S131072x3 : S8x16384x3.ShapeCasts S131072x3
  transposes_S64x3_S3x64_1_0 : S64x3.Transposes [1, 0] S3x64
  shapeCasts_S64_S1x64 : S64.ShapeCasts S1x64
  transposes_S128x64_S64x128_1_0 : S128x64.Transposes [1, 0] S64x128
  shapeCasts_S128_S1x128 : S128.ShapeCasts S1x128
  transposes_S1024x128_S128x1024_1_0 : S1024x128.Transposes [1, 0] S128x1024
  shapeCasts_S1024_S1x1024 : S1024.ShapeCasts S1x1024
  inb_S2x64_S2x64_0_0 : ∀ a, (![0, 0] : Fin 2 → Nat) a + S2x64.size a ≤ S2x64.size a
  h_S2x64 : 0 < S2x64.numel
  inb_S16384x3_S16384x3_0_0 : ∀ a, (![0, 0] : Fin 2 → Nat) a + S16384x3.size a ≤ S16384x3.size a
  h_S16384x3 : 0 < S16384x3.numel
  shapeCasts_S16384x3_S16384x3 : S16384x3.ShapeCasts S16384x3
  bitsLt_bf16_f32 : FTy.bits .bf16 < FTy.bits .f32
  inb_S3x64_S3x64_0_0 : ∀ a, (![0, 0] : Fin 2 → Nat) a + S3x64.size a ≤ S3x64.size a
  h_S3x64 : 0 < S3x64.numel
  shapeCasts_S3x64_S3x64 : S3x64.ShapeCasts S3x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16384x64 : S1x64.Broadcasts S16384x64
  inb_S16384x64_S16384x64_0_0 : ∀ a, (![0, 0] : Fin 2 → Nat) a + S16384x64.size a ≤ S16384x64.size a
  h_S16384x64 : 0 < S16384x64.numel
  reduces_S16384x64_S64 : S16384x64.Reduces [0] S64
  shapeCasts_S2x64_S2x64 : S2x64.ShapeCasts S2x64
  concatenates_S1x64_S1x64_S2x64_d0 : Shape.Concatenates [S1x64, S1x64] S2x64 0
  slices_S2x64_S1x64_0_0 : S2x64.Slices ![0, 0] S1x64
  slices_S2x64_S1x64_1_0 : S2x64.Slices ![1, 0] S1x64
  bcast_S_S1x64 : S_.BroadcastsInDim S1x64 (![] : Fin 0 → Fin S1x64.rank)
  inb_S2x128_S2x128_0_0 : ∀ a, (![0, 0] : Fin 2 → Nat) a + S2x128.size a ≤ S2x128.size a
  h_S2x128 : 0 < S2x128.numel
  shapeCasts_S16384x64_S16384x64 : S16384x64.ShapeCasts S16384x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16384x128 : S1x128.Broadcasts S16384x128
  inb_S16384x128_S16384x128_0_0 : ∀ a, (![0, 0] : Fin 2 → Nat) a + S16384x128.size a ≤ S16384x128.size a
  h_S16384x128 : 0 < S16384x128.numel
  reduces_S16384x128_S128 : S16384x128.Reduces [0] S128
  shapeCasts_S2x128_S2x128 : S2x128.ShapeCasts S2x128
  concatenates_S1x128_S1x128_S2x128_d0 : Shape.Concatenates [S1x128, S1x128] S2x128 0
  slices_S2x128_S1x128_0_0 : S2x128.Slices ![0, 0] S1x128
  slices_S2x128_S1x128_1_0 : S2x128.Slices ![1, 0] S1x128
  bcast_S_S1x128 : S_.BroadcastsInDim S1x128 (![] : Fin 0 → Fin S1x128.rank)
  inb_S2x1024_S2x1024_0_0 : ∀ a, (![0, 0] : Fin 2 → Nat) a + S2x1024.size a ≤ S2x1024.size a
  h_S2x1024 : 0 < S2x1024.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  broadcasts_S1x128_S4096x128 : S1x128.Broadcasts S4096x128
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S4096x1024 : S1x1024.Broadcasts S4096x1024
  inb_S4096x1024_S4096x1024_0_0 : ∀ a, (![0, 0] : Fin 2 → Nat) a + S4096x1024.size a ≤ S4096x1024.size a
  h_S4096x1024 : 0 < S4096x1024.numel
  reduces_S4096x1024_S1024 : S4096x1024.Reduces [0] S1024
  shapeCasts_S2x1024_S2x1024 : S2x1024.ShapeCasts S2x1024
  concatenates_S1x1024_S1x1024_S2x1024_d0 : Shape.Concatenates [S1x1024, S1x1024] S2x1024 0
  slices_S2x1024_S1x1024_0_0 : S2x1024.Slices ![0, 0] S1x1024
  slices_S2x1024_S1x1024_1_0 : S2x1024.Slices ![1, 0] S1x1024
  bcast_S_S1x1024 : S_.BroadcastsInDim S1x1024 (![] : Fin 0 → Fin S1x1024.rank)
  shapeCasts_S131072x1024_S8x16384x1024 : S131072x1024.ShapeCasts S8x16384x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S1x4096x1024_S1x4096x1024_0_0_0 : ∀ a, (![0, 0, 0] : Fin 3 → Nat) a + S1x4096x1024.size a ≤ S1x4096x1024.size a
  h_S1x4096x1024 : 0 < S1x4096x1024.numel
  shapeCasts_S1x4096x1024_S4096x1024 : S1x4096x1024.ShapeCasts S4096x1024
  shapeCasts_S131072x64_S8x16384x64 : S131072x64.ShapeCasts S8x16384x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  transposes_S4096x64_p1_0_S64x4096 : S4096x64.Transposes [1, 0] S64x4096
  transposes_S1x1024_p1_0_S1024x1 : S1x1024.Transposes [1, 0] S1024x1
  shapeCasts_S1024x1_S1024x1 : S1024x1.ShapeCasts S1024x1
  broadcasts_S1024x1_S1024x4096 : S1024x1.Broadcasts S1024x4096
  concatenates_S1024x4096_S64x4096_S1088x4096_d0 : Shape.Concatenates [S1024x4096, S64x4096] S1088x4096 0
  inb_S1x1088x4096_S1x1088x4096_0_0_0 : ∀ a, (![0, 0, 0] : Fin 3 → Nat) a + S1x1088x4096.size a ≤ S1x1088x4096.size a
  h_S1x1088x4096 : 0 < S1x1088x4096.numel
  shapeCasts_S1x1088x4096_S1088x4096 : S1x1088x4096.ShapeCasts S1088x4096
  shapeCasts_S1088x4096_S1x1088x4096 : S1088x4096.ShapeCasts S1x1088x4096
  dot_S16384x3_S3x64_S16384x64_1_0_0_1_n_n_wf : DotDims.WF S16384x3 S3x64 S16384x64 [1] [0] [0] [1] [] []
  dot_S16384x64_S64x128_S16384x128_1_0_0_1_n_n_wf : DotDims.WF S16384x64 S64x128 S16384x128 [1] [0] [0] [1] [] []
  dot_S4096x128_S128x1024_S4096x1024_1_0_0_1_n_n_wf : DotDims.WF S4096x128 S128x1024 S4096x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x3.size a ≤ S131072x3.size a
  hwx0_0 : ∀ i : grid0.Coords, EltTy.bits .f32 = 32 ∨ (Rect.block (s := S131072x3) S16384x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64.size a ≤ S3x64.size a
  hwx0_1 : ∀ i : grid0.Coords, EltTy.bits .f32 = 32 ∨ (Rect.block (s := S3x64) S3x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16384x64.size a ≤ S131072x64.size a
  hwx0_3 : ∀ i : grid0.Coords, EltTy.bits .f32 = 32 ∨ (Rect.block (s := S131072x64) S16384x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x64.size a ≤ S2x64.size a
  hwx0_4 : ∀ i : grid0.Coords, EltTy.bits .f32 = 32 ∨ (Rect.block (s := S2x64) S2x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16384x64.size a ≤ S131072x64.size a
  hwx1_0 : ∀ i : grid1.Coords, EltTy.bits .f32 = 32 ∨ (Rect.block (s := S131072x64) S16384x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S16384x64.size a ≤ S131072x64.size a
  hwx1_5 : ∀ i : grid1.Coords, EltTy.bits .f32 = 32 ∨ (Rect.block (s := S131072x64) S16384x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S16384x128.size a ≤ S131072x128.size a
  hwx1_6 : ∀ i : grid1.Coords, EltTy.bits .f32 = 32 ∨ (Rect.block (s := S131072x128) S16384x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S2x128.size a ≤ S2x128.size a
  hwx1_7 : ∀ i : grid1.Coords, EltTy.bits .f32 = 32 ∨ (Rect.block (s := S2x128) S2x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S131072x128.size a
  hwx2_0 : ∀ i : grid2.Coords, EltTy.bits .f32 = 32 ∨ (Rect.block (s := S131072x128) S4096x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x1024.size a ≤ S128x1024.size a
  hwx2_3 : ∀ i : grid2.Coords, EltTy.bits .f32 = 32 ∨ (Rect.block (s := S128x1024) S128x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4096x1024.size a ≤ S131072x1024.size a
  hwx2_5 : ∀ i : grid2.Coords, EltTy.bits .f32 = 32 ∨ (Rect.block (s := S131072x1024) S4096x1024.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S2x1024.size a ≤ S2x1024.size a
  hwx2_6 : ∀ i : grid2.Coords, EltTy.bits .f32 = 32 ∨ (Rect.block (s := S2x1024) S2x1024.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x4096x1024.size a ≤ S8x16384x1024.size a
  hwx3_0 : ∀ i : grid3.Coords, EltTy.bits .f32 = 32 ∨ (Rect.block (s := S8x16384x1024) S1x4096x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x1024.size a ≤ S1x1024.size a
  hwx3_1 : ∀ i : grid3.Coords, EltTy.bits .f32 = 32 ∨ (Rect.block (s := S1x1024) S1x1024.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x1024.size a
  hwx3_2 : ∀ i : grid3.Coords, EltTy.bits .f32 = 32 ∨ (Rect.block (s := S1x1024) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1x1024.size a ≤ S8x1x1024.size a
  hwx3_3 : ∀ i : grid3.Coords, EltTy.bits .f32 = 32 ∨ (Rect.block (s := S8x1x1024) S1x1x1024.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x4096x64.size a ≤ S8x16384x64.size a
  hwx4_0 : ∀ i : grid4.Coords, EltTy.bits .f32 = 32 ∨ (Rect.block (s := S8x16384x64) S1x4096x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x1x1024.size a ≤ S8x1x1024.size a
  hwx4_1 : ∀ i : grid4.Coords, EltTy.bits .f32 = 32 ∨ (Rect.block (s := S8x1x1024) S1x1x1024.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x1088x4096.size a ≤ S8x1088x16384.size a
  hwx4_2 : ∀ i : grid4.Coords, EltTy.bits .f32 = 32 ∨ (Rect.block (s := S8x1088x16384) S1x1088x4096.size (cc4_transform_2 i) (hinb4_2 i)).WholeWords (EltTy.packing .f32)

variable [Facts₀]

def dot_S16384x3_S3x64_S16384x64_1_0_0_1_n_n : DotDims S16384x3 S3x64 S16384x64 where
  lhsContracting := [1]
  rhsContracting := [0]
  lhsNonContracting := [0]
  rhsNonContracting := [1]
  lhsBatch := []
  rhsBatch := []
  wf := dot_S16384x3_S3x64_S16384x64_1_0_0_1_n_n_wf
def dot_S16384x64_S64x128_S16384x128_1_0_0_1_n_n : DotDims S16384x64 S64x128 S16384x128 where
  lhsContracting := [1]
  rhsContracting := [0]
  lhsNonContracting := [0]
  rhsNonContracting := [1]
  lhsBatch := []
  rhsBatch := []
  wf := dot_S16384x64_S64x128_S16384x128_1_0_0_1_n_n_wf
def dot_S4096x128_S128x1024_S4096x1024_1_0_0_1_n_n : DotDims S4096x128 S128x1024 S4096x1024 where
  lhsContracting := [1]
  rhsContracting := [0]
  lhsNonContracting := [0]
  rhsNonContracting := [1]
  lhsBatch := []
  rhsBatch := []
  wf := dot_S4096x128_S128x1024_S4096x1024_1_0_0_1_n_n_wf

abbrev win0_0 : Pipeline.Window sig grid0 :=
  Pipeline.Window.ofSpec (Memref.whole main_v0) S16384x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S16384x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S2x64.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v7_0) S16384x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26_0) S16384x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v26_1) S16384x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v26_2) S2x128.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v26_1) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S128x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6) S1x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45_0) S4096x1024.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v45_1) S2x1024.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v64) S1x4096x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S1x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S1x1x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v66) S1x4096x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v65) S1x1x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v67) S1x1088x4096.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S8x16384x3 : Shape := ⟨3, ![8, 16384, 3]⟩
abbrev S64x3 : Shape := ⟨2, ![64, 3]⟩
abbrev S64 : Shape := ⟨1, ![64]⟩
abbrev S128x64 : Shape := ⟨2, ![128, 64]⟩
abbrev S128 : Shape := ⟨1, ![128]⟩
abbrev S1024x128 : Shape := ⟨2, ![1024, 128]⟩
abbrev S1024 : Shape := ⟨1, ![1024]⟩
abbrev S8x16384x64 : Shape := ⟨3, ![8, 16384, 64]⟩
abbrev S1x1x64 : Shape := ⟨3, ![1, 1, 64]⟩
abbrev S_ : Shape := ⟨0, ![]⟩
abbrev S8x16384x128 : Shape := ⟨3, ![8, 16384, 128]⟩
abbrev S1x1x128 : Shape := ⟨3, ![1, 1, 128]⟩
abbrev S8x16384x1024 : Shape := ⟨3, ![8, 16384, 1024]⟩
abbrev S1x1x1024 : Shape := ⟨3, ![1, 1, 1024]⟩
abbrev S8x1024 : Shape := ⟨2, ![8, 1024]⟩
abbrev S8x1024x1 : Shape := ⟨3, ![8, 1024, 1]⟩
abbrev S8x1024x16384 : Shape := ⟨3, ![8, 1024, 16384]⟩
abbrev S8x64x16384 : Shape := ⟨3, ![8, 64, 16384]⟩
abbrev S8x1088x16384 : Shape := ⟨3, ![8, 1088, 16384]⟩

abbrev nBuf : Space → Nat
  | .hbm => 169
  | .vmem => 0
  | .smem => 0
  | _ => 0

abbrev hbmTy0_0 (i : Nat) : BufTy := match i % 128 with
  | 0 => ⟨S8x16384x3, .f32⟩
  | 1 => ⟨S64x3, .f32⟩
  | 2 => ⟨S64, .f32⟩
  | 3 => ⟨S64, .f32⟩
  | 4 => ⟨S64, .f32⟩
  | 5 => ⟨S128x64, .f32⟩
  | 6 => ⟨S128, .f32⟩
  | 7 => ⟨S128, .f32⟩
  | 8 => ⟨S128, .f32⟩
  | 9 => ⟨S1024x128, .f32⟩
  | 10 => ⟨S1024, .f32⟩
  | 11 => ⟨S1024, .f32⟩
  | 12 => ⟨S1024, .f32⟩
  | 13 => ⟨S8x16384x64, .f32⟩
  | 14 => ⟨S1x1x64, .f32⟩
  | 15 => ⟨S8x16384x64, .f32⟩
  | 16 => ⟨S8x16384x64, .f32⟩
  | 17 => ⟨S_, .f32⟩
  | 18 => ⟨S64, .f32⟩
  | 19 => ⟨S_, .f32⟩
  | 20 => ⟨S64, .f32⟩
  | 21 => ⟨S64, .f32⟩
  | 22 => ⟨S_, .i32⟩
  | 23 => ⟨S_, .f32⟩
  | 24 => ⟨S64, .f32⟩
  | 25 => ⟨S1x1x64, .f32⟩
  | 26 => ⟨S_, .f32⟩
  | 27 => ⟨S1x1x64, .f32⟩
  | 28 => ⟨S1x1x64, .f32⟩
  | 29 => ⟨S8x16384x64, .f32⟩
  | 30 => ⟨S8x16384x64, .f32⟩
  | 31 => ⟨S8x16384x64, .f32⟩
  | 32 => ⟨S_, .f32⟩
  | 33 => ⟨S_, .f32⟩
  | 34 => ⟨S_, .f32⟩
  | 35 => ⟨S_, .f32⟩
  | 36 => ⟨S64, .f32⟩
  | 37 => ⟨S64, .f32⟩
  | 38 => ⟨S64, .f32⟩
  | 39 => ⟨S_, .f32⟩
  | 40 => ⟨S_, .i1⟩
  | 41 => ⟨S_, .f32⟩
  | 42 => ⟨S_, .f32⟩
  | 43 => ⟨S64, .f32⟩
  | 44 => ⟨S64, .f32⟩
  | 45 => ⟨S1x1x64, .f32⟩
  | 46 => ⟨S8x16384x64, .f32⟩
  | 47 => ⟨S8x16384x64, .f32⟩
  | 48 => ⟨S_, .f32⟩
  | 49 => ⟨S64, .f32⟩
  | 50 => ⟨S64, .f32⟩
  | 51 => ⟨S64, .f32⟩
  | 52 => ⟨S1x1x64, .f32⟩
  | 53 => ⟨S8x16384x64, .f32⟩
  | 54 => ⟨S8x16384x64, .f32⟩
  | 55 => ⟨S1x1x64, .f32⟩
  | 56 => ⟨S8x16384x64, .f32⟩
  | 57 => ⟨S8x16384x64, .f32⟩
  | 58 => ⟨S1x1x64, .f32⟩
  | 59 => ⟨S8x16384x64, .f32⟩
  | 60 => ⟨S8x16384x64, .f32⟩
  | 61 => ⟨S_, .f32⟩
  | 62 => ⟨S8x16384x64, .f32⟩
  | 63 => ⟨S8x16384x64, .f32⟩
  | 64 => ⟨S8x16384x128, .f32⟩
  | 65 => ⟨S1x1x128, .f32⟩
  | 66 => ⟨S8x16384x128, .f32⟩
  | 67 => ⟨S8x16384x128, .f32⟩
  | 68 => ⟨S_, .f32⟩
  | 69 => ⟨S128, .f32⟩
  | 70 => ⟨S_, .f32⟩
  | 71 => ⟨S128, .f32⟩
  | 72 => ⟨S128, .f32⟩
  | 73 => ⟨S_, .i32⟩
  | 74 => ⟨S_, .f32⟩
  | 75 => ⟨S128, .f32⟩
  | 76 => ⟨S1x1x128, .f32⟩
  | 77 => ⟨S_, .f32⟩
  | 78 => ⟨S1x1x128, .f32⟩
  | 79 => ⟨S1x1x128, .f32⟩
  | 80 => ⟨S8x16384x128, .f32⟩
  | 81 => ⟨S8x16384x128, .f32⟩
  | 82 => ⟨S8x16384x128, .f32⟩
  | 83 => ⟨S_, .f32⟩
  | 84 => ⟨S_, .f32⟩
  | 85 => ⟨S_, .f32⟩
  | 86 => ⟨S_, .f32⟩
  | 87 => ⟨S128, .f32⟩
  | 88 => ⟨S128, .f32⟩
  | 89 => ⟨S128, .f32⟩
  | 90 => ⟨S_, .f32⟩
  | 91 => ⟨S_, .i1⟩
  | 92 => ⟨S_, .f32⟩
  | 93 => ⟨S_, .f32⟩
  | 94 => ⟨S128, .f32⟩
  | 95 => ⟨S128, .f32⟩
  | 96 => ⟨S1x1x128, .f32⟩
  | 97 => ⟨S8x16384x128, .f32⟩
  | 98 => ⟨S8x16384x128, .f32⟩
  | 99 => ⟨S_, .f32⟩
  | 100 => ⟨S128, .f32⟩
  | 101 => ⟨S128, .f32⟩
  | 102 => ⟨S128, .f32⟩
  | 103 => ⟨S1x1x128, .f32⟩
  | 104 => ⟨S8x16384x128, .f32⟩
  | 105 => ⟨S8x16384x128, .f32⟩
  | 106 => ⟨S1x1x128, .f32⟩
  | 107 => ⟨S8x16384x128, .f32⟩
  | 108 => ⟨S8x16384x128, .f32⟩
  | 109 => ⟨S1x1x128, .f32⟩
  | 110 => ⟨S8x16384x128, .f32⟩
  | 111 => ⟨S8x16384x128, .f32⟩
  | 112 => ⟨S_, .f32⟩
  | 113 => ⟨S8x16384x128, .f32⟩
  | 114 => ⟨S8x16384x128, .f32⟩
  | 115 => ⟨S8x16384x1024, .f32⟩
  | 116 => ⟨S1x1x1024, .f32⟩
  | 117 => ⟨S8x16384x1024, .f32⟩
  | 118 => ⟨S8x16384x1024, .f32⟩
  | 119 => ⟨S_, .f32⟩
  | 120 => ⟨S1024, .f32⟩
  | 121 => ⟨S_, .f32⟩
  | 122 => ⟨S1024, .f32⟩
  | 123 => ⟨S1024, .f32⟩
  | 124 => ⟨S_, .i32⟩
  | 125 => ⟨S_, .f32⟩
  | 126 => ⟨S1024, .f32⟩
  | 127 => ⟨S1x1x1024, .f32⟩
  | _ => ⟨S8x16384x3, .f32⟩

abbrev hbmTy0_1 (i : Nat) : BufTy := match i % 128 with
  | 0 => ⟨S_, .f32⟩
  | 1 => ⟨S1x1x1024, .f32⟩
  | 2 => ⟨S1x1x1024, .f32⟩
  | 3 => ⟨S8x16384x1024, .f32⟩
  | 4 => ⟨S8x16384x1024, .f32⟩
  | 5 => ⟨S8x16384x1024, .f32⟩
  | 6 => ⟨S_, .f32⟩
  | 7 => ⟨S_, .f32⟩
  | 8 => ⟨S_, .f32⟩
  | 9 => ⟨S_, .f32⟩
  | 10 => ⟨S1024, .f32⟩
  | 11 => ⟨S1024, .f32⟩
  | 12 => ⟨S1024, .f32⟩
  | 13 => ⟨S_, .f32⟩
  | 14 => ⟨S_, .i1⟩
  | 15 => ⟨S_, .f32⟩
  | 16 => ⟨S_, .f32⟩
  | 17 => ⟨S1024, .f32⟩
  | 18 => ⟨S1024, .f32⟩
  | 19 => ⟨S1x1x1024, .f32⟩
  | 20 => ⟨S8x16384x1024, .f32⟩
  | 21 => ⟨S8x16384x1024, .f32⟩
  | 22 => ⟨S_, .f32⟩
  | 23 => ⟨S1024, .f32⟩
  | 24 => ⟨S1024, .f32⟩
  | 25 => ⟨S1024, .f32⟩
  | 26 => ⟨S1x1x1024, .f32⟩
  | 27 => ⟨S8x16384x1024, .f32⟩
  | 28 => ⟨S8x16384x1024, .f32⟩
  | 29 => ⟨S1x1x1024, .f32⟩
  | 30 => ⟨S8x16384x1024, .f32⟩
  | 31 => ⟨S8x16384x1024, .f32⟩
  | 32 => ⟨S1x1x1024, .f32⟩
  | 33 => ⟨S8x16384x1024, .f32⟩
  | 34 => ⟨S8x16384x1024, .f32⟩
  | 35 => ⟨S_, .f32⟩
  | 36 => ⟨S8x1024, .f32⟩
  | 37 => ⟨S8x1024x1, .f32⟩
  | 38 => ⟨S8x1024x16384, .f32⟩
  | 39 => ⟨S8x64x16384, .f32⟩
  | 40 => ⟨S8x1088x16384, .f32⟩
  | _ => ⟨S8x16384x3, .f32⟩

abbrev hbmTy (i : Nat) : BufTy := match i / 128 with
  | 0 => hbmTy0_0 i
  | 1 => hbmTy0_1 i
  | _ => ⟨S8x16384x3, .f32⟩

abbrev bufTy : (tb : Table) → Fin (tcTables nBuf tb) → BufTy
  | .hbm, ⟨i, _⟩ => hbmTy i
  | _, _ => ⟨S8x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_cst_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_cst_1 : Ref sig .tc := ⟨.hbm, 33, rfl⟩
abbrev main_call0_v8 : Ref sig .tc := ⟨.hbm, 34, rfl⟩
abbrev main_call0_cst_2 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_cst_3 : Ref sig .tc := ⟨.hbm, 39, rfl⟩
abbrev main_call0_v12 : Ref sig .tc := ⟨.hbm, 40, rfl⟩
abbrev main_call0_cst_4 : Ref sig .tc := ⟨.hbm, 41, rfl⟩
abbrev main_call0_call0_v0 : Ref sig .tc := ⟨.hbm, 42, rfl⟩
abbrev main_call0_call0_v1 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_cst_1 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_call1_cst : Ref sig .tc := ⟨.hbm, 61, rfl⟩
abbrev main_call1_v0 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_cst_2 : Ref sig .tc := ⟨.hbm, 68, rfl⟩
abbrev main_v28 : Ref sig .tc := ⟨.hbm, 69, rfl⟩
abbrev main_cst_3 : Ref sig .tc := ⟨.hbm, 70, rfl⟩
abbrev main_v29 : Ref sig .tc := ⟨.hbm, 71, rfl⟩
abbrev main_v30 : Ref sig .tc := ⟨.hbm, 72, rfl⟩
abbrev main_c_4 : Ref sig .tc := ⟨.hbm, 73, rfl⟩
abbrev main_call2_cst : Ref sig .tc := ⟨.hbm, 74, rfl⟩
abbrev main_call2_v0 : Ref sig .tc := ⟨.hbm, 75, rfl⟩
abbrev main_call2_v1 : Ref sig .tc := ⟨.hbm, 76, rfl⟩
abbrev main_call2_cst_0 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_v6 : Ref sig .tc := ⟨.hbm, 82, rfl⟩
abbrev main_call2_v7 : Ref sig .tc := ⟨.hbm, 83, rfl⟩
abbrev main_call2_cst_1 : Ref sig .tc := ⟨.hbm, 84, rfl⟩
abbrev main_call2_v8 : Ref sig .tc := ⟨.hbm, 85, rfl⟩
abbrev main_call2_cst_2 : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_cst_3 : Ref sig .tc := ⟨.hbm, 90, rfl⟩
abbrev main_call2_v12 : Ref sig .tc := ⟨.hbm, 91, rfl⟩
abbrev main_call2_cst_4 : Ref sig .tc := ⟨.hbm, 92, rfl⟩
abbrev main_call2_call0_v0 : Ref sig .tc := ⟨.hbm, 93, rfl⟩
abbrev main_call2_call0_v1 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_cst_5 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_call3_cst : Ref sig .tc := ⟨.hbm, 112, rfl⟩
abbrev main_call3_v0 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_cst_6 : Ref sig .tc := ⟨.hbm, 119, rfl⟩
abbrev main_v52 : Ref sig .tc := ⟨.hbm, 120, rfl⟩
abbrev main_cst_7 : Ref sig .tc := ⟨.hbm, 121, rfl⟩
abbrev main_v53 : Ref sig .tc := ⟨.hbm, 122, rfl⟩
abbrev main_v54 : Ref sig .tc := ⟨.hbm, 123, rfl⟩
abbrev main_c_8 : Ref sig .tc := ⟨.hbm, 124, rfl⟩
abbrev main_call4_cst : Ref sig .tc := ⟨.hbm, 125, rfl⟩
abbrev main_call4_v0 : Ref sig .tc := ⟨.hbm, 126, rfl⟩
abbrev main_call4_v1 : Ref sig .tc := ⟨.hbm, 127, rfl⟩
abbrev main_call4_cst_0 : Ref sig .tc := ⟨.hbm, 128, rfl⟩
abbrev main_call4_v2 : Ref sig .tc := ⟨.hbm, 129, rfl⟩
abbrev main_call4_v3 : Ref sig .tc := ⟨.hbm, 130, rfl⟩
abbrev main_call4_v4 : Ref sig .tc := ⟨.hbm, 131, rfl⟩
abbrev main_call4_v5 : Ref sig .tc := ⟨.hbm, 132, rfl⟩
abbrev main_call4_v6 : Ref sig .tc := ⟨.hbm, 133, rfl⟩
abbrev main_call4_v7 : Ref sig .tc := ⟨.hbm, 134, rfl⟩
abbrev main_call4_cst_1 : Ref sig .tc := ⟨.hbm, 135, rfl⟩
abbrev main_call4_v8 : Ref sig .tc := ⟨.hbm, 136, rfl⟩
abbrev main_call4_cst_2 : Ref sig .tc := ⟨.hbm, 137, rfl⟩
abbrev main_call4_v9 : Ref sig .tc := ⟨.hbm, 138, rfl⟩
abbrev main_call4_v10 : Ref sig .tc := ⟨.hbm, 139, rfl⟩
abbrev main_call4_v11 : Ref sig .tc := ⟨.hbm, 140, rfl⟩
abbrev main_call4_cst_3 : Ref sig .tc := ⟨.hbm, 141, rfl⟩
abbrev main_call4_v12 : Ref sig .tc := ⟨.hbm, 142, rfl⟩
abbrev main_call4_cst_4 : Ref sig .tc := ⟨.hbm, 143, rfl⟩
abbrev main_call4_call0_v0 : Ref sig .tc := ⟨.hbm, 144, rfl⟩
abbrev main_call4_call0_v1 : Ref sig .tc := ⟨.hbm, 145, rfl⟩
abbrev main_v55 : Ref sig .tc := ⟨.hbm, 146, rfl⟩
abbrev main_v56 : Ref sig .tc := ⟨.hbm, 147, rfl⟩
abbrev main_v57 : Ref sig .tc := ⟨.hbm, 148, rfl⟩
abbrev main_v58 : Ref sig .tc := ⟨.hbm, 149, rfl⟩
abbrev main_cst_9 : Ref sig .tc := ⟨.hbm, 150, rfl⟩
abbrev main_v59 : Ref sig .tc := ⟨.hbm, 151, rfl⟩
abbrev main_v60 : Ref sig .tc := ⟨.hbm, 152, rfl⟩
abbrev main_v61 : Ref sig .tc := ⟨.hbm, 153, rfl⟩
abbrev main_v62 : Ref sig .tc := ⟨.hbm, 154, rfl⟩
abbrev main_v63 : Ref sig .tc := ⟨.hbm, 155, rfl⟩
abbrev main_v64 : Ref sig .tc := ⟨.hbm, 156, rfl⟩
abbrev main_v65 : Ref sig .tc := ⟨.hbm, 157, rfl⟩
abbrev main_v66 : Ref sig .tc := ⟨.hbm, 158, rfl⟩
abbrev main_v67 : Ref sig .tc := ⟨.hbm, 159, rfl⟩
abbrev main_v68 : Ref sig .tc := ⟨.hbm, 160, rfl⟩
abbrev main_v69 : Ref sig .tc := ⟨.hbm, 161, rfl⟩
abbrev main_v70 : Ref sig .tc := ⟨.hbm, 162, rfl⟩
abbrev main_cst_10 : Ref sig .tc := ⟨.hbm, 163, rfl⟩
abbrev main_v71 : Ref sig .tc := ⟨.hbm, 164, rfl⟩
abbrev main_v72 : Ref sig .tc := ⟨.hbm, 165, rfl⟩
abbrev main_v73 : Ref sig .tc := ⟨.hbm, 166, rfl⟩
abbrev main_v74 : Ref sig .tc := ⟨.hbm, 167, rfl⟩
abbrev main_v75 : Ref sig .tc := ⟨.hbm, 168, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S8x16384x64_0_1_2 : S1x1x64.BroadcastsInDim S8x16384x64 (![0, 1, 2] : Fin 3 → Fin S8x16384x64.rank)
  reducesTo_S8x16384x64_S64_d0_1 : S8x16384x64.ReducesTo [0, 1] S64
  h_S_ : 0 < S_.numel
  bcast_S_S64 : S_.BroadcastsInDim S64 (![] : Fin 0 → Fin S64.rank)
  bcast_S_S1x1x64 : S_.BroadcastsInDim S1x1x64 (![] : Fin 0 → Fin S1x1x64.rank)
  bcast_S_S8x16384x64 : S_.BroadcastsInDim S8x16384x64 (![] : Fin 0 → Fin S8x16384x64.rank)
  bcast_S128_S1x1x128_2 : S128.BroadcastsInDim S1x1x128 (![2] : Fin 1 → Fin S1x1x128.rank)
  bcast_S1x1x128_S8x16384x128_0_1_2 : S1x1x128.BroadcastsInDim S8x16384x128 (![0, 1, 2] : Fin 3 → Fin S8x16384x128.rank)
  reducesTo_S8x16384x128_S128_d0_1 : S8x16384x128.ReducesTo [0, 1] S128
  bcast_S_S128 : S_.BroadcastsInDim S128 (![] : Fin 0 → Fin S128.rank)
  bcast_S_S1x1x128 : S_.BroadcastsInDim S1x1x128 (![] : Fin 0 → Fin S1x1x128.rank)
  bcast_S_S8x16384x128 : S_.BroadcastsInDim S8x16384x128 (![] : Fin 0 → Fin S8x16384x128.rank)
  bcast_S1024_S1x1x1024_2 : S1024.BroadcastsInDim S1x1x1024 (![2] : Fin 1 → Fin S1x1x1024.rank)
  bcast_S1x1x1024_S8x16384x1024_0_1_2 : S1x1x1024.BroadcastsInDim S8x16384x1024 (![0, 1, 2] : Fin 3 → Fin S8x16384x1024.rank)
  reducesTo_S8x16384x1024_S1024_d0_1 : S8x16384x1024.ReducesTo [0, 1] S1024
  bcast_S_S1024 : S_.BroadcastsInDim S1024 (![] : Fin 0 → Fin S1024.rank)
  bcast_S_S1x1x1024 : S_.BroadcastsInDim S1x1x1024 (![] : Fin 0 → Fin S1x1x1024.rank)
  reducesTo_S8x16384x1024_S8x1024_d1 : S8x16384x1024.ReducesTo [1] S8x1024
  bcast_S8x1024_S8x1024x1_0_1 : S8x1024.BroadcastsInDim S8x1024x1 (![0, 1] : Fin 2 → Fin S8x1024x1.rank)
  bcast_S8x1024x1_S8x1024x16384_0_1_2 : S8x1024x1.BroadcastsInDim S8x1024x16384 (![0, 1, 2] : Fin 3 → Fin S8x1024x16384.rank)
  transposes_S8x16384x64_S8x64x16384_0_2_1 : S8x16384x64.Transposes [0, 2, 1] S8x64x16384
  concatenates_S8x1024x16384_S8x64x16384_S8x1088x16384_d1 : Shape.Concatenates [S8x1024x16384, S8x64x16384] S8x1088x16384 1
  dot_S8x16384x3_S64x3_S8x16384x64_2_1_01_0_n_n_wf : DotDims.WF S8x16384x3 S64x3 S8x16384x64 [2] [1] [0, 1] [0] [] []
  dot_S8x16384x64_S128x64_S8x16384x128_2_1_01_0_n_n_wf : DotDims.WF S8x16384x64 S128x64 S8x16384x128 [2] [1] [0, 1] [0] [] []
  dot_S8x16384x128_S1024x128_S8x16384x1024_2_1_01_0_n_n_wf : DotDims.WF S8x16384x128 S1024x128 S8x16384x1024 [2] [1] [0, 1] [0] [] []

variable [Facts₀]

def dot_S8x16384x3_S64x3_S8x16384x64_2_1_01_0_n_n : DotDims S8x16384x3 S64x3 S8x16384x64 where
  lhsContracting := [2]
  rhsContracting := [1]
  lhsNonContracting := [0, 1]
  rhsNonContracting := [0]
  lhsBatch := []
  rhsBatch := []
  wf := dot_S8x16384x3_S64x3_S8x16384x64_2_1_01_0_n_n_wf
def dot_S8x16384x64_S128x64_S8x16384x128_2_1_01_0_n_n : DotDims S8x16384x64 S128x64 S8x16384x128 where
  lhsContracting := [2]
  rhsContracting := [1]
  lhsNonContracting := [0, 1]
  rhsNonContracting := [0]
  lhsBatch := []
  rhsBatch := []
  wf := dot_S8x16384x64_S128x64_S8x16384x128_2_1_01_0_n_n_wf
def dot_S8x16384x128_S1024x128_S8x16384x1024_2_1_01_0_n_n : DotDims S8x16384x128 S1024x128 S8x16384x1024 where
  lhsContracting := [2]
  rhsContracting := [1]
  lhsNonContracting := [0, 1]
  rhsNonContracting := [0]
  lhsBatch := []
  rhsBatch := []
  wf := dot_S8x16384x128_S1024x128_S8x16384x1024_2_1_01_0_n_n_wf

class Facts : Prop extends Facts₀ where

variable [Facts]
-- ==== Proof.KernelRun.lean ====
/-
  The kernel program's run with its result named.

  @main is ten segments: five stretches of host operations and five pipelined regions in turn.  The buffer contents at
  each boundary are a fold from the launch memory: a stretch applies its operations, a region leaves its arrays at what its
  write-backs leave and every other buffer as it was.  Every weakly fair execution terminates without a fault in a state
  whose unscoped buffers hold the last boundary's contents; read at the result buffer that is the result array, read at
  the thirteen arguments it is the launch contents.
-/
import proofs.«128329_j6322191859819_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v67) = W10 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v67 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c)⟩)

end Cert.KernelIdeal.KRun

end
-- ==== Proof.Net.lean ====
/-
  The network both programs compute, as plain functions on the extended reals.

  A point is a pair (b, n) of a batch index and a position, 8 × 16384 = 131072 points in all; an activation
  assigns an extended real to every point and channel.  One layer is a per-point linear map (a sum over the input
  channels of products with a weight row, plus a bias) followed by a batch normalisation whose statistics run over
  ALL points.  The normalisation is written here in its two textbook forms:

    * the centred form      (h - m) · rsqrt (v + ε) · γ + β        with  v = mean of (h - m)²,
    * the moment form       h · s + (β - m · s),  s = γ · rsqrt (max (mean of h² - m²) 0 + ε).

  Over the reals the two agree: mean of h² - m² IS the mean of (h - m)², which is nonnegative, so the clamp at zero does
  nothing, and the two affine expressions are one polynomial identity.  On the extended reals the same holds as soon as
  every activation is finite.  The output stacks, per batch index, 1024 rows holding the maximum over all positions of
  the third layer's normalised activation (constant along the position axis) on top of the 64 channels of the first
  layer's rectified activation, transposed to channel-major.
-/
import Idealize.ShloMosaic.PureOps.Ideal
import Idealize.ShloMosaic.Lib.ValueIdx

noncomputable section

namespace Cert.Net

open Idealize.ShloMosaic
open scoped BigOperators

/-- The number of points, as the float literal both programs divide by (131072, a power of two). -/
abbrev nPts : EReal := Ideal.ofBits .f32 0x48000000#32
/-- The normalisation's ε, as the float literal both programs add to the variance. -/
abbrev eps : EReal := Ideal.ofBits .f32 0x3727C5AC#32

/-- An activation: an extended real per batch index, position and channel. -/
abbrev Act (C : Nat) := Fin 8 → Fin 16384 → Fin C → EReal

/-- The sum over all points. -/
def tot (f : Fin 8 → Fin 16384 → EReal) : EReal := ∑ b : Fin 8, ∑ n : Fin 16384, f b n

/-- The per-point linear map: at output channel `o`, the sum over the input channels of the activation times the
    weight row `W o`, plus the bias. -/
def lin {Ci Co : Nat} (x : Act Ci) (W : Fin Co → Fin Ci → EReal) (bias : Fin Co → EReal) : Act Co :=
  fun b n o => (∑ c : Fin Ci, x b n c * W o c) + bias o

/-- A channel's mean over all points. -/
def mean {C : Nat} (h : Act C) (o : Fin C) : EReal := Ideal.div (tot fun b n => h b n o) nPts

/-- A channel's variance as the mean of the squared deviations from the mean (the centred form). -/
def varC {C : Nat} (h : Act C) (o : Fin C) : EReal :=
  Ideal.div (tot fun b n => (h b n o - mean h o) * (h b n o - mean h o)) nPts

/-- Batch normalisation, centred form. -/
def bnC {C : Nat} (h : Act C) (g be : Fin C → EReal) : Act C :=
  fun b n o => (h b n o - mean h o) * Ideal.rsqrt (varC h o + eps) * g o + be o

/-- A channel's variance from the second moment, clamped at zero (the moment form). -/
def varM {C : Nat} (h : Act C) (o : Fin C) : EReal :=
  max (Ideal.div (tot fun b n => h b n o * h b n o) nPts - mean h o * mean h o) 0

/-- The moment form's scale: γ · rsqrt (variance + ε). -/
def scaleM {C : Nat} (h : Act C) (g : Fin C → EReal) (o : Fin C) : EReal := g o * Ideal.rsqrt (varM h o + eps)

/-- The moment form's shift: β - mean · scale. -/
def shiftM {C : Nat} (h : Act C) (g be : Fin C → EReal) (o : Fin C) : EReal := be o - mean h o * scaleM h g o

/-- Batch normalisation, moment form. -/
def bnM {C : Nat} (h : Act C) (g be : Fin C → EReal) : Act C :=
  fun b n o => h b n o * scaleM h g o + shiftM h g be o

/-- The rectifier. -/
def relu {C : Nat} (h : Act C) : Act C := fun b n o => max (h b n o) 0

/-- The stacked output from the third layer's normalised activation `a2` and the first layer's rectified activation
    `a0`: row `ch < 1024` holds the maximum of `a2` over all positions, row `1024 + k` holds channel `k` of `a0`. -/
def stack (a2 : Act 1024) (a0 : Act 64) : Fin 8 → Fin 1088 → Fin 16384 → EReal :=
  fun b ch n =>
    if h : ch.val < 1024 then (Finset.univ : Finset (Fin 16384)).sup (fun n' => a2 b n' ⟨ch.val, h⟩)
    else a0 b n ⟨ch.val - 1024, by have := ch.isLt; omega⟩

/-- The whole network with the centred normalisation in every layer. -/
def netC (x : Act 3) (W0 : Fin 64 → Fin 3 → EReal) (b0 g0 be0 : Fin 64 → EReal)
    (W1 : Fin 128 → Fin 64 → EReal) (b1 g1 be1 : Fin 128 → EReal)
    (W2 : Fin 1024 → Fin 128 → EReal) (b2 g2 be2 : Fin 1024 → EReal) : Fin 8 → Fin 1088 → Fin 16384 → EReal :=
  stack (bnC (lin (relu (bnC (lin (relu (bnC (lin x W0 b0) g0 be0)) W1 b1) g1 be1)) W2 b2) g2 be2)
    (relu (bnC (lin x W0 b0) g0 be0))

/-- The whole network with the moment-form normalisation in every layer. -/
def netM (x : Act 3) (W0 : Fin 64 → Fin 3 → EReal) (b0 g0 be0 : Fin 64 → EReal)
    (W1 : Fin 128 → Fin 64 → EReal) (b1 g1 be1 : Fin 128 → EReal)
    (W2 : Fin 1024 → Fin 128 → EReal) (b2 g2 be2 : Fin 1024 → EReal) : Fin 8 → Fin 1088 → Fin 16384 → EReal :=
  stack (bnM (lin (relu (bnM (lin (relu (bnM (lin x W0 b0) g0 be0)) W1 b1) g1 be1)) W2 b2) g2 be2)
    (relu (bnM (lin x W0 b0) g0 be0))

/-! ## Arrays and curried functions

An array of rank three is a function of an index with three coordinates; the network above is written over the
coordinates themselves. -/

open Idealize.ShloMosaic.ValueIdx in
/-- A rank-3 array read at its three coordinates. -/
def cur3 {a b c : Nat} (x : (⟨3, ![a, b, c]⟩ : Shape).Idx → EReal) : Fin a → Fin b → Fin c → EReal :=
  fun i j k => x (ix3 i j k)

open Idealize.ShloMosaic.ValueIdx in
/-- A rank-2 array read at its two coordinates. -/
def cur2 {a b : Nat} (x : (⟨2, ![a, b]⟩ : Shape).Idx → EReal) : Fin a → Fin b → EReal :=
  fun i j => x (ix2 i j)

open Idealize.ShloMosaic.ValueIdx in
/-- A rank-1 array read at its coordinate. -/
def cur1 {a : Nat} (x : (⟨1, ![a]⟩ : Shape).Idx → EReal) : Fin a → EReal :=
  fun i => x (ix1 i)

/-- A function of three coordinates as a rank-3 array. -/
def arr3 {a b c : Nat} (f : Fin a → Fin b → Fin c → EReal) : (⟨3, ![a, b, c]⟩ : Shape).Idx → EReal :=
  fun j => f (j 0) (j 1) (j 2)

/-- An extended real is finite when it is the image of a real number. -/
def Fin_ (x : EReal) : Prop := ∃ r : ℝ, x = (r : EReal)

end Cert.Net

end
-- ==== Proof.KRows.lean ====
/-
  The scale and shift rows of the moment-form normalisation, as the kernel program's host operations compute them.

  From a 2 × C block of statistics (row 0 the sum over all points of an activation, row 1 the sum of its square), a 1 × C
  row γ and a 1 × C row β, the host operations form: the mean row (row 0 divided by the number of points), the second
  moment row (row 1 divided likewise), their difference with the squared mean clamped below at zero, the scale
  γ · rsqrt (that + ε), and the shift β - mean · scale.  Read at channel o these are the scalar expressions of the
  moment form.
-/
import proofs.«128329_j6322191859819_2_alg».proof.Proof.Net
import Idealize.ShloMosaic.Lib.ValueIdx
import Idealize.ShloMosaic.Lib.ValueLayout
import Idealize.ShloMosaic.PureOps.Ideal.Laws

noncomputable section

namespace Cert.KRows

open Idealize.ShloMosaic Idealize.ShloMosaic.ValueIdx
open Cert.Net (nPts eps)

variable {C : ℕ}

/-- The moment-form scale at channel `o` from the two statistics and γ. -/
def scaleAt (s0 s1 g : EReal) : EReal :=
  g * Ideal.rsqrt (max (Ideal.div s1 nPts - Ideal.div s0 nPts * Ideal.div s0 nPts) 0 + eps)

/-- The moment-form shift at channel `o` from the two statistics, γ and β. -/
def shiftAt (s0 s1 g be : EReal) : EReal := be - Ideal.div s0 nPts * scaleAt s0 s1 g

/-- The scale row the host operations compute, read at channel `o`. -/
theorem scale_apply (st : (⟨2, ![2, C]⟩ : Shape).Idx → EReal) (g : (⟨2, ![1, C]⟩ : Shape).Idx → EReal)
    (h0 : (⟨2, ![2, C]⟩ : Shape).Slices ![0, 0] ⟨2, ![1, C]⟩) (h1 : (⟨2, ![2, C]⟩ : Shape).Slices ![1, 0] ⟨2, ![1, C]⟩)
    (hb : (⟨0, ![]⟩ : Shape).BroadcastsInDim ⟨2, ![1, C]⟩ ![]) (o : Fin C) :
    mulf (F := Ideal) (φ := .f32) g (Host.rsqrt (addf (maximumf (subf
        (Host.divf (extractStridedSlice ⟨2, ![1, C]⟩ ![1, 0] st h1) (broadcastInDim ⟨2, ![1, C]⟩ ![] hb (constant (F := Ideal) ⟨0, ![]⟩ .f32 0x48000000#32)))
        (mulf (Host.divf (extractStridedSlice ⟨2, ![1, C]⟩ ![0, 0] st h0) (broadcastInDim ⟨2, ![1, C]⟩ ![] hb (constant (F := Ideal) ⟨0, ![]⟩ .f32 0x48000000#32)))
              (Host.divf (extractStridedSlice ⟨2, ![1, C]⟩ ![0, 0] st h0) (broadcastInDim ⟨2, ![1, C]⟩ ![] hb (constant (F := Ideal) ⟨0, ![]⟩ .f32 0x48000000#32)))))
        (broadcastInDim ⟨2, ![1, C]⟩ ![] hb (constant (F := Ideal) ⟨0, ![]⟩ .f32 0x00000000#32)))
        (broadcastInDim ⟨2, ![1, C]⟩ ![] hb (constant (F := Ideal) ⟨0, ![]⟩ .f32 0x3727C5AC#32)))) (ix2 (0 : Fin 1) o)
      = scaleAt (st (ix2 (0 : Fin 2) o)) (st (ix2 (1 : Fin 2) o)) (g (ix2 (0 : Fin 1) o)) := by
  show g (ix2 (0 : Fin 1) o) * Ideal.rsqrt (max
      (Ideal.div (extractStridedSlice ⟨2, ![1, C]⟩ ![1, 0] st h1 (ix2 (0 : Fin 1) o)) (Ideal.ofBits .f32 0x48000000#32)
        - Ideal.div (extractStridedSlice ⟨2, ![1, C]⟩ ![0, 0] st h0 (ix2 (0 : Fin 1) o)) (Ideal.ofBits .f32 0x48000000#32)
          * Ideal.div (extractStridedSlice ⟨2, ![1, C]⟩ ![0, 0] st h0 (ix2 (0 : Fin 1) o)) (Ideal.ofBits .f32 0x48000000#32))
      (Ideal.ofBits .f32 0x00000000#32) + Ideal.ofBits .f32 0x3727C5AC#32) = _
  rw [slice2_axis0_apply 1 st h1 (0 : Fin 1) o (1 : Fin 2) rfl, slice2_axis0_apply 0 st h0 (0 : Fin 1) o (0 : Fin 2) rfl,
    Ideal.ofBits_zero_f32]
  rfl

/-- The shift row the host operations compute from the mean row and the scale row, read at channel `o`. -/
theorem shift_apply (st : (⟨2, ![2, C]⟩ : Shape).Idx → EReal) (be sc : (⟨2, ![1, C]⟩ : Shape).Idx → EReal)
    (h0 : (⟨2, ![2, C]⟩ : Shape).Slices ![0, 0] ⟨2, ![1, C]⟩)
    (hb : (⟨0, ![]⟩ : Shape).BroadcastsInDim ⟨2, ![1, C]⟩ ![]) (o : Fin C) :
    subf (F := Ideal) (φ := .f32) be (mulf
        (Host.divf (extractStridedSlice ⟨2, ![1, C]⟩ ![0, 0] st h0) (broadcastInDim ⟨2, ![1, C]⟩ ![] hb (constant (F := Ideal) ⟨0, ![]⟩ .f32 0x48000000#32)))
        sc) (ix2 (0 : Fin 1) o)
      = be (ix2 (0 : Fin 1) o) - Ideal.div (st (ix2 (0 : Fin 2) o)) nPts * sc (ix2 (0 : Fin 1) o) := by
  show be (ix2 (0 : Fin 1) o) - Ideal.div (extractStridedSlice ⟨2, ![1, C]⟩ ![0, 0] st h0 (ix2 (0 : Fin 1) o)) (Ideal.ofBits .f32 0x48000000#32)
      * sc (ix2 (0 : Fin 1) o) = _
  rw [slice2_axis0_apply 0 st h0 (0 : Fin 1) o (0 : Fin 2) rfl]

end Cert.KRows

end
-- ==== Proof.KHost.lean ====
/-
  The kernel program's host operations between its regions, read off the boundaries' contents.

  Between two regions the program runs a stretch of plain array operations.  A stretch writes only the buffers of its own
  results, and a region writes only its output arrays, so every other buffer is carried from boundary to boundary as it
  was: an argument down to the launch memory, an earlier stage's result down to the boundary where it was made.
-/
import proofs.«128329_j6322191859819_2_alg».proof.Proof.Gen.KernelIdeal.Frame
import Idealize.ShloMosaic.PureOps.Ideal
import Idealize.ShloMosaic.Lib.StableHlo.Run
import Idealize.ShloMosaic.Lib.Pipeline.Value
import Idealize.ShloMosaic.Lib.Tactic
import Idealize.ShloMosaic.Lib.ValueLayout
import proofs.«128329_j6322191859819_2_alg».proof.Proof.KRows

set_option maxRecDepth 16384

noncomputable section

open Idealize.ShloMosaic Idealize.ShloMosaic.TcCoe Idealize.SL.Sem Idealize.ShloMosaic.ValueIdx

namespace Cert.KernelIdeal.KHost

open Cert.KernelIdeal Cert.KernelIdeal.Gen

variable (m : (ℓ : Loc nD τ sig) → Buf (Elt Ideal) ℓ) (ρ : Dev nD → PrngReg)

/-- A stretch of host operations leaves a buffer none of them writes as it was. -/
local macro "keep_host " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## Buffers carried across boundaries -/

theorem arg3_W2 (c : Dev nD) : W2 m ρ c (Proc.devRef .tc main_arg3) = m ((c : Thread nD τ).loc main_arg3) :=
  (((W2_of_ne m ρ c main_arg3 (by decide)).trans (show W1 m ρ c (Proc.devRef .tc main_arg3) = W0 m ρ c (Proc.devRef .tc main_arg3) by keep_host hostOps0))).trans rfl

theorem arg4_W2 (c : Dev nD) : W2 m ρ c (Proc.devRef .tc main_arg4) = m ((c : Thread nD τ).loc main_arg4) :=
  (((W2_of_ne m ρ c main_arg4 (by decide)).trans (show W1 m ρ c (Proc.devRef .tc main_arg4) = W0 m ρ c (Proc.devRef .tc main_arg4) by keep_host hostOps0))).trans rfl

theorem arg7_W4 (c : Dev nD) : W4 m ρ c (Proc.devRef .tc main_arg7) = m ((c : Thread nD τ).loc main_arg7) :=
  (((W4_of_ne m ρ c main_arg7 (by decide)).trans ((show W3 m ρ c (Proc.devRef .tc main_arg7) = W2 m ρ c (Proc.devRef .tc main_arg7) by keep_host hostOps1).trans ((W2_of_ne m ρ c main_arg7 (by decide)).trans (show W1 m ρ c (Proc.devRef .tc main_arg7) = W0 m ρ c (Proc.devRef .tc main_arg7) by keep_host hostOps0))))).trans rfl

theorem arg8_W4 (c : Dev nD) : W4 m ρ c (Proc.devRef .tc main_arg8) = m ((c : Thread nD τ).loc main_arg8) :=
  (((W4_of_ne m ρ c main_arg8 (by decide)).trans ((show W3 m ρ c (Proc.devRef .tc main_arg8) = W2 m ρ c (Proc.devRef .tc main_arg8) by keep_host hostOps1).trans ((W2_of_ne m ρ c main_arg8 (by decide)).trans (show W1 m ρ c (Proc.devRef .tc main_arg8) = W0 m ρ c (Proc.devRef .tc main_arg8) by keep_host hostOps0))))).trans rfl

theorem arg11_W6 (c : Dev nD) : W6 m ρ c (Proc.devRef .tc main_arg11) = m ((c : Thread nD τ).loc main_arg11) :=
  (((W6_of_ne m ρ c main_arg11 (by decide)).trans ((show W5 m ρ c (Proc.devRef .tc main_arg11) = W4 m ρ c (Proc.devRef .tc main_arg11) by keep_host hostOps2).trans ((W4_of_ne m ρ c main_arg11 (by decide)).trans ((show W3 m ρ c (Proc.devRef .tc main_arg11) = W2 m ρ c (Proc.devRef .tc main_arg11) by keep_host hostOps1).trans ((W2_of_ne m ρ c main_arg11 (by decide)).trans (show W1 m ρ c (Proc.devRef .tc main_arg11) = W0 m ρ c (Proc.devRef .tc main_arg11) by keep_host hostOps0))))))).trans rfl

theorem arg12_W6 (c : Dev nD) : W6 m ρ c (Proc.devRef .tc main_arg12) = m ((c : Thread nD τ).loc main_arg12) :=
  (((W6_of_ne m ρ c main_arg12 (by decide)).trans ((show W5 m ρ c (Proc.devRef .tc main_arg12) = W4 m ρ c (Proc.devRef .tc main_arg12) by keep_host hostOps2).trans ((W4_of_ne m ρ c main_arg12 (by decide)).trans ((show W3 m ρ c (Proc.devRef .tc main_arg12) = W2 m ρ c (Proc.devRef .tc main_arg12) by keep_host hostOps1).trans ((W2_of_ne m ρ c main_arg12 (by decide)).trans (show W1 m ρ c (Proc.devRef .tc main_arg12) = W0 m ρ c (Proc.devRef .tc main_arg12) by keep_host hostOps0))))))).trans rfl

theorem v3_W3 (c : Dev nD) : W3 m ρ c (Proc.devRef .tc main_v3) = W1 m ρ c (Proc.devRef .tc main_v3) :=
  ((show W3 m ρ c (Proc.devRef .tc main_v3) = W2 m ρ c (Proc.devRef .tc main_v3) by keep_host hostOps1).trans (W2_of_ne m ρ c main_v3 (by decide)))

theorem v4_W3 (c : Dev nD) : W3 m ρ c (Proc.devRef .tc main_v4) = W1 m ρ c (Proc.devRef .tc main_v4) :=
  ((show W3 m ρ c (Proc.devRef .tc main_v4) = W2 m ρ c (Proc.devRef .tc main_v4) by keep_host hostOps1).trans (W2_of_ne m ρ c main_v4 (by decide)))

theorem v5_W5 (c : Dev nD) : W5 m ρ c (Proc.devRef .tc main_v5) = W1 m ρ c (Proc.devRef .tc main_v5) :=
  ((show W5 m ρ c (Proc.devRef .tc main_v5) = W4 m ρ c (Proc.devRef .tc main_v5) by keep_host hostOps2).trans ((W4_of_ne m ρ c main_v5 (by decide)).trans ((show W3 m ρ c (Proc.devRef .tc main_v5) = W2 m ρ c (Proc.devRef .tc main_v5) by keep_host hostOps1).trans (W2_of_ne m ρ c main_v5 (by decide)))))

theorem v6_W5 (c : Dev nD) : W5 m ρ c (Proc.devRef .tc main_v6) = W1 m ρ c (Proc.devRef .tc main_v6) :=
  ((show W5 m ρ c (Proc.devRef .tc main_v6) = W4 m ρ c (Proc.devRef .tc main_v6) by keep_host hostOps2).trans ((W4_of_ne m ρ c main_v6 (by decide)).trans ((show W3 m ρ c (Proc.devRef .tc main_v6) = W2 m ρ c (Proc.devRef .tc main_v6) by keep_host hostOps1).trans (W2_of_ne m ρ c main_v6 (by decide)))))

theorem v7_0_W3 (c : Dev nD) : W3 m ρ c (Proc.devRef .tc main_v7_0) = W2 m ρ c (Proc.devRef .tc main_v7_0) :=
  (show W3 m ρ c (Proc.devRef .tc main_v7_0) = W2 m ρ c (Proc.devRef .tc main_v7_0) by keep_host hostOps1)

theorem v26_1_W5 (c : Dev nD) : W5 m ρ c (Proc.devRef .tc main_v26_1) = W4 m ρ c (Proc.devRef .tc main_v26_1) :=
  (show W5 m ρ c (Proc.devRef .tc main_v26_1) = W4 m ρ c (Proc.devRef .tc main_v26_1) by keep_host hostOps2)

theorem v26_0_W8 (c : Dev nD) : W8 m ρ c (Proc.devRef .tc main_v26_0) = W4 m ρ c (Proc.devRef .tc main_v26_0) :=
  ((W8_of_ne m ρ c main_v26_0 (by decide)).trans ((show W7 m ρ c (Proc.devRef .tc main_v26_0) = W6 m ρ c (Proc.devRef .tc main_v26_0) by keep_host hostOps3).trans ((W6_of_ne m ρ c main_v26_0 (by decide)).trans (show W5 m ρ c (Proc.devRef .tc main_v26_0) = W4 m ρ c (Proc.devRef .tc main_v26_0) by keep_host hostOps2))))

theorem v65_W9 (c : Dev nD) : W9 m ρ c (Proc.devRef .tc main_v65) = W8 m ρ c (Proc.devRef .tc main_v65) :=
  (show W9 m ρ c (Proc.devRef .tc main_v65) = W8 m ρ c (Proc.devRef .tc main_v65) by keep_host hostOps4)

/-! ## The first stretch: the arguments re-laid for the kernels -/

theorem v0_eq (c : Dev nD) : (V1 m ρ c main_v0 : S131072x3.Idx → EReal)
    = shapeCast S131072x3 (m ((c : Thread nD τ).loc main_arg0)) shapeCasts_S8x16384x3_S131072x3 := by
  show StableHlo.after hostOps0 (W0 m ρ c) (Proc.devRef .tc main_v0) = _
  after_results <;> rfl

theorem v1_eq (c : Dev nD) : (V1 m ρ c main_v1 : S3x64.Idx → EReal)
    = transpose S3x64 [1, 0] (m ((c : Thread nD τ).loc main_arg1)) transposes_S64x3_S3x64_1_0 := by
  show StableHlo.after hostOps0 (W0 m ρ c) (Proc.devRef .tc main_v1) = _
  after_results <;> rfl

theorem v2_eq (c : Dev nD) : (V1 m ρ c main_v2 : S1x64.Idx → EReal)
    = shapeCast S1x64 (m ((c : Thread nD τ).loc main_arg2)) shapeCasts_S64_S1x64 := by
  show StableHlo.after hostOps0 (W0 m ρ c) (Proc.devRef .tc main_v2) = _
  after_results <;> rfl

/-! ## The stretches between the layers: the normalisation's scale and shift rows -/

/-- The scale row entering the next region, at channel `o`: the moment-form scale from the statistics array the
    region before left and the argument row γ. -/
theorem main_v22_apply (c : Dev nD) (o : Fin 64) :
    (V3 m ρ c main_v22 : S1x64.Idx → EReal) (ix2 (0 : Fin 1) o)
      = Cert.KRows.scaleAt ((W2 m ρ c (Proc.devRef .tc main_v7_1) : S2x64.Idx → EReal) (ix2 (0 : Fin 2) o)) ((W2 m ρ c (Proc.devRef .tc main_v7_1) : S2x64.Idx → EReal) (ix2 (1 : Fin 2) o))
          ((m ((c : Thread nD τ).loc main_arg3) : S64.Idx → EReal) (ix1 o)) := by
  refine Eq.trans (congrFun (?e : (V3 m ρ c main_v22 : S1x64.Idx → EReal) = ?G) (ix2 (0 : Fin 1) o)) ?_
  case e =>
    show StableHlo.after hostOps1 (W2 m ρ c) (Proc.devRef .tc main_v22) = _
    after_results
  refine (Cert.KRows.scale_apply (C := 64) _ _ slices_S2x64_S1x64_0_0 slices_S2x64_S1x64_1_0 bcast_S_S1x64 o).trans ?_
  refine congrArg (Cert.KRows.scaleAt _ _) ?_
  refine (shapeCast_a_1a_apply _ shapeCasts_S64_S1x64 0 o).trans ?_
  rfl

/-- The shift row entering the next region, at channel `o`: the moment-form shift. -/
theorem main_v25_apply (c : Dev nD) (o : Fin 64) :
    (V3 m ρ c main_v25 : S1x64.Idx → EReal) (ix2 (0 : Fin 1) o)
      = Cert.KRows.shiftAt ((W2 m ρ c (Proc.devRef .tc main_v7_1) : S2x64.Idx → EReal) (ix2 (0 : Fin 2) o)) ((W2 m ρ c (Proc.devRef .tc main_v7_1) : S2x64.Idx → EReal) (ix2 (1 : Fin 2) o))
          ((m ((c : Thread nD τ).loc main_arg3) : S64.Idx → EReal) (ix1 o)) ((m ((c : Thread nD τ).loc main_arg4) : S64.Idx → EReal) (ix1 o)) := by
  refine Eq.trans (congrFun (?e : (V3 m ρ c main_v25 : S1x64.Idx → EReal) = ?G) (ix2 (0 : Fin 1) o)) ?_
  case e =>
    show StableHlo.after hostOps1 (W2 m ρ c) (Proc.devRef .tc main_v25) = _
    after_results
  refine (Cert.KRows.shift_apply (C := 64) _ _ _ slices_S2x64_S1x64_0_0 bcast_S_S1x64 o).trans ?_
  unfold Cert.KRows.shiftAt
  refine congrArg₂ (· - ·) ?_ (congrArg (Ideal.div _ Cert.Net.nPts * ·) ?_)
  · refine (shapeCast_a_1a_apply _ shapeCasts_S64_S1x64 0 o).trans ?_
    rfl
  · refine (Cert.KRows.scale_apply (C := 64) _ _ slices_S2x64_S1x64_0_0 slices_S2x64_S1x64_1_0 bcast_S_S1x64 o).trans ?_
    refine congrArg (Cert.KRows.scaleAt _ _) ?_
    refine (shapeCast_a_1a_apply _ shapeCasts_S64_S1x64 0 o).trans ?_
    rfl

/-- The scale row entering the next region, at channel `o`: the moment-form scale from the statistics array the
    region before left and the argument row γ. -/
theorem main_v41_apply (c : Dev nD) (o : Fin 128) :
    (V5 m ρ c main_v41 : S1x128.Idx → EReal) (ix2 (0 : Fin 1) o)
      = Cert.KRows.scaleAt ((W4 m ρ c (Proc.devRef .tc main_v26_2) : S2x128.Idx → EReal) (ix2 (0 : Fin 2) o)) ((W4 m ρ c (Proc.devRef .tc main_v26_2) : S2x128.Idx → EReal) (ix2 (1 : Fin 2) o))
          ((m ((c : Thread nD τ).loc main_arg7) : S128.Idx → EReal) (ix1 o)) := by
  refine Eq.trans (congrFun (?e : (V5 m ρ c main_v41 : S1x128.Idx → EReal) = ?G) (ix2 (0 : Fin 1) o)) ?_
  case e =>
    show StableHlo.after hostOps2 (W4 m ρ c) (Proc.devRef .tc main_v41) = _
    after_results
  refine (Cert.KRows.scale_apply (C := 128) _ _ slices_S2x128_S1x128_0_0 slices_S2x128_S1x128_1_0 bcast_S_S1x128 o).trans ?_
  refine congrArg (Cert.KRows.scaleAt _ _) ?_
  refine (shapeCast_a_1a_apply _ shapeCasts_S128_S1x128 0 o).trans ?_
  rfl

/-- The shift row entering the next region, at channel `o`: the moment-form shift. -/
theorem main_v44_apply (c : Dev nD) (o : Fin 128) :
    (V5 m ρ c main_v44 : S1x128.Idx → EReal) (ix2 (0 : Fin 1) o)
      = Cert.KRows.shiftAt ((W4 m ρ c (Proc.devRef .tc main_v26_2) : S2x128.Idx → EReal) (ix2 (0 : Fin 2) o)) ((W4 m ρ c (Proc.devRef .tc main_v26_2) : S2x128.Idx → EReal) (ix2 (1 : Fin 2) o))
          ((m ((c : Thread nD τ).loc main_arg7) : S128.Idx → EReal) (ix1 o)) ((m ((c : Thread nD τ).loc main_arg8) : S128.Idx → EReal) (ix1 o)) := by
  refine Eq.trans (congrFun (?e : (V5 m ρ c main_v44 : S1x128.Idx → EReal) = ?G) (ix2 (0 : Fin 1) o)) ?_
  case e =>
    show StableHlo.after hostOps2 (W4 m ρ c) (Proc.devRef .tc main_v44) = _
    after_results
  refine (Cert.KRows.shift_apply (C := 128) _ _ _ slices_S2x128_S1x128_0_0 bcast_S_S1x128 o).trans ?_
  unfold Cert.KRows.shiftAt
  refine congrArg₂ (· - ·) ?_ (congrArg (Ideal.div _ Cert.Net.nPts * ·) ?_)
  · refine (shapeCast_a_1a_apply _ shapeCasts_S128_S1x128 0 o).trans ?_
    rfl
  · refine (Cert.KRows.scale_apply (C := 128) _ _ slices_S2x128_S1x128_0_0 slices_S2x128_S1x128_1_0 bcast_S_S1x128 o).trans ?_
    refine congrArg (Cert.KRows.scaleAt _ _) ?_
    refine (shapeCast_a_1a_apply _ shapeCasts_S128_S1x128 0 o).trans ?_
    rfl

/-- The scale row entering the next region, at channel `o`: the moment-form scale from the statistics array the
    region before left and the argument row γ. -/
theorem main_v60_apply (c : Dev nD) (o : Fin 1024) :
    (V7 m ρ c main_v60 : S1x1024.Idx → EReal) (ix2 (0 : Fin 1) o)
      = Cert.KRows.scaleAt ((W6 m ρ c (Proc.devRef .tc main_v45_1) : S2x1024.Idx → EReal) (ix2 (0 : Fin 2) o)) ((W6 m ρ c (Proc.devRef .tc main_v45_1) : S2x1024.Idx → EReal) (ix2 (1 : Fin 2) o))
          ((m ((c : Thread nD τ).loc main_arg11) : S1024.Idx → EReal) (ix1 o)) := by
  refine Eq.trans (congrFun (?e : (V7 m ρ c main_v60 : S1x1024.Idx → EReal) = ?G) (ix2 (0 : Fin 1) o)) ?_
  case e =>
    show StableHlo.after hostOps3 (W6 m ρ c) (Proc.devRef .tc main_v60) = _
    after_results
  refine (Cert.KRows.scale_apply (C := 1024) _ _ slices_S2x1024_S1x1024_0_0 slices_S2x1024_S1x1024_1_0 bcast_S_S1x1024 o).trans ?_
  refine congrArg (Cert.KRows.scaleAt _ _) ?_
  refine (shapeCast_a_1a_apply _ shapeCasts_S1024_S1x1024 0 o).trans ?_
  rfl

/-- The shift row entering the next region, at channel `o`: the moment-form shift. -/
theorem main_v63_apply (c : Dev nD) (o : Fin 1024) :
    (V7 m ρ c main_v63 : S1x1024.Idx → EReal) (ix2 (0 : Fin 1) o)
      = Cert.KRows.shiftAt ((W6 m ρ c (Proc.devRef .tc main_v45_1) : S2x1024.Idx → EReal) (ix2 (0 : Fin 2) o)) ((W6 m ρ c (Proc.devRef .tc main_v45_1) : S2x1024.Idx → EReal) (ix2 (1 : Fin 2) o))
          ((m ((c : Thread nD τ).loc main_arg11) : S1024.Idx → EReal) (ix1 o)) ((m ((c : Thread nD τ).loc main_arg12) : S1024.Idx → EReal) (ix1 o)) := by
  refine Eq.trans (congrFun (?e : (V7 m ρ c main_v63 : S1x1024.Idx → EReal) = ?G) (ix2 (0 : Fin 1) o)) ?_
  case e =>
    show StableHlo.after hostOps3 (W6 m ρ c) (Proc.devRef .tc main_v63) = _
    after_results
  refine (Cert.KRows.shift_apply (C := 1024) _ _ _ slices_S2x1024_S1x1024_0_0 bcast_S_S1x1024 o).trans ?_
  unfold Cert.KRows.shiftAt
  refine congrArg₂ (· - ·) ?_ (congrArg (Ideal.div _ Cert.Net.nPts * ·) ?_)
  · refine (shapeCast_a_1a_apply _ shapeCasts_S1024_S1x1024 0 o).trans ?_
    rfl
  · refine (Cert.KRows.scale_apply (C := 1024) _ _ slices_S2x1024_S1x1024_0_0 slices_S2x1024_S1x1024_1_0 bcast_S_S1x1024 o).trans ?_
    refine congrArg (Cert.KRows.scaleAt _ _) ?_
    refine (shapeCast_a_1a_apply _ shapeCasts_S1024_S1x1024 0 o).trans ?_
    rfl

/-! ## The two re-layings before the last two regions -/

theorem v64_eq (c : Dev nD) : (V7 m ρ c main_v64 : S8x16384x1024.Idx → EReal)
    = shapeCast S8x16384x1024 (W6 m ρ c (Proc.devRef .tc main_v45_0)) shapeCasts_S131072x1024_S8x16384x1024 := by
  show StableHlo.after hostOps3 (W6 m ρ c) (Proc.devRef .tc main_v64) = _
  after_results <;> rfl

theorem v66_eq (c : Dev nD) : (V9 m ρ c main_v66 : S8x16384x64.Idx → EReal)
    = shapeCast S8x16384x64 (W8 m ρ c (Proc.devRef .tc main_v26_0)) shapeCasts_S131072x64_S8x16384x64 := by
  show StableHlo.after hostOps4 (W8 m ρ c) (Proc.devRef .tc main_v66) = _
  after_results <;> rfl

/-- The transposed weights and the bias rows of the later layers, made by the first stretch. -/
theorem v3_eq (c : Dev nD) : (W1 m ρ c (Proc.devRef .tc main_v3) : S64x128.Idx → EReal)
    = transpose S64x128 [1, 0] (m ((c : Thread nD τ).loc main_arg5)) transposes_S128x64_S64x128_1_0 := by
  show StableHlo.after hostOps0 (W0 m ρ c) (Proc.devRef .tc main_v3) = _
  after_results <;> rfl

theorem v4_eq (c : Dev nD) : (W1 m ρ c (Proc.devRef .tc main_v4) : S1x128.Idx → EReal)
    = shapeCast S1x128 (m ((c : Thread nD τ).loc main_arg6)) shapeCasts_S128_S1x128 := by
  show StableHlo.after hostOps0 (W0 m ρ c) (Proc.devRef .tc main_v4) = _
  after_results <;> rfl

theorem v5_eq (c : Dev nD) : (W1 m ρ c (Proc.devRef .tc main_v5) : S128x1024.Idx → EReal)
    = transpose S128x1024 [1, 0] (m ((c : Thread nD τ).loc main_arg9)) transposes_S1024x128_S128x1024_1_0 := by
  show StableHlo.after hostOps0 (W0 m ρ c) (Proc.devRef .tc main_v5) = _
  after_results <;> rfl

theorem v6_eq (c : Dev nD) : (W1 m ρ c (Proc.devRef .tc main_v6) : S1x1024.Idx → EReal)
    = shapeCast S1x1024 (m ((c : Thread nD τ).loc main_arg10)) shapeCasts_S1024_S1x1024 := by
  show StableHlo.after hostOps0 (W0 m ρ c) (Proc.devRef .tc main_v6) = _
  after_results <;> rfl

end Cert.KernelIdeal.KHost

end
-- ==== Proof.KForms.lean ====
/-
  The kernel's stages on flattened activations.

  The kernel program keeps an activation as a 131072 × C array, row b·16384 + n for the point (b, n).  Its stages are:
  the linear map of a row by a K × N weight array plus a bias row; the affine map by a scale row and a shift row followed
  by the rectifier; the two sums over all rows of an activation and of its square, stacked as two rows; the maximum over a
  batch's positions of an affinely mapped activation; and the final stacking of the pooled rows on the transposed first
  activation.
-/
import Idealize.ShloMosaic.PureOps.Ideal
import Idealize.ShloMosaic.Lib.ValueIdx

noncomputable section

namespace Cert.KForms

open Idealize.ShloMosaic Idealize.ShloMosaic.ValueIdx
open scoped BigOperators

/-- The row of the point (b, n) in a flattened activation. -/
def pt (b : Fin 8) (n : Fin 16384) : Fin 131072 := ⟨b.val * 16384 + n.val, by have := b.isLt; have := n.isLt; omega⟩

/-- Rows times a K × N weight array plus a bias row. -/
def linF {P K N : Nat} (x : (⟨2, ![P, K]⟩ : Shape).Idx → EReal) (wt : (⟨2, ![K, N]⟩ : Shape).Idx → EReal)
    (bias : (⟨2, ![1, N]⟩ : Shape).Idx → EReal) : (⟨2, ![P, N]⟩ : Shape).Idx → EReal :=
  fun j => (∑ k : Fin K, x (ix2 (j 0) k) * wt (ix2 k (j 1))) + bias (ix2 (0 : Fin 1) (j 1))

/-- The affine map by a scale row and a shift row. -/
def affF {P C : Nat} (h : (⟨2, ![P, C]⟩ : Shape).Idx → EReal) (s t : (⟨2, ![1, C]⟩ : Shape).Idx → EReal) :
    (⟨2, ![P, C]⟩ : Shape).Idx → EReal :=
  fun j => h j * s (ix2 (0 : Fin 1) (j 1)) + t (ix2 (0 : Fin 1) (j 1))

/-- The affine map followed by the rectifier. -/
def actF {P C : Nat} (h : (⟨2, ![P, C]⟩ : Shape).Idx → EReal) (s t : (⟨2, ![1, C]⟩ : Shape).Idx → EReal) :
    (⟨2, ![P, C]⟩ : Shape).Idx → EReal :=
  fun j => max (affF h s t j) 0

/-- The sum over all points of an activation (row 0) and of its square (row 1), per channel. -/
def statsF {C : Nat} (h : (⟨2, ![131072, C]⟩ : Shape).Idx → EReal) : (⟨2, ![2, C]⟩ : Shape).Idx → EReal :=
  fun j => if (j 0).val = 0 then ∑ b : Fin 8, ∑ n : Fin 16384, h (ix2 (pt b n) (j 1))
    else ∑ b : Fin 8, ∑ n : Fin 16384, h (ix2 (pt b n) (j 1)) * h (ix2 (pt b n) (j 1))

/-- Per batch index and channel, the maximum over the positions of an affinely mapped rank-3 activation. -/
def poolF (h : (⟨3, ![8, 16384, 1024]⟩ : Shape).Idx → EReal) (s t : (⟨2, ![1, 1024]⟩ : Shape).Idx → EReal) :
    (⟨3, ![8, 1, 1024]⟩ : Shape).Idx → EReal :=
  fun j => (Finset.univ : Finset (Fin 16384)).sup fun n => h (ix3 (j 0) n (j 2)) * s (ix2 (0 : Fin 1) (j 2)) + t (ix2 (0 : Fin 1) (j 2))

/-- The output: per batch index, the 1024 pooled values as rows constant along the position axis, on top of the 64
    channels of the first activation, channel-major. -/
def stackF (a0 : (⟨3, ![8, 16384, 64]⟩ : Shape).Idx → EReal) (g : (⟨3, ![8, 1, 1024]⟩ : Shape).Idx → EReal) :
    (⟨3, ![8, 1088, 16384]⟩ : Shape).Idx → EReal :=
  fun j => if h : (j 1).val < 1024 then g (ix3 (j 0) (0 : Fin 1) ⟨(j 1).val, h⟩)
    else a0 (ix3 (j 0) (j 2) ⟨(j 1).val - 1024, by have h1 : (j 1).val < 1088 := (j 1).isLt; omega⟩)

end Cert.KForms

end
-- ==== Proof.KCurry.lean ====
/-
  From flattened activations to activations indexed by (batch index, position).

  The kernel program's stages are written over 131072 × C arrays, row 16384·b + n for the point (b, n).  When such an
  array read at that row is a given activation at (b, n), each stage of the flattened form is the corresponding stage of
  the network written over points: the linear map, the two statistics (sums over all points), the moment-form scale and
  shift, the affine map with and without the rectifier, and the final stacking of the pooled maxima on the transposed
  first activation.
-/
import proofs.«128329_j6322191859819_2_alg».proof.Proof.Net
import proofs.«128329_j6322191859819_2_alg».proof.Proof.KForms
import proofs.«128329_j6322191859819_2_alg».proof.Proof.KRows

noncomputable section

namespace Cert.KCurry

open Idealize.ShloMosaic Idealize.ShloMosaic.ValueIdx
open Cert.Net Cert.KForms Cert.KRows
open scoped BigOperators

/-- The linear map. -/
theorem lin_curry {Ci Co : ℕ} (X : (⟨2, ![131072, Ci]⟩ : Shape).Idx → EReal) (Wt : (⟨2, ![Ci, Co]⟩ : Shape).Idx → EReal)
    (B : (⟨2, ![1, Co]⟩ : Shape).Idx → EReal) (xc : Act Ci) (Wc : Fin Co → Fin Ci → EReal) (bc : Fin Co → EReal)
    (hX : ∀ b n k, X (ix2 (pt b n) k) = xc b n k) (hW : ∀ k o, Wt (ix2 k o) = Wc o k) (hB : ∀ o, B (ix2 (0 : Fin 1) o) = bc o)
    (b : Fin 8) (n : Fin 16384) (o : Fin Co) : linF X Wt B (ix2 (pt b n) o) = lin xc Wc bc b n o := by
  unfold linF lin
  refine congrArg₂ (· + ·) (Finset.sum_congr rfl fun k _ => ?_) (hB o)
  exact congrArg₂ (· * ·) (hX b n k) (hW k o)

/-- The sum over all points. -/
theorem stats_curry0 {C : ℕ} (H : (⟨2, ![131072, C]⟩ : Shape).Idx → EReal) (hc : Act C)
    (hH : ∀ b n o, H (ix2 (pt b n) o) = hc b n o) (o : Fin C) :
    statsF H (ix2 (0 : Fin 2) o) = tot (fun b n => hc b n o) := by
  unfold statsF tot
  refine (if_pos rfl).trans ?_
  exact Finset.sum_congr rfl fun b _ => Finset.sum_congr rfl fun n _ => hH b n o

/-- The sum of squares over all points. -/
theorem stats_curry1 {C : ℕ} (H : (⟨2, ![131072, C]⟩ : Shape).Idx → EReal) (hc : Act C)
    (hH : ∀ b n o, H (ix2 (pt b n) o) = hc b n o) (o : Fin C) :
    statsF H (ix2 (1 : Fin 2) o) = tot (fun b n => hc b n o * hc b n o) := by
  unfold statsF tot
  refine (if_neg (show ¬(1 : ℕ) = 0 from Nat.one_ne_zero)).trans ?_
  exact Finset.sum_congr rfl fun b _ => Finset.sum_congr rfl fun n _ => by
    show H (ix2 (pt b n) o) * H (ix2 (pt b n) o) = _
    rw [hH b n o]

/-- The moment-form scale. -/
theorem scale_curry {C : ℕ} (H : (⟨2, ![131072, C]⟩ : Shape).Idx → EReal) (hc : Act C)
    (hH : ∀ b n o, H (ix2 (pt b n) o) = hc b n o) (gc : Fin C → EReal) (o : Fin C) :
    scaleAt (statsF H (ix2 (0 : Fin 2) o)) (statsF H (ix2 (1 : Fin 2) o)) (gc o) = scaleM hc gc o := by
  rw [stats_curry0 H hc hH o, stats_curry1 H hc hH o]
  rfl

/-- The moment-form shift. -/
theorem shift_curry {C : ℕ} (H : (⟨2, ![131072, C]⟩ : Shape).Idx → EReal) (hc : Act C)
    (hH : ∀ b n o, H (ix2 (pt b n) o) = hc b n o) (gc bec : Fin C → EReal) (o : Fin C) :
    shiftAt (statsF H (ix2 (0 : Fin 2) o)) (statsF H (ix2 (1 : Fin 2) o)) (gc o) (bec o) = shiftM hc gc bec o := by
  rw [stats_curry0 H hc hH o, stats_curry1 H hc hH o]
  rfl

/-- The affine map by the scale and shift rows is the moment-form normalisation. -/
theorem aff_curry {C : ℕ} (H : (⟨2, ![131072, C]⟩ : Shape).Idx → EReal) (s t : (⟨2, ![1, C]⟩ : Shape).Idx → EReal)
    (hc : Act C) (gc bec : Fin C → EReal) (hH : ∀ b n o, H (ix2 (pt b n) o) = hc b n o)
    (hs : ∀ o, s (ix2 (0 : Fin 1) o) = scaleM hc gc o) (ht : ∀ o, t (ix2 (0 : Fin 1) o) = shiftM hc gc bec o)
    (b : Fin 8) (n : Fin 16384) (o : Fin C) : affF H s t (ix2 (pt b n) o) = bnM hc gc bec b n o := by
  show H (ix2 (pt b n) o) * s (ix2 (0 : Fin 1) o) + t (ix2 (0 : Fin 1) o) = _
  rw [hH b n o, hs o, ht o]
  rfl

/-- With the rectifier. -/
theorem act_curry {C : ℕ} (H : (⟨2, ![131072, C]⟩ : Shape).Idx → EReal) (s t : (⟨2, ![1, C]⟩ : Shape).Idx → EReal)
    (hc : Act C) (gc bec : Fin C → EReal) (hH : ∀ b n o, H (ix2 (pt b n) o) = hc b n o)
    (hs : ∀ o, s (ix2 (0 : Fin 1) o) = scaleM hc gc o) (ht : ∀ o, t (ix2 (0 : Fin 1) o) = shiftM hc gc bec o)
    (b : Fin 8) (n : Fin 16384) (o : Fin C) : actF H s t (ix2 (pt b n) o) = relu (bnM hc gc bec) b n o := by
  show max (affF H s t (ix2 (pt b n) o)) 0 = max (bnM hc gc bec b n o) 0
  rw [aff_curry H s t hc gc bec hH hs ht b n o]

/-- The output: the pooled maxima of the normalised third activation stacked on the transposed first activation. -/
theorem out_curry (A0r : (⟨3, ![8, 16384, 64]⟩ : Shape).Idx → EReal) (H2r : (⟨3, ![8, 16384, 1024]⟩ : Shape).Idx → EReal)
    (s t : (⟨2, ![1, 1024]⟩ : Shape).Idx → EReal) (a0c : Act 64) (h2c : Act 1024) (gc bec : Fin 1024 → EReal)
    (hA : ∀ b n o, A0r (ix3 b n o) = a0c b n o) (hH : ∀ b n o, H2r (ix3 b n o) = h2c b n o)
    (hs : ∀ o, s (ix2 (0 : Fin 1) o) = scaleM h2c gc o) (ht : ∀ o, t (ix2 (0 : Fin 1) o) = shiftM h2c gc bec o) :
    stackF A0r (poolF H2r s t) = arr3 (stack (bnM h2c gc bec) a0c) := by
  funext j
  obtain ⟨b, ch, n, rfl⟩ : ∃ (b : Fin 8) (ch : Fin 1088) (n : Fin 16384), j = ix3 b ch n := ⟨j 0, j 1, j 2, eq_ix3 j⟩
  show (if h : ch.val < 1024 then poolF H2r s t (ix3 b (0 : Fin 1) ⟨ch.val, h⟩) else A0r (ix3 b n ⟨ch.val - 1024, _⟩))
    = if h : ch.val < 1024 then (Finset.univ : Finset (Fin 16384)).sup (fun n' => bnM h2c gc bec b n' ⟨ch.val, h⟩)
      else a0c b n ⟨ch.val - 1024, _⟩
  by_cases h : ch.val < 1024
  · rw [dif_pos h, dif_pos h]
    show (Finset.univ : Finset (Fin 16384)).sup (fun n' => H2r (ix3 b n' ⟨ch.val, h⟩) * s (ix2 (0 : Fin 1) ⟨ch.val, h⟩) + t (ix2 (0 : Fin 1) ⟨ch.val, h⟩)) = _
    refine congrArg _ (funext fun n' => ?_)
    rw [hH, hs, ht]
    rfl
  · rw [dif_neg h, dif_neg h]
    exact hA b n _

end Cert.KCurry

end
-- ==== Proof.R0Pieces.lean ====
/-
  Layer 1's kernel, point by point: what one run of the body leaves in its two output blocks.

  The body multiplies its 16384 × 3 block of points by the 3 × 64 weights, adds the bias row, and stores the 16384 × 64
  product block whole; then it adds the column sums of the block and of its square, as two rows, into the 2 × 64
  statistics block.  At the first grid point the statistics block is first set to zero; at every later point it is read
  as the point before left it.  Each lemma below says that one output block after the body is one pure function of the
  input blocks (and, for the statistics, of the block's previous contents).
-/
import proofs.«128329_j6322191859819_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.R0

open Cert.KernelIdeal Cert.KernelIdeal.Gen

variable {F : FTy → Type} [FloatOps F]

/-- The zero offset of a rank-2 rectangle. -/
theorem hz2 : (![0, 0] : Fin 2 → Nat) = fun _ => 0 := funext fun a => by fin_cases a <;> rfl

/-- At the first point the product block is the body's product of the input blocks. -/
theorem out_A_3 (c : Dev nD) (i : grid0.Coords) (a1 : Memref sig .tc .vmem S16384x3 .f32) (h1 : a1.IsWhole)
    (a2 : Memref sig .tc .vmem S3x64 .f32) (h2 : a2.IsWhole) (a3 : Memref sig .tc .vmem S1x64 .f32) (h3 : a3.IsWhole)
    (a4 : Memref sig .tc .vmem S16384x64 .f32) (h4 : a4.IsWhole) (a5 : Memref sig .tc .vmem S2x64 .f32) (h5 : a5.IsWhole)
    (hc : cond0_0 i) (x0 : Vec F S16384x3 .f32) (x1 : Vec F S3x64 .f32) (x2 : Vec F S1x64 .f32) :
    out0_A_3 c i a1 h1 a2 h2 a3 h3 a4 h4 a5 h5 hc x0 x1 x2 = k0_pay2 x0 x1 x2 := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero hz2]
  simp only [View.readAt_eq_ld, h1.read_unread, h2.read_unread, h3.read_unread, h5.read_unread,
    View.ld_unit_zero (S := S16384x3) hz2, View.ld_unit_zero (S := S3x64) hz2, View.ld_unit_zero (S := S1x64) hz2,
    View.ld_unit_zero (S := S2x64) hz2]

/-- At a later point the product block is the same function of that point's input blocks. -/
theorem out_B_3 (c : Dev nD) (i : grid0.Coords) (a1 : Memref sig .tc .vmem S16384x3 .f32) (h1 : a1.IsWhole)
    (a2 : Memref sig .tc .vmem S3x64 .f32) (h2 : a2.IsWhole) (a3 : Memref sig .tc .vmem S1x64 .f32) (h3 : a3.IsWhole)
    (a4 : Memref sig .tc .vmem S16384x64 .f32) (h4 : a4.IsWhole) (a5 : Memref sig .tc .vmem S2x64 .f32) (h5 : a5.IsWhole)
    (hc : ¬cond0_0 i) (x0 : Vec F S16384x3 .f32) (x1 : Vec F S3x64 .f32) (x2 : Vec F S1x64 .f32) (xo4 : Vec F S2x64 .f32) :
    out0_B_3 c i a1 h1 a2 h2 a3 h3 a4 h4 a5 h5 hc x0 x1 x2 xo4 = k0_pay2 x0 x1 x2 := by
  unfold out0_B_3
  rw [View.read_writes_eq_canon _ _ _ (cover0_B_3 c i a1 h1 a2 h2 a3 h3 a4 h4 a5 h5 hc x0 x1 x2 xo4)]
  unfold kernelRun0_B
  dsimp only
  rw [View.canon_unit_zero hz2]
  simp only [View.readAt_eq_ld, h1.read_unread, h2.read_unread, h3.read_unread, h5.read_unread,
    View.ld_unit_zero (S := S16384x3) hz2, View.ld_unit_zero (S := S3x64) hz2, View.ld_unit_zero (S := S1x64) hz2,
    View.ld_unit_zero (S := S2x64) hz2]

/-- At the first point the statistics block is the zero block plus the two rows of column sums. -/
theorem out_A_4 (c : Dev nD) (i : grid0.Coords) (a1 : Memref sig .tc .vmem S16384x3 .f32) (h1 : a1.IsWhole)
    (a2 : Memref sig .tc .vmem S3x64 .f32) (h2 : a2.IsWhole) (a3 : Memref sig .tc .vmem S1x64 .f32) (h3 : a3.IsWhole)
    (a4 : Memref sig .tc .vmem S16384x64 .f32) (h4 : a4.IsWhole) (a5 : Memref sig .tc .vmem S2x64 .f32) (h5 : a5.IsWhole)
    (hc : cond0_0 i) (x0 : Vec F S16384x3 .f32) (x1 : Vec F S3x64 .f32) (x2 : Vec F S1x64 .f32) :
    out0_A_4 c i a1 h1 a2 h2 a3 h3 a4 h4 a5 h5 hc x0 x1 x2 = k0_pay3 x0 x1 x2 k0_pay1 := by
  unfold out0_A_4
  rw [View.read_writes_eq_canon _ _ _ (cover0_A_4 c i a1 h1 a2 h2 a3 h3 a4 h4 a5 h5 hc x0 x1 x2)]
  unfold kernelRun0_A
  dsimp only
  sl_unfold_words
  rw [View.canon_cons_unit_zero (S := S2x64) hz2, View.readCov_unit_zero (S := S2x64) _ hz2]
  simp only [View.readAt_eq_ld, h1.read_unread, h2.read_unread, h3.read_unread, h5.read_unread,
    View.ld_unit_zero (S := S16384x3) hz2, View.ld_unit_zero (S := S3x64) hz2, View.ld_unit_zero (S := S1x64) hz2,
    View.ld_unit_zero (S := S2x64) hz2]

/-- At a later point the statistics block is its previous contents plus the two rows of column sums. -/
theorem out_B_4 (c : Dev nD) (i : grid0.Coords) (a1 : Memref sig .tc .vmem S16384x3 .f32) (h1 : a1.IsWhole)
    (a2 : Memref sig .tc .vmem S3x64 .f32) (h2 : a2.IsWhole) (a3 : Memref sig .tc .vmem S1x64 .f32) (h3 : a3.IsWhole)
    (a4 : Memref sig .tc .vmem S16384x64 .f32) (h4 : a4.IsWhole) (a5 : Memref sig .tc .vmem S2x64 .f32) (h5 : a5.IsWhole)
    (hc : ¬cond0_0 i) (x0 : Vec F S16384x3 .f32) (x1 : Vec F S3x64 .f32) (x2 : Vec F S1x64 .f32) (xo4 : Vec F S2x64 .f32) :
    out0_B_4 c i a1 h1 a2 h2 a3 h3 a4 h4 a5 h5 hc x0 x1 x2 xo4 = k0_pay3 x0 x1 x2 xo4 := by
  unfold out0_B_4
  rw [View.read_writes_eq_canon _ _ _ (cover0_B_4 c i a1 h1 a2 h2 a3 h3 a4 h4 a5 h5 hc x0 x1 x2 xo4)]
  unfold kernelRun0_B
  dsimp only
  rw [View.canon_unit_zero hz2]
  simp only [View.readAt_eq_ld, h1.read_unread, h2.read_unread, h3.read_unread, h5.read_unread,
    View.ld_unit_zero (S := S16384x3) hz2, View.ld_unit_zero (S := S3x64) hz2, View.ld_unit_zero (S := S1x64) hz2,
    View.ld_unit_zero (S := S2x64) hz2]

end Cert.KernelIdeal.R0

end
-- ==== Proof.R0Payload.lean ====
/-
  Layer 1's kernel body as arithmetic on the extended reals, read at explicit coordinates.

  With exact arithmetic the change of float format is the identity, so the body's product block at row r and channel
  o is the sum over the three input coordinates of the point's coordinate times the weight, plus the bias of channel o.
  A column sum over the block's rows is a sum over the 16384 row indices.  The statistics block's row 0 at channel o is
  its previous value plus the column sum of the product block, and row 1 its previous value plus the column sum of the
  product block's square.
-/
import proofs.«128329_j6322191859819_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.ValueIdx
open scoped BigOperators

namespace Cert.KernelIdeal.R0

open Cert.KernelIdeal Cert.KernelIdeal.Gen

/-! ## The matrix product's operand indices -/

theorem lhs_0 (i : S16384x64.Idx) (q : dot_S16384x3_S3x64_S16384x64_1_0_0_1_n_n.contr.Idx) : (dot_S16384x3_S3x64_S16384x64_1_0_0_1_n_n.lhsIdx i q 0).val = (i 0).val := by
  unfold DotDims.lhsIdx
  rw [dif_neg (show ¬(0 : Fin S16384x3.rank) ∈ dot_S16384x3_S3x64_S16384x64_1_0_0_1_n_n.lhsBatch by decide), dif_pos (show (0 : Fin S16384x3.rank) ∈ dot_S16384x3_S3x64_S16384x64_1_0_0_1_n_n.lhsNonContracting by decide)]
  rfl

theorem lhs_1 (i : S16384x64.Idx) (q : dot_S16384x3_S3x64_S16384x64_1_0_0_1_n_n.contr.Idx) : (dot_S16384x3_S3x64_S16384x64_1_0_0_1_n_n.lhsIdx i q 1).val = (q ⟨0, by decide⟩).val :=
  dot_S16384x3_S3x64_S16384x64_1_0_0_1_n_n.lhsIdx_val_of_single rfl i q

theorem rhs_0 (i : S16384x64.Idx) (q : dot_S16384x3_S3x64_S16384x64_1_0_0_1_n_n.contr.Idx) : (dot_S16384x3_S3x64_S16384x64_1_0_0_1_n_n.rhsIdx i q 0).val = (q ⟨0, by decide⟩).val :=
  dot_S16384x3_S3x64_S16384x64_1_0_0_1_n_n.rhsIdx_val_of_single rfl i q

theorem rhs_1 (i : S16384x64.Idx) (q : dot_S16384x3_S3x64_S16384x64_1_0_0_1_n_n.contr.Idx) : (dot_S16384x3_S3x64_S16384x64_1_0_0_1_n_n.rhsIdx i q 1).val = (i 1).val := by
  unfold DotDims.rhsIdx
  rw [dif_neg (show ¬(1 : Fin S3x64.rank) ∈ dot_S16384x3_S3x64_S16384x64_1_0_0_1_n_n.rhsBatch by decide), dif_pos (show (1 : Fin S3x64.rank) ∈ dot_S16384x3_S3x64_S16384x64_1_0_0_1_n_n.rhsNonContracting by decide)]
  rfl

/-- The product of a 16384 × 3 block and the 3 × 64 weights into a zero accumulator, at row `r` and channel `o`:
    the sum over the three contracted coordinates. -/
theorem prod_apply (x : FVec Ideal S16384x3 .bf16) (w : FVec Ideal S3x64 .bf16) (r : Fin 16384) (o : Fin 64) :
    matmul dot_S16384x3_S3x64_S16384x64_1_0_0_1_n_n none x w (constant (F := Ideal) S16384x64 .f32 0x00000000#32) (ix2 r o)
      = ∑ k : Fin 3, x (ix2 r k) * w (ix2 k o) := by
  simp only [matmul]
  rw [Ideal.matmul_constant_zero_apply, ← Equiv.sum_comp (contrEquiv1 dot_S16384x3_S3x64_S16384x64_1_0_0_1_n_n 3 rfl rfl).symm]
  refine Finset.sum_congr rfl fun k _ => ?_
  have hk := contrEquiv1_symm_val dot_S16384x3_S3x64_S16384x64_1_0_0_1_n_n 3 rfl rfl k
  have el : dot_S16384x3_S3x64_S16384x64_1_0_0_1_n_n.lhsIdx (ix2 r o) ((contrEquiv1 dot_S16384x3_S3x64_S16384x64_1_0_0_1_n_n 3 rfl rfl).symm k) = ix2 r k := funext fun a => Fin.ext (by
    match a with
    | ⟨0, _⟩ => exact lhs_0 _ _
    | ⟨1, _⟩ => exact (lhs_1 _ _).trans hk)
  have er : dot_S16384x3_S3x64_S16384x64_1_0_0_1_n_n.rhsIdx (ix2 r o) ((contrEquiv1 dot_S16384x3_S3x64_S16384x64_1_0_0_1_n_n 3 rfl rfl).symm k) = ix2 k o := funext fun a => Fin.ext (by
    match a with
    | ⟨0, _⟩ => exact (rhs_0 _ _).trans hk
    | ⟨1, _⟩ => exact rhs_1 _ _)
  rw [el, er]

/-! ## The body's two stored values -/

/-- The product block at row `r`, channel `o`: the linear map of the point's three coordinates plus the bias. -/
theorem pay2_apply (x0 : Vec Ideal S16384x3 .f32) (x1 : Vec Ideal S3x64 .f32) (x2 : Vec Ideal S1x64 .f32) (r : Fin 16384) (o : Fin 64) :
    k0_pay2 (F := Ideal) x0 x1 x2 (ix2 r o) = (∑ k : Fin 3, x0 (ix2 r k) * x1 (ix2 k o)) + x2 (ix2 (0 : Fin 1) o) := by
  unfold k0_pay2
  refine (addf_apply _ _ _).trans ?_
  refine congrArg₂ (· + ·) ?_ ?_
  · refine (prod_apply _ _ r o).trans ?_
    simp only [truncf_apply, shapeCast_self]
  · refine (broadcastTo_1b_ab_apply _ _ r o).trans ?_
    simp only [shapeCast_self]

/-- A column sum of a 16384 × 64 block, at channel `o`: the sum over the rows. -/
theorem colsum_apply (src : FVec Ideal S16384x64 .f32) (o : Fin 64) :
    multiReduction .add [0] S64 src 0x00000000#32 reduces_S16384x64_S64 (.inl rfl) rfl (ix1 o) = ∑ r : Fin 16384, src (ix2 r o) := by
  refine (Ideal.multiReduction_add_single src 0x00000000#32 reduces_S16384x64_S64 (.inl rfl) rfl (ix1 o)).trans ?_
  refine Finset.sum_congr rfl fun r _ => congrArg src ?_
  funext a
  match a with
  | ⟨0, _⟩ => rfl
  | ⟨1, _⟩ => rfl

/-- Two rows stacked: row 0 of the stack is the first row. -/
theorem stack_row0 (u v : FVec Ideal S1x64 .f32) (o : Fin 64) :
    concatenate S2x64 0 [⟨S1x64, u⟩, ⟨S1x64, v⟩] concatenates_S1x64_S1x64_S2x64_d0 (ix2 (0 : Fin 2) o) = u (ix2 (0 : Fin 1) o) :=
  concatenate_pair_apply_left (t := S2x64) (s₁ := S1x64) (s₂ := S1x64) (0 : Fin 2) u v concatenates_S1x64_S1x64_S2x64_d0
    (ix2 (0 : Fin 2) o) rfl (ix2 (0 : Fin 1) o) (fun b => by
      match b with
      | ⟨0, _⟩ => rfl
      | ⟨1, _⟩ => rfl)

/-- Two rows stacked: row 1 of the stack is the second row. -/
theorem stack_row1 (u v : FVec Ideal S1x64 .f32) (o : Fin 64) :
    concatenate S2x64 0 [⟨S1x64, u⟩, ⟨S1x64, v⟩] concatenates_S1x64_S1x64_S2x64_d0 (ix2 (1 : Fin 2) o) = v (ix2 (0 : Fin 1) o) :=
  concatenate_pair_apply_right (t := S2x64) (s₁ := S1x64) (s₂ := S1x64) (0 : Fin 2) u v concatenates_S1x64_S1x64_S2x64_d0
    (ix2 (1 : Fin 2) o) rfl rfl (ix2 (0 : Fin 1) o) (fun b hb => by
      match b with
      | ⟨0, _⟩ => exact absurd rfl hb
      | ⟨1, _⟩ => rfl) rfl

/-- Row 0 of the statistics block at channel `o`: its previous value plus the column sum of the product block. -/
theorem pay3_apply_row0 (x0 : Vec Ideal S16384x3 .f32) (x1 : Vec Ideal S3x64 .f32) (x2 : Vec Ideal S1x64 .f32) (v : Vec Ideal S2x64 .f32) (o : Fin 64) :
    k0_pay3 (F := Ideal) x0 x1 x2 v (ix2 (0 : Fin 2) o) = v (ix2 (0 : Fin 2) o) + ∑ r : Fin 16384, k0_pay2 (F := Ideal) x0 x1 x2 (ix2 r o) := by
  unfold k0_pay3
  refine (addf_apply _ _ _).trans ?_
  refine congrArg₂ (· + ·) (by simp only [shapeCast_self]) ?_
  refine (stack_row0 _ _ o).trans ?_
  refine (shapeCast_a_1a_apply _ _ 0 o).trans ?_
  exact colsum_apply _ o

/-- Row 1 of the statistics block at channel `o`: its previous value plus the column sum of the squared product block. -/
theorem pay3_apply_row1 (x0 : Vec Ideal S16384x3 .f32) (x1 : Vec Ideal S3x64 .f32) (x2 : Vec Ideal S1x64 .f32) (v : Vec Ideal S2x64 .f32) (o : Fin 64) :
    k0_pay3 (F := Ideal) x0 x1 x2 v (ix2 (1 : Fin 2) o)
      = v (ix2 (1 : Fin 2) o) + ∑ r : Fin 16384, k0_pay2 (F := Ideal) x0 x1 x2 (ix2 r o) * k0_pay2 (F := Ideal) x0 x1 x2 (ix2 r o) := by
  unfold k0_pay3
  refine (addf_apply _ _ _).trans ?_
  refine congrArg₂ (· + ·) (by simp only [shapeCast_self]) ?_
  refine (stack_row1 _ _ o).trans ?_
  refine (shapeCast_a_1a_apply _ _ 0 o).trans ?_
  refine (colsum_apply _ o).trans ?_
  rfl

end Cert.KernelIdeal.R0

end
-- ==== Proof.R0Value.lean ====
/-
  Layer 1's kernel over the whole grid: what its two output arrays hold when the region ends.

  The grid has eight points; point t works on rows 16384·t … 16384·t + 16383 of the flattened points.  The product
  output is written back at every point, so its array ends as the per-point linear map of the whole input, row by row.
  The statistics block is carried from point to point and written back after the last: by induction on the point it is
  the zero block plus, for each point so far, that point's two column sums; after the eighth point its row 0 is the sum
  of the product over all rows and its row 1 the sum of the squared product over all rows.
-/
import proofs.«128329_j6322191859819_2_alg».proof.Proof.R0Pieces
import proofs.«128329_j6322191859819_2_alg».proof.Proof.R0Payload
import proofs.«128329_j6322191859819_2_alg».proof.Proof.KForms

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.R0

open Cert.KernelIdeal Cert.KernelIdeal.Gen

variable (V : (c : Dev nD) → (b : Ref sig .tc) → Buf (Elt Ideal) ((c : Thread nD τ).loc b))

/-! ## After each point -/

/-- After any point the product output's buffer holds the body's product of that point's input blocks. -/
theorem outsAt_fst (c : Dev nD) (t : Fin cfg0.N) :
    (outsAt0 V c t.val t.isLt).1 = k0_pay2 (F := Ideal) (iblk0 V c 0 t) (iblk0 V c 1 t) (iblk0 V c 2 t) := by
  by_cases h0 : t.val % 8 = 0
  · rw [outsAt0_A V c t h0]
    dsimp only
    exact out_A_3 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t) (iblk0 V c 2 t)
  · rw [outsAt0_B V c t h0]
    dsimp only
    exact out_B_3 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (iblk0 V c 2 t) _

/-- The statistics block a point starts a run with: the zero block plus that point's column sums. -/
def statA (c : Dev nD) : (n : ℕ) → n < cfg0.N → Vec Ideal S2x64 .f32 :=
  fun n h => k0_pay3 (F := Ideal) (iblk0 V c 0 ⟨n, h⟩) (iblk0 V c 1 ⟨n, h⟩) (iblk0 V c 2 ⟨n, h⟩) (k0_pay1 (F := Ideal))

/-- The statistics block a later point leaves: what the point before left plus that point's column sums. -/
def statG (c : Dev nD) : (n : ℕ) → n < cfg0.N → Vec Ideal S2x64 .f32 → Vec Ideal S2x64 .f32 :=
  fun n h acc => k0_pay3 (F := Ideal) (iblk0 V c 0 ⟨n, h⟩) (iblk0 V c 1 ⟨n, h⟩) (iblk0 V c 2 ⟨n, h⟩) acc

/-- After point `t` the statistics buffer holds the fold over the points of `t`'s run so far. -/
theorem outsAt_snd (c : Dev nD) (t : Fin cfg0.N) (h' : 8 * (t.val / 8) + t.val % 8 < cfg0.N) :
    (outsAt0 V c t.val t.isLt).2 = Pipeline.accAt (statA V c) (statG V c) (8 * (t.val / 8)) (t.val % 8) h' :=
  Pipeline.eq_accAt_of_mod (fun n h => (outsAt0 V c n h).2) 8 (statA V c) (statG V c)
    (fun n h hm => by
      show (outsAt0 V c (⟨n, h⟩ : Fin cfg0.N).val (⟨n, h⟩ : Fin cfg0.N).isLt).2 = _
      rw [outsAt0_A V c ⟨n, h⟩ hm]
      dsimp only
      exact out_A_4 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) ((hcond0_0 ⟨n, h⟩).mpr hm) (iblk0 V c 0 ⟨n, h⟩) (iblk0 V c 1 ⟨n, h⟩) (iblk0 V c 2 ⟨n, h⟩))
    (fun n h hm => by
      show (outsAt0 V c (⟨n + 1, h⟩ : Fin cfg0.N).val (⟨n + 1, h⟩ : Fin cfg0.N).isLt).2 = _
      rw [outsAt0_B V c ⟨n + 1, h⟩ hm]
      dsimp only
      exact out_B_4 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => hm ((hcond0_0 ⟨n + 1, h⟩).mp hh)) (iblk0 V c 0 ⟨n + 1, h⟩) (iblk0 V c 1 ⟨n + 1, h⟩) (iblk0 V c 2 ⟨n + 1, h⟩) _)
    (by decide) t.val t.isLt h'

/-! ## The statistics after the last point -/

/-- The zero block reads zero. -/
theorem pay1_apply (i : S2x64.Idx) : k0_pay1 (F := Ideal) i = 0 := by
  unfold k0_pay1
  exact Ideal.ofBits_zero_f32

/-- Point `n`'s column sum of the product block at channel `o` (zero past the grid). -/
def colS (c : Dev nD) (n : ℕ) (o : Fin 64) : EReal :=
  if h : n < cfg0.N then ∑ r : Fin 16384, k0_pay2 (F := Ideal) (iblk0 V c 0 ⟨n, h⟩) (iblk0 V c 1 ⟨n, h⟩) (iblk0 V c 2 ⟨n, h⟩) (ix2 r o) else 0

/-- Point `n`'s column sum of the squared product block at channel `o` (zero past the grid). -/
def colQ (c : Dev nD) (n : ℕ) (o : Fin 64) : EReal :=
  if h : n < cfg0.N then ∑ r : Fin 16384, k0_pay2 (F := Ideal) (iblk0 V c 0 ⟨n, h⟩) (iblk0 V c 1 ⟨n, h⟩) (iblk0 V c 2 ⟨n, h⟩) (ix2 r o)
    * k0_pay2 (F := Ideal) (iblk0 V c 0 ⟨n, h⟩) (iblk0 V c 1 ⟨n, h⟩) (iblk0 V c 2 ⟨n, h⟩) (ix2 r o) else 0

/-- What point `n` adds to the statistics block: its column sum in row 0, its column sum of squares in row 1. -/
def addend (c : Dev nD) (n : ℕ) (i : S2x64.Idx) : EReal :=
  if (i 0).val = 0 then colS V c n (i 1) else colQ V c n (i 1)

/-- A point's step adds its addend to what the point before left. -/
theorem statG_apply (c : Dev nD) (n : ℕ) (h : n < cfg0.N) (acc : Vec Ideal S2x64 .f32) (i : S2x64.Idx) :
    statG V c n h acc i = acc i + addend V c n i := by
  obtain ⟨a, o, rfl⟩ : ∃ (a : Fin 2) (o : Fin 64), i = ix2 a o := ⟨i 0, i 1, eq_ix2 i⟩
  unfold statG
  match a with
  | ⟨0, _⟩ =>
    refine (pay3_apply_row0 _ _ _ acc o).trans ?_
    refine congrArg (acc (ix2 (0 : Fin 2) o) + ·) ?_
    unfold addend colS
    rw [if_pos rfl, dif_pos h]
  | ⟨1, _⟩ =>
    refine (pay3_apply_row1 _ _ _ acc o).trans ?_
    refine congrArg (acc (ix2 (1 : Fin 2) o) + ·) ?_
    unfold addend colQ
    rw [if_neg (show ¬(1 : ℕ) = 0 from Nat.one_ne_zero), dif_pos h]

/-- After the eighth point the statistics block is the sum of the eight points' addends. -/
theorem stat_last (c : Dev nD) (h7 : 0 + 7 < cfg0.N) (i : S2x64.Idx) :
    Pipeline.accAt (statA V c) (statG V c) 0 7 h7 i = ∑ s ∈ Finset.range 8, addend V c s i := by
  have := Pipeline.accAt_add_apply (statA V c) (statG V c) (fun _ => (0 : EReal)) (addend V c) 0 7
    (fun h i => by
      show statG V c 0 h (k0_pay1 (F := Ideal)) i = _
      rw [statG_apply, pay1_apply])
    (fun n h acc i _ _ => statG_apply V c n h acc i) 7 (le_refl 7) h7 i
  rw [this, zero_add]
  exact Finset.sum_congr rfl fun s _ => by rw [Nat.zero_add]

/-! ## The input blocks, read at coordinates -/

/-- The windows' index maps over the grid: the points' window and the product's window move with the point along the
    rows, the weights, the bias and the statistics stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0 :=
  (by decide +kernel : ∀ t : Fin grid0.N, _)

/-- Row `r` of point `t`'s block of points is row 16384·t + r of the array. -/
theorem blk0_apply (c : Dev nD) (t : Fin cfg0.N) (r : Fin 16384) (k : Fin 3) (hr : t.val * 16384 + r.val < 131072) :
    (iblk0 V c 0 t : Vec Ideal S16384x3 .f32) (ix2 r k) = V c main_v0 (ix2 ⟨t.val * 16384 + r.val, hr⟩ k) := by
  unfold iblk0
  rw [View.read_apply]
  show V c main_v0 (((cfg0.win 0).blk t).view.emb (ix2 r k)) = _
  refine congrArg (V c main_v0) (funext fun a => Fin.ext ?_)
  match a with
  | ⟨0, _⟩ =>
    show win0_0.index t (0 : Fin 2) * 16384 + 1 * r.val = t.val * 16384 + r.val
    rw [(idx_facts t).1]; omega
  | ⟨1, _⟩ =>
    show win0_0.index t (1 : Fin 2) * 3 + 1 * k.val = k.val
    rw [(idx_facts t).2.1]; omega

/-- The weights' block is the whole weight array at every point. -/
theorem blk1_apply (c : Dev nD) (t : Fin cfg0.N) (k : Fin 3) (o : Fin 64) :
    (iblk0 V c 1 t : Vec Ideal S3x64 .f32) (ix2 k o) = V c main_v1 (ix2 k o) := by
  unfold iblk0
  rw [View.read_apply]
  show V c main_v1 (((cfg0.win 1).blk t).view.emb (ix2 k o)) = _
  refine congrArg (V c main_v1) (funext fun a => Fin.ext ?_)
  match a with
  | ⟨0, _⟩ =>
    show win0_1.index t (0 : Fin 2) * 3 + 1 * k.val = k.val
    rw [(idx_facts t).2.2.1]; omega
  | ⟨1, _⟩ =>
    show win0_1.index t (1 : Fin 2) * 64 + 1 * o.val = o.val
    rw [(idx_facts t).2.2.2.1]; omega

/-- The bias block is the whole bias row at every point. -/
theorem blk2_apply (c : Dev nD) (t : Fin cfg0.N) (u : Fin 1) (o : Fin 64) :
    (iblk0 V c 2 t : Vec Ideal S1x64 .f32) (ix2 u o) = V c main_v2 (ix2 u o) := by
  unfold iblk0
  rw [View.read_apply]
  show V c main_v2 (((cfg0.win 2).blk t).view.emb (ix2 u o)) = _
  refine congrArg (V c main_v2) (funext fun a => Fin.ext ?_)
  match a with
  | ⟨0, _⟩ =>
    show win0_2.index t (0 : Fin 2) * 1 + 1 * u.val = u.val
    rw [(idx_facts t).2.2.2.2.1]; omega
  | ⟨1, _⟩ =>
    show win0_2.index t (1 : Fin 2) * 64 + 1 * o.val = o.val
    rw [(idx_facts t).2.2.2.2.2.1]; omega

/-! ## The product output's array -/

/-- The body's product of blocks that are rows `tv·16384 + r` of an array of points, the whole weights and the whole bias
    row is, at row `y 0` of the block, the linear map of the array at row `tv·16384 + y 0`. -/
theorem lin_block (X : S131072x3.Idx → EReal) (W : S3x64.Idx → EReal) (B : S1x64.Idx → EReal)
    (x0 : Vec Ideal S16384x3 .f32) (x1 : Vec Ideal S3x64 .f32) (x2 : Vec Ideal S1x64 .f32) (tv : ℕ)
    (h0 : ∀ (r : Fin 16384) (k : Fin 3) (hr : tv * 16384 + r.val < 131072), x0 (ix2 r k) = X (ix2 ⟨tv * 16384 + r.val, hr⟩ k))
    (h1 : ∀ (k : Fin 3) (o : Fin 64), x1 (ix2 k o) = W (ix2 k o))
    (h2 : ∀ (o : Fin 64), x2 (ix2 (0 : Fin 1) o) = B (ix2 (0 : Fin 1) o))
    (y : S16384x64.Idx) (i : S131072x64.Idx) (hi0 : (i 0).val = tv * 16384 + (y 0).val) (hi1 : (i 1).val = (y 1).val) :
    k0_pay2 (F := Ideal) x0 x1 x2 y = Cert.KForms.linF X W B i := by
  obtain ⟨r, o, rfl⟩ : ∃ (r : Fin 16384) (o : Fin 64), y = ix2 r o := ⟨y 0, y 1, eq_ix2 y⟩
  obtain ⟨p, o', rfl⟩ : ∃ (p : Fin 131072) (o' : Fin 64), i = ix2 p o' := ⟨i 0, i 1, eq_ix2 i⟩
  have hp : p.val = tv * 16384 + r.val := hi0
  obtain rfl : o = o' := (Fin.ext hi1).symm
  have hr : tv * 16384 + r.val < 131072 := hp ▸ p.isLt
  obtain rfl : p = ⟨tv * 16384 + r.val, hr⟩ := Fin.ext hp
  rw [pay2_apply]
  unfold Cert.KForms.linF
  refine congrArg₂ (· + ·) (Finset.sum_congr rfl fun k _ => ?_) (h2 o)
  rw [h0 r k hr, h1 k o]

/-- An index of the product array is in point `t`'s block iff each coordinate is in the block's range on its axis. -/
theorem mem_blk3 (t : Fin cfg0.N) (i : S131072x64.Idx) :
    i ∈ ((cfg0.win 3).blk t).view.set ↔ ∀ a : Fin 2, win0_3.index t a * S16384x64.size a ≤ (i a).val
      ∧ (i a).val < win0_3.index t a * S16384x64.size a + S16384x64.size a := by
  show i ∈ ((View.whole main_v7_0).slice (win0_3.rect t)).set ↔ _
  rw [View.set_slice_whole, Rect.mem_set_unit]
  exact Iff.rfl

/-- What point `t` writes back of the product output is block `t` of the linear map of the whole array of points. -/
theorem flushed3_eq (c : Dev nD) (t : Fin cfg0.N) :
    (dat0 V c).flushed 3 t
      = ((cfg0.win 3).blk t).view.read (Elt Ideal) (Cert.KForms.linF (V c main_v0) (V c main_v1) (V c main_v2)) := by
  show (cfg0.win 3).cut (grid0.coords t) ((dat0 V c).after 3 t) = _
  rw [after0_3, outsAt_fst]
  funext j
  rw [View.read_apply]
  exact lin_block (V c main_v0) (V c main_v1) (V c main_v2) (iblk0 V c 0 t) (iblk0 V c 1 t) (iblk0 V c 2 t) t.val
    (fun r k hr => blk0_apply V c t r k hr) (fun k o => blk1_apply V c t k o) (fun o => blk2_apply V c t 0 o) j
    (((cfg0.win 3).blk t).view.emb j)
    (by show win0_3.index t (0 : Fin 2) * 16384 + 1 * (j 0).val = t.val * 16384 + (j 0).val
        rw [(idx_facts t).2.2.2.2.2.2.1]; omega)
    (by show win0_3.index t (1 : Fin 2) * 64 + 1 * (j 1).val = (j 1).val
        rw [(idx_facts t).2.2.2.2.2.2.2.1]; omega)

/-- The product output's array when the region ends: the linear map of the whole array of points. -/
theorem final3 (c : Dev nD) :
    (dat0 V c).arrAt 3 cfg0.N = Cert.KForms.linF (V c main_v0) (V c main_v1) (V c main_v2) :=
  (dat0 V c).arrAt_eq_of_cover 3 _ (fun t _ => flushed3_eq V c t) fun i => by
    have hi0 : (i 0).val < 131072 := (i 0).isLt
    have hi1 : (i 1).val < 64 := (i 1).isLt
    have hN : cfg0.N = 8 := N_0
    refine ⟨⟨(i 0).val / 16384, by rw [hN]; omega⟩, flush0_3 _, ?_⟩
    rw [mem_blk3]
    intro a
    match a with
    | ⟨0, _⟩ =>
      show win0_3.index _ (0 : Fin 2) * 16384 ≤ (i 0).val ∧ (i 0).val < win0_3.index _ (0 : Fin 2) * 16384 + 16384
      rw [(idx_facts _).2.2.2.2.2.2.1]
      dsimp only
      omega
    | ⟨1, _⟩ =>
      show win0_3.index _ (1 : Fin 2) * 64 ≤ (i 1).val ∧ (i 1).val < win0_3.index _ (1 : Fin 2) * 64 + 64
      rw [(idx_facts _).2.2.2.2.2.2.2.1]
      omega

/-! ## The statistics output's array -/

/-- The fold read at the last point of the one run, whatever the spelling of its start and length. -/
theorem stat_last' (c : Dev nD) (b j : ℕ) (h : b + j < cfg0.N) (hb : b = 0) (hj : j = 7) (i : S2x64.Idx) :
    Pipeline.accAt (statA V c) (statG V c) b j h i = ∑ s ∈ Finset.range 8, addend V c s i := by
  subst hb; subst hj; exact stat_last V c h i

/-- A point's column sum of the product block is the sum over the point's rows of the linear map of the whole array. -/
theorem colS_eq (c : Dev nD) (s : Fin 8) (o : Fin 64) :
    colS V c s.val o = ∑ n : Fin 16384, Cert.KForms.linF (V c main_v0) (V c main_v1) (V c main_v2) (ix2 (Cert.KForms.pt s n) o) := by
  have hs : s.val < cfg0.N := by rw [show cfg0.N = 8 from N_0]; exact s.isLt
  unfold colS
  rw [dif_pos hs]
  refine Finset.sum_congr rfl fun n _ => ?_
  exact lin_block (V c main_v0) (V c main_v1) (V c main_v2) _ _ _ s.val
    (fun r k hr => blk0_apply V c ⟨s.val, hs⟩ r k hr) (fun k o => blk1_apply V c ⟨s.val, hs⟩ k o)
    (fun o => blk2_apply V c ⟨s.val, hs⟩ 0 o) (ix2 n o) (ix2 (Cert.KForms.pt s n) o) rfl rfl

/-- A point's column sum of the squared product block, likewise. -/
theorem colQ_eq (c : Dev nD) (s : Fin 8) (o : Fin 64) :
    colQ V c s.val o = ∑ n : Fin 16384, Cert.KForms.linF (V c main_v0) (V c main_v1) (V c main_v2) (ix2 (Cert.KForms.pt s n) o)
      * Cert.KForms.linF (V c main_v0) (V c main_v1) (V c main_v2) (ix2 (Cert.KForms.pt s n) o) := by
  have hs : s.val < cfg0.N := by rw [show cfg0.N = 8 from N_0]; exact s.isLt
  unfold colQ
  rw [dif_pos hs]
  refine Finset.sum_congr rfl fun n _ => ?_
  have e := lin_block (V c main_v0) (V c main_v1) (V c main_v2) _ _ _ s.val
    (fun r k hr => blk0_apply V c ⟨s.val, hs⟩ r k hr) (fun k o => blk1_apply V c ⟨s.val, hs⟩ k o)
    (fun o => blk2_apply V c ⟨s.val, hs⟩ 0 o) (ix2 n o) (ix2 (Cert.KForms.pt s n) o) rfl rfl
  rw [e]

/-- The eight points' addends sum to the statistics of the linear map of the whole array. -/
theorem sum_addend (c : Dev nD) (i : S2x64.Idx) :
    ∑ s ∈ Finset.range 8, addend V c s i = Cert.KForms.statsF (Cert.KForms.linF (V c main_v0) (V c main_v1) (V c main_v2)) i := by
  rw [Finset.sum_range]
  unfold addend Cert.KForms.statsF
  by_cases h0 : (i 0).val = 0
  · rw [if_pos h0]
    simp only [h0, if_true]
    exact Finset.sum_congr rfl fun s _ => colS_eq V c s (i 1)
  · rw [if_neg h0]
    simp only [h0, if_false]
    exact Finset.sum_congr rfl fun s _ => colQ_eq V c s (i 1)

/-- The one write-back of the statistics, after the last point, writes the statistics of the whole product. -/
theorem flushed4_eq (c : Dev nD) (t : Fin cfg0.N) (hf : (cfg0.win 4).flush t = true) :
    (dat0 V c).flushed 4 t = ((cfg0.win 4).blk t).view.read (Elt Ideal)
      (Cert.KForms.statsF (Cert.KForms.linF (V c main_v0) (V c main_v1) (V c main_v2))) := by
  have hN : cfg0.N = 8 := N_0
  have h7 : t.val = 7 := by have := (flush0_4 t).mp hf; have := t.isLt; omega
  show (cfg0.win 4).cut (grid0.coords t) ((dat0 V c).after 4 t) = _
  rw [after0_4, outsAt_snd V c t (by omega)]
  funext j
  rw [View.read_apply]
  have he : ((cfg0.win 4).blk t).view.emb j = (j : S2x64.Idx) := funext fun a => Fin.ext (by
    match a with
    | ⟨0, _⟩ =>
      show win0_4.index t (0 : Fin 2) * 2 + 1 * (j 0).val = (j 0).val
      rw [(idx_facts t).2.2.2.2.2.2.2.2.1]; omega
    | ⟨1, _⟩ =>
      show win0_4.index t (1 : Fin 2) * 64 + 1 * (j 1).val = (j 1).val
      rw [(idx_facts t).2.2.2.2.2.2.2.2.2]; omega)
  rw [he]
  exact (stat_last' V c _ _ _ (by omega) (by omega) j).trans (sum_addend V c j)

/-- An index of the statistics array is in a point's block iff each coordinate is in the block's range on its axis. -/
theorem mem_blk4 (t : Fin cfg0.N) (i : S2x64.Idx) :
    i ∈ ((cfg0.win 4).blk t).view.set ↔ ∀ a : Fin 2, win0_4.index t a * S2x64.size a ≤ (i a).val
      ∧ (i a).val < win0_4.index t a * S2x64.size a + S2x64.size a := by
  show i ∈ ((View.whole main_v7_1).slice (win0_4.rect t)).set ↔ _
  rw [View.set_slice_whole, Rect.mem_set_unit]
  exact Iff.rfl

/-- The statistics output's array when the region ends: per channel, the sum over all points of the product and of its
    square. -/
theorem final4 (c : Dev nD) :
    (dat0 V c).arrAt 4 cfg0.N = Cert.KForms.statsF (Cert.KForms.linF (V c main_v0) (V c main_v1) (V c main_v2)) :=
  (dat0 V c).arrAt_eq_of_cover 4 _ (fun t hf => flushed4_eq V c t hf) fun i => by
    have hi0 : (i 0).val < 2 := (i 0).isLt
    have hi1 : (i 1).val < 64 := (i 1).isLt
    have hN : cfg0.N = 8 := N_0
    refine ⟨⟨7, by rw [hN]; omega⟩, (flush0_4 _).mpr rfl, ?_⟩
    rw [mem_blk4]
    intro a
    match a with
    | ⟨0, _⟩ =>
      show win0_4.index _ (0 : Fin 2) * 2 ≤ (i 0).val ∧ (i 0).val < win0_4.index _ (0 : Fin 2) * 2 + 2
      rw [(idx_facts _).2.2.2.2.2.2.2.2.1]
      omega
    | ⟨1, _⟩ =>
      show win0_4.index _ (1 : Fin 2) * 64 ≤ (i 1).val ∧ (i 1).val < win0_4.index _ (1 : Fin 2) * 64 + 64
      rw [(idx_facts _).2.2.2.2.2.2.2.2.2]
      omega

end Cert.KernelIdeal.R0

end
-- ==== Proof.R1Pieces.lean ====
/-
  Layer 2's kernel, point by point: what one run of the body leaves in its three output blocks.

  The body maps its 16384 × 64 block of the first layer's product by the scale row and the shift row, rectifies it, and
  stores the 16384 × 64 result whole; multiplies that result by the 64 × 128 weights, adds the bias row, and stores the
  16384 × 128 product block whole; then it adds the column sums of the product block and of its square, as two rows,
  into the 2 × 128 statistics block.  At the first grid point the statistics block is first set to zero; at every later
  point it is read as the point before left it.  Each lemma below says that one output block after the body is one
  pure function of the input blocks (and, for the statistics, of the block's previous contents).
-/
import proofs.«128329_j6322191859819_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.R1

open Cert.KernelIdeal Cert.KernelIdeal.Gen

variable {F : FTy → Type} [FloatOps F]

/-- The zero offset of a rank-2 rectangle. -/
theorem hz2 : (![0, 0] : Fin 2 → Nat) = fun _ => 0 := funext fun a => by fin_cases a <;> rfl

/-- At the first point the activation block is the body's rectified affine map of the input block. -/
theorem out_A_5 (c : Dev nD) (i : grid1.Coords) (a1 : Memref sig .tc .vmem S16384x64 .f32) (h1 : a1.IsWhole)
    (a2 : Memref sig .tc .vmem S1x64 .f32) (h2 : a2.IsWhole) (a3 : Memref sig .tc .vmem S1x64 .f32) (h3 : a3.IsWhole)
    (a4 : Memref sig .tc .vmem S64x128 .f32) (h4 : a4.IsWhole) (a5 : Memref sig .tc .vmem S1x128 .f32) (h5 : a5.IsWhole)
    (a6 : Memref sig .tc .vmem S16384x64 .f32) (h6 : a6.IsWhole) (a7 : Memref sig .tc .vmem S16384x128 .f32) (h7 : a7.IsWhole)
    (a8 : Memref sig .tc .vmem S2x128 .f32) (h8 : a8.IsWhole)
    (hc : cond1_0 i) (x0 : Vec F S16384x64 .f32) (x1 : Vec F S1x64 .f32) (x2 : Vec F S1x64 .f32) (x3 : Vec F S64x128 .f32) (x4 : Vec F S1x128 .f32) :
    out1_A_5 c i a1 h1 a2 h2 a3 h3 a4 h4 a5 h5 a6 h6 a7 h7 a8 h8 hc x0 x1 x2 x3 x4 = k1_pay3 x0 x1 x2 := by
  unfold out1_A_5
  rw [View.read_writes_eq_canon _ _ _ (cover1_A_5 c i a1 h1 a2 h2 a3 h3 a4 h4 a5 h5 a6 h6 a7 h7 a8 h8 hc x0 x1 x2 x3 x4)]
  unfold kernelRun1_A
  dsimp only
  sl_unfold_words
  rw [View.canon_unit_zero hz2]
  simp only [View.readAt_eq_ld, h1.read_unread, h2.read_unread, h3.read_unread, h4.read_unread, h5.read_unread, h6.read_unread,
    h7.read_unread, h8.read_unread,
    View.ld_unit_zero (S := S16384x64) hz2, View.ld_unit_zero (S := S1x64) hz2, View.ld_unit_zero (S := S64x128) hz2,
    View.ld_unit_zero (S := S1x128) hz2, View.ld_unit_zero (S := S16384x128) hz2, View.ld_unit_zero (S := S2x128) hz2]

/-- At a later point the activation block is the same function of that point's input blocks. -/
theorem out_B_5 (c : Dev nD) (i : grid1.Coords) (a1 : Memref sig .tc .vmem S16384x64 .f32) (h1 : a1.IsWhole)
    (a2 : Memref sig .tc .vmem S1x64 .f32) (h2 : a2.IsWhole) (a3 : Memref sig .tc .vmem S1x64 .f32) (h3 : a3.IsWhole)
    (a4 : Memref sig .tc .vmem S64x128 .f32) (h4 : a4.IsWhole) (a5 : Memref sig .tc .vmem S1x128 .f32) (h5 : a5.IsWhole)
    (a6 : Memref sig .tc .vmem S16384x64 .f32) (h6 : a6.IsWhole) (a7 : Memref sig .tc .vmem S16384x128 .f32) (h7 : a7.IsWhole)
    (a8 : Memref sig .tc .vmem S2x128 .f32) (h8 : a8.IsWhole)
    (hc : ¬cond1_0 i) (x0 : Vec F S16384x64 .f32) (x1 : Vec F S1x64 .f32) (x2 : Vec F S1x64 .f32) (x3 : Vec F S64x128 .f32) (x4 : Vec F S1x128 .f32) (xo7 : Vec F S2x128 .f32) :
    out1_B_5 c i a1 h1 a2 h2 a3 h3 a4 h4 a5 h5 a6 h6 a7 h7 a8 h8 hc x0 x1 x2 x3 x4 xo7 = k1_pay3 x0 x1 x2 := by
  unfold out1_B_5
  rw [View.read_writes_eq_canon _ _ _ (cover1_B_5 c i a1 h1 a2 h2 a3 h3 a4 h4 a5 h5 a6 h6 a7 h7 a8 h8 hc x0 x1 x2 x3 x4 xo7)]
  unfold kernelRun1_B
  dsimp only
  sl_unfold_words
  rw [View.canon_unit_zero hz2]
  simp only [View.readAt_eq_ld, h1.read_unread, h2.read_unread, h3.read_unread, h4.read_unread, h5.read_unread, h6.read_unread,
    h7.read_unread, h8.read_unread,
    View.ld_unit_zero (S := S16384x64) hz2, View.ld_unit_zero (S := S1x64) hz2, View.ld_unit_zero (S := S64x128) hz2,
    View.ld_unit_zero (S := S1x128) hz2, View.ld_unit_zero (S := S16384x128) hz2, View.ld_unit_zero (S := S2x128) hz2]

/-- At the first point the product block is the body's product of the activation block by the weights, plus the bias. -/
theorem out_A_6 (c : Dev nD) (i : grid1.Coords) (a1 : Memref sig .tc .vmem S16384x64 .f32) (h1 : a1.IsWhole)
    (a2 : Memref sig .tc .vmem S1x64 .f32) (h2 : a2.IsWhole) (a3 : Memref sig .tc .vmem S1x64 .f32) (h3 : a3.IsWhole)
    (a4 : Memref sig .tc .vmem S64x128 .f32) (h4 : a4.IsWhole) (a5 : Memref sig .tc .vmem S1x128 .f32) (h5 : a5.IsWhole)
    (a6 : Memref sig .tc .vmem S16384x64 .f32) (h6 : a6.IsWhole) (a7 : Memref sig .tc .vmem S16384x128 .f32) (h7 : a7.IsWhole)
    (a8 : Memref sig .tc .vmem S2x128 .f32) (h8 : a8.IsWhole)
    (hc : cond1_0 i) (x0 : Vec F S16384x64 .f32) (x1 : Vec F S1x64 .f32) (x2 : Vec F S1x64 .f32) (x3 : Vec F S64x128 .f32) (x4 : Vec F S1x128 .f32) :
    out1_A_6 c i a1 h1 a2 h2 a3 h3 a4 h4 a5 h5 a6 h6 a7 h7 a8 h8 hc x0 x1 x2 x3 x4 = k1_pay4 x0 x1 x2 x3 x4 := by
  unfold out1_A_6
  rw [View.read_writes_eq_canon _ _ _ (cover1_A_6 c i a1 h1 a2 h2 a3 h3 a4 h4 a5 h5 a6 h6 a7 h7 a8 h8 hc x0 x1 x2 x3 x4)]
  unfold kernelRun1_A
  dsimp only
  sl_unfold_words
  rw [View.canon_unit_zero hz2]
  simp only [View.readAt_eq_ld, h1.read_unread, h2.read_unread, h3.read_unread, h4.read_unread, h5.read_unread, h6.read_unread,
    h7.read_unread, h8.read_unread,
    View.ld_unit_zero (S := S16384x64) hz2, View.ld_unit_zero (S := S1x64) hz2, View.ld_unit_zero (S := S64x128) hz2,
    View.ld_unit_zero (S := S1x128) hz2, View.ld_unit_zero (S := S16384x128) hz2, View.ld_unit_zero (S := S2x128) hz2]

/-- At a later point the product block is the same function of that point's input blocks. -/
theorem out_B_6 (c : Dev nD) (i : grid1.Coords) (a1 : Memref sig .tc .vmem S16384x64 .f32) (h1 : a1.IsWhole)
    (a2 : Memref sig .tc .vmem S1x64 .f32) (h2 : a2.IsWhole) (a3 : Memref sig .tc .vmem S1x64 .f32) (h3 : a3.IsWhole)
    (a4 : Memref sig .tc .vmem S64x128 .f32) (h4 : a4.IsWhole) (a5 : Memref sig .tc .vmem S1x128 .f32) (h5 : a5.IsWhole)
    (a6 : Memref sig .tc .vmem S16384x64 .f32) (h6 : a6.IsWhole) (a7 : Memref sig .tc .vmem S16384x128 .f32) (h7 : a7.IsWhole)
    (a8 : Memref sig .tc .vmem S2x128 .f32) (h8 : a8.IsWhole)
    (hc : ¬cond1_0 i) (x0 : Vec F S16384x64 .f32) (x1 : Vec F S1x64 .f32) (x2 : Vec F S1x64 .f32) (x3 : Vec F S64x128 .f32) (x4 : Vec F S1x128 .f32) (xo7 : Vec F S2x128 .f32) :
    out1_B_6 c i a1 h1 a2 h2 a3 h3 a4 h4 a5 h5 a6 h6 a7 h7 a8 h8 hc x0 x1 x2 x3 x4 xo7 = k1_pay4 x0 x1 x2 x3 x4 := by
  unfold out1_B_6
  rw [View.read_writes_eq_canon _ _ _ (cover1_B_6 c i a1 h1 a2 h2 a3 h3 a4 h4 a5 h5 a6 h6 a7 h7 a8 h8 hc x0 x1 x2 x3 x4 xo7)]
  unfold kernelRun1_B
  dsimp only
  sl_unfold_words
  rw [View.canon_unit_zero hz2]
  simp only [View.readAt_eq_ld, h1.read_unread, h2.read_unread, h3.read_unread, h4.read_unread, h5.read_unread, h6.read_unread,
    h7.read_unread, h8.read_unread,
    View.ld_unit_zero (S := S16384x64) hz2, View.ld_unit_zero (S := S1x64) hz2, View.ld_unit_zero (S := S64x128) hz2,
    View.ld_unit_zero (S := S1x128) hz2, View.ld_unit_zero (S := S16384x128) hz2, View.ld_unit_zero (S := S2x128) hz2]

/-- At the first point the statistics block is the zero block plus the two rows of column sums. -/
theorem out_A_7 (c : Dev nD) (i : grid1.Coords) (a1 : Memref sig .tc .vmem S16384x64 .f32) (h1 : a1.IsWhole)
    (a2 : Memref sig .tc .vmem S1x64 .f32) (h2 : a2.IsWhole) (a3 : Memref sig .tc .vmem S1x64 .f32) (h3 : a3.IsWhole)
    (a4 : Memref sig .tc .vmem S64x128 .f32) (h4 : a4.IsWhole) (a5 : Memref sig .tc .vmem S1x128 .f32) (h5 : a5.IsWhole)
    (a6 : Memref sig .tc .vmem S16384x64 .f32) (h6 : a6.IsWhole) (a7 : Memref sig .tc .vmem S16384x128 .f32) (h7 : a7.IsWhole)
    (a8 : Memref sig .tc .vmem S2x128 .f32) (h8 : a8.IsWhole)
    (hc : cond1_0 i) (x0 : Vec F S16384x64 .f32) (x1 : Vec F S1x64 .f32) (x2 : Vec F S1x64 .f32) (x3 : Vec F S64x128 .f32) (x4 : Vec F S1x128 .f32) :
    out1_A_7 c i a1 h1 a2 h2 a3 h3 a4 h4 a5 h5 a6 h6 a7 h7 a8 h8 hc x0 x1 x2 x3 x4 = k1_pay1 (k1_pay5 k1_pay2) (k1_pay6 x0 x1 x2 x3 x4) := by
  unfold out1_A_7
  rw [View.read_writes_eq_canon _ _ _ (cover1_A_7 c i a1 h1 a2 h2 a3 h3 a4 h4 a5 h5 a6 h6 a7 h7 a8 h8 hc x0 x1 x2 x3 x4)]
  unfold kernelRun1_A
  dsimp only
  sl_unfold_words
  rw [View.canon_cons_unit_zero (S := S2x128) hz2, View.readCov_unit_zero (S := S2x128) _ hz2]
  simp only [View.readAt_eq_ld, h1.read_unread, h2.read_unread, h3.read_unread, h4.read_unread, h5.read_unread, h6.read_unread,
    h7.read_unread, h8.read_unread,
    View.ld_unit_zero (S := S16384x64) hz2, View.ld_unit_zero (S := S1x64) hz2, View.ld_unit_zero (S := S64x128) hz2,
    View.ld_unit_zero (S := S1x128) hz2, View.ld_unit_zero (S := S16384x128) hz2, View.ld_unit_zero (S := S2x128) hz2]

/-- At a later point the statistics block is its previous contents plus the two rows of column sums. -/
theorem out_B_7 (c : Dev nD) (i : grid1.Coords) (a1 : Memref sig .tc .vmem S16384x64 .f32) (h1 : a1.IsWhole)
    (a2 : Memref sig .tc .vmem S1x64 .f32) (h2 : a2.IsWhole) (a3 : Memref sig .tc .vmem S1x64 .f32) (h3 : a3.IsWhole)
    (a4 : Memref sig .tc .vmem S64x128 .f32) (h4 : a4.IsWhole) (a5 : Memref sig .tc .vmem S1x128 .f32) (h5 : a5.IsWhole)
    (a6 : Memref sig .tc .vmem S16384x64 .f32) (h6 : a6.IsWhole) (a7 : Memref sig .tc .vmem S16384x128 .f32) (h7 : a7.IsWhole)
    (a8 : Memref sig .tc .vmem S2x128 .f32) (h8 : a8.IsWhole)
    (hc : ¬cond1_0 i) (x0 : Vec F S16384x64 .f32) (x1 : Vec F S1x64 .f32) (x2 : Vec F S1x64 .f32) (x3 : Vec F S64x128 .f32) (x4 : Vec F S1x128 .f32) (xo7 : Vec F S2x128 .f32) :
    out1_B_7 c i a1 h1 a2 h2 a3 h3 a4 h4 a5 h5 a6 h6 a7 h7 a8 h8 hc x0 x1 x2 x3 x4 xo7 = k1_pay1 (k1_pay5 xo7) (k1_pay6 x0 x1 x2 x3 x4) := by
  unfold out1_B_7
  rw [View.read_writes_eq_canon _ _ _ (cover1_B_7 c i a1 h1 a2 h2 a3 h3 a4 h4 a5 h5 a6 h6 a7 h7 a8 h8 hc x0 x1 x2 x3 x4 xo7)]
  unfold kernelRun1_B
  dsimp only
  sl_unfold_words
  rw [View.canon_unit_zero hz2]
  simp only [View.readAt_eq_ld, h1.read_unread, h2.read_unread, h3.read_unread, h4.read_unread, h5.read_unread, h6.read_unread,
    h7.read_unread, h8.read_unread,
    View.ld_unit_zero (S := S16384x64) hz2, View.ld_unit_zero (S := S1x64) hz2, View.ld_unit_zero (S := S64x128) hz2,
    View.ld_unit_zero (S := S1x128) hz2, View.ld_unit_zero (S := S16384x128) hz2, View.ld_unit_zero (S := S2x128) hz2]

end Cert.KernelIdeal.R1

end
-- ==== Proof.R1Payload.lean ====
/-
  Layer 2's kernel body as arithmetic on the extended reals, read at explicit coordinates.

  With exact arithmetic the change of float format is the identity.  The activation block at row r and channel k is
  the maximum of zero and the input at (r, k) times the scale of channel k plus the shift of channel k.  The product
  block at row r and channel o is the sum over the 64 input channels of the activation times the weight, plus the bias
  of channel o.  A column sum over the block's rows is a sum over the 16384 row indices.  The statistics block's row 0
  at channel o is its previous value plus the column sum of the product block, and row 1 its previous value plus the
  column sum of the product block's square.
-/
import proofs.«128329_j6322191859819_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.ValueIdx
open scoped BigOperators

namespace Cert.KernelIdeal.R1

open Cert.KernelIdeal Cert.KernelIdeal.Gen

/-! ## The matrix product's operand indices -/

theorem lhs_0 (i : S16384x128.Idx) (q : dot_S16384x64_S64x128_S16384x128_1_0_0_1_n_n.contr.Idx) : (dot_S16384x64_S64x128_S16384x128_1_0_0_1_n_n.lhsIdx i q 0).val = (i 0).val := by
  unfold DotDims.lhsIdx
  rw [dif_neg (show ¬(0 : Fin S16384x64.rank) ∈ dot_S16384x64_S64x128_S16384x128_1_0_0_1_n_n.lhsBatch by decide), dif_pos (show (0 : Fin S16384x64.rank) ∈ dot_S16384x64_S64x128_S16384x128_1_0_0_1_n_n.lhsNonContracting by decide)]
  rfl

theorem lhs_1 (i : S16384x128.Idx) (q : dot_S16384x64_S64x128_S16384x128_1_0_0_1_n_n.contr.Idx) : (dot_S16384x64_S64x128_S16384x128_1_0_0_1_n_n.lhsIdx i q 1).val = (q ⟨0, by decide⟩).val :=
  dot_S16384x64_S64x128_S16384x128_1_0_0_1_n_n.lhsIdx_val_of_single rfl i q

theorem rhs_0 (i : S16384x128.Idx) (q : dot_S16384x64_S64x128_S16384x128_1_0_0_1_n_n.contr.Idx) : (dot_S16384x64_S64x128_S16384x128_1_0_0_1_n_n.rhsIdx i q 0).val = (q ⟨0, by decide⟩).val :=
  dot_S16384x64_S64x128_S16384x128_1_0_0_1_n_n.rhsIdx_val_of_single rfl i q

theorem rhs_1 (i : S16384x128.Idx) (q : dot_S16384x64_S64x128_S16384x128_1_0_0_1_n_n.contr.Idx) : (dot_S16384x64_S64x128_S16384x128_1_0_0_1_n_n.rhsIdx i q 1).val = (i 1).val := by
  unfold DotDims.rhsIdx
  rw [dif_neg (show ¬(1 : Fin S64x128.rank) ∈ dot_S16384x64_S64x128_S16384x128_1_0_0_1_n_n.rhsBatch by decide), dif_pos (show (1 : Fin S64x128.rank) ∈ dot_S16384x64_S64x128_S16384x128_1_0_0_1_n_n.rhsNonContracting by decide)]
  rfl

/-- The product of a 16384 × 64 block and the 64 × 128 weights into a zero accumulator, at row `r` and channel `o`:
    the sum over the 64 contracted coordinates. -/
theorem prod_apply (x : FVec Ideal S16384x64 .bf16) (w : FVec Ideal S64x128 .bf16) (r : Fin 16384) (o : Fin 128) :
    matmul dot_S16384x64_S64x128_S16384x128_1_0_0_1_n_n none x w (constant (F := Ideal) S16384x128 .f32 0x00000000#32) (ix2 r o)
      = ∑ k : Fin 64, x (ix2 r k) * w (ix2 k o) := by
  simp only [matmul]
  rw [Ideal.matmul_constant_zero_apply, ← Equiv.sum_comp (contrEquiv1 dot_S16384x64_S64x128_S16384x128_1_0_0_1_n_n 64 rfl rfl).symm]
  refine Finset.sum_congr rfl fun k _ => ?_
  have hk := contrEquiv1_symm_val dot_S16384x64_S64x128_S16384x128_1_0_0_1_n_n 64 rfl rfl k
  have el : dot_S16384x64_S64x128_S16384x128_1_0_0_1_n_n.lhsIdx (ix2 r o) ((contrEquiv1 dot_S16384x64_S64x128_S16384x128_1_0_0_1_n_n 64 rfl rfl).symm k) = ix2 r k := funext fun a => Fin.ext (by
    match a with
    | ⟨0, _⟩ => exact lhs_0 _ _
    | ⟨1, _⟩ => exact (lhs_1 _ _).trans hk)
  have er : dot_S16384x64_S64x128_S16384x128_1_0_0_1_n_n.rhsIdx (ix2 r o) ((contrEquiv1 dot_S16384x64_S64x128_S16384x128_1_0_0_1_n_n 64 rfl rfl).symm k) = ix2 k o := funext fun a => Fin.ext (by
    match a with
    | ⟨0, _⟩ => exact (rhs_0 _ _).trans hk
    | ⟨1, _⟩ => exact rhs_1 _ _)
  rw [el, er]

/-! ## The body's stored values -/

/-- The zero block reads zero. -/
theorem pay2_apply (i : S2x128.Idx) : k1_pay2 (F := Ideal) i = 0 := by
  unfold k1_pay2
  exact Ideal.ofBits_zero_f32

/-- The activation block at row `r`, channel `k`: the rectified affine map of the input by the scale and shift rows. -/
theorem pay3_apply (x0 : Vec Ideal S16384x64 .f32) (x1 : Vec Ideal S1x64 .f32) (x2 : Vec Ideal S1x64 .f32) (r : Fin 16384) (k : Fin 64) :
    k1_pay3 (F := Ideal) x0 x1 x2 (ix2 r k) = max (x0 (ix2 r k) * x1 (ix2 (0 : Fin 1) k) + x2 (ix2 (0 : Fin 1) k)) 0 := by
  unfold k1_pay3
  refine (maximumf_apply _ _ _).trans ?_
  refine congrArg₂ max ?_ Ideal.ofBits_zero_f32
  refine (addf_apply _ _ _).trans ?_
  refine congrArg₂ (· + ·) ?_ ?_
  · refine (mulf_apply _ _ _).trans ?_
    refine congrArg₂ (· * ·) (by simp only [shapeCast_self]) ?_
    refine (broadcastTo_1b_ab_apply _ _ r k).trans ?_
    simp only [shapeCast_self]
  · refine (broadcastTo_1b_ab_apply _ _ r k).trans ?_
    simp only [shapeCast_self]

/-- The product block at row `r`, channel `o`: the linear map of the row's 64 activations plus the bias. -/
theorem pay4_apply (x0 : Vec Ideal S16384x64 .f32) (x1 : Vec Ideal S1x64 .f32) (x2 : Vec Ideal S1x64 .f32) (x3 : Vec Ideal S64x128 .f32)
    (x4 : Vec Ideal S1x128 .f32) (r : Fin 16384) (o : Fin 128) :
    k1_pay4 (F := Ideal) x0 x1 x2 x3 x4 (ix2 r o)
      = (∑ k : Fin 64, k1_pay3 (F := Ideal) x0 x1 x2 (ix2 r k) * x3 (ix2 k o)) + x4 (ix2 (0 : Fin 1) o) := by
  unfold k1_pay4
  refine (addf_apply _ _ _).trans ?_
  refine congrArg₂ (· + ·) ?_ ?_
  · refine (prod_apply _ _ r o).trans ?_
    simp only [truncf_apply, shapeCast_self]
  · refine (broadcastTo_1b_ab_apply _ _ r o).trans ?_
    simp only [shapeCast_self]

/-- A column sum of a 16384 × 128 block, at channel `o`: the sum over the rows. -/
theorem colsum_apply (src : FVec Ideal S16384x128 .f32) (o : Fin 128) :
    multiReduction .add [0] S128 src 0x00000000#32 reduces_S16384x128_S128 (.inl rfl) rfl (ix1 o) = ∑ r : Fin 16384, src (ix2 r o) := by
  refine (Ideal.multiReduction_add_single src 0x00000000#32 reduces_S16384x128_S128 (.inl rfl) rfl (ix1 o)).trans ?_
  refine Finset.sum_congr rfl fun r _ => congrArg src ?_
  funext a
  match a with
  | ⟨0, _⟩ => rfl
  | ⟨1, _⟩ => rfl

/-- Two rows stacked: row 0 of the stack is the first row. -/
theorem stack_row0 (u v : FVec Ideal S1x128 .f32) (o : Fin 128) :
    concatenate S2x128 0 [⟨S1x128, u⟩, ⟨S1x128, v⟩] concatenates_S1x128_S1x128_S2x128_d0 (ix2 (0 : Fin 2) o) = u (ix2 (0 : Fin 1) o) :=
  concatenate_pair_apply_left (t := S2x128) (s₁ := S1x128) (s₂ := S1x128) (0 : Fin 2) u v concatenates_S1x128_S1x128_S2x128_d0
    (ix2 (0 : Fin 2) o) rfl (ix2 (0 : Fin 1) o) (fun b => by
      match b with
      | ⟨0, _⟩ => rfl
      | ⟨1, _⟩ => rfl)

/-- Two rows stacked: row 1 of the stack is the second row. -/
theorem stack_row1 (u v : FVec Ideal S1x128 .f32) (o : Fin 128) :
    concatenate S2x128 0 [⟨S1x128, u⟩, ⟨S1x128, v⟩] concatenates_S1x128_S1x128_S2x128_d0 (ix2 (1 : Fin 2) o) = v (ix2 (0 : Fin 1) o) :=
  concatenate_pair_apply_right (t := S2x128) (s₁ := S1x128) (s₂ := S1x128) (0 : Fin 2) u v concatenates_S1x128_S1x128_S2x128_d0
    (ix2 (1 : Fin 2) o) rfl rfl (ix2 (0 : Fin 1) o) (fun b hb => by
      match b with
      | ⟨0, _⟩ => exact absurd rfl hb
      | ⟨1, _⟩ => rfl) rfl

/-- Row 0 of the two stacked column sums at channel `o`: the column sum of the product block. -/
theorem pay6_apply_row0 (x0 : Vec Ideal S16384x64 .f32) (x1 : Vec Ideal S1x64 .f32) (x2 : Vec Ideal S1x64 .f32) (x3 : Vec Ideal S64x128 .f32)
    (x4 : Vec Ideal S1x128 .f32) (o : Fin 128) :
    k1_pay6 (F := Ideal) x0 x1 x2 x3 x4 (ix2 (0 : Fin 2) o) = ∑ r : Fin 16384, k1_pay4 (F := Ideal) x0 x1 x2 x3 x4 (ix2 r o) := by
  unfold k1_pay6
  refine (stack_row0 _ _ o).trans ?_
  refine (shapeCast_a_1a_apply _ _ 0 o).trans ?_
  exact colsum_apply _ o

/-- Row 1 of the two stacked column sums at channel `o`: the column sum of the squared product block. -/
theorem pay6_apply_row1 (x0 : Vec Ideal S16384x64 .f32) (x1 : Vec Ideal S1x64 .f32) (x2 : Vec Ideal S1x64 .f32) (x3 : Vec Ideal S64x128 .f32)
    (x4 : Vec Ideal S1x128 .f32) (o : Fin 128) :
    k1_pay6 (F := Ideal) x0 x1 x2 x3 x4 (ix2 (1 : Fin 2) o)
      = ∑ r : Fin 16384, k1_pay4 (F := Ideal) x0 x1 x2 x3 x4 (ix2 r o) * k1_pay4 (F := Ideal) x0 x1 x2 x3 x4 (ix2 r o) := by
  unfold k1_pay6
  refine (stack_row1 _ _ o).trans ?_
  refine (shapeCast_a_1a_apply _ _ 0 o).trans ?_
  refine (colsum_apply _ o).trans ?_
  rfl

/-- The statistics block after the body: its previous contents plus the two stacked column sums, entry by entry. -/
theorem pay1_apply (v : Vec Ideal S2x128 .f32) (u : FVec Ideal S2x128 .f32) (i : S2x128.Idx) :
    k1_pay1 (F := Ideal) (k1_pay5 (F := Ideal) v) u i = v i + u i := by
  unfold k1_pay1 k1_pay5
  refine (addf_apply _ _ _).trans ?_
  refine congrArg₂ (· + ·) (by simp only [shapeCast_self]) rfl

end Cert.KernelIdeal.R1

end
-- ==== Proof.R1Value.lean ====
/-
  Layer 2's kernel over the whole grid, point by point: what its three output blocks hold after each point.

  The grid has eight points; point t works on rows 16384·t … 16384·t + 16383 of the flattened points.  The activation
  and the product blocks after any point are the body's functions of that point's input blocks.  The statistics block
  is carried from point to point: by induction on the point it is the zero block plus, for each point so far, that
  point's two column sums; after the eighth point its row 0 is the sum of the eight points' column sums of the product
  and its row 1 the sum of their column sums of the squared product.  The input blocks are then read at coordinates:
  the first input's block at point t is rows 16384·t … of its array, the four others are their whole arrays.
-/
import proofs.«128329_j6322191859819_2_alg».proof.Proof.R1Pieces
import proofs.«128329_j6322191859819_2_alg».proof.Proof.R1Payload

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.R1

open Cert.KernelIdeal Cert.KernelIdeal.Gen

variable (V : (c : Dev nD) → (b : Ref sig .tc) → Buf (Elt Ideal) ((c : Thread nD τ).loc b))

/-! ## After each point -/

/-- After any point the activation output's buffer holds the body's rectified affine map of that point's input blocks. -/
theorem outsAt_5 (c : Dev nD) (t : Fin cfg1.N) :
    (outsAt1 V c t.val t.isLt).1 = k1_pay3 (F := Ideal) (iblk1 V c 0 t) (iblk1 V c 1 t) (iblk1 V c 2 t) := by
  by_cases h0 : t.val % 8 = 0
  · rw [outsAt1_A V c t h0]
    dsimp only
    exact out_A_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t)
  · rw [outsAt1_B V c t h0]
    dsimp only
    exact out_B_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t) _

/-- After any point the product output's buffer holds the body's product of that point's input blocks. -/
theorem outsAt_6 (c : Dev nD) (t : Fin cfg1.N) :
    (outsAt1 V c t.val t.isLt).2.1 = k1_pay4 (F := Ideal) (iblk1 V c 0 t) (iblk1 V c 1 t) (iblk1 V c 2 t) (iblk1 V c 3 t) (iblk1 V c 4 t) := by
  by_cases h0 : t.val % 8 = 0
  · rw [outsAt1_A V c t h0]
    dsimp only
    exact out_A_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t)
  · rw [outsAt1_B V c t h0]
    dsimp only
    exact out_B_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t) _

/-- The statistics block a point starts a run with: the zero block plus that point's column sums. -/
def statA (c : Dev nD) : (n : ℕ) → n < cfg1.N → Vec Ideal S2x128 .f32 :=
  fun n h => k1_pay1 (F := Ideal) (k1_pay5 (F := Ideal) (k1_pay2 (F := Ideal))) (k1_pay6 (F := Ideal) (iblk1 V c 0 ⟨n, h⟩) (iblk1 V c 1 ⟨n, h⟩) (iblk1 V c 2 ⟨n, h⟩) (iblk1 V c 3 ⟨n, h⟩) (iblk1 V c 4 ⟨n, h⟩))

/-- The statistics block a later point leaves: what the point before left plus that point's column sums. -/
def statG (c : Dev nD) : (n : ℕ) → n < cfg1.N → Vec Ideal S2x128 .f32 → Vec Ideal S2x128 .f32 :=
  fun n h acc => k1_pay1 (F := Ideal) (k1_pay5 (F := Ideal) acc) (k1_pay6 (F := Ideal) (iblk1 V c 0 ⟨n, h⟩) (iblk1 V c 1 ⟨n, h⟩) (iblk1 V c 2 ⟨n, h⟩) (iblk1 V c 3 ⟨n, h⟩) (iblk1 V c 4 ⟨n, h⟩))

/-- After point `t` the statistics buffer holds the fold over the points of `t`'s run so far. -/
theorem outsAt_7 (c : Dev nD) (t : Fin cfg1.N) (h' : 8 * (t.val / 8) + t.val % 8 < cfg1.N) :
    (outsAt1 V c t.val t.isLt).2.2 = Pipeline.accAt (statA V c) (statG V c) (8 * (t.val / 8)) (t.val % 8) h' :=
  Pipeline.eq_accAt_of_mod (fun n h => (outsAt1 V c n h).2.2) 8 (statA V c) (statG V c)
    (fun n h hm => by
      show (outsAt1 V c (⟨n, h⟩ : Fin cfg1.N).val (⟨n, h⟩ : Fin cfg1.N).isLt).2.2 = _
      rw [outsAt1_A V c ⟨n, h⟩ hm]
      dsimp only
      exact out_A_7 (F := Ideal) c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) (ms1_3 ⟨n, h⟩) (hs1_3 ⟨n, h⟩) (ms1_4 ⟨n, h⟩) (hs1_4 ⟨n, h⟩) (ms1_5 ⟨n, h⟩) (hs1_5 ⟨n, h⟩) (ms1_6 ⟨n, h⟩) (hs1_6 ⟨n, h⟩) (ms1_7 ⟨n, h⟩) (hs1_7 ⟨n, h⟩) ((hcond1_0 ⟨n, h⟩).mpr hm) (iblk1 V c 0 ⟨n, h⟩) (iblk1 V c 1 ⟨n, h⟩) (iblk1 V c 2 ⟨n, h⟩) (iblk1 V c 3 ⟨n, h⟩) (iblk1 V c 4 ⟨n, h⟩))
    (fun n h hm => by
      show (outsAt1 V c (⟨n + 1, h⟩ : Fin cfg1.N).val (⟨n + 1, h⟩ : Fin cfg1.N).isLt).2.2 = _
      rw [outsAt1_B V c ⟨n + 1, h⟩ hm]
      dsimp only
      exact out_B_7 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (fun hh => hm ((hcond1_0 ⟨n + 1, h⟩).mp hh)) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) _)
    (by decide) t.val t.isLt h'

/-! ## The statistics after the last point -/

/-- Point `n`'s column sum of the product block at channel `o` (zero past the grid). -/
def colS (c : Dev nD) (n : ℕ) (o : Fin 128) : EReal :=
  if h : n < cfg1.N then ∑ r : Fin 16384, k1_pay4 (F := Ideal) (iblk1 V c 0 ⟨n, h⟩) (iblk1 V c 1 ⟨n, h⟩) (iblk1 V c 2 ⟨n, h⟩) (iblk1 V c 3 ⟨n, h⟩) (iblk1 V c 4 ⟨n, h⟩) (ix2 r o) else 0

/-- Point `n`'s column sum of the squared product block at channel `o` (zero past the grid). -/
def colQ (c : Dev nD) (n : ℕ) (o : Fin 128) : EReal :=
  if h : n < cfg1.N then ∑ r : Fin 16384, k1_pay4 (F := Ideal) (iblk1 V c 0 ⟨n, h⟩) (iblk1 V c 1 ⟨n, h⟩) (iblk1 V c 2 ⟨n, h⟩) (iblk1 V c 3 ⟨n, h⟩) (iblk1 V c 4 ⟨n, h⟩) (ix2 r o)
    * k1_pay4 (F := Ideal) (iblk1 V c 0 ⟨n, h⟩) (iblk1 V c 1 ⟨n, h⟩) (iblk1 V c 2 ⟨n, h⟩) (iblk1 V c 3 ⟨n, h⟩) (iblk1 V c 4 ⟨n, h⟩) (ix2 r o) else 0

/-- What point `n` adds to the statistics block: its column sum in row 0, its column sum of squares in row 1. -/
def addend (c : Dev nD) (n : ℕ) (i : S2x128.Idx) : EReal :=
  if (i 0).val = 0 then colS V c n (i 1) else colQ V c n (i 1)

/-- A point's step adds its addend to what the point before left. -/
theorem statG_apply (c : Dev nD) (n : ℕ) (h : n < cfg1.N) (acc : Vec Ideal S2x128 .f32) (i : S2x128.Idx) :
    statG V c n h acc i = acc i + addend V c n i := by
  obtain ⟨a, o, rfl⟩ : ∃ (a : Fin 2) (o : Fin 128), i = ix2 a o := ⟨i 0, i 1, eq_ix2 i⟩
  unfold statG
  match a with
  | ⟨0, _⟩ =>
    refine (pay1_apply acc _ (ix2 (0 : Fin 2) o)).trans ?_
    refine congrArg (acc (ix2 (0 : Fin 2) o) + ·) ?_
    refine (pay6_apply_row0 _ _ _ _ _ o).trans ?_
    unfold addend colS
    rw [if_pos rfl, dif_pos h]
  | ⟨1, h1⟩ =>
    refine (pay1_apply acc _ (ix2 (1 : Fin 2) o)).trans ?_
    refine congrArg (acc (ix2 (1 : Fin 2) o) + ·) ?_
    refine (pay6_apply_row1 _ _ _ _ _ o).trans ?_
    unfold addend colQ
    rw [if_neg (show ¬((ix2 (⟨1, h1⟩ : Fin 2) o : S2x128.Idx) 0).val = 0 from Nat.one_ne_zero), dif_pos h]

/-- After the eighth point the statistics block is the sum of the eight points' addends. -/
theorem stat_last (c : Dev nD) (h7 : 0 + 7 < cfg1.N) (i : S2x128.Idx) :
    Pipeline.accAt (statA V c) (statG V c) 0 7 h7 i = ∑ s ∈ Finset.range 8, addend V c s i := by
  have := Pipeline.accAt_add_apply (statA V c) (statG V c) (fun _ => (0 : EReal)) (addend V c) 0 7
    (fun h i => by
      show statG V c 0 h (k1_pay2 (F := Ideal)) i = _
      rw [statG_apply, pay2_apply])
    (fun n h acc i _ _ => statG_apply V c n h acc i) 7 (le_refl 7) h7 i
  rw [this, zero_add]
  exact Finset.sum_congr rfl fun s _ => by rw [Nat.zero_add]

/-- The fold read at the last point of the one run, whatever the spelling of its start and length. -/
theorem stat_last' (c : Dev nD) (b j : ℕ) (h : b + j < cfg1.N) (hb : b = 0) (hj : j = 7) (i : S2x128.Idx) :
    Pipeline.accAt (statA V c) (statG V c) b j h i = ∑ s ∈ Finset.range 8, addend V c s i := by
  subst hb; subst hj; exact stat_last V c h i

/-! ## The input blocks, read at coordinates -/

/-- The windows' index maps over the grid: the first input's window and the two block outputs' windows move with the
    point along the rows; the scale, the shift, the weights, the bias and the statistics stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = 0 ∧ win1_7.index t (1 : Fin 2) = 0 :=
  (by decide +kernel : ∀ t : Fin grid1.N, _)

/-- Row `r` of point `t`'s block of the first input is row 16384·t + r of its array. -/
theorem blk0_apply (c : Dev nD) (t : Fin cfg1.N) (r : Fin 16384) (k : Fin 64) (hr : t.val * 16384 + r.val < 131072) :
    (iblk1 V c 0 t : Vec Ideal S16384x64 .f32) (ix2 r k) = V c main_v7_0 (ix2 ⟨t.val * 16384 + r.val, hr⟩ k) := by
  obtain ⟨e00, e01, e10, e11, e20, e21, e30, e31, e40, e41, e50, e51, e60, e61, e70, e71⟩ := idx_facts t
  unfold iblk1
  rw [View.read_apply]
  show V c main_v7_0 (((cfg1.win 0).blk t).view.emb (ix2 r k)) = _
  refine congrArg (V c main_v7_0) (funext fun a => Fin.ext ?_)
  match a with
  | ⟨0, _⟩ =>
    show win1_0.index t (0 : Fin 2) * 16384 + 1 * r.val = t.val * 16384 + r.val
    rw [e00]; omega
  | ⟨1, _⟩ =>
    show win1_0.index t (1 : Fin 2) * 64 + 1 * k.val = k.val
    rw [e01]; omega

/-- The scale block is the whole scale row at every point. -/
theorem blk1_apply (c : Dev nD) (t : Fin cfg1.N) (u : Fin 1) (k : Fin 64) :
    (iblk1 V c 1 t : Vec Ideal S1x64 .f32) (ix2 u k) = V c main_v22 (ix2 u k) := by
  obtain ⟨e00, e01, e10, e11, e20, e21, e30, e31, e40, e41, e50, e51, e60, e61, e70, e71⟩ := idx_facts t
  unfold iblk1
  rw [View.read_apply]
  show V c main_v22 (((cfg1.win 1).blk t).view.emb (ix2 u k)) = _
  refine congrArg (V c main_v22) (funext fun a => Fin.ext ?_)
  match a with
  | ⟨0, _⟩ =>
    show win1_1.index t (0 : Fin 2) * 1 + 1 * u.val = u.val
    rw [e10]; omega
  | ⟨1, _⟩ =>
    show win1_1.index t (1 : Fin 2) * 64 + 1 * k.val = k.val
    rw [e11]; omega

/-- The shift block is the whole shift row at every point. -/
theorem blk2_apply (c : Dev nD) (t : Fin cfg1.N) (u : Fin 1) (k : Fin 64) :
    (iblk1 V c 2 t : Vec Ideal S1x64 .f32) (ix2 u k) = V c main_v25 (ix2 u k) := by
  obtain ⟨e00, e01, e10, e11, e20, e21, e30, e31, e40, e41, e50, e51, e60, e61, e70, e71⟩ := idx_facts t
  unfold iblk1
  rw [View.read_apply]
  show V c main_v25 (((cfg1.win 2).blk t).view.emb (ix2 u k)) = _
  refine congrArg (V c main_v25) (funext fun a => Fin.ext ?_)
  match a with
  | ⟨0, _⟩ =>
    show win1_2.index t (0 : Fin 2) * 1 + 1 * u.val = u.val
    rw [e20]; omega
  | ⟨1, _⟩ =>
    show win1_2.index t (1 : Fin 2) * 64 + 1 * k.val = k.val
    rw [e21]; omega

/-- The weights' block is the whole weight array at every point. -/
theorem blk3_apply (c : Dev nD) (t : Fin cfg1.N) (k : Fin 64) (o : Fin 128) :
    (iblk1 V c 3 t : Vec Ideal S64x128 .f32) (ix2 k o) = V c main_v3 (ix2 k o) := by
  obtain ⟨e00, e01, e10, e11, e20, e21, e30, e31, e40, e41, e50, e51, e60, e61, e70, e71⟩ := idx_facts t
  unfold iblk1
  rw [View.read_apply]
  show V c main_v3 (((cfg1.win 3).blk t).view.emb (ix2 k o)) = _
  refine congrArg (V c main_v3) (funext fun a => Fin.ext ?_)
  match a with
  | ⟨0, _⟩ =>
    show win1_3.index t (0 : Fin 2) * 64 + 1 * k.val = k.val
    rw [e30]; omega
  | ⟨1, _⟩ =>
    show win1_3.index t (1 : Fin 2) * 128 + 1 * o.val = o.val
    rw [e31]; omega

/-- The bias block is the whole bias row at every point. -/
theorem blk4_apply (c : Dev nD) (t : Fin cfg1.N) (u : Fin 1) (o : Fin 128) :
    (iblk1 V c 4 t : Vec Ideal S1x128 .f32) (ix2 u o) = V c main_v4 (ix2 u o) := by
  obtain ⟨e00, e01, e10, e11, e20, e21, e30, e31, e40, e41, e50, e51, e60, e61, e70, e71⟩ := idx_facts t
  unfold iblk1
  rw [View.read_apply]
  show V c main_v4 (((cfg1.win 4).blk t).view.emb (ix2 u o)) = _
  refine congrArg (V c main_v4) (funext fun a => Fin.ext ?_)
  match a with
  | ⟨0, _⟩ =>
    show win1_4.index t (0 : Fin 2) * 1 + 1 * u.val = u.val
    rw [e40]; omega
  | ⟨1, _⟩ =>
    show win1_4.index t (1 : Fin 2) * 128 + 1 * o.val = o.val
    rw [e41]; omega

end Cert.KernelIdeal.R1

end
-- ==== Proof.R1Final.lean ====
/-
  Layer 2's kernel over the whole grid: what its three output arrays hold when the region ends.

  The activation output and the product output are written back at every point, point t onto rows 16384·t … of their
  arrays, so the arrays end as the rectified affine map of the whole first input, row by row, and as the linear map of
  that by the weights and the bias.  The statistics block is written back once, after the last point: its row 0 is the
  sum over the eight points of the column sums of the product, that is the sum of the product over all 131072 rows, and
  its row 1 likewise for the squared product.
-/
import proofs.«128329_j6322191859819_2_alg».proof.Proof.R1Value
import proofs.«128329_j6322191859819_2_alg».proof.Proof.KForms

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.R1

open Cert.KernelIdeal Cert.KernelIdeal.Gen

variable (V : (c : Dev nD) → (b : Ref sig .tc) → Buf (Elt Ideal) ((c : Thread nD τ).loc b))

/-! ## The body's values as the stages of the whole arrays -/

/-- The body's activation of a block that is rows `tv·16384 + r` of an array, under the whole scale and shift rows, is,
    at row `y 0` of the block, the rectified affine map of the array at row `tv·16384 + y 0`. -/
theorem act_block (X : S131072x64.Idx → EReal) (S T : S1x64.Idx → EReal)
    (x0 : Vec Ideal S16384x64 .f32) (x1 : Vec Ideal S1x64 .f32) (x2 : Vec Ideal S1x64 .f32) (tv : ℕ)
    (h0 : ∀ (r : Fin 16384) (k : Fin 64) (hr : tv * 16384 + r.val < 131072), x0 (ix2 r k) = X (ix2 ⟨tv * 16384 + r.val, hr⟩ k))
    (h1 : ∀ (k : Fin 64), x1 (ix2 (0 : Fin 1) k) = S (ix2 (0 : Fin 1) k))
    (h2 : ∀ (k : Fin 64), x2 (ix2 (0 : Fin 1) k) = T (ix2 (0 : Fin 1) k))
    (y : S16384x64.Idx) (i : S131072x64.Idx) (hi0 : (i 0).val = tv * 16384 + (y 0).val) (hi1 : (i 1).val = (y 1).val) :
    k1_pay3 (F := Ideal) x0 x1 x2 y = Cert.KForms.actF X S T i := by
  obtain ⟨r, k, rfl⟩ : ∃ (r : Fin 16384) (k : Fin 64), y = ix2 r k := ⟨y 0, y 1, eq_ix2 y⟩
  obtain ⟨p, k', rfl⟩ : ∃ (p : Fin 131072) (k' : Fin 64), i = ix2 p k' := ⟨i 0, i 1, eq_ix2 i⟩
  have hp : p.val = tv * 16384 + r.val := hi0
  obtain rfl : k = k' := (Fin.ext hi1).symm
  have hr : tv * 16384 + r.val < 131072 := hp ▸ p.isLt
  obtain rfl : p = ⟨tv * 16384 + r.val, hr⟩ := Fin.ext hp
  rw [pay3_apply, h0 r k hr, h1 k, h2 k]
  rfl

/-- The body's product of such a block, under the whole weights and bias row, is, at row `y 0` of the block, the linear
    map of the activation of the array at row `tv·16384 + y 0`. -/
theorem lin_block (X : S131072x64.Idx → EReal) (S T : S1x64.Idx → EReal) (W : S64x128.Idx → EReal) (B : S1x128.Idx → EReal)
    (x0 : Vec Ideal S16384x64 .f32) (x1 : Vec Ideal S1x64 .f32) (x2 : Vec Ideal S1x64 .f32) (x3 : Vec Ideal S64x128 .f32)
    (x4 : Vec Ideal S1x128 .f32) (tv : ℕ)
    (h0 : ∀ (r : Fin 16384) (k : Fin 64) (hr : tv * 16384 + r.val < 131072), x0 (ix2 r k) = X (ix2 ⟨tv * 16384 + r.val, hr⟩ k))
    (h1 : ∀ (k : Fin 64), x1 (ix2 (0 : Fin 1) k) = S (ix2 (0 : Fin 1) k))
    (h2 : ∀ (k : Fin 64), x2 (ix2 (0 : Fin 1) k) = T (ix2 (0 : Fin 1) k))
    (h3 : ∀ (k : Fin 64) (o : Fin 128), x3 (ix2 k o) = W (ix2 k o))
    (h4 : ∀ (o : Fin 128), x4 (ix2 (0 : Fin 1) o) = B (ix2 (0 : Fin 1) o))
    (y : S16384x128.Idx) (i : S131072x128.Idx) (hi0 : (i 0).val = tv * 16384 + (y 0).val) (hi1 : (i 1).val = (y 1).val) :
    k1_pay4 (F := Ideal) x0 x1 x2 x3 x4 y = Cert.KForms.linF (Cert.KForms.actF X S T) W B i := by
  obtain ⟨r, o, rfl⟩ : ∃ (r : Fin 16384) (o : Fin 128), y = ix2 r o := ⟨y 0, y 1, eq_ix2 y⟩
  obtain ⟨p, o', rfl⟩ : ∃ (p : Fin 131072) (o' : Fin 128), i = ix2 p o' := ⟨i 0, i 1, eq_ix2 i⟩
  have hp : p.val = tv * 16384 + r.val := hi0
  obtain rfl : o = o' := (Fin.ext hi1).symm
  have hr : tv * 16384 + r.val < 131072 := hp ▸ p.isLt
  obtain rfl : p = ⟨tv * 16384 + r.val, hr⟩ := Fin.ext hp
  rw [pay4_apply]
  unfold Cert.KForms.linF
  refine congrArg₂ (· + ·) (Finset.sum_congr rfl fun k _ => ?_) (h4 o)
  rw [h3 k o]
  exact congrArg (· * W (ix2 k o)) (act_block X S T x0 x1 x2 tv h0 h1 h2 (ix2 r k) (ix2 ⟨tv * 16384 + r.val, hr⟩ k) rfl rfl)

/-! ## The activation output's array -/

/-- An index of the activation array is in point `t`'s block iff each coordinate is in the block's range on its axis. -/
theorem mem_blk5 (t : Fin cfg1.N) (i : S131072x64.Idx) :
    i ∈ ((cfg1.win 5).blk t).view.set ↔ ∀ a : Fin 2, win1_5.index t a * S16384x64.size a ≤ (i a).val
      ∧ (i a).val < win1_5.index t a * S16384x64.size a + S16384x64.size a := by
  show i ∈ ((View.whole main_v26_0).slice (win1_5.rect t)).set ↔ _
  rw [View.set_slice_whole, Rect.mem_set_unit]
  exact Iff.rfl

/-- What point `t` writes back of the activation output is block `t` of the activation of the whole first input. -/
theorem flushed5_eq (c : Dev nD) (t : Fin cfg1.N) :
    (dat1 V c).flushed 5 t = ((cfg1.win 5).blk t).view.read (Elt Ideal) (Cert.KForms.actF (V c main_v7_0) (V c main_v22) (V c main_v25)) := by
  obtain ⟨e00, e01, e10, e11, e20, e21, e30, e31, e40, e41, e50, e51, e60, e61, e70, e71⟩ := idx_facts t
  show (cfg1.win 5).cut (grid1.coords t) ((dat1 V c).after 5 t) = _
  rw [after1_5, outsAt_5]
  funext j
  rw [View.read_apply]
  exact act_block (V c main_v7_0) (V c main_v22) (V c main_v25) (iblk1 V c 0 t) (iblk1 V c 1 t) (iblk1 V c 2 t) t.val
    (fun r k hr => blk0_apply V c t r k hr) (fun k => blk1_apply V c t 0 k) (fun k => blk2_apply V c t 0 k) j
    (((cfg1.win 5).blk t).view.emb j)
    (by show win1_5.index t (0 : Fin 2) * 16384 + 1 * (j 0).val = t.val * 16384 + (j 0).val
        rw [e50]; omega)
    (by show win1_5.index t (1 : Fin 2) * 64 + 1 * (j 1).val = (j 1).val
        rw [e51]; omega)

/-- The activation output's array when the region ends: the rectified affine map of the whole first input. -/
theorem final5 (c : Dev nD) : (dat1 V c).arrAt 5 cfg1.N = Cert.KForms.actF (V c main_v7_0) (V c main_v22) (V c main_v25) :=
  (dat1 V c).arrAt_eq_of_cover 5 _ (fun t _ => flushed5_eq V c t) fun i => by
    have hi0 : (i 0).val < 131072 := (i 0).isLt
    have hi1 : (i 1).val < 64 := (i 1).isLt
    have hN : cfg1.N = 8 := N_1
    refine ⟨⟨(i 0).val / 16384, by rw [hN]; omega⟩, flush1_5 _, ?_⟩
    rw [mem_blk5]
    intro a
    match a with
    | ⟨0, _⟩ =>
      show win1_5.index _ (0 : Fin 2) * 16384 ≤ (i 0).val ∧ (i 0).val < win1_5.index _ (0 : Fin 2) * 16384 + 16384
      rw [(idx_facts _).2.2.2.2.2.2.2.2.2.2.1]
      dsimp only
      omega
    | ⟨1, _⟩ =>
      show win1_5.index _ (1 : Fin 2) * 64 ≤ (i 1).val ∧ (i 1).val < win1_5.index _ (1 : Fin 2) * 64 + 64
      rw [(idx_facts _).2.2.2.2.2.2.2.2.2.2.2.1]
      omega

/-! ## The product output's array -/

/-- An index of the product array is in point `t`'s block iff each coordinate is in the block's range on its axis. -/
theorem mem_blk6 (t : Fin cfg1.N) (i : S131072x128.Idx) :
    i ∈ ((cfg1.win 6).blk t).view.set ↔ ∀ a : Fin 2, win1_6.index t a * S16384x128.size a ≤ (i a).val
      ∧ (i a).val < win1_6.index t a * S16384x128.size a + S16384x128.size a := by
  show i ∈ ((View.whole main_v26_1).slice (win1_6.rect t)).set ↔ _
  rw [View.set_slice_whole, Rect.mem_set_unit]
  exact Iff.rfl

/-- What point `t` writes back of the product output is block `t` of the linear map of the whole activation. -/
theorem flushed6_eq (c : Dev nD) (t : Fin cfg1.N) :
    (dat1 V c).flushed 6 t = ((cfg1.win 6).blk t).view.read (Elt Ideal) (Cert.KForms.linF (Cert.KForms.actF (V c main_v7_0) (V c main_v22) (V c main_v25)) (V c main_v3) (V c main_v4)) := by
  obtain ⟨e00, e01, e10, e11, e20, e21, e30, e31, e40, e41, e50, e51, e60, e61, e70, e71⟩ := idx_facts t
  show (cfg1.win 6).cut (grid1.coords t) ((dat1 V c).after 6 t) = _
  rw [after1_6, outsAt_6]
  funext j
  rw [View.read_apply]
  exact lin_block (V c main_v7_0) (V c main_v22) (V c main_v25) (V c main_v3) (V c main_v4)
    (iblk1 V c 0 t) (iblk1 V c 1 t) (iblk1 V c 2 t) (iblk1 V c 3 t) (iblk1 V c 4 t) t.val
    (fun r k hr => blk0_apply V c t r k hr) (fun k => blk1_apply V c t 0 k) (fun k => blk2_apply V c t 0 k)
    (fun k o => blk3_apply V c t k o) (fun o => blk4_apply V c t 0 o) j
    (((cfg1.win 6).blk t).view.emb j)
    (by show win1_6.index t (0 : Fin 2) * 16384 + 1 * (j 0).val = t.val * 16384 + (j 0).val
        rw [e60]; omega)
    (by show win1_6.index t (1 : Fin 2) * 128 + 1 * (j 1).val = (j 1).val
        rw [e61]; omega)

/-- The product output's array when the region ends: the linear map of the whole activation. -/
theorem final6 (c : Dev nD) : (dat1 V c).arrAt 6 cfg1.N = Cert.KForms.linF (Cert.KForms.actF (V c main_v7_0) (V c main_v22) (V c main_v25)) (V c main_v3) (V c main_v4) :=
  (dat1 V c).arrAt_eq_of_cover 6 _ (fun t _ => flushed6_eq V c t) fun i => by
    have hi0 : (i 0).val < 131072 := (i 0).isLt
    have hi1 : (i 1).val < 128 := (i 1).isLt
    have hN : cfg1.N = 8 := N_1
    refine ⟨⟨(i 0).val / 16384, by rw [hN]; omega⟩, flush1_6 _, ?_⟩
    rw [mem_blk6]
    intro a
    match a with
    | ⟨0, _⟩ =>
      show win1_6.index _ (0 : Fin 2) * 16384 ≤ (i 0).val ∧ (i 0).val < win1_6.index _ (0 : Fin 2) * 16384 + 16384
      rw [(idx_facts _).2.2.2.2.2.2.2.2.2.2.2.2.1]
      dsimp only
      omega
    | ⟨1, _⟩ =>
      show win1_6.index _ (1 : Fin 2) * 128 ≤ (i 1).val ∧ (i 1).val < win1_6.index _ (1 : Fin 2) * 128 + 128
      rw [(idx_facts _).2.2.2.2.2.2.2.2.2.2.2.2.2.1]
      omega

/-! ## The statistics output's array -/

/-- A point's column sum of the product block is the sum over the point's rows of the linear map of the whole activation. -/
theorem colS_eq (c : Dev nD) (s : Fin 8) (o : Fin 128) :
    colS V c s.val o = ∑ n : Fin 16384, Cert.KForms.linF (Cert.KForms.actF (V c main_v7_0) (V c main_v22) (V c main_v25)) (V c main_v3) (V c main_v4) (ix2 (Cert.KForms.pt s n) o) := by
  have hs : s.val < cfg1.N := by rw [show cfg1.N = 8 from N_1]; exact s.isLt
  unfold colS
  rw [dif_pos hs]
  refine Finset.sum_congr rfl fun n _ => ?_
  exact lin_block (V c main_v7_0) (V c main_v22) (V c main_v25) (V c main_v3) (V c main_v4) _ _ _ _ _ s.val
    (fun r k hr => blk0_apply V c ⟨s.val, hs⟩ r k hr) (fun k => blk1_apply V c ⟨s.val, hs⟩ 0 k)
    (fun k => blk2_apply V c ⟨s.val, hs⟩ 0 k) (fun k o => blk3_apply V c ⟨s.val, hs⟩ k o)
    (fun o => blk4_apply V c ⟨s.val, hs⟩ 0 o) (ix2 n o) (ix2 (Cert.KForms.pt s n) o) rfl rfl

/-- A point's column sum of the squared product block, likewise. -/
theorem colQ_eq (c : Dev nD) (s : Fin 8) (o : Fin 128) :
    colQ V c s.val o = ∑ n : Fin 16384, Cert.KForms.linF (Cert.KForms.actF (V c main_v7_0) (V c main_v22) (V c main_v25)) (V c main_v3) (V c main_v4) (ix2 (Cert.KForms.pt s n) o) * Cert.KForms.linF (Cert.KForms.actF (V c main_v7_0) (V c main_v22) (V c main_v25)) (V c main_v3) (V c main_v4) (ix2 (Cert.KForms.pt s n) o) := by
  have hs : s.val < cfg1.N := by rw [show cfg1.N = 8 from N_1]; exact s.isLt
  unfold colQ
  rw [dif_pos hs]
  refine Finset.sum_congr rfl fun n _ => ?_
  have e := lin_block (V c main_v7_0) (V c main_v22) (V c main_v25) (V c main_v3) (V c main_v4) _ _ _ _ _ s.val
    (fun r k hr => blk0_apply V c ⟨s.val, hs⟩ r k hr) (fun k => blk1_apply V c ⟨s.val, hs⟩ 0 k)
    (fun k => blk2_apply V c ⟨s.val, hs⟩ 0 k) (fun k o => blk3_apply V c ⟨s.val, hs⟩ k o)
    (fun o => blk4_apply V c ⟨s.val, hs⟩ 0 o) (ix2 n o) (ix2 (Cert.KForms.pt s n) o) rfl rfl
  rw [e]

/-- The eight points' addends sum to the statistics of the linear map of the whole activation. -/
theorem sum_addend (c : Dev nD) (i : S2x128.Idx) :
    ∑ s ∈ Finset.range 8, addend V c s i = Cert.KForms.statsF (Cert.KForms.linF (Cert.KForms.actF (V c main_v7_0) (V c main_v22) (V c main_v25)) (V c main_v3) (V c main_v4)) i := by
  rw [Finset.sum_range]
  unfold addend Cert.KForms.statsF
  by_cases h0 : (i 0).val = 0
  · rw [if_pos h0]
    simp only [h0, if_true]
    exact Finset.sum_congr rfl fun s _ => colS_eq V c s (i 1)
  · rw [if_neg h0]
    simp only [h0, if_false]
    exact Finset.sum_congr rfl fun s _ => colQ_eq V c s (i 1)

/-- The one write-back of the statistics, after the last point, writes the statistics of the whole product. -/
theorem flushed7_eq (c : Dev nD) (t : Fin cfg1.N) (hf : (cfg1.win 7).flush t = true) :
    (dat1 V c).flushed 7 t = ((cfg1.win 7).blk t).view.read (Elt Ideal) (Cert.KForms.statsF (Cert.KForms.linF (Cert.KForms.actF (V c main_v7_0) (V c main_v22) (V c main_v25)) (V c main_v3) (V c main_v4))) := by
  obtain ⟨e00, e01, e10, e11, e20, e21, e30, e31, e40, e41, e50, e51, e60, e61, e70, e71⟩ := idx_facts t
  have hN : cfg1.N = 8 := N_1
  have h7 : t.val = 7 := by have := (flush1_7 t).mp hf; have := t.isLt; omega
  show (cfg1.win 7).cut (grid1.coords t) ((dat1 V c).after 7 t) = _
  rw [after1_7, outsAt_7 V c t (by omega)]
  funext j
  rw [View.read_apply]
  have he : ((cfg1.win 7).blk t).view.emb j = (j : S2x128.Idx) := funext fun a => Fin.ext (by
    match a with
    | ⟨0, _⟩ =>
      show win1_7.index t (0 : Fin 2) * 2 + 1 * (j 0).val = (j 0).val
      rw [e70]; omega
    | ⟨1, _⟩ =>
      show win1_7.index t (1 : Fin 2) * 128 + 1 * (j 1).val = (j 1).val
      rw [e71]; omega)
  rw [he]
  exact (stat_last' V c _ _ _ (by omega) (by omega) j).trans (sum_addend V c j)

/-- An index of the statistics array is in a point's block iff each coordinate is in the block's range on its axis. -/
theorem mem_blk7 (t : Fin cfg1.N) (i : S2x128.Idx) :
    i ∈ ((cfg1.win 7).blk t).view.set ↔ ∀ a : Fin 2, win1_7.index t a * S2x128.size a ≤ (i a).val
      ∧ (i a).val < win1_7.index t a * S2x128.size a + S2x128.size a := by
  show i ∈ ((View.whole main_v26_2).slice (win1_7.rect t)).set ↔ _
  rw [View.set_slice_whole, Rect.mem_set_unit]
  exact Iff.rfl

/-- The statistics output's array when the region ends: per channel, the sum over all points of the product and of its
    square. -/
theorem final7 (c : Dev nD) : (dat1 V c).arrAt 7 cfg1.N = Cert.KForms.statsF (Cert.KForms.linF (Cert.KForms.actF (V c main_v7_0) (V c main_v22) (V c main_v25)) (V c main_v3) (V c main_v4)) :=
  (dat1 V c).arrAt_eq_of_cover 7 _ (fun t hf => flushed7_eq V c t hf) fun i => by
    have hi0 : (i 0).val < 2 := (i 0).isLt
    have hi1 : (i 1).val < 128 := (i 1).isLt
    have hN : cfg1.N = 8 := N_1
    refine ⟨⟨7, by rw [hN]; omega⟩, (flush1_7 _).mpr rfl, ?_⟩
    rw [mem_blk7]
    intro a
    match a with
    | ⟨0, _⟩ =>
      show win1_7.index _ (0 : Fin 2) * 2 ≤ (i 0).val ∧ (i 0).val < win1_7.index _ (0 : Fin 2) * 2 + 2
      rw [(idx_facts _).2.2.2.2.2.2.2.2.2.2.2.2.2.2.1]
      omega
    | ⟨1, _⟩ =>
      show win1_7.index _ (1 : Fin 2) * 128 ≤ (i 1).val ∧ (i 1).val < win1_7.index _ (1 : Fin 2) * 128 + 128
      rw [(idx_facts _).2.2.2.2.2.2.2.2.2.2.2.2.2.2.2]
      omega

end Cert.KernelIdeal.R1

end
-- ==== Proof.R2Pieces.lean ====
/-
  Layer 3's kernel, point by point: what one run of the body leaves in its two output blocks.

  The body maps its 4096 × 128 block of the previous layer's product by the scale row and the shift row, rectifies it,
  multiplies the result by the 128 × 1024 weights, adds the bias row, and stores the 4096 × 1024 product block whole; then
  it adds the column sums of that block and of its square, as two rows, into the 2 × 1024 statistics block.  At the first
  grid point the statistics block is first set to zero; at every later point it is read as the point before left it.
  Each lemma below says that one output block after the body is one pure function of the input blocks (and, for the
  statistics, of the block's previous contents).
-/
import proofs.«128329_j6322191859819_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.R2

open Cert.KernelIdeal Cert.KernelIdeal.Gen

variable {F : FTy → Type} [FloatOps F]

/-- The zero offset of a rank-2 rectangle. -/
theorem hz2 : (![0, 0] : Fin 2 → Nat) = fun _ => 0 := funext fun a => by fin_cases a <;> rfl

/-- At the first point the product block is the body's product of the input blocks. -/
theorem out_A_5 (c : Dev nD) (i : grid2.Coords) (a1 : Memref sig .tc .vmem S4096x128 .f32) (h1 : a1.IsWhole)
    (a2 : Memref sig .tc .vmem S1x128 .f32) (h2 : a2.IsWhole) (a3 : Memref sig .tc .vmem S1x128 .f32) (h3 : a3.IsWhole)
    (a4 : Memref sig .tc .vmem S128x1024 .f32) (h4 : a4.IsWhole) (a5 : Memref sig .tc .vmem S1x1024 .f32) (h5 : a5.IsWhole)
    (a6 : Memref sig .tc .vmem S4096x1024 .f32) (h6 : a6.IsWhole) (a7 : Memref sig .tc .vmem S2x1024 .f32) (h7 : a7.IsWhole)
    (hc : cond2_0 i) (x0 : Vec F S4096x128 .f32) (x1 : Vec F S1x128 .f32) (x2 : Vec F S1x128 .f32) (x3 : Vec F S128x1024 .f32) (x4 : Vec F S1x1024 .f32) :
    out2_A_5 c i a1 h1 a2 h2 a3 h3 a4 h4 a5 h5 a6 h6 a7 h7 hc x0 x1 x2 x3 x4 = k2_pay2 x0 x1 x2 x3 x4 := by
  unfold out2_A_5
  rw [View.read_writes_eq_canon _ _ _ (cover2_A_5 c i a1 h1 a2 h2 a3 h3 a4 h4 a5 h5 a6 h6 a7 h7 hc x0 x1 x2 x3 x4)]
  unfold kernelRun2_A
  dsimp only
  sl_unfold_words
  rw [View.canon_unit_zero hz2]
  simp only [View.readAt_eq_ld, h1.read_unread, h2.read_unread, h3.read_unread, h4.read_unread, h5.read_unread, h7.read_unread,
    View.ld_unit_zero (S := S4096x128) hz2, View.ld_unit_zero (S := S1x128) hz2, View.ld_unit_zero (S := S128x1024) hz2,
    View.ld_unit_zero (S := S1x1024) hz2, View.ld_unit_zero (S := S2x1024) hz2]

/-- At a later point the product block is the same function of that point's input blocks. -/
theorem out_B_5 (c : Dev nD) (i : grid2.Coords) (a1 : Memref sig .tc .vmem S4096x128 .f32) (h1 : a1.IsWhole)
    (a2 : Memref sig .tc .vmem S1x128 .f32) (h2 : a2.IsWhole) (a3 : Memref sig .tc .vmem S1x128 .f32) (h3 : a3.IsWhole)
    (a4 : Memref sig .tc .vmem S128x1024 .f32) (h4 : a4.IsWhole) (a5 : Memref sig .tc .vmem S1x1024 .f32) (h5 : a5.IsWhole)
    (a6 : Memref sig .tc .vmem S4096x1024 .f32) (h6 : a6.IsWhole) (a7 : Memref sig .tc .vmem S2x1024 .f32) (h7 : a7.IsWhole)
    (hc : ¬cond2_0 i) (x0 : Vec F S4096x128 .f32) (x1 : Vec F S1x128 .f32) (x2 : Vec F S1x128 .f32) (x3 : Vec F S128x1024 .f32) (x4 : Vec F S1x1024 .f32) (xo6 : Vec F S2x1024 .f32) :
    out2_B_5 c i a1 h1 a2 h2 a3 h3 a4 h4 a5 h5 a6 h6 a7 h7 hc x0 x1 x2 x3 x4 xo6 = k2_pay2 x0 x1 x2 x3 x4 := by
  unfold out2_B_5
  rw [View.read_writes_eq_canon _ _ _ (cover2_B_5 c i a1 h1 a2 h2 a3 h3 a4 h4 a5 h5 a6 h6 a7 h7 hc x0 x1 x2 x3 x4 xo6)]
  unfold kernelRun2_B
  dsimp only
  rw [View.canon_unit_zero hz2]
  simp only [View.readAt_eq_ld, h1.read_unread, h2.read_unread, h3.read_unread, h4.read_unread, h5.read_unread, h7.read_unread,
    View.ld_unit_zero (S := S4096x128) hz2, View.ld_unit_zero (S := S1x128) hz2, View.ld_unit_zero (S := S128x1024) hz2,
    View.ld_unit_zero (S := S1x1024) hz2, View.ld_unit_zero (S := S2x1024) hz2]

/-- At the first point the statistics block is the zero block plus the two rows of column sums. -/
theorem out_A_6 (c : Dev nD) (i : grid2.Coords) (a1 : Memref sig .tc .vmem S4096x128 .f32) (h1 : a1.IsWhole)
    (a2 : Memref sig .tc .vmem S1x128 .f32) (h2 : a2.IsWhole) (a3 : Memref sig .tc .vmem S1x128 .f32) (h3 : a3.IsWhole)
    (a4 : Memref sig .tc .vmem S128x1024 .f32) (h4 : a4.IsWhole) (a5 : Memref sig .tc .vmem S1x1024 .f32) (h5 : a5.IsWhole)
    (a6 : Memref sig .tc .vmem S4096x1024 .f32) (h6 : a6.IsWhole) (a7 : Memref sig .tc .vmem S2x1024 .f32) (h7 : a7.IsWhole)
    (hc : cond2_0 i) (x0 : Vec F S4096x128 .f32) (x1 : Vec F S1x128 .f32) (x2 : Vec F S1x128 .f32) (x3 : Vec F S128x1024 .f32) (x4 : Vec F S1x1024 .f32) :
    out2_A_6 c i a1 h1 a2 h2 a3 h3 a4 h4 a5 h5 a6 h6 a7 h7 hc x0 x1 x2 x3 x4 = k2_pay3 x0 x1 x2 x3 x4 k2_pay1 := by
  unfold out2_A_6
  rw [View.read_writes_eq_canon _ _ _ (cover2_A_6 c i a1 h1 a2 h2 a3 h3 a4 h4 a5 h5 a6 h6 a7 h7 hc x0 x1 x2 x3 x4)]
  unfold kernelRun2_A
  dsimp only
  sl_unfold_words
  rw [View.canon_cons_unit_zero (S := S2x1024) hz2, View.readCov_unit_zero (S := S2x1024) _ hz2]
  simp only [View.readAt_eq_ld, h1.read_unread, h2.read_unread, h3.read_unread, h4.read_unread, h5.read_unread, h7.read_unread,
    View.ld_unit_zero (S := S4096x128) hz2, View.ld_unit_zero (S := S1x128) hz2, View.ld_unit_zero (S := S128x1024) hz2,
    View.ld_unit_zero (S := S1x1024) hz2, View.ld_unit_zero (S := S2x1024) hz2]

/-- At a later point the statistics block is its previous contents plus the two rows of column sums. -/
theorem out_B_6 (c : Dev nD) (i : grid2.Coords) (a1 : Memref sig .tc .vmem S4096x128 .f32) (h1 : a1.IsWhole)
    (a2 : Memref sig .tc .vmem S1x128 .f32) (h2 : a2.IsWhole) (a3 : Memref sig .tc .vmem S1x128 .f32) (h3 : a3.IsWhole)
    (a4 : Memref sig .tc .vmem S128x1024 .f32) (h4 : a4.IsWhole) (a5 : Memref sig .tc .vmem S1x1024 .f32) (h5 : a5.IsWhole)
    (a6 : Memref sig .tc .vmem S4096x1024 .f32) (h6 : a6.IsWhole) (a7 : Memref sig .tc .vmem S2x1024 .f32) (h7 : a7.IsWhole)
    (hc : ¬cond2_0 i) (x0 : Vec F S4096x128 .f32) (x1 : Vec F S1x128 .f32) (x2 : Vec F S1x128 .f32) (x3 : Vec F S128x1024 .f32) (x4 : Vec F S1x1024 .f32) (xo6 : Vec F S2x1024 .f32) :
    out2_B_6 c i a1 h1 a2 h2 a3 h3 a4 h4 a5 h5 a6 h6 a7 h7 hc x0 x1 x2 x3 x4 xo6 = k2_pay3 x0 x1 x2 x3 x4 xo6 := by
  unfold out2_B_6
  rw [View.read_writes_eq_canon _ _ _ (cover2_B_6 c i a1 h1 a2 h2 a3 h3 a4 h4 a5 h5 a6 h6 a7 h7 hc x0 x1 x2 x3 x4 xo6)]
  unfold kernelRun2_B
  dsimp only
  sl_unfold_words
  rw [View.canon_unit_zero hz2]
  simp only [View.readAt_eq_ld, h1.read_unread, h2.read_unread, h3.read_unread, h4.read_unread, h5.read_unread, h7.read_unread,
    View.ld_unit_zero (S := S4096x128) hz2, View.ld_unit_zero (S := S1x128) hz2, View.ld_unit_zero (S := S128x1024) hz2,
    View.ld_unit_zero (S := S1x1024) hz2, View.ld_unit_zero (S := S2x1024) hz2]

end Cert.KernelIdeal.R2

end
-- ==== Proof.R2Payload.lean ====
/-
  Layer 3's kernel body as arithmetic on the extended reals, read at explicit coordinates.

  With exact arithmetic the change of float format is the identity, so the rectified block at row r and channel k is the
  maximum of zero and the input block's entry times the scale of channel k plus the shift of channel k; the body's product
  block at row r and channel o is the sum over the 128 input channels of the rectified entry times the weight, plus the
  bias of channel o.  A column sum over the block's rows is a sum over the 4096 row indices.  The statistics block's row 0
  at channel o is its previous value plus the column sum of the product block, and row 1 its previous value plus the
  column sum of the product block's square.
-/
import proofs.«128329_j6322191859819_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.ValueIdx
open scoped BigOperators

namespace Cert.KernelIdeal.R2

open Cert.KernelIdeal Cert.KernelIdeal.Gen

/-! ## The matrix product's operand indices -/

theorem lhs_0 (i : S4096x1024.Idx) (q : dot_S4096x128_S128x1024_S4096x1024_1_0_0_1_n_n.contr.Idx) : (dot_S4096x128_S128x1024_S4096x1024_1_0_0_1_n_n.lhsIdx i q 0).val = (i 0).val := by
  unfold DotDims.lhsIdx
  rw [dif_neg (show ¬(0 : Fin S4096x128.rank) ∈ dot_S4096x128_S128x1024_S4096x1024_1_0_0_1_n_n.lhsBatch by decide), dif_pos (show (0 : Fin S4096x128.rank) ∈ dot_S4096x128_S128x1024_S4096x1024_1_0_0_1_n_n.lhsNonContracting by decide)]
  rfl

theorem lhs_1 (i : S4096x1024.Idx) (q : dot_S4096x128_S128x1024_S4096x1024_1_0_0_1_n_n.contr.Idx) : (dot_S4096x128_S128x1024_S4096x1024_1_0_0_1_n_n.lhsIdx i q 1).val = (q ⟨0, by decide⟩).val :=
  dot_S4096x128_S128x1024_S4096x1024_1_0_0_1_n_n.lhsIdx_val_of_single rfl i q

theorem rhs_0 (i : S4096x1024.Idx) (q : dot_S4096x128_S128x1024_S4096x1024_1_0_0_1_n_n.contr.Idx) : (dot_S4096x128_S128x1024_S4096x1024_1_0_0_1_n_n.rhsIdx i q 0).val = (q ⟨0, by decide⟩).val :=
  dot_S4096x128_S128x1024_S4096x1024_1_0_0_1_n_n.rhsIdx_val_of_single rfl i q

theorem rhs_1 (i : S4096x1024.Idx) (q : dot_S4096x128_S128x1024_S4096x1024_1_0_0_1_n_n.contr.Idx) : (dot_S4096x128_S128x1024_S4096x1024_1_0_0_1_n_n.rhsIdx i q 1).val = (i 1).val := by
  unfold DotDims.rhsIdx
  rw [dif_neg (show ¬(1 : Fin S128x1024.rank) ∈ dot_S4096x128_S128x1024_S4096x1024_1_0_0_1_n_n.rhsBatch by decide), dif_pos (show (1 : Fin S128x1024.rank) ∈ dot_S4096x128_S128x1024_S4096x1024_1_0_0_1_n_n.rhsNonContracting by decide)]
  rfl

/-- The product of a 4096 × 128 block and the 128 × 1024 weights into a zero accumulator, at row `r` and channel `o`:
    the sum over the 128 contracted channels. -/
theorem prod_apply (x : FVec Ideal S4096x128 .bf16) (w : FVec Ideal S128x1024 .bf16) (r : Fin 4096) (o : Fin 1024) :
    matmul dot_S4096x128_S128x1024_S4096x1024_1_0_0_1_n_n none x w (constant (F := Ideal) S4096x1024 .f32 0x00000000#32) (ix2 r o)
      = ∑ k : Fin 128, x (ix2 r k) * w (ix2 k o) := by
  simp only [matmul]
  rw [Ideal.matmul_constant_zero_apply, ← Equiv.sum_comp (contrEquiv1 dot_S4096x128_S128x1024_S4096x1024_1_0_0_1_n_n 128 rfl rfl).symm]
  refine Finset.sum_congr rfl fun k _ => ?_
  have hk := contrEquiv1_symm_val dot_S4096x128_S128x1024_S4096x1024_1_0_0_1_n_n 128 rfl rfl k
  have el : dot_S4096x128_S128x1024_S4096x1024_1_0_0_1_n_n.lhsIdx (ix2 r o) ((contrEquiv1 dot_S4096x128_S128x1024_S4096x1024_1_0_0_1_n_n 128 rfl rfl).symm k) = ix2 r k := funext fun a => Fin.ext (by
    match a with
    | ⟨0, _⟩ => exact lhs_0 _ _
    | ⟨1, _⟩ => exact (lhs_1 _ _).trans hk)
  have er : dot_S4096x128_S128x1024_S4096x1024_1_0_0_1_n_n.rhsIdx (ix2 r o) ((contrEquiv1 dot_S4096x128_S128x1024_S4096x1024_1_0_0_1_n_n 128 rfl rfl).symm k) = ix2 k o := funext fun a => Fin.ext (by
    match a with
    | ⟨0, _⟩ => exact (rhs_0 _ _).trans hk
    | ⟨1, _⟩ => exact rhs_1 _ _)
  rw [el, er]

/-! ## The body's two stored values -/

/-- The rectified block at row `r`, channel `k`: the maximum of zero and the entry scaled and shifted by its channel's
    scale and shift. -/
theorem relu_apply (x0 : Vec Ideal S4096x128 .f32) (x1 : Vec Ideal S1x128 .f32) (x2 : Vec Ideal S1x128 .f32) (r : Fin 4096) (k : Fin 128) :
    maximumf (addf (mulf (shapeCast S4096x128 x0 shapeCasts_S4096x128_S4096x128)
        (broadcastTo S4096x128 (shapeCast S1x128 x1 shapeCasts_S1x128_S1x128) broadcasts_S1x128_S4096x128))
        (broadcastTo S4096x128 (shapeCast S1x128 x2 shapeCasts_S1x128_S1x128) broadcasts_S1x128_S4096x128))
      (broadcast S4096x128 (Scalar.ofBits (F := Ideal) .f32 0x00000000#32)) (ix2 r k)
      = max (x0 (ix2 r k) * x1 (ix2 (0 : Fin 1) k) + x2 (ix2 (0 : Fin 1) k)) 0 := by
  refine (maximumf_apply _ _ _).trans ?_
  refine congrArg₂ max ?_ Ideal.ofBits_zero_f32
  refine (addf_apply _ _ _).trans ?_
  refine congrArg₂ (· + ·) ?_ ?_
  · refine (mulf_apply _ _ _).trans ?_
    refine congrArg₂ (· * ·) ?_ ?_
    · simp only [shapeCast_self]
    · refine (broadcastTo_1b_ab_apply _ _ r k).trans ?_
      simp only [shapeCast_self]
  · refine (broadcastTo_1b_ab_apply _ _ r k).trans ?_
    simp only [shapeCast_self]

/-- The product block at row `r`, channel `o`: the linear map of the row's 128 rectified entries plus the bias. -/
theorem pay2_apply (x0 : Vec Ideal S4096x128 .f32) (x1 : Vec Ideal S1x128 .f32) (x2 : Vec Ideal S1x128 .f32)
    (x3 : Vec Ideal S128x1024 .f32) (x4 : Vec Ideal S1x1024 .f32) (r : Fin 4096) (o : Fin 1024) :
    k2_pay2 (F := Ideal) x0 x1 x2 x3 x4 (ix2 r o)
      = (∑ k : Fin 128, max (x0 (ix2 r k) * x1 (ix2 (0 : Fin 1) k) + x2 (ix2 (0 : Fin 1) k)) 0 * x3 (ix2 k o))
        + x4 (ix2 (0 : Fin 1) o) := by
  unfold k2_pay2
  refine (addf_apply _ _ _).trans ?_
  refine congrArg₂ (· + ·) ?_ ?_
  · refine (prod_apply _ _ r o).trans ?_
    refine Finset.sum_congr rfl fun k _ => ?_
    refine congrArg₂ (· * ·) ?_ ?_
    · exact relu_apply x0 x1 x2 r k
    · simp only [truncf_apply, shapeCast_self]
  · refine (broadcastTo_1b_ab_apply _ _ r o).trans ?_
    simp only [shapeCast_self]

/-- A column sum of a 4096 × 1024 block, at channel `o`: the sum over the rows. -/
theorem colsum_apply (src : FVec Ideal S4096x1024 .f32) (o : Fin 1024) :
    multiReduction .add [0] S1024 src 0x00000000#32 reduces_S4096x1024_S1024 (.inl rfl) rfl (ix1 o) = ∑ r : Fin 4096, src (ix2 r o) := by
  refine (Ideal.multiReduction_add_single src 0x00000000#32 reduces_S4096x1024_S1024 (.inl rfl) rfl (ix1 o)).trans ?_
  refine Finset.sum_congr rfl fun r _ => congrArg src ?_
  funext a
  match a with
  | ⟨0, _⟩ => rfl
  | ⟨1, _⟩ => rfl

/-- Two rows stacked: row 0 of the stack is the first row. -/
theorem stack_row0 (u v : FVec Ideal S1x1024 .f32) (o : Fin 1024) :
    concatenate S2x1024 0 [⟨S1x1024, u⟩, ⟨S1x1024, v⟩] concatenates_S1x1024_S1x1024_S2x1024_d0 (ix2 (0 : Fin 2) o) = u (ix2 (0 : Fin 1) o) :=
  concatenate_pair_apply_left (t := S2x1024) (s₁ := S1x1024) (s₂ := S1x1024) (0 : Fin 2) u v concatenates_S1x1024_S1x1024_S2x1024_d0
    (ix2 (0 : Fin 2) o) rfl (ix2 (0 : Fin 1) o) (fun b => by
      match b with
      | ⟨0, _⟩ => rfl
      | ⟨1, _⟩ => rfl)

/-- Two rows stacked: row 1 of the stack is the second row. -/
theorem stack_row1 (u v : FVec Ideal S1x1024 .f32) (o : Fin 1024) :
    concatenate S2x1024 0 [⟨S1x1024, u⟩, ⟨S1x1024, v⟩] concatenates_S1x1024_S1x1024_S2x1024_d0 (ix2 (1 : Fin 2) o) = v (ix2 (0 : Fin 1) o) :=
  concatenate_pair_apply_right (t := S2x1024) (s₁ := S1x1024) (s₂ := S1x1024) (0 : Fin 2) u v concatenates_S1x1024_S1x1024_S2x1024_d0
    (ix2 (1 : Fin 2) o) rfl rfl (ix2 (0 : Fin 1) o) (fun b hb => by
      match b with
      | ⟨0, _⟩ => exact absurd rfl hb
      | ⟨1, _⟩ => rfl) rfl

/-- Row 0 of the statistics block at channel `o`: its previous value plus the column sum of the product block. -/
theorem pay3_apply_row0 (x0 : Vec Ideal S4096x128 .f32) (x1 : Vec Ideal S1x128 .f32) (x2 : Vec Ideal S1x128 .f32)
    (x3 : Vec Ideal S128x1024 .f32) (x4 : Vec Ideal S1x1024 .f32) (v : Vec Ideal S2x1024 .f32) (o : Fin 1024) :
    k2_pay3 (F := Ideal) x0 x1 x2 x3 x4 v (ix2 (0 : Fin 2) o)
      = v (ix2 (0 : Fin 2) o) + ∑ r : Fin 4096, k2_pay2 (F := Ideal) x0 x1 x2 x3 x4 (ix2 r o) := by
  unfold k2_pay3
  refine (addf_apply _ _ _).trans ?_
  refine congrArg₂ (· + ·) (by simp only [shapeCast_self]) ?_
  refine (stack_row0 _ _ o).trans ?_
  refine (shapeCast_a_1a_apply _ _ 0 o).trans ?_
  exact colsum_apply _ o

/-- Row 1 of the statistics block at channel `o`: its previous value plus the column sum of the squared product block. -/
theorem pay3_apply_row1 (x0 : Vec Ideal S4096x128 .f32) (x1 : Vec Ideal S1x128 .f32) (x2 : Vec Ideal S1x128 .f32)
    (x3 : Vec Ideal S128x1024 .f32) (x4 : Vec Ideal S1x1024 .f32) (v : Vec Ideal S2x1024 .f32) (o : Fin 1024) :
    k2_pay3 (F := Ideal) x0 x1 x2 x3 x4 v (ix2 (1 : Fin 2) o)
      = v (ix2 (1 : Fin 2) o) + ∑ r : Fin 4096, k2_pay2 (F := Ideal) x0 x1 x2 x3 x4 (ix2 r o) * k2_pay2 (F := Ideal) x0 x1 x2 x3 x4 (ix2 r o) := by
  unfold k2_pay3
  refine (addf_apply _ _ _).trans ?_
  refine congrArg₂ (· + ·) (by simp only [shapeCast_self]) ?_
  refine (stack_row1 _ _ o).trans ?_
  refine (shapeCast_a_1a_apply _ _ 0 o).trans ?_
  refine (colsum_apply _ o).trans ?_
  rfl

end Cert.KernelIdeal.R2

end
-- ==== Proof.LibSumBlocks.lean ====
/-
  A sum over consecutive indices, cut into blocks of equal length.

  The a·b indices 0, 1, …, a·b − 1 are the a blocks of b consecutive indices i·b, i·b + 1, …, i·b + b − 1.  In an additive
  commutative monoid a sum over all of them is therefore the sum over the blocks of the sums within each block.  Two cuts
  of the same range, into a blocks of b and into a' blocks of b' with a·b = a'·b', give the same double sum.
-/
import Mathlib.Algebra.BigOperators.Fin

open scoped BigOperators

namespace Cert.LibSumBlocks

variable {M : Type*} [AddCommMonoid M]

/-- The sum over `a` blocks of `b` consecutive indices each is the sum over the first `a * b` indices. -/
theorem sum_range_blocks (f : ℕ → M) (a b : ℕ) :
    ∑ i ∈ Finset.range a, ∑ j ∈ Finset.range b, f (i * b + j) = ∑ p ∈ Finset.range (a * b), f p := by
  induction a with
  | zero => rw [Finset.sum_range_zero, Nat.zero_mul, Finset.sum_range_zero]
  | succ a ih => rw [Finset.sum_range_succ, ih, Nat.succ_mul, Finset.sum_range_add]

/-- The same with the block number and the position in the block ranging over `Fin a` and `Fin b`. -/
theorem sum_fin_blocks (f : ℕ → M) (a b : ℕ) :
    ∑ i : Fin a, ∑ j : Fin b, f (i.val * b + j.val) = ∑ p ∈ Finset.range (a * b), f p := by
  rw [← sum_range_blocks f a b, Finset.sum_range (fun i => ∑ j ∈ Finset.range b, f (i * b + j))]
  exact Finset.sum_congr rfl fun i _ => (Finset.sum_range (fun j => f (i.val * b + j))).symm

/-- Two cuts of the same range into equal blocks give the same double sum. -/
theorem sum_fin_blocks_eq (f : ℕ → M) (a b a' b' : ℕ) (h : a * b = a' * b') :
    ∑ i : Fin a, ∑ j : Fin b, f (i.val * b + j.val) = ∑ i : Fin a', ∑ j : Fin b', f (i.val * b' + j.val) := by
  rw [sum_fin_blocks f a b, sum_fin_blocks f a' b', h]

end Cert.LibSumBlocks
-- ==== Proof.R2Value.lean ====
/-
  Layer 3's kernel over the whole grid: what its two output arrays hold when the region ends.

  The grid has 32 points; point t works on rows 4096·t … 4096·t + 4095 of the flattened points.  The product output is
  written back at every point, so its array ends as the linear map of the rectified, affinely mapped input, row by row.
  The statistics block is carried from point to point and written back after the last: by induction on the point it is
  the zero block plus, for each point so far, that point's two column sums; after the last point its row 0 is the sum of
  the product over all rows and its row 1 the sum of the squared product over all rows.  The 131072 rows are summed as 32
  blocks of 4096 by the kernel and as 8 batches of 16384 by the statistics' definition: both are the sum over all rows.
-/
import proofs.«128329_j6322191859819_2_alg».proof.Proof.R2Pieces
import proofs.«128329_j6322191859819_2_alg».proof.Proof.R2Payload
import proofs.«128329_j6322191859819_2_alg».proof.Proof.KForms
import proofs.«128329_j6322191859819_2_alg».proof.Proof.LibSumBlocks

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.R2

open Cert.KernelIdeal Cert.KernelIdeal.Gen

variable (V : (c : Dev nD) → (b : Ref sig .tc) → Buf (Elt Ideal) ((c : Thread nD τ).loc b))

/-! ## After each point -/

/-- After any point the product output's buffer holds the body's product of that point's input blocks. -/
theorem outsAt_fst (c : Dev nD) (t : Fin cfg2.N) :
    (outsAt2 V c t.val t.isLt).1 = k2_pay2 (F := Ideal) (iblk2 V c 0 t) (iblk2 V c 1 t) (iblk2 V c 2 t) (iblk2 V c 3 t) (iblk2 V c 4 t) := by
  by_cases h0 : t.val % 32 = 0
  · rw [outsAt2_A V c t h0]
    dsimp only
    exact out_A_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 V c 0 t) (iblk2 V c 1 t) (iblk2 V c 2 t) (iblk2 V c 3 t) (iblk2 V c 4 t)
  · rw [outsAt2_B V c t h0]
    dsimp only
    exact out_B_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) (iblk2 V c 0 t) (iblk2 V c 1 t) (iblk2 V c 2 t) (iblk2 V c 3 t) (iblk2 V c 4 t) _

/-- The statistics block the first point leaves: the zero block plus that point's column sums. -/
def statA (c : Dev nD) : (n : ℕ) → n < cfg2.N → Vec Ideal S2x1024 .f32 :=
  fun n h => k2_pay3 (F := Ideal) (iblk2 V c 0 ⟨n, h⟩) (iblk2 V c 1 ⟨n, h⟩) (iblk2 V c 2 ⟨n, h⟩) (iblk2 V c 3 ⟨n, h⟩) (iblk2 V c 4 ⟨n, h⟩) (k2_pay1 (F := Ideal))

/-- The statistics block a later point leaves: what the point before left plus that point's column sums. -/
def statG (c : Dev nD) : (n : ℕ) → n < cfg2.N → Vec Ideal S2x1024 .f32 → Vec Ideal S2x1024 .f32 :=
  fun n h acc => k2_pay3 (F := Ideal) (iblk2 V c 0 ⟨n, h⟩) (iblk2 V c 1 ⟨n, h⟩) (iblk2 V c 2 ⟨n, h⟩) (iblk2 V c 3 ⟨n, h⟩) (iblk2 V c 4 ⟨n, h⟩) acc

/-- After point `t` the statistics buffer holds the fold over the points of `t`'s run so far. -/
theorem outsAt_snd (c : Dev nD) (t : Fin cfg2.N) (h' : 32 * (t.val / 32) + t.val % 32 < cfg2.N) :
    (outsAt2 V c t.val t.isLt).2 = Pipeline.accAt (statA V c) (statG V c) (32 * (t.val / 32)) (t.val % 32) h' :=
  Pipeline.eq_accAt_of_mod (fun n h => (outsAt2 V c n h).2) 32 (statA V c) (statG V c)
    (fun n h hm => by
      show (outsAt2 V c (⟨n, h⟩ : Fin cfg2.N).val (⟨n, h⟩ : Fin cfg2.N).isLt).2 = _
      rw [outsAt2_A V c ⟨n, h⟩ hm]
      dsimp only
      exact out_A_6 (F := Ideal) c (grid2.coords ⟨n, h⟩) (ms2_0 ⟨n, h⟩) (hs2_0 ⟨n, h⟩) (ms2_1 ⟨n, h⟩) (hs2_1 ⟨n, h⟩) (ms2_2 ⟨n, h⟩) (hs2_2 ⟨n, h⟩) (ms2_3 ⟨n, h⟩) (hs2_3 ⟨n, h⟩) (ms2_4 ⟨n, h⟩) (hs2_4 ⟨n, h⟩) (ms2_5 ⟨n, h⟩) (hs2_5 ⟨n, h⟩) (ms2_6 ⟨n, h⟩) (hs2_6 ⟨n, h⟩) ((hcond2_0 ⟨n, h⟩).mpr hm) (iblk2 V c 0 ⟨n, h⟩) (iblk2 V c 1 ⟨n, h⟩) (iblk2 V c 2 ⟨n, h⟩) (iblk2 V c 3 ⟨n, h⟩) (iblk2 V c 4 ⟨n, h⟩))
    (fun n h hm => by
      show (outsAt2 V c (⟨n + 1, h⟩ : Fin cfg2.N).val (⟨n + 1, h⟩ : Fin cfg2.N).isLt).2 = _
      rw [outsAt2_B V c ⟨n + 1, h⟩ hm]
      dsimp only
      exact out_B_6 (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (fun hh => hm ((hcond2_0 ⟨n + 1, h⟩).mp hh)) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) _)
    (by decide) t.val t.isLt h'

/-! ## The statistics after the last point -/

/-- The zero block reads zero. -/
theorem pay1_apply (i : S2x1024.Idx) : k2_pay1 (F := Ideal) i = 0 := by
  unfold k2_pay1
  exact Ideal.ofBits_zero_f32

/-- Point `n`'s column sum of the product block at channel `o` (zero past the grid). -/
def colS (c : Dev nD) (n : ℕ) (o : Fin 1024) : EReal :=
  if h : n < cfg2.N then ∑ r : Fin 4096, k2_pay2 (F := Ideal) (iblk2 V c 0 ⟨n, h⟩) (iblk2 V c 1 ⟨n, h⟩) (iblk2 V c 2 ⟨n, h⟩) (iblk2 V c 3 ⟨n, h⟩) (iblk2 V c 4 ⟨n, h⟩) (ix2 r o) else 0

/-- Point `n`'s column sum of the squared product block at channel `o` (zero past the grid). -/
def colQ (c : Dev nD) (n : ℕ) (o : Fin 1024) : EReal :=
  if h : n < cfg2.N then ∑ r : Fin 4096, k2_pay2 (F := Ideal) (iblk2 V c 0 ⟨n, h⟩) (iblk2 V c 1 ⟨n, h⟩) (iblk2 V c 2 ⟨n, h⟩) (iblk2 V c 3 ⟨n, h⟩) (iblk2 V c 4 ⟨n, h⟩) (ix2 r o)
    * k2_pay2 (F := Ideal) (iblk2 V c 0 ⟨n, h⟩) (iblk2 V c 1 ⟨n, h⟩) (iblk2 V c 2 ⟨n, h⟩) (iblk2 V c 3 ⟨n, h⟩) (iblk2 V c 4 ⟨n, h⟩) (ix2 r o) else 0

/-- What point `n` adds to the statistics block: its column sum in row 0, its column sum of squares in row 1. -/
def addend (c : Dev nD) (n : ℕ) (i : S2x1024.Idx) : EReal :=
  if (i 0).val = 0 then colS V c n (i 1) else colQ V c n (i 1)

/-- A point's step adds its addend to what the point before left. -/
theorem statG_apply (c : Dev nD) (n : ℕ) (h : n < cfg2.N) (acc : Vec Ideal S2x1024 .f32) (i : S2x1024.Idx) :
    statG V c n h acc i = acc i + addend V c n i := by
  obtain ⟨a, o, rfl⟩ : ∃ (a : Fin 2) (o : Fin 1024), i = ix2 a o := ⟨i 0, i 1, eq_ix2 i⟩
  unfold statG
  match a with
  | ⟨0, _⟩ =>
    refine (pay3_apply_row0 _ _ _ _ _ acc o).trans ?_
    refine congrArg (acc (ix2 (0 : Fin 2) o) + ·) ?_
    unfold addend colS
    rw [if_pos rfl, dif_pos h]
  | ⟨1, _⟩ =>
    refine (pay3_apply_row1 _ _ _ _ _ acc o).trans ?_
    refine congrArg (acc (ix2 (1 : Fin 2) o) + ·) ?_
    unfold addend colQ
    rw [if_neg (by exact Nat.one_ne_zero), dif_pos h]

/-- After the last point the statistics block is the sum of the 32 points' addends. -/
theorem stat_last (c : Dev nD) (h31 : 0 + 31 < cfg2.N) (i : S2x1024.Idx) :
    Pipeline.accAt (statA V c) (statG V c) 0 31 h31 i = ∑ s ∈ Finset.range 32, addend V c s i := by
  have := Pipeline.accAt_add_apply (statA V c) (statG V c) (fun _ => (0 : EReal)) (addend V c) 0 31
    (fun h i => by
      show statG V c 0 h (k2_pay1 (F := Ideal)) i = _
      rw [statG_apply, pay1_apply])
    (fun n h acc i _ _ => statG_apply V c n h acc i) 31 (le_refl 31) h31 i
  rw [this, zero_add]
  exact Finset.sum_congr rfl fun s _ => by rw [Nat.zero_add]

/-- The fold read at the last point of the one run, whatever the spelling of its start and length. -/
theorem stat_last' (c : Dev nD) (b j : ℕ) (h : b + j < cfg2.N) (hb : b = 0) (hj : j = 31) (i : S2x1024.Idx) :
    Pipeline.accAt (statA V c) (statG V c) b j h i = ∑ s ∈ Finset.range 32, addend V c s i := by
  subst hb; subst hj; exact stat_last V c h i

/-! ## The input blocks, read at coordinates -/

/-- The windows' index maps over the grid: the input activation's window and the product's window move with the point
    along the rows; the scale, the shift, the weights, the bias and the statistics stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0 :=
  (by decide +kernel : ∀ t : Fin grid2.N, _)

/-- Row `r` of point `t`'s block of the input activation is row 4096·t + r of the array. -/
theorem blk0_apply (c : Dev nD) (t : Fin cfg2.N) (r : Fin 4096) (k : Fin 128) (hr : t.val * 4096 + r.val < 131072) :
    (iblk2 V c 0 t : Vec Ideal S4096x128 .f32) (ix2 r k) = V c main_v26_1 (ix2 ⟨t.val * 4096 + r.val, hr⟩ k) := by
  obtain ⟨e00, e01, -⟩ := idx_facts t
  unfold iblk2
  rw [View.read_apply]
  show V c main_v26_1 (((cfg2.win 0).blk t).view.emb (ix2 r k)) = _
  refine congrArg (V c main_v26_1) (funext fun a => Fin.ext ?_)
  match a with
  | ⟨0, _⟩ =>
    show win2_0.index t (0 : Fin 2) * 4096 + 1 * r.val = t.val * 4096 + r.val
    rw [e00]; omega
  | ⟨1, _⟩ =>
    show win2_0.index t (1 : Fin 2) * 128 + 1 * k.val = k.val
    rw [e01]; omega

/-- The scale block is the whole scale row at every point. -/
theorem blk1_apply (c : Dev nD) (t : Fin cfg2.N) (u : Fin 1) (k : Fin 128) :
    (iblk2 V c 1 t : Vec Ideal S1x128 .f32) (ix2 u k) = V c main_v41 (ix2 u k) := by
  obtain ⟨-, -, e10, e11, -⟩ := idx_facts t
  unfold iblk2
  rw [View.read_apply]
  show V c main_v41 (((cfg2.win 1).blk t).view.emb (ix2 u k)) = _
  refine congrArg (V c main_v41) (funext fun a => Fin.ext ?_)
  match a with
  | ⟨0, _⟩ =>
    show win2_1.index t (0 : Fin 2) * 1 + 1 * u.val = u.val
    rw [e10]; omega
  | ⟨1, _⟩ =>
    show win2_1.index t (1 : Fin 2) * 128 + 1 * k.val = k.val
    rw [e11]; omega

/-- The shift block is the whole shift row at every point. -/
theorem blk2_apply (c : Dev nD) (t : Fin cfg2.N) (u : Fin 1) (k : Fin 128) :
    (iblk2 V c 2 t : Vec Ideal S1x128 .f32) (ix2 u k) = V c main_v44 (ix2 u k) := by
  obtain ⟨-, -, -, -, e20, e21, -⟩ := idx_facts t
  unfold iblk2
  rw [View.read_apply]
  show V c main_v44 (((cfg2.win 2).blk t).view.emb (ix2 u k)) = _
  refine congrArg (V c main_v44) (funext fun a => Fin.ext ?_)
  match a with
  | ⟨0, _⟩ =>
    show win2_2.index t (0 : Fin 2) * 1 + 1 * u.val = u.val
    rw [e20]; omega
  | ⟨1, _⟩ =>
    show win2_2.index t (1 : Fin 2) * 128 + 1 * k.val = k.val
    rw [e21]; omega

/-- The weights' block is the whole weight array at every point. -/
theorem blk3_apply (c : Dev nD) (t : Fin cfg2.N) (k : Fin 128) (o : Fin 1024) :
    (iblk2 V c 3 t : Vec Ideal S128x1024 .f32) (ix2 k o) = V c main_v5 (ix2 k o) := by
  obtain ⟨-, -, -, -, -, -, e30, e31, -⟩ := idx_facts t
  unfold iblk2
  rw [View.read_apply]
  show V c main_v5 (((cfg2.win 3).blk t).view.emb (ix2 k o)) = _
  refine congrArg (V c main_v5) (funext fun a => Fin.ext ?_)
  match a with
  | ⟨0, _⟩ =>
    show win2_3.index t (0 : Fin 2) * 128 + 1 * k.val = k.val
    rw [e30]; omega
  | ⟨1, _⟩ =>
    show win2_3.index t (1 : Fin 2) * 1024 + 1 * o.val = o.val
    rw [e31]; omega

/-- The bias block is the whole bias row at every point. -/
theorem blk4_apply (c : Dev nD) (t : Fin cfg2.N) (u : Fin 1) (o : Fin 1024) :
    (iblk2 V c 4 t : Vec Ideal S1x1024 .f32) (ix2 u o) = V c main_v6 (ix2 u o) := by
  obtain ⟨-, -, -, -, -, -, -, -, e40, e41, -⟩ := idx_facts t
  unfold iblk2
  rw [View.read_apply]
  show V c main_v6 (((cfg2.win 4).blk t).view.emb (ix2 u o)) = _
  refine congrArg (V c main_v6) (funext fun a => Fin.ext ?_)
  match a with
  | ⟨0, _⟩ =>
    show win2_4.index t (0 : Fin 2) * 1 + 1 * u.val = u.val
    rw [e40]; omega
  | ⟨1, _⟩ =>
    show win2_4.index t (1 : Fin 2) * 1024 + 1 * o.val = o.val
    rw [e41]; omega

/-! ## The product output's array -/

/-- The body's product of blocks that are rows `tv·4096 + r` of an activation array, the whole scale and shift rows, the
    whole weights and the whole bias row is, at row `y 0` of the block, the linear map of the rectified, affinely mapped
    array at row `tv·4096 + y 0`. -/
theorem lin_block (H : S131072x128.Idx → EReal) (S T : S1x128.Idx → EReal) (W : S128x1024.Idx → EReal) (B : S1x1024.Idx → EReal)
    (x0 : Vec Ideal S4096x128 .f32) (x1 : Vec Ideal S1x128 .f32) (x2 : Vec Ideal S1x128 .f32)
    (x3 : Vec Ideal S128x1024 .f32) (x4 : Vec Ideal S1x1024 .f32) (tv : ℕ)
    (h0 : ∀ (r : Fin 4096) (k : Fin 128) (hr : tv * 4096 + r.val < 131072), x0 (ix2 r k) = H (ix2 ⟨tv * 4096 + r.val, hr⟩ k))
    (h1 : ∀ (k : Fin 128), x1 (ix2 (0 : Fin 1) k) = S (ix2 (0 : Fin 1) k))
    (h2 : ∀ (k : Fin 128), x2 (ix2 (0 : Fin 1) k) = T (ix2 (0 : Fin 1) k))
    (h3 : ∀ (k : Fin 128) (o : Fin 1024), x3 (ix2 k o) = W (ix2 k o))
    (h4 : ∀ (o : Fin 1024), x4 (ix2 (0 : Fin 1) o) = B (ix2 (0 : Fin 1) o))
    (y : S4096x1024.Idx) (i : S131072x1024.Idx) (hi0 : (i 0).val = tv * 4096 + (y 0).val) (hi1 : (i 1).val = (y 1).val) :
    k2_pay2 (F := Ideal) x0 x1 x2 x3 x4 y = Cert.KForms.linF (Cert.KForms.actF H S T) W B i := by
  obtain ⟨r, o, rfl⟩ : ∃ (r : Fin 4096) (o : Fin 1024), y = ix2 r o := ⟨y 0, y 1, eq_ix2 y⟩
  obtain ⟨p, o', rfl⟩ : ∃ (p : Fin 131072) (o' : Fin 1024), i = ix2 p o' := ⟨i 0, i 1, eq_ix2 i⟩
  have hp : p.val = tv * 4096 + r.val := hi0
  obtain rfl : o = o' := (Fin.ext hi1).symm
  have hr : tv * 4096 + r.val < 131072 := hp ▸ p.isLt
  obtain rfl : p = ⟨tv * 4096 + r.val, hr⟩ := Fin.ext hp
  rw [pay2_apply]
  unfold Cert.KForms.linF Cert.KForms.actF Cert.KForms.affF
  refine congrArg₂ (· + ·) (Finset.sum_congr rfl fun k _ => ?_) (h4 o)
  rw [h0 r k hr, h1 k, h2 k, h3 k o]

/-- An index of the product array is in point `t`'s block iff each coordinate is in the block's range on its axis. -/
theorem mem_blk5 (t : Fin cfg2.N) (i : S131072x1024.Idx) :
    i ∈ ((cfg2.win 5).blk t).view.set ↔ ∀ a : Fin 2, win2_5.index t a * S4096x1024.size a ≤ (i a).val
      ∧ (i a).val < win2_5.index t a * S4096x1024.size a + S4096x1024.size a := by
  show i ∈ ((View.whole main_v45_0).slice (win2_5.rect t)).set ↔ _
  rw [View.set_slice_whole, Rect.mem_set_unit]
  exact Iff.rfl

/-- What point `t` writes back of the product output is block `t` of the linear map of the whole rectified array. -/
theorem flushed5_eq (c : Dev nD) (t : Fin cfg2.N) :
    (dat2 V c).flushed 5 t
      = ((cfg2.win 5).blk t).view.read (Elt Ideal)
          (Cert.KForms.linF (Cert.KForms.actF (V c main_v26_1) (V c main_v41) (V c main_v44)) (V c main_v5) (V c main_v6)) := by
  obtain ⟨-, -, -, -, -, -, -, -, -, -, e50, e51, -⟩ := idx_facts t
  show (cfg2.win 5).cut (grid2.coords t) ((dat2 V c).after 5 t) = _
  rw [after2_5, outsAt_fst]
  funext j
  rw [View.read_apply]
  exact lin_block (V c main_v26_1) (V c main_v41) (V c main_v44) (V c main_v5) (V c main_v6)
    (iblk2 V c 0 t) (iblk2 V c 1 t) (iblk2 V c 2 t) (iblk2 V c 3 t) (iblk2 V c 4 t) t.val
    (fun r k hr => blk0_apply V c t r k hr) (fun k => blk1_apply V c t 0 k) (fun k => blk2_apply V c t 0 k)
    (fun k o => blk3_apply V c t k o) (fun o => blk4_apply V c t 0 o) j
    (((cfg2.win 5).blk t).view.emb j)
    (by show win2_5.index t (0 : Fin 2) * 4096 + 1 * (j 0).val = t.val * 4096 + (j 0).val
        rw [e50]; omega)
    (by show win2_5.index t (1 : Fin 2) * 1024 + 1 * (j 1).val = (j 1).val
        rw [e51]; omega)

/-- The product output's array when the region ends: the linear map of the whole rectified, affinely mapped input. -/
theorem final5 (c : Dev nD) :
    (dat2 V c).arrAt 5 cfg2.N
      = Cert.KForms.linF (Cert.KForms.actF (V c main_v26_1) (V c main_v41) (V c main_v44)) (V c main_v5) (V c main_v6) :=
  (dat2 V c).arrAt_eq_of_cover 5 _ (fun t _ => flushed5_eq V c t) fun i => by
    have hi0 : (i 0).val < 131072 := (i 0).isLt
    have hi1 : (i 1).val < 1024 := (i 1).isLt
    have hN : cfg2.N = 32 := N_2
    refine ⟨⟨(i 0).val / 4096, by rw [hN]; omega⟩, flush2_5 _, ?_⟩
    rw [mem_blk5]
    intro a
    match a with
    | ⟨0, _⟩ =>
      show win2_5.index _ (0 : Fin 2) * 4096 ≤ (i 0).val ∧ (i 0).val < win2_5.index _ (0 : Fin 2) * 4096 + 4096
      rw [(idx_facts _).2.2.2.2.2.2.2.2.2.2.1]
      dsimp only
      omega
    | ⟨1, _⟩ =>
      show win2_5.index _ (1 : Fin 2) * 1024 ≤ (i 1).val ∧ (i 1).val < win2_5.index _ (1 : Fin 2) * 1024 + 1024
      rw [(idx_facts _).2.2.2.2.2.2.2.2.2.2.2.1]
      omega

end Cert.KernelIdeal.R2

end
-- ==== Proof.R2Stats.lean ====
/-
  Layer 3's statistics output: the sums over all rows of the product and of its square.

  After the last of the 32 points the carried statistics block holds, per channel, the sum over the points of each point's
  column sum over its 4096 rows (row 0), and the same for the squared product (row 1).  A point's rows are rows
  4096·s … 4096·s + 4095 of the whole product, so these are sums over all 131072 rows, cut into 32 blocks of 4096; the
  statistics' definition cuts the same rows into 8 batches of 16384 positions.  Both are the sum over all rows.
-/
import proofs.«128329_j6322191859819_2_alg».proof.Proof.R2Value

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.R2

open Cert.KernelIdeal Cert.KernelIdeal.Gen

variable (V : (c : Dev nD) → (b : Ref sig .tc) → Buf (Elt Ideal) ((c : Thread nD τ).loc b))

/-! ## All rows, cut two ways -/

/-- Channel `o` of an activation at the row numbered `p`, zero past the last row. -/
def rowAt (L : S131072x1024.Idx → EReal) (o : Fin 1024) (p : ℕ) : EReal :=
  if h : p < 131072 then L (ix2 ⟨p, h⟩ o) else 0

/-- The row numbered 16384·b + n is the row of the point (b, n). -/
theorem rowAt_pt (L : S131072x1024.Idx → EReal) (o : Fin 1024) (b : Fin 8) (n : Fin 16384) :
    rowAt L o (b.val * 16384 + n.val) = L (ix2 (Cert.KForms.pt b n) o) := by
  have h : b.val * 16384 + n.val < 131072 := by have := b.isLt; have := n.isLt; omega
  unfold rowAt
  rw [dif_pos h]
  rfl

/-- The sum over 32 blocks of 4096 rows is the sum over 8 batches of 16384 positions: both are the sum over all rows. -/
theorem regroup (L : S131072x1024.Idx → EReal) (o : Fin 1024) :
    ∑ s : Fin 32, ∑ r : Fin 4096, rowAt L o (s.val * 4096 + r.val)
      = ∑ b : Fin 8, ∑ n : Fin 16384, L (ix2 (Cert.KForms.pt b n) o) := by
  rw [Cert.LibSumBlocks.sum_fin_blocks_eq (rowAt L o) 32 4096 8 16384 (by norm_num)]
  exact Finset.sum_congr rfl fun b _ => Finset.sum_congr rfl fun n _ => rowAt_pt L o b n

/-! ## The statistics output's array -/

/-- A point's column sum of the product block is the sum over the point's rows of the product of the whole array. -/
theorem colS_eq (c : Dev nD) (s : Fin 32) (o : Fin 1024) :
    colS V c s.val o = ∑ r : Fin 4096, rowAt (Cert.KForms.linF (Cert.KForms.actF (V c main_v26_1) (V c main_v41) (V c main_v44)) (V c main_v5) (V c main_v6)) o (s.val * 4096 + r.val) := by
  have hs : s.val < cfg2.N := by rw [show cfg2.N = 32 from N_2]; exact s.isLt
  unfold colS
  rw [dif_pos hs]
  refine Finset.sum_congr rfl fun r _ => ?_
  have hr : s.val * 4096 + r.val < 131072 := by have := s.isLt; have := r.isLt; omega
  unfold rowAt
  rw [dif_pos hr]
  exact lin_block (V c main_v26_1) (V c main_v41) (V c main_v44) (V c main_v5) (V c main_v6)
    (iblk2 V c 0 ⟨s.val, hs⟩) (iblk2 V c 1 ⟨s.val, hs⟩) (iblk2 V c 2 ⟨s.val, hs⟩) (iblk2 V c 3 ⟨s.val, hs⟩) (iblk2 V c 4 ⟨s.val, hs⟩) s.val
    (fun r k hr => blk0_apply V c ⟨s.val, hs⟩ r k hr) (fun k => blk1_apply V c ⟨s.val, hs⟩ 0 k)
    (fun k => blk2_apply V c ⟨s.val, hs⟩ 0 k) (fun k o => blk3_apply V c ⟨s.val, hs⟩ k o)
    (fun o => blk4_apply V c ⟨s.val, hs⟩ 0 o) (ix2 r o) (ix2 ⟨s.val * 4096 + r.val, hr⟩ o) rfl rfl

/-- A point's column sum of the squared product block, likewise. -/
theorem colQ_eq (c : Dev nD) (s : Fin 32) (o : Fin 1024) :
    colQ V c s.val o = ∑ r : Fin 4096, rowAt (fun j => (Cert.KForms.linF (Cert.KForms.actF (V c main_v26_1) (V c main_v41) (V c main_v44)) (V c main_v5) (V c main_v6)) j * (Cert.KForms.linF (Cert.KForms.actF (V c main_v26_1) (V c main_v41) (V c main_v44)) (V c main_v5) (V c main_v6)) j) o (s.val * 4096 + r.val) := by
  have hs : s.val < cfg2.N := by rw [show cfg2.N = 32 from N_2]; exact s.isLt
  unfold colQ
  rw [dif_pos hs]
  refine Finset.sum_congr rfl fun r _ => ?_
  have hr : s.val * 4096 + r.val < 131072 := by have := s.isLt; have := r.isLt; omega
  unfold rowAt
  rw [dif_pos hr]
  have e := lin_block (V c main_v26_1) (V c main_v41) (V c main_v44) (V c main_v5) (V c main_v6)
    (iblk2 V c 0 ⟨s.val, hs⟩) (iblk2 V c 1 ⟨s.val, hs⟩) (iblk2 V c 2 ⟨s.val, hs⟩) (iblk2 V c 3 ⟨s.val, hs⟩) (iblk2 V c 4 ⟨s.val, hs⟩) s.val
    (fun r k hr => blk0_apply V c ⟨s.val, hs⟩ r k hr) (fun k => blk1_apply V c ⟨s.val, hs⟩ 0 k)
    (fun k => blk2_apply V c ⟨s.val, hs⟩ 0 k) (fun k o => blk3_apply V c ⟨s.val, hs⟩ k o)
    (fun o => blk4_apply V c ⟨s.val, hs⟩ 0 o) (ix2 r o) (ix2 ⟨s.val * 4096 + r.val, hr⟩ o) rfl rfl
  rw [e]

/-- The 32 points' addends sum to the statistics of the product of the whole array. -/
theorem sum_addend (c : Dev nD) (i : S2x1024.Idx) :
    ∑ s ∈ Finset.range 32, addend V c s i = Cert.KForms.statsF (Cert.KForms.linF (Cert.KForms.actF (V c main_v26_1) (V c main_v41) (V c main_v44)) (V c main_v5) (V c main_v6)) i := by
  rw [Finset.sum_range]
  unfold addend Cert.KForms.statsF
  by_cases h0 : (i 0).val = 0
  · rw [if_pos h0]
    simp only [h0, if_true]
    refine (Finset.sum_congr rfl fun s _ => colS_eq V c s (i 1)).trans ?_
    exact regroup (Cert.KForms.linF (Cert.KForms.actF (V c main_v26_1) (V c main_v41) (V c main_v44)) (V c main_v5) (V c main_v6)) (i 1)
  · rw [if_neg h0]
    simp only [h0, if_false]
    refine (Finset.sum_congr rfl fun s _ => colQ_eq V c s (i 1)).trans ?_
    exact regroup (fun j => (Cert.KForms.linF (Cert.KForms.actF (V c main_v26_1) (V c main_v41) (V c main_v44)) (V c main_v5) (V c main_v6)) j * (Cert.KForms.linF (Cert.KForms.actF (V c main_v26_1) (V c main_v41) (V c main_v44)) (V c main_v5) (V c main_v6)) j) (i 1)

/-- The statistics window's block is the whole statistics array at every point. -/
theorem idx6 (t : Fin cfg2.N) : win2_6.index t (0 : Fin 2) = 0 ∧ win2_6.index t (1 : Fin 2) = 0 := by
  obtain ⟨-, -, -, -, -, -, -, -, -, -, -, -, e60, e61⟩ := idx_facts t
  exact ⟨e60, e61⟩

/-- The one write-back of the statistics, after the last point, writes the statistics of the whole product. -/
theorem flushed6_eq (c : Dev nD) (t : Fin cfg2.N) (hf : (cfg2.win 6).flush t = true) :
    (dat2 V c).flushed 6 t = ((cfg2.win 6).blk t).view.read (Elt Ideal) (Cert.KForms.statsF (Cert.KForms.linF (Cert.KForms.actF (V c main_v26_1) (V c main_v41) (V c main_v44)) (V c main_v5) (V c main_v6))) := by
  have hN : cfg2.N = 32 := N_2
  have h31 : t.val = 31 := by have := (flush2_6 t).mp hf; have := t.isLt; omega
  show (cfg2.win 6).cut (grid2.coords t) ((dat2 V c).after 6 t) = _
  rw [after2_6, outsAt_snd V c t (by omega)]
  funext j
  rw [View.read_apply]
  have he : ((cfg2.win 6).blk t).view.emb j = (j : S2x1024.Idx) := funext fun a => Fin.ext (by
    match a with
    | ⟨0, _⟩ =>
      show win2_6.index t (0 : Fin 2) * 2 + 1 * (j 0).val = (j 0).val
      rw [(idx6 t).1]; omega
    | ⟨1, _⟩ =>
      show win2_6.index t (1 : Fin 2) * 1024 + 1 * (j 1).val = (j 1).val
      rw [(idx6 t).2]; omega)
  rw [he]
  exact (stat_last' V c _ _ _ (by omega) (by omega) j).trans (sum_addend V c j)

/-- An index of the statistics array is in a point's block iff each coordinate is in the block's range on its axis. -/
theorem mem_blk6 (t : Fin cfg2.N) (i : S2x1024.Idx) :
    i ∈ ((cfg2.win 6).blk t).view.set ↔ ∀ a : Fin 2, win2_6.index t a * S2x1024.size a ≤ (i a).val
      ∧ (i a).val < win2_6.index t a * S2x1024.size a + S2x1024.size a := by
  show i ∈ ((View.whole main_v45_1).slice (win2_6.rect t)).set ↔ _
  rw [View.set_slice_whole, Rect.mem_set_unit]
  exact Iff.rfl

/-- The statistics output's array when the region ends: per channel, the sum over all points of the product and of its
    square. -/
theorem final6 (c : Dev nD) :
    (dat2 V c).arrAt 6 cfg2.N = Cert.KForms.statsF (Cert.KForms.linF (Cert.KForms.actF (V c main_v26_1) (V c main_v41) (V c main_v44)) (V c main_v5) (V c main_v6)) :=
  (dat2 V c).arrAt_eq_of_cover 6 _ (fun t hf => flushed6_eq V c t hf) fun i => by
    have hi0 : (i 0).val < 2 := (i 0).isLt
    have hi1 : (i 1).val < 1024 := (i 1).isLt
    have hN : cfg2.N = 32 := N_2
    refine ⟨⟨31, by rw [hN]; omega⟩, (flush2_6 _).mpr rfl, ?_⟩
    rw [mem_blk6]
    intro a
    match a with
    | ⟨0, _⟩ =>
      show win2_6.index _ (0 : Fin 2) * 2 ≤ (i 0).val ∧ (i 0).val < win2_6.index _ (0 : Fin 2) * 2 + 2
      rw [(idx6 _).1]
      omega
    | ⟨1, _⟩ =>
      show win2_6.index _ (1 : Fin 2) * 1024 ≤ (i 1).val ∧ (i 1).val < win2_6.index _ (1 : Fin 2) * 1024 + 1024
      rw [(idx6 _).2]
      omega

end Cert.KernelIdeal.R2

end
-- ==== Proof.R3Pieces.lean ====
/-
  The pooling kernel, point by point: what one run of the body leaves in its output block.

  The body reads a block of one batch index and 4096 positions of the 1024-channel activation, multiplies every row by
  the scale row and adds the shift row, takes the maximum of every column over the 4096 rows, and stores the maximum of
  that row and the block's previous contents.  At the first of a batch's four points the block is first set to -∞; at
  the later points it is read as the point before left it.  Each lemma below says that the output block after the body
  is one pure function of the input blocks (and of the block's previous contents).
-/
import proofs.«128329_j6322191859819_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.R3

open Cert.KernelIdeal Cert.KernelIdeal.Gen

variable {F : FTy → Type} [FloatOps F]

/-- The zero offset of a rank-3 rectangle. -/
theorem hz3 : (![0, 0, 0] : Fin 3 → Nat) = fun _ => 0 := funext fun a => by fin_cases a <;> rfl

/-- The zero offset of a rank-2 rectangle. -/
theorem hz2 : (![0, 0] : Fin 2 → Nat) = fun _ => 0 := funext fun a => by fin_cases a <;> rfl

/-- At a batch's first point the pooled block is the body's maximum of the -∞ block and the column maxima of the
    input blocks: the body first overwrites the block with -∞ and then reads it back. -/
theorem out_A_3 (c : Dev nD) (i : grid3.Coords) (a2 : Memref sig .tc .vmem S1x4096x1024 .f32) (h2 : a2.IsWhole)
    (a3 : Memref sig .tc .vmem S1x1024 .f32) (h3 : a3.IsWhole) (a4 : Memref sig .tc .vmem S1x1024 .f32) (h4 : a4.IsWhole)
    (a5 : Memref sig .tc .vmem S1x1x1024 .f32) (h5 : a5.IsWhole)
    (hc : cond3_0 i) (x0 : Vec F S1x4096x1024 .f32) (x1 : Vec F S1x1024 .f32) (x2 : Vec F S1x1024 .f32) :
    out3_A_3 c i a2 h2 a3 h3 a4 h4 a5 h5 hc x0 x1 x2 = k3_pay2 x0 x1 x2 k3_pay1 := by
  unfold out3_A_3
  rw [View.read_writes_eq_canon _ _ _ (cover3_A_3 c i a2 h2 a3 h3 a4 h4 a5 h5 hc x0 x1 x2)]
  unfold kernelRun3_A
  dsimp only
  sl_unfold_words
  rw [View.canon_cons_unit_zero (S := S1x1x1024) hz3, View.readCov_unit_zero (S := S1x1x1024) _ hz3]
  simp only [View.readAt_eq_ld, h2.read_unread, h3.read_unread, h4.read_unread, h5.read_unread,
    View.ld_unit_zero (S := S1x4096x1024) hz3, View.ld_unit_zero (S := S1x1024) hz2,
    View.ld_unit_zero (S := S1x1x1024) hz3]

/-- At a batch's later points the pooled block is the maximum of its previous contents and the column maxima of the
    input blocks. -/
theorem out_B_3 (c : Dev nD) (i : grid3.Coords) (a2 : Memref sig .tc .vmem S1x4096x1024 .f32) (h2 : a2.IsWhole)
    (a3 : Memref sig .tc .vmem S1x1024 .f32) (h3 : a3.IsWhole) (a4 : Memref sig .tc .vmem S1x1024 .f32) (h4 : a4.IsWhole)
    (a5 : Memref sig .tc .vmem S1x1x1024 .f32) (h5 : a5.IsWhole)
    (hc : ¬cond3_0 i) (x0 : Vec F S1x4096x1024 .f32) (x1 : Vec F S1x1024 .f32) (x2 : Vec F S1x1024 .f32)
    (xo3 : Vec F S1x1x1024 .f32) :
    out3_B_3 c i a2 h2 a3 h3 a4 h4 a5 h5 hc x0 x1 x2 xo3 = k3_pay2 x0 x1 x2 xo3 := by
  unfold out3_B_3
  rw [View.read_writes_eq_canon _ _ _ (cover3_B_3 c i a2 h2 a3 h3 a4 h4 a5 h5 hc x0 x1 x2 xo3)]
  unfold kernelRun3_B
  dsimp only
  rw [View.canon_unit_zero hz3]
  simp only [View.readAt_eq_ld, h2.read_unread, h3.read_unread, h4.read_unread, h5.read_unread,
    View.ld_unit_zero (S := S1x4096x1024) hz3, View.ld_unit_zero (S := S1x1024) hz2,
    View.ld_unit_zero (S := S1x1x1024) hz3]

end Cert.KernelIdeal.R3

end
-- ==== Proof.R3Payload.lean ====
/-
  The pooling kernel's body as arithmetic on the extended reals, read at explicit coordinates.

  The -∞ block reads -∞ at every channel.  The stored block at channel o is the maximum of the block's previous value at
  o and the column maximum, over the 4096 rows r of the input block, of (row r at o) · scale o + shift o.  A column
  maximum from the accumulator -∞ is the supremum over the rows: the supremum of a finite family is by definition the
  fold of the binary maximum from the least element.
-/
import proofs.«128329_j6322191859819_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.ValueIdx
open scoped BigOperators

namespace Cert.KernelIdeal.R3

open Cert.KernelIdeal Cert.KernelIdeal.Gen

/-- The pattern 0xFF800000 denotes -∞. -/
theorem ofBits_neg_inf : Ideal.ofBits .f32 0xFF800000#32 = ⊥ := by
  simp [Ideal.ofBits, Ideal.ieee]

/-- The -∞ block reads -∞ everywhere. -/
theorem pay1_apply (i : S1x1x1024.Idx) : k3_pay1 (F := Ideal) i = ⊥ := by
  unfold k3_pay1
  exact ofBits_neg_inf

/-- The fold of the binary maximum from the least element is the supremum. -/
theorem fold_max_bot {ι : Type} (s : Finset ι) (f : ι → EReal) : s.fold max ⊥ f = s.sup f := rfl

/-- A column maximum of a 4096 × 1024 block from the accumulator -∞, at channel `o`: the supremum over the rows. -/
theorem colmax_apply (src : FVec Ideal S4096x1024 .f32) (o : Fin 1024) :
    multiReduction .maximumf [0] S1024 src 0xFF800000#32 reduces_S4096x1024_S1024 (.inl rfl) rfl (ix1 o)
      = (Finset.univ : Finset (Fin 4096)).sup fun r => src (ix2 r o) := by
  refine (Ideal.multiReduction_maximumf_single src 0xFF800000#32 reduces_S4096x1024_S1024 (.inl rfl) rfl (ix1 o)).trans ?_
  show (Finset.univ : Finset (Fin 4096)).fold max (Ideal.ofBits .f32 0xFF800000#32)
      (src ∘ reduces_S4096x1024_S1024.lift (ix1 o)) = _
  rw [ofBits_neg_inf]
  refine (fold_max_bot _ _).trans ?_
  refine Finset.sup_congr rfl fun r _ => congrArg src ?_
  funext a
  match a with
  | ⟨0, _⟩ => rfl
  | ⟨1, _⟩ => rfl

/-- The stored block at channel `o`: the maximum of the carried value and the supremum over the block's rows of the
    affinely mapped activation. -/
theorem pay2_apply (x0 : Vec Ideal S1x4096x1024 .f32) (x1 x2 : Vec Ideal S1x1024 .f32) (acc : Vec Ideal S1x1x1024 .f32)
    (u v : Fin 1) (o : Fin 1024) :
    k3_pay2 (F := Ideal) x0 x1 x2 acc (ix3 u v o)
      = max (acc (ix3 (0 : Fin 1) v o))
          ((Finset.univ : Finset (Fin 4096)).sup fun r =>
            x0 (ix3 (0 : Fin 1) r o) * x1 (ix2 (0 : Fin 1) o) + x2 (ix2 (0 : Fin 1) o)) := by
  unfold k3_pay2
  refine (shapeCast_ab_1ab_apply _ _ u v o).trans ?_
  refine (maximumf_apply _ _ _).trans ?_
  refine congrArg₂ max ?_ ?_
  · exact shapeCast_1ab_ab_apply _ _ v o
  · refine (shapeCast_a_1a_apply _ _ v o).trans ?_
    refine (colmax_apply _ o).trans ?_
    refine Finset.sup_congr rfl fun r _ => ?_
    refine (addf_apply _ _ _).trans ?_
    refine congrArg₂ (· + ·) ?_ ?_
    · refine (mulf_apply _ _ _).trans ?_
      refine congrArg₂ (· * ·) (shapeCast_1ab_ab_apply _ _ r o) ?_
      refine (broadcastTo_1b_ab_apply _ _ r o).trans ?_
      simp only [shapeCast_self]
    · refine (broadcastTo_1b_ab_apply _ _ r o).trans ?_
      simp only [shapeCast_self]

end Cert.KernelIdeal.R3

end
-- ==== Proof.R3Value.lean ====
/-
  The pooling kernel over the whole grid: what its output array holds when the region ends.

  The grid has 32 points; point t works on batch index t / 4 and on positions 4096·(t % 4) … 4096·(t % 4) + 4095.  The
  pooled block of a batch index is carried over that batch's four points and written back after the fourth: by
  induction on the offset it is the supremum of the column maxima of the batch's points so far, so after the fourth
  point it is the supremum over the four position blocks of the supremum over each block's 4096 rows.  A position n is
  row n % 4096 of block n / 4096, hence that double supremum is the maximum over all 16384 positions.
-/
import proofs.«128329_j6322191859819_2_alg».proof.Proof.R3Pieces
import proofs.«128329_j6322191859819_2_alg».proof.Proof.R3Payload
import proofs.«128329_j6322191859819_2_alg».proof.Proof.KForms

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.R3

open Cert.KernelIdeal Cert.KernelIdeal.Gen

variable (V : (c : Dev nD) → (b : Ref sig .tc) → Buf (Elt Ideal) ((c : Thread nD τ).loc b))

/-! ## After each point -/

/-- The pooled block a batch's first point leaves: the maximum of the -∞ block and that point's column maxima. -/
def poolA (c : Dev nD) : (n : ℕ) → n < cfg3.N → Vec Ideal S1x1x1024 .f32 :=
  fun n h => k3_pay2 (F := Ideal) (iblk3 V c 0 ⟨n, h⟩) (iblk3 V c 1 ⟨n, h⟩) (iblk3 V c 2 ⟨n, h⟩) (k3_pay1 (F := Ideal))

/-- The pooled block a later point leaves: the maximum of what the point before left and that point's column maxima. -/
def poolG (c : Dev nD) : (n : ℕ) → n < cfg3.N → Vec Ideal S1x1x1024 .f32 → Vec Ideal S1x1x1024 .f32 :=
  fun n h acc => k3_pay2 (F := Ideal) (iblk3 V c 0 ⟨n, h⟩) (iblk3 V c 1 ⟨n, h⟩) (iblk3 V c 2 ⟨n, h⟩) acc

/-- After point `t` the pooled buffer holds the fold over the points of `t`'s batch so far. -/
theorem outsAt_eq (c : Dev nD) (t : Fin cfg3.N) (h' : 4 * (t.val / 4) + t.val % 4 < cfg3.N) :
    outsAt3 V c t.val t.isLt = Pipeline.accAt (poolA V c) (poolG V c) (4 * (t.val / 4)) (t.val % 4) h' :=
  Pipeline.eq_accAt_of_mod (fun n h => outsAt3 V c n h) 4 (poolA V c) (poolG V c)
    (fun n h hm => by
      show outsAt3 V c (⟨n, h⟩ : Fin cfg3.N).val (⟨n, h⟩ : Fin cfg3.N).isLt = _
      rw [outsAt3_A V c ⟨n, h⟩ hm]
      exact out_A_3 (F := Ideal) c (grid3.coords ⟨n, h⟩) (ms3_0 ⟨n, h⟩) (hs3_0 ⟨n, h⟩) (ms3_1 ⟨n, h⟩) (hs3_1 ⟨n, h⟩) (ms3_2 ⟨n, h⟩) (hs3_2 ⟨n, h⟩) (ms3_3 ⟨n, h⟩) (hs3_3 ⟨n, h⟩) ((hcond3_0 ⟨n, h⟩).mpr hm) (iblk3 V c 0 ⟨n, h⟩) (iblk3 V c 1 ⟨n, h⟩) (iblk3 V c 2 ⟨n, h⟩))
    (fun n h hm => by
      show outsAt3 V c (⟨n + 1, h⟩ : Fin cfg3.N).val (⟨n + 1, h⟩ : Fin cfg3.N).isLt = _
      rw [outsAt3_B V c ⟨n + 1, h⟩ hm]
      exact out_B_3 (F := Ideal) c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (ms3_3 ⟨n + 1, h⟩) (hs3_3 ⟨n + 1, h⟩) (fun hh => hm ((hcond3_0 ⟨n + 1, h⟩).mp hh)) (iblk3 V c 0 ⟨n + 1, h⟩) (iblk3 V c 1 ⟨n + 1, h⟩) (iblk3 V c 2 ⟨n + 1, h⟩) _)
    (by decide) t.val t.isLt h'

/-! ## The fold over a batch's points -/

/-- The column maximum of a block at channel `o`: the supremum over its 4096 rows of the affinely mapped activation. -/
def colMax (x0 : Vec Ideal S1x4096x1024 .f32) (x1 x2 : Vec Ideal S1x1024 .f32) (o : Fin 1024) : EReal :=
  (Finset.univ : Finset (Fin 4096)).sup fun r =>
    x0 (ix3 (0 : Fin 1) r o) * x1 (ix2 (0 : Fin 1) o) + x2 (ix2 (0 : Fin 1) o)

/-- Point `n`'s column maximum at channel `o` (-∞ past the grid). -/
def colM (c : Dev nD) (n : ℕ) (o : Fin 1024) : EReal :=
  if h : n < cfg3.N then colMax (iblk3 V c 0 ⟨n, h⟩) (iblk3 V c 1 ⟨n, h⟩) (iblk3 V c 2 ⟨n, h⟩) o else ⊥

/-- A point's step takes the maximum of what the point before left and the point's column maximum. -/
theorem poolG_apply (c : Dev nD) (n : ℕ) (h : n < cfg3.N) (acc : Vec Ideal S1x1x1024 .f32) (o : Fin 1024) :
    poolG V c n h acc (ix3 (0 : Fin 1) (0 : Fin 1) o) = max (acc (ix3 (0 : Fin 1) (0 : Fin 1) o)) (colM V c n o) := by
  unfold poolG
  refine (pay2_apply _ _ _ acc 0 0 o).trans ?_
  refine congrArg (max (acc (ix3 (0 : Fin 1) (0 : Fin 1) o))) ?_
  unfold colM
  rw [dif_pos h]
  rfl

/-- After `j` steps from a batch's first point `b` the pooled block at channel `o` is the supremum of the column maxima
    of the points `b … b + j`. -/
theorem fold_apply (c : Dev nD) (b : ℕ) (o : Fin 1024) : ∀ (j : ℕ) (h : b + j < cfg3.N),
    Pipeline.accAt (poolA V c) (poolG V c) b j h (ix3 (0 : Fin 1) (0 : Fin 1) o)
      = (Finset.range (j + 1)).sup fun s => colM V c (b + s) o
  | 0, h => by
    rw [Pipeline.accAt_zero]
    show poolG V c b h (k3_pay1 (F := Ideal)) (ix3 (0 : Fin 1) (0 : Fin 1) o) = _
    rw [poolG_apply, pay1_apply, Finset.range_one, Finset.sup_singleton]
    exact max_bot_left _
  | j + 1, h => by
    rw [Pipeline.accAt_succ, poolG_apply, fold_apply c b o j (Nat.lt_of_succ_lt h), Finset.range_add_one (n := j + 1),
      Finset.sup_insert]
    exact max_comm _ _

/-- The fold read at the last point of a batch, whatever the spelling of the offset. -/
theorem fold_last (c : Dev nD) (b j : ℕ) (h : b + j < cfg3.N) (hj : j = 3) (o : Fin 1024) :
    Pipeline.accAt (poolA V c) (poolG V c) b j h (ix3 (0 : Fin 1) (0 : Fin 1) o)
      = (Finset.range 4).sup fun s => colM V c (b + s) o := by
  subst hj; exact fold_apply V c b o 3 h

/-! ## The input blocks, read at coordinates -/

/-- The windows' index maps over the grid: point `t` is batch index `t / 4`, position block `t % 4`; the activation's
    window moves with both, the scale and shift rows stay, the pooled output's window moves with the batch index. -/
theorem idx_facts : ∀ t : Fin cfg3.N, win3_0.index t (0 : Fin 3) = t.val / 4 ∧ win3_0.index t (1 : Fin 3) = t.val % 4
    ∧ win3_0.index t (2 : Fin 3) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 3) = t.val / 4 ∧ win3_3.index t (1 : Fin 3) = 0 ∧ win3_3.index t (2 : Fin 3) = 0 :=
  (by decide +kernel : ∀ t : Fin grid3.N, _)

/-- Row `r` of point `t`'s block of the activation is position `(t % 4)·4096 + r` of batch index `t / 4`. -/
theorem blk0_apply (c : Dev nD) (t : Fin cfg3.N) (u : Fin 1) (r : Fin 4096) (o : Fin 1024) (q : Fin 8) (p : Fin 16384)
    (hq : q.val = t.val / 4) (hp : p.val = t.val % 4 * 4096 + r.val) :
    (iblk3 V c 0 t : Vec Ideal S1x4096x1024 .f32) (ix3 u r o) = V c main_v64 (ix3 q p o) := by
  unfold iblk3
  rw [View.read_apply]
  show V c main_v64 (((cfg3.win 0).blk t).view.emb (ix3 u r o)) = _
  refine congrArg (V c main_v64) (funext fun a => Fin.ext ?_)
  match a with
  | ⟨0, _⟩ =>
    show win3_0.index t (0 : Fin 3) * 1 + 1 * u.val = q.val
    rw [(idx_facts t).1, hq]; omega
  | ⟨1, _⟩ =>
    show win3_0.index t (1 : Fin 3) * 4096 + 1 * r.val = p.val
    rw [(idx_facts t).2.1, hp]; omega
  | ⟨2, _⟩ =>
    show win3_0.index t (2 : Fin 3) * 1024 + 1 * o.val = o.val
    rw [(idx_facts t).2.2.1]; omega

/-- The scale block is the whole scale row at every point. -/
theorem blk1_apply (c : Dev nD) (t : Fin cfg3.N) (u : Fin 1) (o : Fin 1024) :
    (iblk3 V c 1 t : Vec Ideal S1x1024 .f32) (ix2 u o) = V c main_v60 (ix2 u o) := by
  unfold iblk3
  rw [View.read_apply]
  show V c main_v60 (((cfg3.win 1).blk t).view.emb (ix2 u o)) = _
  refine congrArg (V c main_v60) (funext fun a => Fin.ext ?_)
  match a with
  | ⟨0, _⟩ =>
    show win3_1.index t (0 : Fin 2) * 1 + 1 * u.val = u.val
    rw [(idx_facts t).2.2.2.1]; omega
  | ⟨1, _⟩ =>
    show win3_1.index t (1 : Fin 2) * 1024 + 1 * o.val = o.val
    rw [(idx_facts t).2.2.2.2.1]; omega

/-- The shift block is the whole shift row at every point. -/
theorem blk2_apply (c : Dev nD) (t : Fin cfg3.N) (u : Fin 1) (o : Fin 1024) :
    (iblk3 V c 2 t : Vec Ideal S1x1024 .f32) (ix2 u o) = V c main_v63 (ix2 u o) := by
  unfold iblk3
  rw [View.read_apply]
  show V c main_v63 (((cfg3.win 2).blk t).view.emb (ix2 u o)) = _
  refine congrArg (V c main_v63) (funext fun a => Fin.ext ?_)
  match a with
  | ⟨0, _⟩ =>
    show win3_2.index t (0 : Fin 2) * 1 + 1 * u.val = u.val
    rw [(idx_facts t).2.2.2.2.2.1]; omega
  | ⟨1, _⟩ =>
    show win3_2.index t (1 : Fin 2) * 1024 + 1 * o.val = o.val
    rw [(idx_facts t).2.2.2.2.2.2.1]; omega

/-! ## The pooled output's array -/

/-- Position `4096·s + r`: row `r` of a batch's position block `s`. -/
def posOf (s : Fin 4) (r : Fin 4096) : Fin 16384 := ⟨s.val * 4096 + r.val, by have := s.isLt; have := r.isLt; omega⟩

/-- The supremum, over the rows of position block `s` of batch index `q`, of an affinely mapped activation. -/
def affMax (H : S8x16384x1024.Idx → EReal) (S T : S1x1024.Idx → EReal) (q : Fin 8) (s : Fin 4) (o : Fin 1024) : EReal :=
  (Finset.univ : Finset (Fin 4096)).sup fun r => H (ix3 q (posOf s r) o) * S (ix2 (0 : Fin 1) o) + T (ix2 (0 : Fin 1) o)

/-- Point `4q + s`'s column maximum is the supremum, over the rows of position block `s` of batch index `q`, of the
    affinely mapped activation of the whole array. -/
theorem colM_eq (c : Dev nD) (q : Fin 8) (s : Fin 4) (o : Fin 1024) :
    colM V c (4 * q.val + s.val) o = affMax (V c main_v64) (V c main_v60) (V c main_v63) q s o := by
  have hq := q.isLt
  have hs := s.isLt
  have hN : cfg3.N = 32 := N_3
  have h : 4 * q.val + s.val < cfg3.N := by rw [hN]; omega
  unfold colM
  rw [dif_pos h]
  unfold colMax affMax
  refine Finset.sup_congr rfl fun r _ => ?_
  rw [blk0_apply V c ⟨4 * q.val + s.val, h⟩ 0 r o q (posOf s r) (by show q.val = (4 * q.val + s.val) / 4; omega)
      (by show s.val * 4096 + r.val = (4 * q.val + s.val) % 4 * 4096 + r.val; omega),
    blk1_apply V c ⟨4 * q.val + s.val, h⟩ 0 o, blk2_apply V c ⟨4 * q.val + s.val, h⟩ 0 o]

/-- The supremum over a batch's four position blocks of the blocks' column maxima is the maximum over all the batch's
    positions: every position `n` is row `n % 4096` of block `n / 4096`, and every row of every block is a position. -/
theorem pool_block (H : S8x16384x1024.Idx → EReal) (S T : S1x1024.Idx → EReal) (acc : Vec Ideal S1x1x1024 .f32)
    (CM : ℕ → Fin 1024 → EReal) (q : Fin 8)
    (hacc : ∀ o : Fin 1024, acc (ix3 (0 : Fin 1) (0 : Fin 1) o) = (Finset.range 4).sup fun s => CM (4 * q.val + s) o)
    (hCM : ∀ (s : Fin 4) (o : Fin 1024), CM (4 * q.val + s.val) o = affMax H S T q s o)
    (y : S1x1x1024.Idx) (i : S8x1x1024.Idx) (hi0 : (i 0).val = q.val + (y 0).val) (hi2 : (i 2).val = (y 2).val) :
    acc y = Cert.KForms.poolF H S T i := by
  obtain ⟨u, v, o, rfl⟩ : ∃ (u v : Fin 1) (o : Fin 1024), y = ix3 u v o := ⟨y 0, y 1, y 2, eq_ix3 y⟩
  obtain ⟨q', w, o', rfl⟩ : ∃ (q' : Fin 8) (w : Fin 1) (o' : Fin 1024), i = ix3 q' w o' := ⟨i 0, i 1, i 2, eq_ix3 i⟩
  obtain rfl : u = 0 := Subsingleton.elim _ _
  obtain rfl : v = 0 := Subsingleton.elim _ _
  obtain rfl : q' = q := Fin.ext (hi0.trans (Nat.add_zero q.val))
  obtain rfl : o' = o := Fin.ext hi2
  rw [hacc o']
  unfold Cert.KForms.poolF
  unfold affMax at hCM
  show (Finset.range 4).sup (fun s => CM (4 * q'.val + s) o')
    = (Finset.univ : Finset (Fin 16384)).sup fun n => H (ix3 q' n o') * S (ix2 (0 : Fin 1) o') + T (ix2 (0 : Fin 1) o')
  apply le_antisymm
  · refine Finset.sup_le fun s hs => ?_
    have hs4 : s < 4 := Finset.mem_range.mp hs
    show CM (4 * q'.val + (⟨s, hs4⟩ : Fin 4).val) o' ≤ _
    rw [hCM ⟨s, hs4⟩ o']
    refine Finset.sup_le fun r _ => ?_
    exact Finset.le_sup (f := fun n : Fin 16384 => H (ix3 q' n o') * S (ix2 (0 : Fin 1) o') + T (ix2 (0 : Fin 1) o'))
      (Finset.mem_univ (posOf ⟨s, hs4⟩ r))
  · refine Finset.sup_le fun n _ => ?_
    have hn := n.isLt
    have hs4 : n.val / 4096 < 4 := by omega
    have hr : n.val % 4096 < 4096 := by omega
    have hn' : n = posOf ⟨n.val / 4096, hs4⟩ ⟨n.val % 4096, hr⟩ :=
      Fin.ext (by show n.val = n.val / 4096 * 4096 + n.val % 4096; omega)
    refine le_trans ?_ (Finset.le_sup (f := fun s => CM (4 * q'.val + s) o') (Finset.mem_range.mpr hs4))
    show _ ≤ CM (4 * q'.val + (⟨n.val / 4096, hs4⟩ : Fin 4).val) o'
    rw [hCM ⟨n.val / 4096, hs4⟩ o']
    exact (le_of_eq (congrArg (fun p : Fin 16384 => H (ix3 q' p o') * S (ix2 (0 : Fin 1) o') + T (ix2 (0 : Fin 1) o')) hn')).trans
      (Finset.le_sup (f := fun r : Fin 4096 => H (ix3 q' (posOf ⟨n.val / 4096, hs4⟩ r) o') * S (ix2 (0 : Fin 1) o')
        + T (ix2 (0 : Fin 1) o')) (Finset.mem_univ (⟨n.val % 4096, hr⟩ : Fin 4096)))

/-- An index of the pooled array is in point `t`'s block iff each coordinate is in the block's range on its axis. -/
theorem mem_blk (t : Fin cfg3.N) (i : S8x1x1024.Idx) :
    i ∈ ((cfg3.win 3).blk t).view.set ↔ ∀ a : Fin 3, win3_3.index t a * S1x1x1024.size a ≤ (i a).val
      ∧ (i a).val < win3_3.index t a * S1x1x1024.size a + S1x1x1024.size a := by
  show i ∈ ((View.whole main_v65).slice (win3_3.rect t)).set ↔ _
  rw [View.set_slice_whole, Rect.mem_set_unit]
  exact Iff.rfl

set_option maxRecDepth 65536 in
/-- What a batch's last point writes back is that batch's block of the pooled maxima of the whole activation. -/
theorem flushed_eq (c : Dev nD) (t : Fin cfg3.N) (hf : (cfg3.win 3).flush t = true) :
    (dat3 V c).flushed 3 t = ((cfg3.win 3).blk t).view.read (Elt Ideal)
      (Cert.KForms.poolF (V c main_v64) (V c main_v60) (V c main_v63)) := by
  have hN : cfg3.N = 32 := N_3
  have h3 : t.val % 4 = 3 := (flush3_3 t).mp hf
  have htl : t.val < 32 := hN ▸ t.isLt
  have hq : t.val / 4 < 8 := by omega
  show (cfg3.win 3).cut (grid3.coords t) ((dat3 V c).after 3 t) = _
  have hb : 4 * (t.val / 4) + t.val % 4 < cfg3.N := lt_of_lt_of_eq (by omega : 4 * (t.val / 4) + t.val % 4 < 32) hN.symm
  rw [after3_3, outsAt_eq V c t hb]
  have hfold : ∀ o : Fin 1024, Pipeline.accAt (poolA V c) (poolG V c) (4 * (t.val / 4)) (t.val % 4) hb
      (ix3 (0 : Fin 1) (0 : Fin 1) o) = (Finset.range 4).sup fun s => colM V c (4 * (⟨t.val / 4, hq⟩ : Fin 8).val + s) o :=
    fun o => fold_last V c (4 * (t.val / 4)) (t.val % 4) hb h3 o
  generalize Pipeline.accAt (poolA V c) (poolG V c) (4 * (t.val / 4)) (t.val % 4) hb = acc at hfold ⊢
  have key := pool_block (V c main_v64) (V c main_v60) (V c main_v63) acc (colM V c) ⟨t.val / 4, hq⟩
    hfold (fun s o => colM_eq V c ⟨t.val / 4, hq⟩ s o)
  funext j
  rw [View.read_apply]
  refine key j (((cfg3.win 3).blk t).view.emb j) ?_ ?_
  · show win3_3.index t (0 : Fin 3) * 1 + 1 * (j 0).val = t.val / 4 + (j 0).val
    rw [(idx_facts t).2.2.2.2.2.2.2.1]; omega
  · show win3_3.index t (2 : Fin 3) * 1024 + 1 * (j 2).val = (j 2).val
    rw [(idx_facts t).2.2.2.2.2.2.2.2.2]; omega

/-- The pooled output's array when the region ends: per batch index and channel, the maximum over all positions of
    the affinely mapped activation. -/
theorem final3 (c : Dev nD) :
    (dat3 V c).arrAt 3 cfg3.N = Cert.KForms.poolF (V c main_v64) (V c main_v60) (V c main_v63) :=
  (dat3 V c).arrAt_eq_of_cover 3 _ (fun t hf => flushed_eq V c t hf) fun i => by
    have hi0 : (i 0).val < 8 := (i 0).isLt
    have hi1 : (i 1).val < 1 := (i 1).isLt
    have hi2 : (i 2).val < 1024 := (i 2).isLt
    have hN : cfg3.N = 32 := N_3
    refine ⟨⟨4 * (i 0).val + 3, by rw [hN]; omega⟩, (flush3_3 _).mpr (by show (4 * (i 0).val + 3) % 4 = 3; omega), ?_⟩
    rw [mem_blk]
    intro a
    match a with
    | ⟨0, _⟩ =>
      show win3_3.index _ (0 : Fin 3) * 1 ≤ (i 0).val ∧ (i 0).val < win3_3.index _ (0 : Fin 3) * 1 + 1
      rw [(idx_facts _).2.2.2.2.2.2.2.1]
      dsimp only
      omega
    | ⟨1, _⟩ =>
      show win3_3.index _ (1 : Fin 3) * 1 ≤ (i 1).val ∧ (i 1).val < win3_3.index _ (1 : Fin 3) * 1 + 1
      rw [(idx_facts _).2.2.2.2.2.2.2.2.1]
      omega
    | ⟨2, _⟩ =>
      show win3_3.index _ (2 : Fin 3) * 1024 ≤ (i 2).val ∧ (i 2).val < win3_3.index _ (2 : Fin 3) * 1024 + 1024
      rw [(idx_facts _).2.2.2.2.2.2.2.2.2]
      omega

end Cert.KernelIdeal.R3

end
-- ==== Proof.R4Pieces.lean ====
/-
  The stacking kernel, point by point: what one run of the body leaves in its output block.

  The body reads a block of one batch index and 4096 positions of the first activation and the batch index's pooled row,
  and stores ONE value over the whole output block: the pooled row as 1024 rows constant along the positions, on top of
  the activation block transposed to channel-major.  The output block after the body is that stored value.
-/
import proofs.«128329_j6322191859819_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.R4

open Cert.KernelIdeal Cert.KernelIdeal.Gen

variable {F : FTy → Type} [FloatOps F]

/-- The zero offset of a rank-3 rectangle. -/
theorem hz3 : (![0, 0, 0] : Fin 3 → Nat) = fun _ => 0 := funext fun a => by fin_cases a <;> rfl

/-- The output block after the body is the body's stacked value of the two input blocks. -/
theorem out_2 (x0 : Vec F S1x4096x64 .f32) (x1 : Vec F S1x1x1024 .f32) : out4_2 x0 x1 = k4_pay1 x0 x1 := by
  unfold out4_2
  rw [View.canon_unit_zero hz3]
  simp only [View.ld_unit_zero (S := S1x4096x64) hz3, View.ld_unit_zero (S := S1x1x1024) hz3]

end Cert.KernelIdeal.R4

end
-- ==== Proof.R4Payload.lean ====
/-
  The stacking kernel's stored value, read at explicit coordinates.

  The body stores one 1 × 1088 × 4096 value.  Its row ch below 1024, at position n, is the pooled row's entry ch: the
  1 × 1024 pooled row is transposed to a 1024 × 1 column and the column is repeated along the 4096 positions.  Its row
  ch from 1024 on, at position n, is the activation block at position n and channel ch − 1024: the 4096 × 64 block is
  transposed to 64 × 4096 and stacked under the 1024 pooled rows.  The leading unit axes are dropped before and put back
  after, which moves no entry.
-/
import proofs.«128329_j6322191859819_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.ValueIdx
open scoped BigOperators

namespace Cert.KernelIdeal.R4

open Cert.KernelIdeal Cert.KernelIdeal.Gen

/-- A 1024 × 1 column repeated along 4096 positions reads, at row `p` and any position, the column's entry `p`. -/
theorem column_apply (v : FVec Ideal S1024x1 .f32) (p : Fin 1024) (n : Fin 4096) :
    broadcastTo S1024x4096 v broadcasts_S1024x1_S1024x4096 (ix2 p n) = v (ix2 p (0 : Fin 1)) :=
  broadcastTo_apply v broadcasts_S1024x1_S1024x4096 (ix2 p n) (ix2 p (0 : Fin 1)) fun a => by
    match a with
    | ⟨0, _⟩ => rfl
    | ⟨1, _⟩ => rfl

/-- A row below 1024 of the stored value: the pooled row's entry of that row, at every position. -/
theorem pay1_apply_top (x0 : Vec Ideal S1x4096x64 .f32) (x1 : Vec Ideal S1x1x1024 .f32) (ch : Fin 1088) (hch : ch.val < 1024)
    (n : Fin 4096) :
    k4_pay1 (F := Ideal) x0 x1 (ix3 (0 : Fin 1) ch n) = x1 (ix3 (0 : Fin 1) (0 : Fin 1) ⟨ch.val, hch⟩) := by
  unfold k4_pay1
  refine (shapeCast_ab_1ab_apply _ _ (0 : Fin 1) ch n).trans ?_
  refine (concatenate_pair_apply_left (t := S1088x4096) (s₁ := S1024x4096) (s₂ := S64x4096) (0 : Fin 2) _ _
    concatenates_S1024x4096_S64x4096_S1088x4096_d0 (ix2 ch n) rfl (ix2 (⟨ch.val, hch⟩ : Fin 1024) n) (fun b => by
      match b with
      | ⟨0, _⟩ => rfl
      | ⟨1, _⟩ => rfl)).trans ?_
  refine (column_apply _ ⟨ch.val, hch⟩ n).trans ?_
  rw [shapeCast_self]
  refine (transpose_ix2_apply _ _ (⟨ch.val, hch⟩ : Fin 1024) (0 : Fin 1)).trans ?_
  exact shapeCast_1ab_ab_apply _ _ (0 : Fin 1) (⟨ch.val, hch⟩ : Fin 1024)

/-- A row from 1024 on of the stored value: the activation block at the position and the channel 1024 rows up. -/
theorem pay1_apply_bot (x0 : Vec Ideal S1x4096x64 .f32) (x1 : Vec Ideal S1x1x1024 .f32) (ch : Fin 1088) (hch : ¬ch.val < 1024)
    (n : Fin 4096) (hk : ch.val - 1024 < 64) :
    k4_pay1 (F := Ideal) x0 x1 (ix3 (0 : Fin 1) ch n) = x0 (ix3 (0 : Fin 1) n ⟨ch.val - 1024, hk⟩) := by
  unfold k4_pay1
  refine (shapeCast_ab_1ab_apply _ _ (0 : Fin 1) ch n).trans ?_
  refine (concatenate_pair_apply_right (t := S1088x4096) (s₁ := S1024x4096) (s₂ := S64x4096) (0 : Fin 2) _ _
    concatenates_S1024x4096_S64x4096_S1088x4096_d0 (ix2 ch n) rfl rfl (ix2 (⟨ch.val - 1024, hk⟩ : Fin 64) n) (fun b hb => by
      match b with
      | ⟨0, _⟩ => exact absurd rfl hb
      | ⟨1, _⟩ => rfl) (by
      show ch.val - 1024 + 1024 = ch.val
      omega)).trans ?_
  refine (transpose_ix2_apply _ _ (⟨ch.val - 1024, hk⟩ : Fin 64) n).trans ?_
  exact shapeCast_1ab_ab_apply _ _ n (⟨ch.val - 1024, hk⟩ : Fin 64)

end Cert.KernelIdeal.R4

end
-- ==== Proof.R4Final.lean ====
/-
  The stacking kernel over the whole grid: what its output array holds when the region ends.

  The grid has 8 × 4 points; point t works on batch index t / 4 and on positions 4096·(t % 4) … 4096·(t % 4) + 4095.
  Its activation block is that batch index's rows of those positions, its pooled block the batch index's pooled row,
  and the block it writes back is the batch index's 1088 rows at those positions.  Every point writes back, and the 32
  blocks tile the output array, so the array ends as the stacking of the whole pooled rows on the whole transposed
  activation.
-/
import proofs.«128329_j6322191859819_2_alg».proof.Proof.R4Pieces
import proofs.«128329_j6322191859819_2_alg».proof.Proof.R4Payload
import proofs.«128329_j6322191859819_2_alg».proof.Proof.KForms

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.R4

open Cert.KernelIdeal Cert.KernelIdeal.Gen

variable (V : (c : Dev nD) → (b : Ref sig .tc) → Buf (Elt Ideal) ((c : Thread nD τ).loc b))

/-! ## The input blocks, read at coordinates -/

/-- The windows' index maps over the grid: point `t` is batch index `t / 4` and position block `t % 4`; the activation's
    window moves with both, the pooled rows' window with the batch index only, the output's window with both. -/
theorem idx_facts : ∀ t : Fin cfg4.N, win4_0.index t (0 : Fin 3) = t.val / 4 ∧ win4_0.index t (1 : Fin 3) = t.val % 4
    ∧ win4_0.index t (2 : Fin 3) = 0
    ∧ win4_1.index t (0 : Fin 3) = t.val / 4 ∧ win4_1.index t (1 : Fin 3) = 0 ∧ win4_1.index t (2 : Fin 3) = 0
    ∧ win4_2.index t (0 : Fin 3) = t.val / 4 ∧ win4_2.index t (1 : Fin 3) = 0 ∧ win4_2.index t (2 : Fin 3) = t.val % 4 :=
  (by decide +kernel : ∀ t : Fin grid4.N, _)

/-- Position `n`, channel `k` of point `t`'s activation block is batch index `t / 4`, position 4096·(t % 4) + n, channel `k`
    of the array. -/
theorem blk0_apply (c : Dev nD) (t : Fin cfg4.N) (u : Fin 1) (n : Fin 4096) (k : Fin 64) (hb : t.val / 4 < 8)
    (hn : t.val % 4 * 4096 + n.val < 16384) :
    (iblk4 V c 0 t : Vec Ideal S1x4096x64 .f32) (ix3 u n k) = V c main_v66 (ix3 ⟨t.val / 4, hb⟩ ⟨t.val % 4 * 4096 + n.val, hn⟩ k) := by
  obtain ⟨e00, e01, e02, e10, e11, e12, e20, e21, e22⟩ := idx_facts t
  have hu : u.val = 0 := by omega
  unfold iblk4
  rw [View.read_apply]
  show V c main_v66 (((cfg4.win 0).blk t).view.emb (ix3 u n k)) = _
  refine congrArg (V c main_v66) (funext fun a => Fin.ext ?_)
  match a with
  | ⟨0, _⟩ =>
    show win4_0.index t (0 : Fin 3) * 1 + 1 * u.val = t.val / 4
    rw [e00]; omega
  | ⟨1, _⟩ =>
    show win4_0.index t (1 : Fin 3) * 4096 + 1 * n.val = t.val % 4 * 4096 + n.val
    rw [e01]; omega
  | ⟨2, _⟩ =>
    show win4_0.index t (2 : Fin 3) * 64 + 1 * k.val = k.val
    rw [e02]; omega

/-- Point `t`'s pooled block is batch index `t / 4`'s pooled row. -/
theorem blk1_apply (c : Dev nD) (t : Fin cfg4.N) (u u' : Fin 1) (q : Fin 1024) (hb : t.val / 4 < 8) :
    (iblk4 V c 1 t : Vec Ideal S1x1x1024 .f32) (ix3 u u' q) = V c main_v65 (ix3 ⟨t.val / 4, hb⟩ (0 : Fin 1) q) := by
  obtain ⟨e00, e01, e02, e10, e11, e12, e20, e21, e22⟩ := idx_facts t
  have hu : u.val = 0 := by omega
  have hu' : u'.val = 0 := by omega
  unfold iblk4
  rw [View.read_apply]
  show V c main_v65 (((cfg4.win 1).blk t).view.emb (ix3 u u' q)) = _
  refine congrArg (V c main_v65) (funext fun a => Fin.ext ?_)
  match a with
  | ⟨0, _⟩ =>
    show win4_1.index t (0 : Fin 3) * 1 + 1 * u.val = t.val / 4
    rw [e10]; omega
  | ⟨1, _⟩ =>
    show win4_1.index t (1 : Fin 3) * 1 + 1 * u'.val = 0
    rw [e11]; omega
  | ⟨2, _⟩ =>
    show win4_1.index t (2 : Fin 3) * 1024 + 1 * q.val = q.val
    rw [e12]; omega

/-! ## The body's value as the stacking of the whole arrays -/

/-- The body's stored value of a block that is batch index `bv`, positions `nv·4096 + n` of an activation array, and of batch
    index `bv`'s pooled row, is, at row `y 1` and position `y 2` of the block, the stacking of the whole arrays at batch index
    `bv`, row `y 1`, position `nv·4096 + y 2`. -/
theorem stack_block (A0 : S8x16384x64.Idx → EReal) (G : S8x1x1024.Idx → EReal)
    (x0 : Vec Ideal S1x4096x64 .f32) (x1 : Vec Ideal S1x1x1024 .f32) (bv nv : ℕ)
    (h0 : ∀ (n : Fin 4096) (k : Fin 64) (hb : bv < 8) (hn : nv * 4096 + n.val < 16384),
      x0 (ix3 (0 : Fin 1) n k) = A0 (ix3 ⟨bv, hb⟩ ⟨nv * 4096 + n.val, hn⟩ k))
    (h1 : ∀ (q : Fin 1024) (hb : bv < 8), x1 (ix3 (0 : Fin 1) (0 : Fin 1) q) = G (ix3 ⟨bv, hb⟩ (0 : Fin 1) q))
    (y : S1x1088x4096.Idx) (i : S8x1088x16384.Idx) (hi0 : (i 0).val = bv) (hi1 : (i 1).val = (y 1).val)
    (hi2 : (i 2).val = nv * 4096 + (y 2).val) :
    k4_pay1 (F := Ideal) x0 x1 y = Cert.KForms.stackF A0 G i := by
  obtain ⟨u, ch, n, rfl⟩ : ∃ (u : Fin 1) (ch : Fin 1088) (n : Fin 4096), y = ix3 u ch n := ⟨y 0, y 1, y 2, eq_ix3 y⟩
  obtain ⟨b, ch', p, rfl⟩ : ∃ (b : Fin 8) (ch' : Fin 1088) (p : Fin 16384), i = ix3 b ch' p := ⟨i 0, i 1, i 2, eq_ix3 i⟩
  obtain rfl : u = 0 := Fin.ext (by omega)
  have hb' : b.val = bv := hi0
  subst hb'
  obtain rfl : ch = ch' := (Fin.ext hi1).symm
  have hp : p.val = nv * 4096 + n.val := hi2
  have hn : nv * 4096 + n.val < 16384 := hp ▸ p.isLt
  obtain rfl : p = ⟨nv * 4096 + n.val, hn⟩ := Fin.ext hp
  unfold Cert.KForms.stackF
  by_cases h : ch.val < 1024
  · rw [dif_pos (show ((ix3 b ch (⟨nv * 4096 + n.val, hn⟩ : Fin 16384) : S8x1088x16384.Idx) 1).val < 1024 from h)]
    exact (pay1_apply_top x0 x1 ch h n).trans (h1 ⟨ch.val, h⟩ b.isLt)
  · rw [dif_neg (show ¬((ix3 b ch (⟨nv * 4096 + n.val, hn⟩ : Fin 16384) : S8x1088x16384.Idx) 1).val < 1024 from h)]
    have hk : ch.val - 1024 < 64 := by have := ch.isLt; omega
    exact (pay1_apply_bot x0 x1 ch h n hk).trans (h0 n ⟨ch.val - 1024, hk⟩ b.isLt hn)

/-! ## The output array -/

/-- An index of the output array is in point `t`'s block iff each coordinate is in the block's range on its axis. -/
theorem mem_blk2 (t : Fin cfg4.N) (i : S8x1088x16384.Idx) :
    i ∈ ((cfg4.win 2).blk t).view.set ↔ ∀ a : Fin 3, win4_2.index t a * S1x1088x4096.size a ≤ (i a).val
      ∧ (i a).val < win4_2.index t a * S1x1088x4096.size a + S1x1088x4096.size a := by
  show i ∈ ((View.whole main_v67).slice (win4_2.rect t)).set ↔ _
  rw [View.set_slice_whole, Rect.mem_set_unit]
  exact Iff.rfl

/-- What point `t` writes back is block `t` of the stacking of the whole pooled rows on the whole transposed activation. -/
theorem flushed2_eq (c : Dev nD) (t : Fin cfg4.N) :
    (dat4 V c).flushed 2 t = ((cfg4.win 2).blk t).view.read (Elt Ideal) (Cert.KForms.stackF (V c main_v66) (V c main_v65)) := by
  obtain ⟨e00, e01, e02, e10, e11, e12, e20, e21, e22⟩ := idx_facts t
  show (cfg4.win 2).cut (grid4.coords t) ((dat4 V c).after 2 t) = _
  rw [after4_2, out_2]
  funext j
  rw [View.read_apply]
  have hj0 : (j 0).val < 1 := (j 0).isLt
  exact stack_block (V c main_v66) (V c main_v65) (iblk4 V c 0 t) (iblk4 V c 1 t) (t.val / 4) (t.val % 4)
    (fun n k hb hn => blk0_apply V c t 0 n k hb hn) (fun q hb => blk1_apply V c t 0 0 q hb) j
    (((cfg4.win 2).blk t).view.emb j)
    (by show win4_2.index t (0 : Fin 3) * 1 + 1 * (j 0).val = t.val / 4
        rw [e20]; omega)
    (by show win4_2.index t (1 : Fin 3) * 1088 + 1 * (j 1).val = (j 1).val
        rw [e21]; omega)
    (by show win4_2.index t (2 : Fin 3) * 4096 + 1 * (j 2).val = t.val % 4 * 4096 + (j 2).val
        rw [e22]; omega)

/-- The output array when the region ends: per batch index, the pooled rows on top of the transposed activation. -/
theorem final2 (c : Dev nD) : (dat4 V c).arrAt 2 cfg4.N = Cert.KForms.stackF (V c main_v66) (V c main_v65) :=
  (dat4 V c).arrAt_eq_of_cover 2 _ (fun t _ => flushed2_eq V c t) fun i => by
    have hi0 : (i 0).val < 8 := (i 0).isLt
    have hi1 : (i 1).val < 1088 := (i 1).isLt
    have hi2 : (i 2).val < 16384 := (i 2).isLt
    have hN : cfg4.N = 32 := N_4
    obtain ⟨t, ht⟩ : ∃ t : Fin cfg4.N, t.val = (i 0).val * 4 + (i 2).val / 4096 :=
      ⟨⟨(i 0).val * 4 + (i 2).val / 4096, by rw [hN]; omega⟩, rfl⟩
    obtain ⟨e00, e01, e02, e10, e11, e12, e20, e21, e22⟩ := idx_facts t
    refine ⟨t, flush4_2 t, ?_⟩
    rw [mem_blk2]
    intro a
    match a with
    | ⟨0, _⟩ =>
      show win4_2.index t (0 : Fin 3) * 1 ≤ (i 0).val ∧ (i 0).val < win4_2.index t (0 : Fin 3) * 1 + 1
      rw [e20, ht]
      omega
    | ⟨1, _⟩ =>
      show win4_2.index t (1 : Fin 3) * 1088 ≤ (i 1).val ∧ (i 1).val < win4_2.index t (1 : Fin 3) * 1088 + 1088
      rw [e21]
      omega
    | ⟨2, _⟩ =>
      show win4_2.index t (2 : Fin 3) * 4096 ≤ (i 2).val ∧ (i 2).val < win4_2.index t (2 : Fin 3) * 4096 + 4096
      rw [e22, ht]
      omega

end Cert.KernelIdeal.R4

end
-- ==== Proof.KChain.lean ====
/-
  The kernel program's result, stage by stage.

  The program's ten segments alternate host stretches and regions.  Region by region, the array each region leaves is the
  corresponding stage of the network in its moment form, read at the flattened row 16384·b + n of the point (b, n): the
  first linear map, its statistics, the normalised and rectified first activation, and so on down to the stacked output.
-/
import proofs.«128329_j6322191859819_2_alg».proof.Proof.KHost
import proofs.«128329_j6322191859819_2_alg».proof.Proof.KCurry
import proofs.«128329_j6322191859819_2_alg».proof.Proof.R0Value
import proofs.«128329_j6322191859819_2_alg».proof.Proof.R1Final
import proofs.«128329_j6322191859819_2_alg».proof.Proof.R2Stats
import proofs.«128329_j6322191859819_2_alg».proof.Proof.R3Value
import proofs.«128329_j6322191859819_2_alg».proof.Proof.R4Final

set_option maxRecDepth 16384

noncomputable section

open Idealize.ShloMosaic Idealize.ShloMosaic.TcCoe Idealize.SL.Sem Idealize.ShloMosaic.ValueIdx

namespace Cert.KernelIdeal.KChain

open Cert.KernelIdeal Cert.KernelIdeal.Gen
open Cert.Net Cert.KForms Cert.KRows Cert.KCurry

/-! ## The two re-layings read at a point -/

/-- An 8 × 16384 × C array flattened to 131072 × C reads, at the row of the point (b, n), the array at (b, n). -/
theorem flat_apply {C : ℕ} (x : (⟨3, ![8, 16384, C]⟩ : Shape).Idx → EReal)
    (h : (⟨3, ![8, 16384, C]⟩ : Shape).ShapeCasts ⟨2, ![131072, C]⟩) (b : Fin 8) (n : Fin 16384) (k : Fin C) :
    shapeCast ⟨2, ![131072, C]⟩ x h (ix2 (pt b n) k) = x (ix3 b n k) :=
  shapeCast_apply x h _ _ (by
    rw [Shape.rowMajor_val_three, Shape.rowMajor_val_two]
    rfl)

/-- A 131072 × C array re-laid as 8 × 16384 × C reads, at (b, n), the array at the row of the point (b, n). -/
theorem unflat_apply {C : ℕ} (y : (⟨2, ![131072, C]⟩ : Shape).Idx → EReal)
    (h : (⟨2, ![131072, C]⟩ : Shape).ShapeCasts ⟨3, ![8, 16384, C]⟩) (b : Fin 8) (n : Fin 16384) (k : Fin C) :
    shapeCast ⟨3, ![8, 16384, C]⟩ y h (ix3 b n k) = y (ix2 (pt b n) k) :=
  shapeCast_apply y h _ _ (by
    rw [Shape.rowMajor_val_three, Shape.rowMajor_val_two]
    rfl)

variable (m : (ℓ : Loc nD τ sig) → Buf (Elt Ideal) ℓ) (ρ : Dev nD → PrngReg) (c : Dev nD)

/-! ## The arguments, by coordinates -/

abbrev xc : Act 3 := cur3 (m ((c : Thread nD τ).loc main_arg0))
abbrev W0c : Fin 64 → Fin 3 → EReal := cur2 (m ((c : Thread nD τ).loc main_arg1))
abbrev b0c : Fin 64 → EReal := cur1 (m ((c : Thread nD τ).loc main_arg2))
abbrev g0c : Fin 64 → EReal := cur1 (m ((c : Thread nD τ).loc main_arg3))
abbrev be0c : Fin 64 → EReal := cur1 (m ((c : Thread nD τ).loc main_arg4))
abbrev W1c : Fin 128 → Fin 64 → EReal := cur2 (m ((c : Thread nD τ).loc main_arg5))
abbrev b1c : Fin 128 → EReal := cur1 (m ((c : Thread nD τ).loc main_arg6))
abbrev g1c : Fin 128 → EReal := cur1 (m ((c : Thread nD τ).loc main_arg7))
abbrev be1c : Fin 128 → EReal := cur1 (m ((c : Thread nD τ).loc main_arg8))
abbrev W2c : Fin 1024 → Fin 128 → EReal := cur2 (m ((c : Thread nD τ).loc main_arg9))
abbrev b2c : Fin 1024 → EReal := cur1 (m ((c : Thread nD τ).loc main_arg10))
abbrev g2c : Fin 1024 → EReal := cur1 (m ((c : Thread nD τ).loc main_arg11))
abbrev be2c : Fin 1024 → EReal := cur1 (m ((c : Thread nD τ).loc main_arg12))

/-- The first linear map. -/
abbrev h0c : Act 64 := lin (xc m c) (W0c m c) (b0c m c)
/-- The first activation: normalised and rectified. -/
abbrev a0c : Act 64 := relu (bnM (h0c m c) (g0c m c) (be0c m c))
/-- The second linear map. -/
abbrev h1c : Act 128 := lin (a0c m c) (W1c m c) (b1c m c)
/-- The second activation. -/
abbrev a1c : Act 128 := relu (bnM (h1c m c) (g1c m c) (be1c m c))
/-- The third linear map. -/
abbrev h2c : Act 1024 := lin (a1c m c) (W2c m c) (b2c m c)

/-! ## Layer 1 -/

/-- The product array region 0 leaves is the first linear map, row by row. -/
theorem H0_apply (b : Fin 8) (n : Fin 16384) (o : Fin 64) :
    (W2 m ρ c (Proc.devRef .tc main_v7_0) : S131072x64.Idx → EReal) (ix2 (pt b n) o) = h0c m c b n o := by
  rw [show (W2 m ρ c (Proc.devRef .tc main_v7_0) : S131072x64.Idx → EReal) = _ from (W2_arr m ρ c 3).trans (R0.final3 (V1 m ρ) c)]
  refine lin_curry _ _ _ (xc m c) (W0c m c) (b0c m c) (fun b n k => ?_) (fun k o => ?_) (fun o => ?_) b n o
  · rw [KHost.v0_eq]; exact flat_apply _ _ b n k
  · rw [KHost.v1_eq]; exact transpose_ix2_apply _ _ k o
  · rw [KHost.v2_eq]; exact shapeCast_a_1a_apply _ _ 0 o

/-- The statistics array region 0 leaves is the statistics of that product. -/
theorem St0_eq : (W2 m ρ c (Proc.devRef .tc main_v7_1) : S2x64.Idx → EReal)
    = statsF (W2 m ρ c (Proc.devRef .tc main_v7_0) : S131072x64.Idx → EReal) := by
  rw [show (W2 m ρ c (Proc.devRef .tc main_v7_0) : S131072x64.Idx → EReal) = _ from (W2_arr m ρ c 3).trans (R0.final3 (V1 m ρ) c)]
  exact (W2_arr m ρ c 4).trans (R0.final4 (V1 m ρ) c)

/-- The scale row entering region 1 is the moment-form scale of the first linear map. -/
theorem s0_apply (o : Fin 64) : (V3 m ρ c main_v22 : S1x64.Idx → EReal) (ix2 (0 : Fin 1) o) = scaleM (h0c m c) (g0c m c) o := by
  rw [KHost.main_v22_apply, St0_eq]
  exact scale_curry _ (h0c m c) (fun b n o => H0_apply m ρ c b n o) (g0c m c) o

/-- The shift row entering region 1 is the moment-form shift of the first linear map. -/
theorem t0_apply (o : Fin 64) : (V3 m ρ c main_v25 : S1x64.Idx → EReal) (ix2 (0 : Fin 1) o) = shiftM (h0c m c) (g0c m c) (be0c m c) o := by
  rw [KHost.main_v25_apply, St0_eq]
  exact shift_curry _ (h0c m c) (fun b n o => H0_apply m ρ c b n o) (g0c m c) (be0c m c) o

/-! ## Layer 2 -/

/-- The first product as region 1 finds it. -/
theorem H0_V3 (b : Fin 8) (n : Fin 16384) (o : Fin 64) :
    (V3 m ρ c main_v7_0 : S131072x64.Idx → EReal) (ix2 (pt b n) o) = h0c m c b n o :=
  (congrFun (KHost.v7_0_W3 m ρ c) _).trans (H0_apply m ρ c b n o)

/-- The first activation array region 1 leaves. -/
theorem A0_apply (b : Fin 8) (n : Fin 16384) (o : Fin 64) :
    (W4 m ρ c (Proc.devRef .tc main_v26_0) : S131072x64.Idx → EReal) (ix2 (pt b n) o) = a0c m c b n o := by
  rw [show (W4 m ρ c (Proc.devRef .tc main_v26_0) : S131072x64.Idx → EReal) = _ from (W4_arr m ρ c 5).trans (R1.final5 (V3 m ρ) c)]
  exact act_curry _ _ _ (h0c m c) (g0c m c) (be0c m c) (H0_V3 m ρ c) (s0_apply m ρ c) (t0_apply m ρ c) b n o

/-- The second weights and bias as region 1 finds them. -/
theorem Wt1_apply (k : Fin 64) (o : Fin 128) : (V3 m ρ c main_v3 : S64x128.Idx → EReal) (ix2 k o) = W1c m c o k :=
  (congrFun (KHost.v3_W3 m ρ c) _).trans (by rw [KHost.v3_eq]; exact transpose_ix2_apply _ _ k o)
theorem B1_apply (o : Fin 128) : (V3 m ρ c main_v4 : S1x128.Idx → EReal) (ix2 (0 : Fin 1) o) = b1c m c o :=
  (congrFun (KHost.v4_W3 m ρ c) _).trans (by rw [KHost.v4_eq]; exact shapeCast_a_1a_apply _ _ 0 o)

/-- The second product array region 1 leaves. -/
theorem H1_apply (b : Fin 8) (n : Fin 16384) (o : Fin 128) :
    (W4 m ρ c (Proc.devRef .tc main_v26_1) : S131072x128.Idx → EReal) (ix2 (pt b n) o) = h1c m c b n o := by
  rw [show (W4 m ρ c (Proc.devRef .tc main_v26_1) : S131072x128.Idx → EReal) = _ from (W4_arr m ρ c 6).trans (R1.final6 (V3 m ρ) c)]
  exact lin_curry _ _ _ (a0c m c) (W1c m c) (b1c m c)
    (fun b n k => act_curry _ _ _ (h0c m c) (g0c m c) (be0c m c) (H0_V3 m ρ c) (s0_apply m ρ c) (t0_apply m ρ c) b n k)
    (Wt1_apply m ρ c) (B1_apply m ρ c) b n o

/-- The statistics array region 1 leaves. -/
theorem St1_eq : (W4 m ρ c (Proc.devRef .tc main_v26_2) : S2x128.Idx → EReal) = statsF (W4 m ρ c (Proc.devRef .tc main_v26_1) : S131072x128.Idx → EReal) := by
  rw [show (W4 m ρ c (Proc.devRef .tc main_v26_1) : S131072x128.Idx → EReal) = _ from (W4_arr m ρ c 6).trans (R1.final6 (V3 m ρ) c)]
  exact (W4_arr m ρ c 7).trans (R1.final7 (V3 m ρ) c)

theorem s1_apply (o : Fin 128) : (V5 m ρ c main_v41 : S1x128.Idx → EReal) (ix2 (0 : Fin 1) o) = scaleM (h1c m c) (g1c m c) o := by
  rw [KHost.main_v41_apply, St1_eq]
  exact scale_curry _ (h1c m c) (fun b n o => H1_apply m ρ c b n o) (g1c m c) o

theorem t1_apply (o : Fin 128) : (V5 m ρ c main_v44 : S1x128.Idx → EReal) (ix2 (0 : Fin 1) o) = shiftM (h1c m c) (g1c m c) (be1c m c) o := by
  rw [KHost.main_v44_apply, St1_eq]
  exact shift_curry _ (h1c m c) (fun b n o => H1_apply m ρ c b n o) (g1c m c) (be1c m c) o

/-! ## Layer 3 -/

theorem H1_V5 (b : Fin 8) (n : Fin 16384) (o : Fin 128) :
    (V5 m ρ c main_v26_1 : S131072x128.Idx → EReal) (ix2 (pt b n) o) = h1c m c b n o :=
  (congrFun (KHost.v26_1_W5 m ρ c) _).trans (H1_apply m ρ c b n o)

theorem Wt2_apply (k : Fin 128) (o : Fin 1024) : (V5 m ρ c main_v5 : S128x1024.Idx → EReal) (ix2 k o) = W2c m c o k :=
  (congrFun (KHost.v5_W5 m ρ c) _).trans (by rw [KHost.v5_eq]; exact transpose_ix2_apply _ _ k o)
theorem B2_apply (o : Fin 1024) : (V5 m ρ c main_v6 : S1x1024.Idx → EReal) (ix2 (0 : Fin 1) o) = b2c m c o :=
  (congrFun (KHost.v6_W5 m ρ c) _).trans (by rw [KHost.v6_eq]; exact shapeCast_a_1a_apply _ _ 0 o)

/-- The third product array region 2 leaves. -/
theorem H2_apply (b : Fin 8) (n : Fin 16384) (o : Fin 1024) :
    (W6 m ρ c (Proc.devRef .tc main_v45_0) : S131072x1024.Idx → EReal) (ix2 (pt b n) o) = h2c m c b n o := by
  rw [show (W6 m ρ c (Proc.devRef .tc main_v45_0) : S131072x1024.Idx → EReal) = _ from (W6_arr m ρ c 5).trans (R2.final5 (V5 m ρ) c)]
  exact lin_curry _ _ _ (a1c m c) (W2c m c) (b2c m c)
    (fun b n k => act_curry _ _ _ (h1c m c) (g1c m c) (be1c m c) (H1_V5 m ρ c) (s1_apply m ρ c) (t1_apply m ρ c) b n k)
    (Wt2_apply m ρ c) (B2_apply m ρ c) b n o

/-- The statistics array region 2 leaves. -/
theorem St2_eq : (W6 m ρ c (Proc.devRef .tc main_v45_1) : S2x1024.Idx → EReal) = statsF (W6 m ρ c (Proc.devRef .tc main_v45_0) : S131072x1024.Idx → EReal) := by
  rw [show (W6 m ρ c (Proc.devRef .tc main_v45_0) : S131072x1024.Idx → EReal) = _ from (W6_arr m ρ c 5).trans (R2.final5 (V5 m ρ) c)]
  exact (W6_arr m ρ c 6).trans (R2.final6 (V5 m ρ) c)

theorem s2_apply (o : Fin 1024) : (V7 m ρ c main_v60 : S1x1024.Idx → EReal) (ix2 (0 : Fin 1) o) = scaleM (h2c m c) (g2c m c) o := by
  rw [KHost.main_v60_apply, St2_eq]
  exact scale_curry _ (h2c m c) (fun b n o => H2_apply m ρ c b n o) (g2c m c) o

theorem t2_apply (o : Fin 1024) : (V7 m ρ c main_v63 : S1x1024.Idx → EReal) (ix2 (0 : Fin 1) o) = shiftM (h2c m c) (g2c m c) (be2c m c) o := by
  rw [KHost.main_v63_apply, St2_eq]
  exact shift_curry _ (h2c m c) (fun b n o => H2_apply m ρ c b n o) (g2c m c) (be2c m c) o

/-! ## The pooled maxima and the stacked output -/

/-- The third product re-laid by batch index and position, as region 3 finds it. -/
theorem H2r_apply (b : Fin 8) (n : Fin 16384) (o : Fin 1024) :
    (V7 m ρ c main_v64 : S8x16384x1024.Idx → EReal) (ix3 b n o) = h2c m c b n o := by
  rw [KHost.v64_eq]
  exact (unflat_apply _ _ b n o).trans (H2_apply m ρ c b n o)

/-- The first activation re-laid by batch index and position, as region 4 finds it. -/
theorem A0r_apply (b : Fin 8) (n : Fin 16384) (o : Fin 64) :
    (V9 m ρ c main_v66 : S8x16384x64.Idx → EReal) (ix3 b n o) = a0c m c b n o := by
  rw [KHost.v66_eq]
  refine (unflat_apply _ _ b n o).trans ?_
  exact (congrFun (KHost.v26_0_W8 m ρ c) _).trans (A0_apply m ρ c b n o)

/-- The pooled array region 3 leaves, as region 4 finds it. -/
theorem G_eq : (V9 m ρ c main_v65 : S8x1x1024.Idx → EReal)
    = poolF (V7 m ρ c main_v64 : S8x16384x1024.Idx → EReal) (V7 m ρ c main_v60) (V7 m ρ c main_v63) :=
  (KHost.v65_W9 m ρ c).trans ((W8_arr m ρ c 3).trans (R3.final3 (V7 m ρ) c))

/-- The network's output in its moment form, as an array. -/
def result : S8x1088x16384.Idx → EReal :=
  arr3 (netM (xc m c) (W0c m c) (b0c m c) (g0c m c) (be0c m c) (W1c m c) (b1c m c) (g1c m c) (be1c m c)
    (W2c m c) (b2c m c) (g2c m c) (be2c m c))

/-- THE RESULT: the last boundary's contents at the result buffer are the network in its moment form. -/
theorem result_eq : (W10 m ρ c (Proc.devRef .tc main_v67) : S8x1088x16384.Idx → EReal) = result m c := by
  unfold result
  rw [show (W10 m ρ c (Proc.devRef .tc main_v67) : S8x1088x16384.Idx → EReal) = _ from (W10_arr m ρ c 2).trans (R4.final2 (V9 m ρ) c), G_eq]
  exact out_curry _ _ _ _ (a0c m c) (h2c m c) (g2c m c) (be2c m c) (A0r_apply m ρ c) (H2r_apply m ρ c) (s2_apply m ρ c) (t2_apply m ρ c)

end Cert.KernelIdeal.KChain

end
-- ==== Proof.RefTerm.lean ====
/-
  The reference's result as one pure term of its thirteen argument arrays.

  One layer, at any channel counts Ci → C over the fixed 8 × 16384 points, is written once: the per-point linear map
  (a contraction of the activation's channel axis with the weight's second axis, plus the bias row broadcast to every
  point), the channel mean over all points, the channel variance as the program's outlined function computes it (its own
  mean, the squared deviations summed, divided by the point count less a zero converted from an integer, and selected
  against a fill value where that divisor is positive), the normalisation, and the rectifier.  The whole program is three
  such layers, then the maximum over the positions, broadcast back along them, stacked on the transposed first layer.
-/
import proofs.«128329_j6322191859819_2_alg».proof.ReferenceIdeal

noncomputable section

namespace Cert.ReferenceIdeal.RefValue

open Idealize.ShloMosaic

variable {F : FTy → Type} [FloatOps F]

/-- An activation array: batch index, position, channel. -/
abbrev A3 (C : Nat) : Shape := ⟨3, ![8, 16384, C]⟩
/-- A channel row kept as a rank-3 array with unit leading axes. -/
abbrev K3 (C : Nat) : Shape := ⟨3, ![1, 1, C]⟩
/-- A channel row. -/
abbrev A1 (C : Nat) : Shape := ⟨1, ![C]⟩
/-- A weight matrix: output channel, input channel. -/
abbrev A2 (Co Ci : Nat) : Shape := ⟨2, ![Co, Ci]⟩
/-- A scalar. -/
abbrev A0 : Shape := ⟨0, ![]⟩

/-- The shape facts one layer's operations cite, at C channels. -/
structure RowFacts (C : Nat) : Prop where
  row : (A1 C).BroadcastsInDim (K3 C) (![2] : Fin 1 → Fin (K3 C).rank)
  all : (K3 C).BroadcastsInDim (A3 C) (![0, 1, 2] : Fin 3 → Fin (A3 C).rank)
  red : (A3 C).ReducesTo [0, 1] (A1 C)
  s1 : A0.BroadcastsInDim (A1 C) (![] : Fin 0 → Fin (A1 C).rank)
  sk : A0.BroadcastsInDim (K3 C) (![] : Fin 0 → Fin (K3 C).rank)
  h0 : 0 < A0.numel

section Layer

variable {Ci C : Nat} (R : RowFacts C)

/-- A channel row read at every point. -/
def rowT (v : FVec F (A1 C) .f32) : FVec F (A3 C) .f32 :=
  broadcastInDim (A3 C) ![0, 1, 2] R.all (broadcastInDim (K3 C) ![2] R.row v)

/-- The per-point linear map plus the bias row. -/
def linT (D : DotDims (A3 Ci) (A2 C Ci) (A3 C)) (x : FVec F (A3 Ci) .f32) (W : FVec F (A2 C Ci) .f32)
    (b : FVec F (A1 C) .f32) : FVec F (A3 C) .f32 :=
  addf (Host.dotGeneral D none x W) (rowT R b)

/-- The channel mean over all points: the sum from zero, divided by the point count. -/
def meanT (h : FVec F (A3 C) .f32) : FVec F (A1 C) .f32 :=
  Host.divf (Host.reduceAdd h (constant A0 .f32 0x00000000#32) R.red R.h0)
    (broadcastInDim (A1 C) ![] R.s1 (constant A0 .f32 0x48000000#32))

/-- The divisor of the variance: the point count less the integer correction, converted. -/
def cntT (c : IVec A0 32) : FVec F A0 .f32 :=
  subf (constant A0 .f32 0x48000000#32) (sitofp .f32 c)

/-- The deviations from the mean, the mean taken with the channel axis kept. -/
def devT (h : FVec F (A3 C) .f32) : FVec F (A3 C) .f32 :=
  subf h (broadcastInDim (A3 C) ![0, 1, 2] R.all
    (Host.divf (broadcastInDim (K3 C) ![2] R.row (Host.reduceAdd h (constant A0 .f32 0x00000000#32) R.red R.h0))
      (broadcastInDim (K3 C) ![] R.sk (constant A0 .f32 0x48000000#32))))

/-- The channel variance: the mean of the squared deviations, selected against the fill value where the divisor is
    positive. -/
def varT (h : FVec F (A3 C) .f32) (c : IVec A0 32) : FVec F (A1 C) .f32 :=
  select (broadcastInDim (A1 C) ![] R.s1 (cmpf .ogt (cntT (F := F) c) (constant A0 .f32 0x00000000#32)))
    (Host.divf (Host.reduceAdd (mulf (devT R h) (devT R h)) (constant A0 .f32 0x00000000#32) R.red R.h0)
      (broadcastInDim (A1 C) ![] R.s1 (cntT c)))
    (broadcastInDim (A1 C) ![] R.s1 (id (constant A0 .f32 0x7FC00000#32)))

/-- Batch normalisation. -/
def bnT (h : FVec F (A3 C) .f32) (c : IVec A0 32) (g be : FVec F (A1 C) .f32) : FVec F (A3 C) .f32 :=
  addf (mulf (mulf (subf h (rowT R (meanT R h)))
      (rowT R (Host.rsqrt (addf (varT R h c) (broadcastInDim (A1 C) ![] R.s1 (constant A0 .f32 0x3727C5AC#32))))))
    (rowT R g)) (rowT R be)

/-- The rectifier. -/
def reluT (sa : A0.BroadcastsInDim (A3 C) (![] : Fin 0 → Fin (A3 C).rank)) (h : FVec F (A3 C) .f32) : FVec F (A3 C) .f32 :=
  maximumf h (broadcastInDim (A3 C) ![] sa (constant A0 .f32 0x00000000#32))

end Layer

section Whole

variable [Facts]
open Facts₀ Facts

theorem rows64 : RowFacts 64 :=
  ⟨bcast_S64_S1x1x64_2, bcast_S1x1x64_S8x16384x64_0_1_2, reducesTo_S8x16384x64_S64_d0_1, bcast_S_S64, bcast_S_S1x1x64, h_S_⟩
theorem rows128 : RowFacts 128 :=
  ⟨bcast_S128_S1x1x128_2, bcast_S1x1x128_S8x16384x128_0_1_2, reducesTo_S8x16384x128_S128_d0_1, bcast_S_S128, bcast_S_S1x1x128, h_S_⟩
theorem rows1024 : RowFacts 1024 :=
  ⟨bcast_S1024_S1x1x1024_2, bcast_S1x1x1024_S8x16384x1024_0_1_2, reducesTo_S8x16384x1024_S1024_d0_1, bcast_S_S1024, bcast_S_S1x1x1024, h_S_⟩

/-- The integer correction every variance is called with: zero. -/
def corr : IVec A0 32 := constantI S_ 32 0#32

/-- The first layer: 3 → 64 channels, normalised and rectified. -/
def layer0 (x : FVec F S8x16384x3 .f32) (W : FVec F S64x3 .f32) (b g be : FVec F S64 .f32) : FVec F S8x16384x64 .f32 :=
  reluT bcast_S_S8x16384x64 (bnT rows64 (linT rows64 dot_S8x16384x3_S64x3_S8x16384x64_2_1_01_0_n_n x W b) corr g be)

/-- The second layer: 64 → 128 channels, normalised and rectified. -/
def layer1 (x : FVec F S8x16384x64 .f32) (W : FVec F S128x64 .f32) (b g be : FVec F S128 .f32) : FVec F S8x16384x128 .f32 :=
  reluT bcast_S_S8x16384x128 (bnT rows128 (linT rows128 dot_S8x16384x64_S128x64_S8x16384x128_2_1_01_0_n_n x W b) corr g be)

/-- The third layer: 128 → 1024 channels, normalised, not rectified. -/
def layer2 (x : FVec F S8x16384x128 .f32) (W : FVec F S1024x128 .f32) (b g be : FVec F S1024 .f32) : FVec F S8x16384x1024 .f32 :=
  bnT rows1024 (linT rows1024 dot_S8x16384x128_S1024x128_S8x16384x1024_2_1_01_0_n_n x W b) corr g be

/-- The maximum over the positions, from minus infinity. -/
def poolT (a2 : FVec F S8x16384x1024 .f32) : FVec F S8x1024 .f32 :=
  Host.reduce FloatOps.maximumf a2 (constant S_ .f32 0xFF800000#32) reducesTo_S8x16384x1024_S8x1024_d1 h_S_

/-- The stacked output: the pooled third layer broadcast along the positions, on top of the transposed first layer. -/
def stackT (a2 : FVec F S8x16384x1024 .f32) (a0 : FVec F S8x16384x64 .f32) : FVec F S8x1088x16384 .f32 :=
  concatenate S8x1088x16384 1
    [⟨S8x1024x16384, broadcastInDim S8x1024x16384 ![0, 1, 2] bcast_S8x1024x1_S8x1024x16384_0_1_2
        (broadcastInDim S8x1024x1 ![0, 1] bcast_S8x1024_S8x1024x1_0_1 (poolT a2))⟩,
      ⟨S8x64x16384, transpose S8x64x16384 [0, 2, 1] a0 transposes_S8x16384x64_S8x64x16384_0_2_1⟩]
    concatenates_S8x1024x16384_S8x64x16384_S8x1088x16384_d1

/-- The reference's result as a function of its thirteen arguments. -/
def refTerm (x : FVec F S8x16384x3 .f32) (W0 : FVec F S64x3 .f32) (b0 g0 be0 : FVec F S64 .f32)
    (W1 : FVec F S128x64 .f32) (b1 g1 be1 : FVec F S128 .f32)
    (W2 : FVec F S1024x128 .f32) (b2 g2 be2 : FVec F S1024 .f32) : FVec F S8x1088x16384 .f32 :=
  stackT (layer2 (layer1 (layer0 x W0 b0 g0 be0) W1 b1 g1 be1) W2 b2 g2 be2) (layer0 x W0 b0 g0 be0)

end Whole

end Cert.ReferenceIdeal.RefValue

end
-- ==== Proof.RefRun.lean ====
/-
  The reference's run: @main is a straight line of 156 host operations — its own, and at each call the outlined
  function's lines over that call's buffers — listed here layer by layer.  Each layer's list, folded over any buffer
  contents, leaves the layer's pure term at its result buffer and does not touch what it does not write; the four folds
  composed give the whole program's term, and every weakly fair execution ends there with the arguments unchanged.
-/
import proofs.«128329_j6322191859819_2_alg».proof.Proof.RefTerm
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo

variable {F : FTy → Type} [FloatOps F] [Facts]
open Facts₀ Facts

/-- The fold over a concatenation is the fold over the second list from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- A result buffer listed among `W` is, as a device buffer, in the set the list names. -/
theorem sub_of_mem {W : List (Ref sig .tc)} {y : Ref sig .tc} (hy : y ∈ W) :
    ({Proc.devRef .tc y} : Finset (DevRef τ sig)) ⊆ (W.map (Proc.devRef (τ := τ) .tc)).toFinset :=
  Finset.singleton_subset_iff.2 (List.mem_toFinset.2 (List.mem_map_of_mem hy))

/-- The first layer's operations: the linear map, the mean, the variance function's lines, the normalisation, the rectifier's lines. -/
def opsL0 : List (HloOp τ sig (Elt F)) :=
  [ binary main_arg0 main_arg1 main_v0 ((fun l r => Host.dotGeneral dot_S8x16384x3_S64x3_S8x16384x64_2_1_01_0_n_n none l r) : (⟨S8x16384x3, .f32⟩ : BufTy).Contents (Elt F) → (⟨S64x3, .f32⟩ : BufTy).Contents (Elt F) → (⟨S8x16384x64, .f32⟩ : BufTy).Contents (Elt F)),
    unary main_arg2 main_v1 (broadcastInDim S1x1x64 ![2] bcast_S64_S1x1x64_2 : (⟨S64, .f32⟩ : BufTy).Contents (Elt F) → (⟨S1x1x64, .f32⟩ : BufTy).Contents (Elt F)),
    unary main_v1 main_v2 (broadcastInDim S8x16384x64 ![0, 1, 2] bcast_S1x1x64_S8x16384x64_0_1_2 : (⟨S1x1x64, .f32⟩ : BufTy).Contents (Elt F) → (⟨S8x16384x64, .f32⟩ : BufTy).Contents (Elt F)),
    binary main_v0 main_v2 main_v3 (addf : (⟨S8x16384x64, .f32⟩ : BufTy).Contents (Elt F) → (⟨S8x16384x64, .f32⟩ : BufTy).Contents (Elt F) → (⟨S8x16384x64, .f32⟩ : BufTy).Contents (Elt F)),
    nullary main_cst (constant S_ .f32 0x00000000#32),
    binary main_v3 main_cst main_v4 ((fun x v => Host.reduceAdd x v reducesTo_S8x16384x64_S64_d0_1 h_S_) : (⟨S8x16384x64, .f32⟩ : BufTy).Contents (Elt F) → (⟨S_, .f32⟩ : BufTy).Contents (Elt F) → (⟨S64, .f32⟩ : BufTy).Contents (Elt F)),
    nullary main_cst_0 (constant S_ .f32 0x48000000#32),
    unary main_cst_0 main_v5 (broadcastInDim S64 ![] bcast_S_S64 : (⟨S_, .f32⟩ : BufTy).Contents (Elt F) → (⟨S64, .f32⟩ : BufTy).Contents (Elt F)),
    binary main_v4 main_v5 main_v6 (Host.divf : (⟨S64, .f32⟩ : BufTy).Contents (Elt F) → (⟨S64, .f32⟩ : BufTy).Contents (Elt F) → (⟨S64, .f32⟩ : BufTy).Contents (Elt F)),
    nullary main_c (constantI S_ 32 0#32),
    TRef.nullary main_call0.cst (constant S_ .f32 0x00000000#32),
    TRef.binary (.of main_v3) main_call0.cst main_call0.v0 (fun x v => Host.reduceAdd x v reducesTo_S8x16384x64_S64_d0_1 h_S_),
    TRef.unary main_call0.v0 main_call0.v1 (broadcastInDim S1x1x64 ![2] bcast_S64_S1x1x64_2),
    TRef.nullary main_call0.cst_0 (constant S_ .f32 0x48000000#32),
    TRef.unary main_call0.cst_0 main_call0.v2 (broadcastInDim S1x1x64 ![] bcast_S_S1x1x64),
    TRef.binary main_call0.v1 main_call0.v2 main_call0.v3 Host.divf,
    TRef.unary main_call0.v3 main_call0.v4 (broadcastInDim S8x16384x64 ![0, 1, 2] bcast_S1x1x64_S8x16384x64_0_1_2),
    TRef.binary (.of main_v3) main_call0.v4 main_call0.v5 subf,
    TRef.binary main_call0.v5 main_call0.v5 main_call0.v6 mulf,
    TRef.unary (.of main_c) main_call0.v7 (sitofp .f32),
    TRef.nullary main_call0.cst_1 (constant S_ .f32 0x48000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S8x16384x64_S64_d0_1 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b),
    unary main_v6 main_v8 (broadcastInDim S1x1x64 ![2] bcast_S64_S1x1x64_2 : (⟨S64, .f32⟩ : BufTy).Contents (Elt F) → (⟨S1x1x64, .f32⟩ : BufTy).Contents (Elt F)),
    unary main_v8 main_v9 (broadcastInDim S8x16384x64 ![0, 1, 2] bcast_S1x1x64_S8x16384x64_0_1_2 : (⟨S1x1x64, .f32⟩ : BufTy).Contents (Elt F) → (⟨S8x16384x64, .f32⟩ : BufTy).Contents (Elt F)),
    binary main_v3 main_v9 main_v10 (subf : (⟨S8x16384x64, .f32⟩ : BufTy).Contents (Elt F) → (⟨S8x16384x64, .f32⟩ : BufTy).Contents (Elt F) → (⟨S8x16384x64, .f32⟩ : BufTy).Contents (Elt F)),
    nullary main_cst_1 (constant S_ .f32 0x3727C5AC#32),
    unary main_cst_1 main_v11 (broadcastInDim S64 ![] bcast_S_S64 : (⟨S_, .f32⟩ : BufTy).Contents (Elt F) → (⟨S64, .f32⟩ : BufTy).Contents (Elt F)),
    binary main_v7 main_v11 main_v12 (addf : (⟨S64, .f32⟩ : BufTy).Contents (Elt F) → (⟨S64, .f32⟩ : BufTy).Contents (Elt F) → (⟨S64, .f32⟩ : BufTy).Contents (Elt F)),
    unary main_v12 main_v13 (Host.rsqrt : (⟨S64, .f32⟩ : BufTy).Contents (Elt F) → (⟨S64, .f32⟩ : BufTy).Contents (Elt F)),
    unary main_v13 main_v14 (broadcastInDim S1x1x64 ![2] bcast_S64_S1x1x64_2 : (⟨S64, .f32⟩ : BufTy).Contents (Elt F) → (⟨S1x1x64, .f32⟩ : BufTy).Contents (Elt F)),
    unary main_v14 main_v15 (broadcastInDim S8x16384x64 ![0, 1, 2] bcast_S1x1x64_S8x16384x64_0_1_2 : (⟨S1x1x64, .f32⟩ : BufTy).Contents (Elt F) → (⟨S8x16384x64, .f32⟩ : BufTy).Contents (Elt F)),
    binary main_v10 main_v15 main_v16 (mulf : (⟨S8x16384x64, .f32⟩ : BufTy).Contents (Elt F) → (⟨S8x16384x64, .f32⟩ : BufTy).Contents (Elt F) → (⟨S8x16384x64, .f32⟩ : BufTy).Contents (Elt F)),
    unary main_arg3 main_v17 (broadcastInDim S1x1x64 ![2] bcast_S64_S1x1x64_2 : (⟨S64, .f32⟩ : BufTy).Contents (Elt F) → (⟨S1x1x64, .f32⟩ : BufTy).Contents (Elt F)),
    unary main_v17 main_v18 (broadcastInDim S8x16384x64 ![0, 1, 2] bcast_S1x1x64_S8x16384x64_0_1_2 : (⟨S1x1x64, .f32⟩ : BufTy).Contents (Elt F) → (⟨S8x16384x64, .f32⟩ : BufTy).Contents (Elt F)),
    binary main_v16 main_v18 main_v19 (mulf : (⟨S8x16384x64, .f32⟩ : BufTy).Contents (Elt F) → (⟨S8x16384x64, .f32⟩ : BufTy).Contents (Elt F) → (⟨S8x16384x64, .f32⟩ : BufTy).Contents (Elt F)),
    unary main_arg4 main_v20 (broadcastInDim S1x1x64 ![2] bcast_S64_S1x1x64_2 : (⟨S64, .f32⟩ : BufTy).Contents (Elt F) → (⟨S1x1x64, .f32⟩ : BufTy).Contents (Elt F)),
    unary main_v20 main_v21 (broadcastInDim S8x16384x64 ![0, 1, 2] bcast_S1x1x64_S8x16384x64_0_1_2 : (⟨S1x1x64, .f32⟩ : BufTy).Contents (Elt F) → (⟨S8x16384x64, .f32⟩ : BufTy).Contents (Elt F)),
    binary main_v19 main_v21 main_v22 (addf : (⟨S8x16384x64, .f32⟩ : BufTy).Contents (Elt F) → (⟨S8x16384x64, .f32⟩ : BufTy).Contents (Elt F) → (⟨S8x16384x64, .f32⟩ : BufTy).Contents (Elt F)),
    TRef.nullary main_call1.cst (constant S_ .f32 0x00000000#32),
    TRef.unary main_call1.cst main_call1.v0 (broadcastInDim S8x16384x64 ![] bcast_S_S8x16384x64),
    TRef.binary (.of main_v22) main_call1.v0 main_call1.v1 maximumf ]

theorem subL0 : (opsL0 (F := F)).Forall fun op => op.bufs ⊆ tcRefs τ sig := by
  unfold opsL0
  exact ⟨binary_bufs_sub .., unary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub ..⟩

theorem freshL0 : ∀ op ∈ opsL0 (F := F), op.fresh = ∅ := by
  unfold opsL0
  intro _ h
  (repeat (cases h with | head => rfl | tail _ h => ?_))
  exact nomatch h

/-- The buffers these operations write. -/
def WL0 : List (Ref sig .tc) :=
  [ main_v0, main_v1, main_v2, main_v3, main_cst, main_v4,
    main_cst_0, main_v5, main_v6, main_c, main_call0.cst.ref, main_call0.v0.ref,
    main_call0.v1.ref, main_call0.cst_0.ref, main_call0.v2.ref, main_call0.v3.ref, main_call0.v4.ref, main_call0.v5.ref,
    main_call0.v6.ref, main_call0.v7.ref, main_call0.cst_1.ref, main_call0.v8.ref, main_call0.cst_2.ref, main_call0.v9.ref,
    main_call0.v10.ref, main_call0.v11.ref, main_call0.cst_3.ref, main_call0.v12.ref, main_call0.cst_4.ref, main_call0.call0.v0.ref,
    main_call0.call0.v1.ref, main_call0.call0.v2.ref, main_v8, main_v9, main_v10, main_cst_1,
    main_v11, main_v12, main_v13, main_v14, main_v15, main_v16,
    main_v17, main_v18, main_v19, main_v20, main_v21, main_v22,
    main_call1.cst.ref, main_call1.v0.ref, main_call1.v1.ref ]

theorem writesL0 : (opsL0 (F := F)).Forall fun op => op.writes ⊆ ((WL0.map (Proc.devRef (τ := τ) .tc)).toFinset) := by
  unfold opsL0
  exact ⟨sub_of_mem (y := main_v0) (by decide), sub_of_mem (y := main_v1) (by decide),
    sub_of_mem (y := main_v2) (by decide), sub_of_mem (y := main_v3) (by decide),
    sub_of_mem (y := main_cst) (by decide), sub_of_mem (y := main_v4) (by decide),
    sub_of_mem (y := main_cst_0) (by decide), sub_of_mem (y := main_v5) (by decide),
    sub_of_mem (y := main_v6) (by decide), sub_of_mem (y := main_c) (by decide),
    sub_of_mem (y := main_call0.cst.ref) (by decide), sub_of_mem (y := main_call0.v0.ref) (by decide),
    sub_of_mem (y := main_call0.v1.ref) (by decide), sub_of_mem (y := main_call0.cst_0.ref) (by decide),
    sub_of_mem (y := main_call0.v2.ref) (by decide), sub_of_mem (y := main_call0.v3.ref) (by decide),
    sub_of_mem (y := main_call0.v4.ref) (by decide), sub_of_mem (y := main_call0.v5.ref) (by decide),
    sub_of_mem (y := main_call0.v6.ref) (by decide), sub_of_mem (y := main_call0.v7.ref) (by decide),
    sub_of_mem (y := main_call0.cst_1.ref) (by decide), sub_of_mem (y := main_call0.v8.ref) (by decide),
    sub_of_mem (y := main_call0.cst_2.ref) (by decide), sub_of_mem (y := main_call0.v9.ref) (by decide),
    sub_of_mem (y := main_call0.v10.ref) (by decide), sub_of_mem (y := main_call0.v11.ref) (by decide),
    sub_of_mem (y := main_call0.cst_3.ref) (by decide), sub_of_mem (y := main_call0.v12.ref) (by decide),
    sub_of_mem (y := main_call0.cst_4.ref) (by decide), sub_of_mem (y := main_call0.call0.v0.ref) (by decide),
    sub_of_mem (y := main_call0.call0.v1.ref) (by decide), sub_of_mem (y := main_call0.call0.v2.ref) (by decide),
    sub_of_mem (y := main_v8) (by decide), sub_of_mem (y := main_v9) (by decide),
    sub_of_mem (y := main_v10) (by decide), sub_of_mem (y := main_cst_1) (by decide),
    sub_of_mem (y := main_v11) (by decide), sub_of_mem (y := main_v12) (by decide),
    sub_of_mem (y := main_v13) (by decide), sub_of_mem (y := main_v14) (by decide),
    sub_of_mem (y := main_v15) (by decide), sub_of_mem (y := main_v16) (by decide),
    sub_of_mem (y := main_v17) (by decide), sub_of_mem (y := main_v18) (by decide),
    sub_of_mem (y := main_v19) (by decide), sub_of_mem (y := main_v20) (by decide),
    sub_of_mem (y := main_v21) (by decide), sub_of_mem (y := main_v22) (by decide),
    sub_of_mem (y := main_call1.cst.ref) (by decide), sub_of_mem (y := main_call1.v0.ref) (by decide),
    sub_of_mem (y := main_call1.v1.ref) (by decide)⟩

/-- A buffer these operations do not write keeps its contents. -/
theorem keepL0 (V : Valuation τ sig (Elt F)) {r : Ref sig .tc} (hr : r ∉ WL0) :
    after (opsL0 (F := F)) V (Proc.devRef .tc r) = V (Proc.devRef .tc r) :=
  after_of_writes_sub _ V writesL0 hr

/-- After them the first layer's activation is the layer's term of the arguments. -/
theorem outL0 (V : Valuation τ sig (Elt F)) :
    after (opsL0 (F := F)) V (main_v23 : DevRef τ sig)
      = layer0 (V (main_arg0 : DevRef τ sig)) (V (main_arg1 : DevRef τ sig)) (V (main_arg2 : DevRef τ sig)) (V (main_arg3 : DevRef τ sig)) (V (main_arg4 : DevRef τ sig)) := by
  unfold opsL0
  after_results_simp
  rfl

/-- The second layer's operations, in the same order. -/
def opsL1 : List (HloOp τ sig (Elt F)) :=
  [ binary main_v23 main_arg5 main_v24 ((fun l r => Host.dotGeneral dot_S8x16384x64_S128x64_S8x16384x128_2_1_01_0_n_n none l r) : (⟨S8x16384x64, .f32⟩ : BufTy).Contents (Elt F) → (⟨S128x64, .f32⟩ : BufTy).Contents (Elt F) → (⟨S8x16384x128, .f32⟩ : BufTy).Contents (Elt F)),
    unary main_arg6 main_v25 (broadcastInDim S1x1x128 ![2] bcast_S128_S1x1x128_2 : (⟨S128, .f32⟩ : BufTy).Contents (Elt F) → (⟨S1x1x128, .f32⟩ : BufTy).Contents (Elt F)),
    unary main_v25 main_v26 (broadcastInDim S8x16384x128 ![0, 1, 2] bcast_S1x1x128_S8x16384x128_0_1_2 : (⟨S1x1x128, .f32⟩ : BufTy).Contents (Elt F) → (⟨S8x16384x128, .f32⟩ : BufTy).Contents (Elt F)),
    binary main_v24 main_v26 main_v27 (addf : (⟨S8x16384x128, .f32⟩ : BufTy).Contents (Elt F) → (⟨S8x16384x128, .f32⟩ : BufTy).Contents (Elt F) → (⟨S8x16384x128, .f32⟩ : BufTy).Contents (Elt F)),
    nullary main_cst_2 (constant S_ .f32 0x00000000#32),
    binary main_v27 main_cst_2 main_v28 ((fun x v => Host.reduceAdd x v reducesTo_S8x16384x128_S128_d0_1 h_S_) : (⟨S8x16384x128, .f32⟩ : BufTy).Contents (Elt F) → (⟨S_, .f32⟩ : BufTy).Contents (Elt F) → (⟨S128, .f32⟩ : BufTy).Contents (Elt F)),
    nullary main_cst_3 (constant S_ .f32 0x48000000#32),
    unary main_cst_3 main_v29 (broadcastInDim S128 ![] bcast_S_S128 : (⟨S_, .f32⟩ : BufTy).Contents (Elt F) → (⟨S128, .f32⟩ : BufTy).Contents (Elt F)),
    binary main_v28 main_v29 main_v30 (Host.divf : (⟨S128, .f32⟩ : BufTy).Contents (Elt F) → (⟨S128, .f32⟩ : BufTy).Contents (Elt F) → (⟨S128, .f32⟩ : BufTy).Contents (Elt F)),
    nullary main_c_4 (constantI S_ 32 0#32),
    TRef.nullary main_call2.cst (constant S_ .f32 0x00000000#32),
    TRef.binary (.of main_v27) main_call2.cst main_call2.v0 (fun x v => Host.reduceAdd x v reducesTo_S8x16384x128_S128_d0_1 h_S_),
    TRef.unary main_call2.v0 main_call2.v1 (broadcastInDim S1x1x128 ![2] bcast_S128_S1x1x128_2),
    TRef.nullary main_call2.cst_0 (constant S_ .f32 0x48000000#32),
    TRef.unary main_call2.cst_0 main_call2.v2 (broadcastInDim S1x1x128 ![] bcast_S_S1x1x128),
    TRef.binary main_call2.v1 main_call2.v2 main_call2.v3 Host.divf,
    TRef.unary main_call2.v3 main_call2.v4 (broadcastInDim S8x16384x128 ![0, 1, 2] bcast_S1x1x128_S8x16384x128_0_1_2),
    TRef.binary (.of main_v27) main_call2.v4 main_call2.v5 subf,
    TRef.binary main_call2.v5 main_call2.v5 main_call2.v6 mulf,
    TRef.unary (.of main_c_4) main_call2.v7 (sitofp .f32),
    TRef.nullary main_call2.cst_1 (constant S_ .f32 0x48000000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S8x16384x128_S128_d0_1 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v30 main_v32 (broadcastInDim S1x1x128 ![2] bcast_S128_S1x1x128_2 : (⟨S128, .f32⟩ : BufTy).Contents (Elt F) → (⟨S1x1x128, .f32⟩ : BufTy).Contents (Elt F)),
    unary main_v32 main_v33 (broadcastInDim S8x16384x128 ![0, 1, 2] bcast_S1x1x128_S8x16384x128_0_1_2 : (⟨S1x1x128, .f32⟩ : BufTy).Contents (Elt F) → (⟨S8x16384x128, .f32⟩ : BufTy).Contents (Elt F)),
    binary main_v27 main_v33 main_v34 (subf : (⟨S8x16384x128, .f32⟩ : BufTy).Contents (Elt F) → (⟨S8x16384x128, .f32⟩ : BufTy).Contents (Elt F) → (⟨S8x16384x128, .f32⟩ : BufTy).Contents (Elt F)),
    nullary main_cst_5 (constant S_ .f32 0x3727C5AC#32),
    unary main_cst_5 main_v35 (broadcastInDim S128 ![] bcast_S_S128 : (⟨S_, .f32⟩ : BufTy).Contents (Elt F) → (⟨S128, .f32⟩ : BufTy).Contents (Elt F)),
    binary main_v31 main_v35 main_v36 (addf : (⟨S128, .f32⟩ : BufTy).Contents (Elt F) → (⟨S128, .f32⟩ : BufTy).Contents (Elt F) → (⟨S128, .f32⟩ : BufTy).Contents (Elt F)),
    unary main_v36 main_v37 (Host.rsqrt : (⟨S128, .f32⟩ : BufTy).Contents (Elt F) → (⟨S128, .f32⟩ : BufTy).Contents (Elt F)),
    unary main_v37 main_v38 (broadcastInDim S1x1x128 ![2] bcast_S128_S1x1x128_2 : (⟨S128, .f32⟩ : BufTy).Contents (Elt F) → (⟨S1x1x128, .f32⟩ : BufTy).Contents (Elt F)),
    unary main_v38 main_v39 (broadcastInDim S8x16384x128 ![0, 1, 2] bcast_S1x1x128_S8x16384x128_0_1_2 : (⟨S1x1x128, .f32⟩ : BufTy).Contents (Elt F) → (⟨S8x16384x128, .f32⟩ : BufTy).Contents (Elt F)),
    binary main_v34 main_v39 main_v40 (mulf : (⟨S8x16384x128, .f32⟩ : BufTy).Contents (Elt F) → (⟨S8x16384x128, .f32⟩ : BufTy).Contents (Elt F) → (⟨S8x16384x128, .f32⟩ : BufTy).Contents (Elt F)),
    unary main_arg7 main_v41 (broadcastInDim S1x1x128 ![2] bcast_S128_S1x1x128_2 : (⟨S128, .f32⟩ : BufTy).Contents (Elt F) → (⟨S1x1x128, .f32⟩ : BufTy).Contents (Elt F)),
    unary main_v41 main_v42 (broadcastInDim S8x16384x128 ![0, 1, 2] bcast_S1x1x128_S8x16384x128_0_1_2 : (⟨S1x1x128, .f32⟩ : BufTy).Contents (Elt F) → (⟨S8x16384x128, .f32⟩ : BufTy).Contents (Elt F)),
    binary main_v40 main_v42 main_v43 (mulf : (⟨S8x16384x128, .f32⟩ : BufTy).Contents (Elt F) → (⟨S8x16384x128, .f32⟩ : BufTy).Contents (Elt F) → (⟨S8x16384x128, .f32⟩ : BufTy).Contents (Elt F)),
    unary main_arg8 main_v44 (broadcastInDim S1x1x128 ![2] bcast_S128_S1x1x128_2 : (⟨S128, .f32⟩ : BufTy).Contents (Elt F) → (⟨S1x1x128, .f32⟩ : BufTy).Contents (Elt F)),
    unary main_v44 main_v45 (broadcastInDim S8x16384x128 ![0, 1, 2] bcast_S1x1x128_S8x16384x128_0_1_2 : (⟨S1x1x128, .f32⟩ : BufTy).Contents (Elt F) → (⟨S8x16384x128, .f32⟩ : BufTy).Contents (Elt F)),
    binary main_v43 main_v45 main_v46 (addf : (⟨S8x16384x128, .f32⟩ : BufTy).Contents (Elt F) → (⟨S8x16384x128, .f32⟩ : BufTy).Contents (Elt F) → (⟨S8x16384x128, .f32⟩ : BufTy).Contents (Elt F)),
    TRef.nullary main_call3.cst (constant S_ .f32 0x00000000#32),
    TRef.unary main_call3.cst main_call3.v0 (broadcastInDim S8x16384x128 ![] bcast_S_S8x16384x128),
    TRef.binary (.of main_v46) main_call3.v0 main_call3.v1 maximumf ]

theorem subL1 : (opsL1 (F := F)).Forall fun op => op.bufs ⊆ tcRefs τ sig := by
  unfold opsL1
  exact ⟨binary_bufs_sub .., unary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub ..⟩

theorem freshL1 : ∀ op ∈ opsL1 (F := F), op.fresh = ∅ := by
  unfold opsL1
  intro _ h
  (repeat (cases h with | head => rfl | tail _ h => ?_))
  exact nomatch h

/-- The buffers these operations write. -/
def WL1 : List (Ref sig .tc) :=
  [ main_v24, main_v25, main_v26, main_v27, main_cst_2, main_v28,
    main_cst_3, main_v29, main_v30, main_c_4, main_call2.cst.ref, main_call2.v0.ref,
    main_call2.v1.ref, main_call2.cst_0.ref, main_call2.v2.ref, main_call2.v3.ref, main_call2.v4.ref, main_call2.v5.ref,
    main_call2.v6.ref, main_call2.v7.ref, main_call2.cst_1.ref, main_call2.v8.ref, main_call2.cst_2.ref, main_call2.v9.ref,
    main_call2.v10.ref, main_call2.v11.ref, main_call2.cst_3.ref, main_call2.v12.ref, main_call2.cst_4.ref, main_call2.call0.v0.ref,
    main_call2.call0.v1.ref, main_call2.call0.v2.ref, main_v32, main_v33, main_v34, main_cst_5,
    main_v35, main_v36, main_v37, main_v38, main_v39, main_v40,
    main_v41, main_v42, main_v43, main_v44, main_v45, main_v46,
    main_call3.cst.ref, main_call3.v0.ref, main_call3.v1.ref ]

theorem writesL1 : (opsL1 (F := F)).Forall fun op => op.writes ⊆ ((WL1.map (Proc.devRef (τ := τ) .tc)).toFinset) := by
  unfold opsL1
  exact ⟨sub_of_mem (y := main_v24) (by decide), sub_of_mem (y := main_v25) (by decide),
    sub_of_mem (y := main_v26) (by decide), sub_of_mem (y := main_v27) (by decide),
    sub_of_mem (y := main_cst_2) (by decide), sub_of_mem (y := main_v28) (by decide),
    sub_of_mem (y := main_cst_3) (by decide), sub_of_mem (y := main_v29) (by decide),
    sub_of_mem (y := main_v30) (by decide), sub_of_mem (y := main_c_4) (by decide),
    sub_of_mem (y := main_call2.cst.ref) (by decide), sub_of_mem (y := main_call2.v0.ref) (by decide),
    sub_of_mem (y := main_call2.v1.ref) (by decide), sub_of_mem (y := main_call2.cst_0.ref) (by decide),
    sub_of_mem (y := main_call2.v2.ref) (by decide), sub_of_mem (y := main_call2.v3.ref) (by decide),
    sub_of_mem (y := main_call2.v4.ref) (by decide), sub_of_mem (y := main_call2.v5.ref) (by decide),
    sub_of_mem (y := main_call2.v6.ref) (by decide), sub_of_mem (y := main_call2.v7.ref) (by decide),
    sub_of_mem (y := main_call2.cst_1.ref) (by decide), sub_of_mem (y := main_call2.v8.ref) (by decide),
    sub_of_mem (y := main_call2.cst_2.ref) (by decide), sub_of_mem (y := main_call2.v9.ref) (by decide),
    sub_of_mem (y := main_call2.v10.ref) (by decide), sub_of_mem (y := main_call2.v11.ref) (by decide),
    sub_of_mem (y := main_call2.cst_3.ref) (by decide), sub_of_mem (y := main_call2.v12.ref) (by decide),
    sub_of_mem (y := main_call2.cst_4.ref) (by decide), sub_of_mem (y := main_call2.call0.v0.ref) (by decide),
    sub_of_mem (y := main_call2.call0.v1.ref) (by decide), sub_of_mem (y := main_call2.call0.v2.ref) (by decide),
    sub_of_mem (y := main_v32) (by decide), sub_of_mem (y := main_v33) (by decide),
    sub_of_mem (y := main_v34) (by decide), sub_of_mem (y := main_cst_5) (by decide),
    sub_of_mem (y := main_v35) (by decide), sub_of_mem (y := main_v36) (by decide),
    sub_of_mem (y := main_v37) (by decide), sub_of_mem (y := main_v38) (by decide),
    sub_of_mem (y := main_v39) (by decide), sub_of_mem (y := main_v40) (by decide),
    sub_of_mem (y := main_v41) (by decide), sub_of_mem (y := main_v42) (by decide),
    sub_of_mem (y := main_v43) (by decide), sub_of_mem (y := main_v44) (by decide),
    sub_of_mem (y := main_v45) (by decide), sub_of_mem (y := main_v46) (by decide),
    sub_of_mem (y := main_call3.cst.ref) (by decide), sub_of_mem (y := main_call3.v0.ref) (by decide),
    sub_of_mem (y := main_call3.v1.ref) (by decide)⟩

/-- A buffer these operations do not write keeps its contents. -/
theorem keepL1 (V : Valuation τ sig (Elt F)) {r : Ref sig .tc} (hr : r ∉ WL1) :
    after (opsL1 (F := F)) V (Proc.devRef .tc r) = V (Proc.devRef .tc r) :=
  after_of_writes_sub _ V writesL1 hr

/-- After them the second layer's activation is the layer's term of the first layer's and the arguments. -/
theorem outL1 (V : Valuation τ sig (Elt F)) :
    after (opsL1 (F := F)) V (main_v47 : DevRef τ sig)
      = layer1 (V (main_v23 : DevRef τ sig)) (V (main_arg5 : DevRef τ sig)) (V (main_arg6 : DevRef τ sig)) (V (main_arg7 : DevRef τ sig)) (V (main_arg8 : DevRef τ sig)) := by
  unfold opsL1
  after_results_simp
  rfl

/-- The third layer's operations, without a rectifier. -/
def opsL2 : List (HloOp τ sig (Elt F)) :=
  [ binary main_v47 main_arg9 main_v48 ((fun l r => Host.dotGeneral dot_S8x16384x128_S1024x128_S8x16384x1024_2_1_01_0_n_n none l r) : (⟨S8x16384x128, .f32⟩ : BufTy).Contents (Elt F) → (⟨S1024x128, .f32⟩ : BufTy).Contents (Elt F) → (⟨S8x16384x1024, .f32⟩ : BufTy).Contents (Elt F)),
    unary main_arg10 main_v49 (broadcastInDim S1x1x1024 ![2] bcast_S1024_S1x1x1024_2 : (⟨S1024, .f32⟩ : BufTy).Contents (Elt F) → (⟨S1x1x1024, .f32⟩ : BufTy).Contents (Elt F)),
    unary main_v49 main_v50 (broadcastInDim S8x16384x1024 ![0, 1, 2] bcast_S1x1x1024_S8x16384x1024_0_1_2 : (⟨S1x1x1024, .f32⟩ : BufTy).Contents (Elt F) → (⟨S8x16384x1024, .f32⟩ : BufTy).Contents (Elt F)),
    binary main_v48 main_v50 main_v51 (addf : (⟨S8x16384x1024, .f32⟩ : BufTy).Contents (Elt F) → (⟨S8x16384x1024, .f32⟩ : BufTy).Contents (Elt F) → (⟨S8x16384x1024, .f32⟩ : BufTy).Contents (Elt F)),
    nullary main_cst_6 (constant S_ .f32 0x00000000#32),
    binary main_v51 main_cst_6 main_v52 ((fun x v => Host.reduceAdd x v reducesTo_S8x16384x1024_S1024_d0_1 h_S_) : (⟨S8x16384x1024, .f32⟩ : BufTy).Contents (Elt F) → (⟨S_, .f32⟩ : BufTy).Contents (Elt F) → (⟨S1024, .f32⟩ : BufTy).Contents (Elt F)),
    nullary main_cst_7 (constant S_ .f32 0x48000000#32),
    unary main_cst_7 main_v53 (broadcastInDim S1024 ![] bcast_S_S1024 : (⟨S_, .f32⟩ : BufTy).Contents (Elt F) → (⟨S1024, .f32⟩ : BufTy).Contents (Elt F)),
    binary main_v52 main_v53 main_v54 (Host.divf : (⟨S1024, .f32⟩ : BufTy).Contents (Elt F) → (⟨S1024, .f32⟩ : BufTy).Contents (Elt F) → (⟨S1024, .f32⟩ : BufTy).Contents (Elt F)),
    nullary main_c_8 (constantI S_ 32 0#32),
    TRef.nullary main_call4.cst (constant S_ .f32 0x00000000#32),
    TRef.binary (.of main_v51) main_call4.cst main_call4.v0 (fun x v => Host.reduceAdd x v reducesTo_S8x16384x1024_S1024_d0_1 h_S_),
    TRef.unary main_call4.v0 main_call4.v1 (broadcastInDim S1x1x1024 ![2] bcast_S1024_S1x1x1024_2),
    TRef.nullary main_call4.cst_0 (constant S_ .f32 0x48000000#32),
    TRef.unary main_call4.cst_0 main_call4.v2 (broadcastInDim S1x1x1024 ![] bcast_S_S1x1x1024),
    TRef.binary main_call4.v1 main_call4.v2 main_call4.v3 Host.divf,
    TRef.unary main_call4.v3 main_call4.v4 (broadcastInDim S8x16384x1024 ![0, 1, 2] bcast_S1x1x1024_S8x16384x1024_0_1_2),
    TRef.binary (.of main_v51) main_call4.v4 main_call4.v5 subf,
    TRef.binary main_call4.v5 main_call4.v5 main_call4.v6 mulf,
    TRef.unary (.of main_c_8) main_call4.v7 (sitofp .f32),
    TRef.nullary main_call4.cst_1 (constant S_ .f32 0x48000000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S8x16384x1024_S1024_d0_1 h_S_),
    TRef.unary main_call4.v8 main_call4.v10 (broadcastInDim S1024 ![] bcast_S_S1024),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S1024 ![] bcast_S_S1024),
    TRef.ternary main_call4.v12 main_call4.v11 main_call4.call0.v1 main_call4.call0.v2 (fun p a b => select (broadcastInDim S1024 ![] bcast_S_S1024 p) a b),
    unary main_v54 main_v56 (broadcastInDim S1x1x1024 ![2] bcast_S1024_S1x1x1024_2 : (⟨S1024, .f32⟩ : BufTy).Contents (Elt F) → (⟨S1x1x1024, .f32⟩ : BufTy).Contents (Elt F)),
    unary main_v56 main_v57 (broadcastInDim S8x16384x1024 ![0, 1, 2] bcast_S1x1x1024_S8x16384x1024_0_1_2 : (⟨S1x1x1024, .f32⟩ : BufTy).Contents (Elt F) → (⟨S8x16384x1024, .f32⟩ : BufTy).Contents (Elt F)),
    binary main_v51 main_v57 main_v58 (subf : (⟨S8x16384x1024, .f32⟩ : BufTy).Contents (Elt F) → (⟨S8x16384x1024, .f32⟩ : BufTy).Contents (Elt F) → (⟨S8x16384x1024, .f32⟩ : BufTy).Contents (Elt F)),
    nullary main_cst_9 (constant S_ .f32 0x3727C5AC#32),
    unary main_cst_9 main_v59 (broadcastInDim S1024 ![] bcast_S_S1024 : (⟨S_, .f32⟩ : BufTy).Contents (Elt F) → (⟨S1024, .f32⟩ : BufTy).Contents (Elt F)),
    binary main_v55 main_v59 main_v60 (addf : (⟨S1024, .f32⟩ : BufTy).Contents (Elt F) → (⟨S1024, .f32⟩ : BufTy).Contents (Elt F) → (⟨S1024, .f32⟩ : BufTy).Contents (Elt F)),
    unary main_v60 main_v61 (Host.rsqrt : (⟨S1024, .f32⟩ : BufTy).Contents (Elt F) → (⟨S1024, .f32⟩ : BufTy).Contents (Elt F)),
    unary main_v61 main_v62 (broadcastInDim S1x1x1024 ![2] bcast_S1024_S1x1x1024_2 : (⟨S1024, .f32⟩ : BufTy).Contents (Elt F) → (⟨S1x1x1024, .f32⟩ : BufTy).Contents (Elt F)),
    unary main_v62 main_v63 (broadcastInDim S8x16384x1024 ![0, 1, 2] bcast_S1x1x1024_S8x16384x1024_0_1_2 : (⟨S1x1x1024, .f32⟩ : BufTy).Contents (Elt F) → (⟨S8x16384x1024, .f32⟩ : BufTy).Contents (Elt F)),
    binary main_v58 main_v63 main_v64 (mulf : (⟨S8x16384x1024, .f32⟩ : BufTy).Contents (Elt F) → (⟨S8x16384x1024, .f32⟩ : BufTy).Contents (Elt F) → (⟨S8x16384x1024, .f32⟩ : BufTy).Contents (Elt F)),
    unary main_arg11 main_v65 (broadcastInDim S1x1x1024 ![2] bcast_S1024_S1x1x1024_2 : (⟨S1024, .f32⟩ : BufTy).Contents (Elt F) → (⟨S1x1x1024, .f32⟩ : BufTy).Contents (Elt F)),
    unary main_v65 main_v66 (broadcastInDim S8x16384x1024 ![0, 1, 2] bcast_S1x1x1024_S8x16384x1024_0_1_2 : (⟨S1x1x1024, .f32⟩ : BufTy).Contents (Elt F) → (⟨S8x16384x1024, .f32⟩ : BufTy).Contents (Elt F)),
    binary main_v64 main_v66 main_v67 (mulf : (⟨S8x16384x1024, .f32⟩ : BufTy).Contents (Elt F) → (⟨S8x16384x1024, .f32⟩ : BufTy).Contents (Elt F) → (⟨S8x16384x1024, .f32⟩ : BufTy).Contents (Elt F)),
    unary main_arg12 main_v68 (broadcastInDim S1x1x1024 ![2] bcast_S1024_S1x1x1024_2 : (⟨S1024, .f32⟩ : BufTy).Contents (Elt F) → (⟨S1x1x1024, .f32⟩ : BufTy).Contents (Elt F)),
    unary main_v68 main_v69 (broadcastInDim S8x16384x1024 ![0, 1, 2] bcast_S1x1x1024_S8x16384x1024_0_1_2 : (⟨S1x1x1024, .f32⟩ : BufTy).Contents (Elt F) → (⟨S8x16384x1024, .f32⟩ : BufTy).Contents (Elt F)),
    binary main_v67 main_v69 main_v70 (addf : (⟨S8x16384x1024, .f32⟩ : BufTy).Contents (Elt F) → (⟨S8x16384x1024, .f32⟩ : BufTy).Contents (Elt F) → (⟨S8x16384x1024, .f32⟩ : BufTy).Contents (Elt F)) ]

theorem subL2 : (opsL2 (F := F)).Forall fun op => op.bufs ⊆ tcRefs τ sig := by
  unfold opsL2
  exact ⟨binary_bufs_sub .., unary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..⟩

theorem freshL2 : ∀ op ∈ opsL2 (F := F), op.fresh = ∅ := by
  unfold opsL2
  intro _ h
  (repeat (cases h with | head => rfl | tail _ h => ?_))
  exact nomatch h

/-- The buffers these operations write. -/
def WL2 : List (Ref sig .tc) :=
  [ main_v48, main_v49, main_v50, main_v51, main_cst_6, main_v52,
    main_cst_7, main_v53, main_v54, main_c_8, main_call4.cst.ref, main_call4.v0.ref,
    main_call4.v1.ref, main_call4.cst_0.ref, main_call4.v2.ref, main_call4.v3.ref, main_call4.v4.ref, main_call4.v5.ref,
    main_call4.v6.ref, main_call4.v7.ref, main_call4.cst_1.ref, main_call4.v8.ref, main_call4.cst_2.ref, main_call4.v9.ref,
    main_call4.v10.ref, main_call4.v11.ref, main_call4.cst_3.ref, main_call4.v12.ref, main_call4.cst_4.ref, main_call4.call0.v0.ref,
    main_call4.call0.v1.ref, main_call4.call0.v2.ref, main_v56, main_v57, main_v58, main_cst_9,
    main_v59, main_v60, main_v61, main_v62, main_v63, main_v64,
    main_v65, main_v66, main_v67, main_v68, main_v69, main_v70 ]

theorem writesL2 : (opsL2 (F := F)).Forall fun op => op.writes ⊆ ((WL2.map (Proc.devRef (τ := τ) .tc)).toFinset) := by
  unfold opsL2
  exact ⟨sub_of_mem (y := main_v48) (by decide), sub_of_mem (y := main_v49) (by decide),
    sub_of_mem (y := main_v50) (by decide), sub_of_mem (y := main_v51) (by decide),
    sub_of_mem (y := main_cst_6) (by decide), sub_of_mem (y := main_v52) (by decide),
    sub_of_mem (y := main_cst_7) (by decide), sub_of_mem (y := main_v53) (by decide),
    sub_of_mem (y := main_v54) (by decide), sub_of_mem (y := main_c_8) (by decide),
    sub_of_mem (y := main_call4.cst.ref) (by decide), sub_of_mem (y := main_call4.v0.ref) (by decide),
    sub_of_mem (y := main_call4.v1.ref) (by decide), sub_of_mem (y := main_call4.cst_0.ref) (by decide),
    sub_of_mem (y := main_call4.v2.ref) (by decide), sub_of_mem (y := main_call4.v3.ref) (by decide),
    sub_of_mem (y := main_call4.v4.ref) (by decide), sub_of_mem (y := main_call4.v5.ref) (by decide),
    sub_of_mem (y := main_call4.v6.ref) (by decide), sub_of_mem (y := main_call4.v7.ref) (by decide),
    sub_of_mem (y := main_call4.cst_1.ref) (by decide), sub_of_mem (y := main_call4.v8.ref) (by decide),
    sub_of_mem (y := main_call4.cst_2.ref) (by decide), sub_of_mem (y := main_call4.v9.ref) (by decide),
    sub_of_mem (y := main_call4.v10.ref) (by decide), sub_of_mem (y := main_call4.v11.ref) (by decide),
    sub_of_mem (y := main_call4.cst_3.ref) (by decide), sub_of_mem (y := main_call4.v12.ref) (by decide),
    sub_of_mem (y := main_call4.cst_4.ref) (by decide), sub_of_mem (y := main_call4.call0.v0.ref) (by decide),
    sub_of_mem (y := main_call4.call0.v1.ref) (by decide), sub_of_mem (y := main_call4.call0.v2.ref) (by decide),
    sub_of_mem (y := main_v56) (by decide), sub_of_mem (y := main_v57) (by decide),
    sub_of_mem (y := main_v58) (by decide), sub_of_mem (y := main_cst_9) (by decide),
    sub_of_mem (y := main_v59) (by decide), sub_of_mem (y := main_v60) (by decide),
    sub_of_mem (y := main_v61) (by decide), sub_of_mem (y := main_v62) (by decide),
    sub_of_mem (y := main_v63) (by decide), sub_of_mem (y := main_v64) (by decide),
    sub_of_mem (y := main_v65) (by decide), sub_of_mem (y := main_v66) (by decide),
    sub_of_mem (y := main_v67) (by decide), sub_of_mem (y := main_v68) (by decide),
    sub_of_mem (y := main_v69) (by decide), sub_of_mem (y := main_v70) (by decide)⟩

/-- A buffer these operations do not write keeps its contents. -/
theorem keepL2 (V : Valuation τ sig (Elt F)) {r : Ref sig .tc} (hr : r ∉ WL2) :
    after (opsL2 (F := F)) V (Proc.devRef .tc r) = V (Proc.devRef .tc r) :=
  after_of_writes_sub _ V writesL2 hr

/-- After them the third layer's activation is the layer's term of the second layer's and the arguments. -/
theorem outL2 (V : Valuation τ sig (Elt F)) :
    after (opsL2 (F := F)) V (main_v70 : DevRef τ sig)
      = layer2 (V (main_v47 : DevRef τ sig)) (V (main_arg9 : DevRef τ sig)) (V (main_arg10 : DevRef τ sig)) (V (main_arg11 : DevRef τ sig)) (V (main_arg12 : DevRef τ sig)) := by
  unfold opsL2
  after_results_simp
  rfl

/-- The last operations: the maximum over the positions, its two broadcasts, the transpose, the concatenation. -/
def opsFin : List (HloOp τ sig (Elt F)) :=
  [ nullary main_cst_10 (constant S_ .f32 0xFF800000#32),
    binary main_v70 main_cst_10 main_v71 ((fun x v => Host.reduce FloatOps.maximumf x v reducesTo_S8x16384x1024_S8x1024_d1 h_S_) : (⟨S8x16384x1024, .f32⟩ : BufTy).Contents (Elt F) → (⟨S_, .f32⟩ : BufTy).Contents (Elt F) → (⟨S8x1024, .f32⟩ : BufTy).Contents (Elt F)),
    unary main_v71 main_v72 (broadcastInDim S8x1024x1 ![0, 1] bcast_S8x1024_S8x1024x1_0_1 : (⟨S8x1024, .f32⟩ : BufTy).Contents (Elt F) → (⟨S8x1024x1, .f32⟩ : BufTy).Contents (Elt F)),
    unary main_v72 main_v73 (broadcastInDim S8x1024x16384 ![0, 1, 2] bcast_S8x1024x1_S8x1024x16384_0_1_2 : (⟨S8x1024x1, .f32⟩ : BufTy).Contents (Elt F) → (⟨S8x1024x16384, .f32⟩ : BufTy).Contents (Elt F)),
    unary main_v23 main_v74 ((transpose S8x64x16384 [0, 2, 1] · transposes_S8x16384x64_S8x64x16384_0_2_1) : (⟨S8x16384x64, .f32⟩ : BufTy).Contents (Elt F) → (⟨S8x64x16384, .f32⟩ : BufTy).Contents (Elt F)),
    binary main_v73 main_v74 main_v75 ((fun a b => concatenate S8x1088x16384 1 [⟨S8x1024x16384, a⟩, ⟨S8x64x16384, b⟩] concatenates_S8x1024x16384_S8x64x16384_S8x1088x16384_d1) : (⟨S8x1024x16384, .f32⟩ : BufTy).Contents (Elt F) → (⟨S8x64x16384, .f32⟩ : BufTy).Contents (Elt F) → (⟨S8x1088x16384, .f32⟩ : BufTy).Contents (Elt F)) ]

theorem subFin : (opsFin (F := F)).Forall fun op => op.bufs ⊆ tcRefs τ sig := by
  unfold opsFin
  exact ⟨nullary_bufs_sub .., binary_bufs_sub .., unary_bufs_sub .., unary_bufs_sub .., unary_bufs_sub .., binary_bufs_sub ..⟩

theorem freshFin : ∀ op ∈ opsFin (F := F), op.fresh = ∅ := by
  unfold opsFin
  intro _ h
  (repeat (cases h with | head => rfl | tail _ h => ?_))
  exact nomatch h

/-- The buffers these operations write. -/
def WFin : List (Ref sig .tc) :=
  [ main_cst_10, main_v71, main_v72, main_v73, main_v74, main_v75 ]

theorem writesFin : (opsFin (F := F)).Forall fun op => op.writes ⊆ ((WFin.map (Proc.devRef (τ := τ) .tc)).toFinset) := by
  unfold opsFin
  exact ⟨sub_of_mem (y := main_cst_10) (by decide), sub_of_mem (y := main_v71) (by decide),
    sub_of_mem (y := main_v72) (by decide), sub_of_mem (y := main_v73) (by decide),
    sub_of_mem (y := main_v74) (by decide), sub_of_mem (y := main_v75) (by decide)⟩

/-- A buffer these operations do not write keeps its contents. -/
theorem keepFin (V : Valuation τ sig (Elt F)) {r : Ref sig .tc} (hr : r ∉ WFin) :
    after (opsFin (F := F)) V (Proc.devRef .tc r) = V (Proc.devRef .tc r) :=
  after_of_writes_sub _ V writesFin hr

/-- After them the result is the stack of the third layer's pooled activation on the first layer's. -/
theorem outFin (V : Valuation τ sig (Elt F)) :
    after (opsFin (F := F)) V (main_v75 : DevRef τ sig) = stackT (V (main_v70 : DevRef τ sig)) (V (main_v23 : DevRef τ sig)) := by
  unfold opsFin
  after_results
  rfl

/-- @main's operations, in order. -/
abbrev ops : List (HloOp τ sig (Elt F)) := opsL0 ++ (opsL1 ++ (opsL2 ++ opsFin))

/-- @main is that straight line: the functions' definitions unfolded at their calls, both sides are one chain of steps
    once sequencing is reassociated. -/
theorem main_eq (c : Dev nD) : main (F := F) c = seq (ops (F := F)) := by
  rw [seq_append, seq_append, seq_append]
  simp only [main, main_part0, main_part1, fn_var.body, fn_where.body, fn_relu.body, fn_var_0.body, fn_where_1.body,
    fn_relu_2.body, fn_var_3.body, fn_where_4.body, opsL0, opsL1, opsL2, opsFin, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops (F := F)).Forall fun op => op.bufs ⊆ tcRefs τ sig :=
  List.forall_iff_forall_mem.2 fun op h => by
    rcases List.mem_append.1 h with h | h
    · exact List.forall_iff_forall_mem.1 subL0 op h
    rcases List.mem_append.1 h with h | h
    · exact List.forall_iff_forall_mem.1 subL1 op h
    rcases List.mem_append.1 h with h | h
    · exact List.forall_iff_forall_mem.1 subL2 op h
    · exact List.forall_iff_forall_mem.1 subFin op h

theorem ops_fresh : ∀ op ∈ ops (F := F), op.fresh = ∅ := fun op h => by
  rcases List.mem_append.1 h with h | h
  · exact freshL0 op h
  rcases List.mem_append.1 h with h | h
  · exact freshL1 op h
  rcases List.mem_append.1 h with h | h
  · exact freshL2 op h
  · exact freshFin op h

/-- The whole line's result is the reference's term of the thirteen arguments' contents. -/
theorem ops_out (V : Valuation τ sig (Elt F)) :
    after (ops (F := F)) V (main_v75 : DevRef τ sig) = refTerm (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  unfold ops refTerm
  rw [after_app, after_app, after_app, outFin, outL2, keepL2 _ (r := main_v23) (by decide),
    outL1, keepL1 _ (r := main_v23) (by decide),
    keepL1 _ (r := main_arg9) (by decide), keepL1 _ (r := main_arg10) (by decide),
    keepL1 _ (r := main_arg11) (by decide), keepL1 _ (r := main_arg12) (by decide), outL0,
    keepL0 _ (r := main_arg5) (by decide), keepL0 _ (r := main_arg6) (by decide),
    keepL0 _ (r := main_arg7) (by decide), keepL0 _ (r := main_arg8) (by decide),
    keepL0 _ (r := main_arg9) (by decide), keepL0 _ (r := main_arg10) (by decide),
    keepL0 _ (r := main_arg11) (by decide), keepL0 _ (r := main_arg12) (by decide)]

/-- An argument buffer is written by no operation. -/
theorem ops_keep (V : Valuation τ sig (Elt F)) {r : Ref sig .tc} (h0 : r ∉ WL0) (h1 : r ∉ WL1) (h2 : r ∉ WL2) (h3 : r ∉ WFin) :
    after (ops (F := F)) V (Proc.devRef .tc r) = V (Proc.devRef .tc r) := by
  unfold ops
  rw [after_app, after_app, after_app, keepFin _ h3, keepL2 _ h2, keepL1 _ h1, keepL0 _ h0]

/-- On every device, for any float values, from any memory with zero counters: every weakly fair execution of @main
    terminates with the result at the reference's term of the arguments' launch contents, the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v75)
        = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v75).trans (ops_out _),
      (h c main_arg0).trans (ops_keep _ (by decide) (by decide) (by decide) (by decide)),
      (h c main_arg1).trans (ops_keep _ (by decide) (by decide) (by decide) (by decide)),
      (h c main_arg2).trans (ops_keep _ (by decide) (by decide) (by decide) (by decide)),
      (h c main_arg3).trans (ops_keep _ (by decide) (by decide) (by decide) (by decide)),
      (h c main_arg4).trans (ops_keep _ (by decide) (by decide) (by decide) (by decide)),
      (h c main_arg5).trans (ops_keep _ (by decide) (by decide) (by decide) (by decide)),
      (h c main_arg6).trans (ops_keep _ (by decide) (by decide) (by decide) (by decide)),
      (h c main_arg7).trans (ops_keep _ (by decide) (by decide) (by decide) (by decide)),
      (h c main_arg8).trans (ops_keep _ (by decide) (by decide) (by decide) (by decide)),
      (h c main_arg9).trans (ops_keep _ (by decide) (by decide) (by decide) (by decide)),
      (h c main_arg10).trans (ops_keep _ (by decide) (by decide) (by decide) (by decide)),
      (h c main_arg11).trans (ops_keep _ (by decide) (by decide) (by decide) (by decide)),
      (h c main_arg12).trans (ops_keep _ (by decide) (by decide) (by decide) (by decide))⟩)
    (run_seq scopedRefs_eq scopedSems_eq defs main (fun _ => ops) main_eq (fun _ => ops_sub) m ρ (fun _ => ops_fresh))

end Cert.ReferenceIdeal.RefValue

end
-- ==== Proof.LibReduceLead2.lean ====
/-
  A host sum over the TWO LEADING AXES of a rank-3 array, and a host maximum over the MIDDLE axis, read at an index.

  At the ideal values the host's float `stablehlo.reduce` with an add body is the initial value plus the sum of the
  operand over the source indices that drop to the result index.  Reduced over axes 0 and 1 of an [a, b, c] array, the
  indices that drop to `k` are exactly the triples (i, n, k): the sum is the double sum over the two leading coordinates.
  The host's `stablehlo.reduce` with a maximum body over axis 1 of an [a, b, c] array, from the initial value ⊥, is at
  (i, k) the supremum over the middle coordinate.
-/
import Idealize.ShloMosaic.PureOps.Ideal.Laws
import Idealize.ShloMosaic.Lib.ValueIdx
import Idealize.ShloMosaic.Lib.IdealHost

noncomputable section

namespace Cert.LibReduce

open Idealize.ShloMosaic Idealize.ShloMosaic.ValueIdx
open scoped BigOperators

/-- Dropping the two leading axes of (i, n, k) leaves k. -/
theorem drop_lead2 {a b c : Nat} (h' : (⟨3, ![a, b, c]⟩ : Shape).ReducesTo [0, 1] ⟨1, ![c]⟩)
    (j : (⟨3, ![a, b, c]⟩ : Shape).Idx) : ((h'.drop j) 0).val = (j 2).val :=
  h'.drop_apply_val_of_eq j 0 2 Nat.one_pos rfl

/-- The host's float sum over the two leading axes of a rank-3 array, at channel `k`: the initial value plus the double
    sum over the two leading coordinates. -/
theorem hostReduceAdd_lead2 {a b c : Nat} (h' : (⟨3, ![a, b, c]⟩ : Shape).ReducesTo [0, 1] ⟨1, ![c]⟩)
    (x : (⟨3, ![a, b, c]⟩ : Shape).Idx → EReal) (init : EReal) (k : Fin c) :
    Ideal.hostReduceAdd h' x init (ix1 k) = init + ∑ i : Fin a, ∑ n : Fin b, x (ix3 i n k) := by
  unfold Ideal.hostReduceAdd
  refine congrArg (init + ·) ?_
  rw [← Fintype.sum_prod_type' (f := fun (i : Fin a) (n : Fin b) => x (ix3 i n k))]
  have back : ∀ j : (⟨3, ![a, b, c]⟩ : Shape).Idx, h'.drop j = ix1 k → ix3 (j 0) (j 1) k = j := by
    intro j hj
    have hk : (j 2).val = k.val := by
      rw [← drop_lead2 h' j, hj]
      rfl
    funext d
    match d with
    | ⟨0, _⟩ => rfl
    | ⟨1, _⟩ => rfl
    | ⟨2, _⟩ => exact Fin.ext hk.symm
  refine Finset.sum_nbij' (fun j => ((j 0 : Fin a), (j 1 : Fin b))) (fun p => ix3 p.1 p.2 k) ?_ ?_ ?_ ?_ ?_
  · intro j _; exact Finset.mem_univ _
  · intro p _
    refine Finset.mem_filter.2 ⟨Finset.mem_univ _, ?_⟩
    funext d
    match d with
    | ⟨0, _⟩ => exact Fin.ext (drop_lead2 h' (ix3 p.1 p.2 k))
  · intro j hj; exact back j (Finset.mem_filter.1 hj).2
  · intro p _; rfl
  · intro j hj; exact congrArg x (back j (Finset.mem_filter.1 hj).2).symm

/-- The fold of `max` from ⊥ over a finite set is the supremum. -/
theorem fold_max_bot_eq_sup {ι : Type*} (s : Finset ι) (f : ι → EReal) : s.fold max ⊥ f = s.sup f := by
  classical
  induction s using Finset.induction_on with
  | empty => simp
  | insert i s hi ih => rw [Finset.fold_insert hi, Finset.sup_insert, ih]

/-- The host's maximum over the middle axis of a rank-3 array, from an initial value that denotes ⊥, at (i, k): the
    supremum over the middle coordinate. -/
theorem hostReduceMax_mid {a b c : Nat} {u : Shape} (h' : (⟨3, ![a, b, c]⟩ : Shape).ReducesTo [1] ⟨2, ![a, c]⟩)
    (h : (⟨3, ![a, b, c]⟩ : Shape).Reduces [1] ⟨2, ![a, c]⟩) (hu : 0 < u.numel)
    (x : FVec Ideal ⟨3, ![a, b, c]⟩ .f32) (init : u.Idx → Ideal .f32) (hinit : init (Shape.Idx.first hu) = ⊥)
    (i : Fin a) (k : Fin c) :
    Host.reduce FloatOps.maximumf x init h' hu (ix2 i k) = (Finset.univ : Finset (Fin b)).sup fun n => x (ix3 i n k) := by
  rw [Host.reduce_eq_fold_single FloatOps.maximumf x init h' h hu (ix2 i k), hinit]
  exact (fold_max_bot_eq_sup (Finset.univ : Finset (Fin b)) (fun n => x (h.lift (ix2 i k) n))).trans
    (Finset.sup_congr rfl fun n _ => congrArg x (by
      funext d
      match d with
      | ⟨0, _⟩ => rfl
      | ⟨1, _⟩ => rfl
      | ⟨2, _⟩ => rfl))

end Cert.LibReduce

end
-- ==== Proof.RefLayer.lean ====
/-
  One layer of the reference read at an index, at the ideal values: each operation of the layer's term is read at the
  coordinates (batch index, position, channel) and identified with the network's definition — the linear map as the sum
  over the input channels, the mean and the variance as quotients of sums over all points by the point count, the
  normalisation in its centred form, the rectifier as the maximum with zero.
-/
import proofs.«128329_j6322191859819_2_alg».proof.Proof.RefTerm
import proofs.«128329_j6322191859819_2_alg».proof.Proof.Net
import proofs.«128329_j6322191859819_2_alg».proof.Proof.LibReduceLead2
import Idealize.ShloMosaic.Lib.Pipeline.Value
import Idealize.ShloMosaic.Lib.IdealHost
import Idealize.ShloMosaic.Lib.ValueIdx

noncomputable section

namespace Cert.ReferenceIdeal.RefValue

open Idealize.ShloMosaic Idealize.ShloMosaic.ValueIdx Cert.Net Cert.LibReduce
open scoped BigOperators

/-- The point count's word denotes 131072. -/
theorem nPts_eq : Ideal.ofBits .f32 0x48000000#32 = ((131072 : ℝ) : EReal) := by
  simp [Ideal.ofBits, Ideal.ieee, -EReal.coe_mul]; norm_num

/-- The point count is positive. -/
theorem nPts_pos : (0 : EReal) < Ideal.ofBits .f32 0x48000000#32 := by
  rw [nPts_eq]; exact EReal.coe_pos.mpr (by norm_num)

section Layer

variable {Ci C : Nat} (R : RowFacts C)

/-- A channel row kept with unit leading axes reads the row's element. -/
theorem keep_apply {α : Type} (v : (A1 C).Idx → α) (o : Fin C) :
    broadcastInDim (K3 C) ![2] R.row v (ix3 (0 : Fin 1) (0 : Fin 1) o) = v (ix1 o) :=
  broadcastInDim_apply ![2] R.row v _ (ix1 o) fun a => by
    match a with
    | ⟨0, _⟩ =>
      show o.val = if C = 1 then 0 else o.val
      split_ifs with h
      · have := o.isLt; omega
      · rfl

/-- A row with unit leading axes broadcast to every point reads the row. -/
theorem all_apply {α : Type} (w : (K3 C).Idx → α) (b : Fin 8) (n : Fin 16384) (o : Fin C) :
    broadcastInDim (A3 C) ![0, 1, 2] R.all w (ix3 b n o) = w (ix3 (0 : Fin 1) (0 : Fin 1) o) :=
  broadcastInDim_apply ![0, 1, 2] R.all w _ (ix3 (0 : Fin 1) (0 : Fin 1) o) fun a => by
    match a with
    | ⟨0, _⟩ => rfl
    | ⟨1, _⟩ => rfl
    | ⟨2, _⟩ =>
      show o.val = if C = 1 then 0 else o.val
      split_ifs with h
      · have := o.isLt; omega
      · rfl

/-- A channel row read at every point is the row's element at the point's channel. -/
theorem rowT_apply {α : Type} (v : (A1 C).Idx → α) (b : Fin 8) (n : Fin 16384) (o : Fin C) :
    broadcastInDim (A3 C) ![0, 1, 2] R.all (broadcastInDim (K3 C) ![2] R.row v) (ix3 b n o) = v (ix1 o) :=
  (all_apply R _ b n o).trans (keep_apply R v o)

/-- The sum over all points from zero is the total over the points. -/
theorem sum_apply (h : FVec Ideal (A3 C) .f32) (o : Fin C) :
    Host.reduceAdd h (constant (F := Ideal) A0 .f32 0x00000000#32) R.red R.h0 (ix1 o) = tot fun b n => cur3 h b n o := by
  show Ideal.hostReduceAdd R.red h (Ideal.ofBits .f32 0x00000000#32) (ix1 o) = _
  rw [hostReduceAdd_lead2 R.red h _ o, Ideal.ofBits_zero_f32, zero_add]
  rfl

/-- The channel mean is the network's. -/
theorem meanT_apply (h : FVec Ideal (A3 C) .f32) (o : Fin C) : meanT R h (ix1 o) = Net.mean (cur3 h) o := by
  show Ideal.div (Host.reduceAdd h (constant (F := Ideal) A0 .f32 0x00000000#32) R.red R.h0 (ix1 o))
    (Ideal.ofBits .f32 0x48000000#32) = _
  rw [sum_apply R]
  rfl

/-- The variance's divisor, called with a zero correction, is the point count. -/
theorem cntT_apply (c : IVec A0 32) (hc : ∀ i, c i = 0#32) (i : A0.Idx) :
    cntT (F := Ideal) c i = Ideal.ofBits .f32 0x48000000#32 := by
  show Ideal.ofBits .f32 0x48000000#32 - (((c i).toInt : ℝ) : EReal) = _
  rw [hc i]
  simp

/-- The divisor is positive: the comparison's bit is set. -/
theorem cnt_pos (c : IVec A0 32) (hc : ∀ i, c i = 0#32) (i : A0.Idx) :
    cmpf .ogt (cntT (F := Ideal) c) (constant (F := Ideal) A0 .f32 0x00000000#32) i = 1#1 := by
  show Ideal.cmp .ogt (cntT (F := Ideal) c i) (Ideal.ofBits .f32 0x00000000#32) = 1#1
  rw [cntT_apply c hc i, Ideal.ofBits_zero_f32]
  show BitVec.ofBool (decide ((0 : EReal) < Ideal.ofBits .f32 0x48000000#32)) = 1#1
  rw [decide_eq_true nPts_pos]
  rfl

/-- A deviation from the mean is the network's. -/
theorem devT_apply (h : FVec Ideal (A3 C) .f32) (b : Fin 8) (n : Fin 16384) (o : Fin C) :
    devT R h (ix3 b n o) = cur3 h b n o - Net.mean (cur3 h) o := by
  show h (ix3 b n o) - broadcastInDim (A3 C) ![0, 1, 2] R.all
      (Host.divf (broadcastInDim (K3 C) ![2] R.row (Host.reduceAdd h (constant (F := Ideal) A0 .f32 0x00000000#32) R.red R.h0))
        (broadcastInDim (K3 C) ![] R.sk (constant (F := Ideal) A0 .f32 0x48000000#32))) (ix3 b n o) = _
  refine congrArg (h (ix3 b n o) - ·) ?_
  refine (all_apply R _ b n o).trans ?_
  show Ideal.div (broadcastInDim (K3 C) ![2] R.row (Host.reduceAdd h (constant (F := Ideal) A0 .f32 0x00000000#32) R.red R.h0)
      (ix3 (0 : Fin 1) (0 : Fin 1) o)) (Ideal.ofBits .f32 0x48000000#32) = _
  rw [keep_apply R, sum_apply R]
  rfl

/-- The channel variance, called with a zero correction, is the network's centred variance. -/
theorem varT_apply (h : FVec Ideal (A3 C) .f32) (c : IVec A0 32) (hc : ∀ i, c i = 0#32) (o : Fin C) :
    varT R h c (ix1 o) = Net.varC (cur3 h) o := by
  show Scalar.select (broadcastInDim (A1 C) ![] R.s1 (cmpf .ogt (cntT (F := Ideal) c) (constant (F := Ideal) A0 .f32 0x00000000#32)) (ix1 o))
      (Ideal.div (Host.reduceAdd (mulf (devT R h) (devT R h)) (constant (F := Ideal) A0 .f32 0x00000000#32) R.red R.h0 (ix1 o))
        (broadcastInDim (A1 C) ![] R.s1 (cntT (F := Ideal) c) (ix1 o)))
      (broadcastInDim (A1 C) ![] R.s1 (id (constant (F := Ideal) A0 .f32 0x7FC00000#32)) (ix1 o)) = _
  rw [broadcastInDim_scalar_apply, broadcastInDim_scalar_apply, cnt_pos c hc, select_one, cntT_apply c hc, sum_apply R]
  have key : (tot fun b n => cur3 (mulf (devT R h) (devT R h)) b n o)
      = tot fun b n => (cur3 h b n o - Net.mean (cur3 h) o) * (cur3 h b n o - Net.mean (cur3 h) o) := by
    unfold tot
    refine Finset.sum_congr rfl fun b _ => Finset.sum_congr rfl fun n _ => ?_
    show devT R h (ix3 b n o) * devT R h (ix3 b n o) = _
    rw [devT_apply R]
  rw [key]
  rfl

/-- Batch normalisation, called with a zero correction, is the network's centred form. -/
theorem bnT_apply (h : FVec Ideal (A3 C) .f32) (c : IVec A0 32) (hc : ∀ i, c i = 0#32) (g be : FVec Ideal (A1 C) .f32)
    (b : Fin 8) (n : Fin 16384) (o : Fin C) :
    bnT R h c g be (ix3 b n o) = Net.bnC (cur3 h) (cur1 g) (cur1 be) b n o := by
  show (h (ix3 b n o) - rowT R (meanT R h) (ix3 b n o))
      * rowT R (Host.rsqrt (addf (varT R h c) (broadcastInDim (A1 C) ![] R.s1 (constant (F := Ideal) A0 .f32 0x3727C5AC#32)))) (ix3 b n o)
      * rowT R g (ix3 b n o) + rowT R be (ix3 b n o) = _
  unfold rowT
  rw [rowT_apply R, rowT_apply R, rowT_apply R, rowT_apply R, meanT_apply R]
  show (h (ix3 b n o) - Net.mean (cur3 h) o) * Ideal.rsqrt (varT R h c (ix1 o) + Ideal.ofBits .f32 0x3727C5AC#32)
      * g (ix1 o) + be (ix1 o) = _
  rw [varT_apply R h c hc]
  rfl

/-- The rectifier is the network's. -/
theorem reluT_apply (sa : A0.BroadcastsInDim (A3 C) (![] : Fin 0 → Fin (A3 C).rank)) (h : FVec Ideal (A3 C) .f32)
    (b : Fin 8) (n : Fin 16384) (o : Fin C) : reluT sa h (ix3 b n o) = Net.relu (cur3 h) b n o := by
  show max (h (ix3 b n o)) (Ideal.ofBits .f32 0x00000000#32) = _
  rw [Ideal.ofBits_zero_f32]
  rfl

/-- The contraction's dimension numbers at any channel counts: the activation's channel axis against the weight's second
    axis, the result's axes the activation's two leading ones then the weight's first. -/
def dotD (wf : DotDims.WF (A3 Ci) (A2 C Ci) (A3 C) [2] [1] [0, 1] [0] [] []) : DotDims (A3 Ci) (A2 C Ci) (A3 C) where
  lhsContracting := [2]
  rhsContracting := [1]
  lhsNonContracting := [0, 1]
  rhsNonContracting := [0]
  lhsBatch := []
  rhsBatch := []
  wf := wf

/-- The contraction read at a point and an output channel: the sum over the input channels of the products. -/
theorem dot_apply (wf : DotDims.WF (A3 Ci) (A2 C Ci) (A3 C) [2] [1] [0, 1] [0] [] [])
    (x : FVec Ideal (A3 Ci) .f32) (W : FVec Ideal (A2 C Ci) .f32) (b : Fin 8) (n : Fin 16384) (o : Fin C) :
    Host.dotGeneral (dotD wf) none x W (ix3 b n o) = ∑ c : Fin Ci, x (ix3 b n c) * W (ix2 o c) := by
  refine (Ideal.dotGeneral_apply (dotD wf) none .single x W (ix3 b n o)).trans ?_
  rw [← Equiv.sum_comp (contrEquiv1 (dotD wf) Ci rfl rfl).symm]
  refine Finset.sum_congr rfl fun c _ => ?_
  have hl : (dotD wf).lhsIdx (ix3 b n o) ((contrEquiv1 (dotD wf) Ci rfl rfl).symm c) = ix3 b n c := by
    funext a
    match a with
    | ⟨0, _⟩ => exact Fin.ext rfl
    | ⟨1, _⟩ => exact Fin.ext rfl
    | ⟨2, _⟩ =>
      exact Fin.ext (((dotD wf).lhsIdx_val_of_single rfl _ _).trans (contrEquiv1_symm_val (dotD wf) Ci rfl rfl c))
  have hr : (dotD wf).rhsIdx (ix3 b n o) ((contrEquiv1 (dotD wf) Ci rfl rfl).symm c) = ix2 o c := by
    funext a
    match a with
    | ⟨0, _⟩ => exact Fin.ext rfl
    | ⟨1, _⟩ =>
      exact Fin.ext (((dotD wf).rhsIdx_val_of_single rfl _ _).trans (contrEquiv1_symm_val (dotD wf) Ci rfl rfl c))
  rw [hl, hr]

/-- The linear map plus the bias row is the network's. -/
theorem linT_apply (wf : DotDims.WF (A3 Ci) (A2 C Ci) (A3 C) [2] [1] [0, 1] [0] [] [])
    (x : FVec Ideal (A3 Ci) .f32) (W : FVec Ideal (A2 C Ci) .f32) (bias : FVec Ideal (A1 C) .f32)
    (b : Fin 8) (n : Fin 16384) (o : Fin C) :
    linT R (dotD wf) x W bias (ix3 b n o) = Net.lin (cur3 x) (cur2 W) (cur1 bias) b n o := by
  show Host.dotGeneral (dotD wf) none x W (ix3 b n o) + rowT R bias (ix3 b n o) = _
  unfold rowT
  rw [dot_apply, rowT_apply R]
  rfl

/-- One whole layer, rectified, as arrays of coordinates: the network's. -/
theorem layer_relu (wf : DotDims.WF (A3 Ci) (A2 C Ci) (A3 C) [2] [1] [0, 1] [0] [] [])
    (sa : A0.BroadcastsInDim (A3 C) (![] : Fin 0 → Fin (A3 C).rank))
    (x : FVec Ideal (A3 Ci) .f32) (W : FVec Ideal (A2 C Ci) .f32) (bias g be : FVec Ideal (A1 C) .f32)
    (c : IVec A0 32) (hc : ∀ i, c i = 0#32) :
    cur3 (reluT sa (bnT R (linT R (dotD wf) x W bias) c g be))
      = Net.relu (Net.bnC (Net.lin (cur3 x) (cur2 W) (cur1 bias)) (cur1 g) (cur1 be)) := by
  have hlin : cur3 (linT R (dotD wf) x W bias) = Net.lin (cur3 x) (cur2 W) (cur1 bias) := by
    funext b n o; exact linT_apply R wf x W bias b n o
  have hbn : cur3 (bnT R (linT R (dotD wf) x W bias) c g be)
      = Net.bnC (Net.lin (cur3 x) (cur2 W) (cur1 bias)) (cur1 g) (cur1 be) := by
    funext b n o
    show bnT R (linT R (dotD wf) x W bias) c g be (ix3 b n o) = _
    rw [bnT_apply R _ c hc, hlin]
  funext b n o
  show reluT sa (bnT R (linT R (dotD wf) x W bias) c g be) (ix3 b n o) = _
  rw [reluT_apply, hbn]

/-- One whole layer, not rectified. -/
theorem layer_plain (wf : DotDims.WF (A3 Ci) (A2 C Ci) (A3 C) [2] [1] [0, 1] [0] [] [])
    (x : FVec Ideal (A3 Ci) .f32) (W : FVec Ideal (A2 C Ci) .f32) (bias g be : FVec Ideal (A1 C) .f32)
    (c : IVec A0 32) (hc : ∀ i, c i = 0#32) :
    cur3 (bnT R (linT R (dotD wf) x W bias) c g be)
      = Net.bnC (Net.lin (cur3 x) (cur2 W) (cur1 bias)) (cur1 g) (cur1 be) := by
  have hlin : cur3 (linT R (dotD wf) x W bias) = Net.lin (cur3 x) (cur2 W) (cur1 bias) := by
    funext b n o; exact linT_apply R wf x W bias b n o
  funext b n o
  show bnT R (linT R (dotD wf) x W bias) c g be (ix3 b n o) = _
  rw [bnT_apply R _ c hc, hlin]

end Layer

end Cert.ReferenceIdeal.RefValue

end
-- ==== Proof.RefValue.lean ====
/-
  The reference computes the network in its centred form.

  The program's result term, read at an output index (batch index, row, position), is the stacked output of the network:
  a row below 1024 falls in the concatenation's first piece, the pooled third layer broadcast along the positions, and
  reads the supremum over the positions; a row from 1024 on falls in the second piece, the transposed first layer.  Each
  layer's array of coordinates is the network's layer.  With the run, every execution of the reference ends with its result
  buffer at the network's output of the arguments' contents.
-/
import proofs.«128329_j6322191859819_2_alg».proof.Proof.RefRun
import proofs.«128329_j6322191859819_2_alg».proof.Proof.RefLayer

noncomputable section

namespace Cert.ReferenceIdeal.RefValue

open Cert.ReferenceIdeal Idealize.ShloMosaic Idealize.ShloMosaic.TcCoe Idealize.SL.Sem Idealize.ShloMosaic.ValueIdx
open Cert.Net Cert.LibReduce
open scoped BigOperators

variable [Facts]
open Facts₀ Facts

/-- The correction is zero everywhere. -/
theorem corr_zero (i : A0.Idx) : corr i = 0#32 := rfl

/-- The first layer is the network's. -/
theorem layer0_eq (x : FVec Ideal S8x16384x3 .f32) (W : FVec Ideal S64x3 .f32) (b g be : FVec Ideal S64 .f32) :
    cur3 (layer0 (F := Ideal) x W b g be) = Net.relu (Net.bnC (Net.lin (cur3 x) (cur2 W) (cur1 b)) (cur1 g) (cur1 be)) :=
  layer_relu rows64 dot_S8x16384x3_S64x3_S8x16384x64_2_1_01_0_n_n_wf bcast_S_S8x16384x64 x W b g be corr corr_zero

/-- The second layer is the network's. -/
theorem layer1_eq (x : FVec Ideal S8x16384x64 .f32) (W : FVec Ideal S128x64 .f32) (b g be : FVec Ideal S128 .f32) :
    cur3 (layer1 (F := Ideal) x W b g be) = Net.relu (Net.bnC (Net.lin (cur3 x) (cur2 W) (cur1 b)) (cur1 g) (cur1 be)) :=
  layer_relu rows128 dot_S8x16384x64_S128x64_S8x16384x128_2_1_01_0_n_n_wf bcast_S_S8x16384x128 x W b g be corr corr_zero

/-- The third layer is the network's. -/
theorem layer2_eq (x : FVec Ideal S8x16384x128 .f32) (W : FVec Ideal S1024x128 .f32) (b g be : FVec Ideal S1024 .f32) :
    cur3 (layer2 (F := Ideal) x W b g be) = Net.bnC (Net.lin (cur3 x) (cur2 W) (cur1 b)) (cur1 g) (cur1 be) :=
  layer_plain rows1024 dot_S8x16384x128_S1024x128_S8x16384x1024_2_1_01_0_n_n_wf x W b g be corr corr_zero

/-- The word of minus infinity denotes ⊥. -/
theorem ofBits_neg_inf : Ideal.ofBits .f32 0xFF800000#32 = ⊥ := by
  simp [Ideal.ofBits, Ideal.ieee]

/-- The pooled activation at (b, k) is the supremum over the positions. -/
theorem poolT_apply (a2 : FVec Ideal S8x16384x1024 .f32) (b : Fin 8) (k : Fin 1024) :
    poolT a2 (ix2 b k) = (Finset.univ : Finset (Fin 16384)).sup fun n => cur3 a2 b n k :=
  hostReduceMax_mid reducesTo_S8x16384x1024_S8x1024_d1 (by decide) h_S_ a2 _ ofBits_neg_inf b k

/-- The pooled array broadcast along the positions reads the pooled element. -/
theorem alongT_apply (p : FVec Ideal S8x1024 .f32) (b : Fin 8) (k : Fin 1024) (n : Fin 16384) :
    broadcastInDim S8x1024x16384 ![0, 1, 2] bcast_S8x1024x1_S8x1024x16384_0_1_2
      (broadcastInDim S8x1024x1 ![0, 1] bcast_S8x1024_S8x1024x1_0_1 p) (ix3 b k n) = p (ix2 b k) := by
  have e1 := broadcastInDim_apply ![0, 1, 2] bcast_S8x1024x1_S8x1024x16384_0_1_2
      (broadcastInDim S8x1024x1 ![0, 1] bcast_S8x1024_S8x1024x1_0_1 p) (ix3 b k n) (ix3 b k (0 : Fin 1)) (fun a => by
        match a with
        | ⟨0, _⟩ => rfl
        | ⟨1, _⟩ => rfl
        | ⟨2, _⟩ => rfl)
  have e2 := broadcastInDim_apply ![0, 1] bcast_S8x1024_S8x1024x1_0_1 p (ix3 b k (0 : Fin 1)) (ix2 b k) (fun a => by
        match a with
        | ⟨0, _⟩ => rfl
        | ⟨1, _⟩ => rfl)
  exact e1.trans e2

/-- The stacked output read at (b, row, position) is the network's. -/
theorem stackT_apply (a2 : FVec Ideal S8x16384x1024 .f32) (a0 : FVec Ideal S8x16384x64 .f32)
    (b : Fin 8) (ch : Fin 1088) (n : Fin 16384) :
    stackT a2 a0 (ix3 b ch n) = Net.stack (cur3 a2) (cur3 a0) b ch n := by
  unfold Net.stack stackT
  by_cases h : ch.val < 1024
  · rw [dif_pos h]
    refine (concatenate_pair_apply_left (t := S8x1088x16384) (s₁ := S8x1024x16384) (s₂ := S8x64x16384) (1 : Fin 3) _ _ concatenates_S8x1024x16384_S8x64x16384_S8x1088x16384_d1
      (ix3 b ch n) rfl (ix3 b (⟨ch.val, h⟩ : Fin 1024) n) (fun a => by
        match a with
        | ⟨0, _⟩ => rfl
        | ⟨1, _⟩ => rfl
        | ⟨2, _⟩ => rfl)).trans ?_
    exact (alongT_apply (poolT a2) b ⟨ch.val, h⟩ n).trans (poolT_apply a2 b ⟨ch.val, h⟩)
  · rw [dif_neg h]
    have hlt : ch.val - 1024 < 64 := by have := ch.isLt; omega
    refine (concatenate_pair_apply_right (t := S8x1088x16384) (s₁ := S8x1024x16384) (s₂ := S8x64x16384) (1 : Fin 3) _ _ concatenates_S8x1024x16384_S8x64x16384_S8x1088x16384_d1
      (ix3 b ch n) rfl rfl (ix3 b (⟨ch.val - 1024, hlt⟩ : Fin 64) n) (fun a ha => by
        match a with
        | ⟨0, _⟩ => rfl
        | ⟨1, _⟩ => exact absurd rfl ha
        | ⟨2, _⟩ => rfl) (by
        show ch.val - 1024 + 1024 = ch.val
        omega)).trans ?_
    exact transpose_apply [0, 2, 1] a0 transposes_S8x16384x64_S8x64x16384_0_2_1
      (ix3 b (⟨ch.val - 1024, hlt⟩ : Fin 64) n) (ix3 b n (⟨ch.val - 1024, hlt⟩ : Fin 64)) (fun a => by
        match a with
        | ⟨0, _⟩ => rfl
        | ⟨1, _⟩ => rfl
        | ⟨2, _⟩ => rfl)

/-- The reference's term of its arguments is the network, centred form, of the arguments read by coordinates. -/
theorem refTerm_eq (x : FVec Ideal S8x16384x3 .f32) (W0 : FVec Ideal S64x3 .f32) (b0 g0 be0 : FVec Ideal S64 .f32)
    (W1 : FVec Ideal S128x64 .f32) (b1 g1 be1 : FVec Ideal S128 .f32)
    (W2 : FVec Ideal S1024x128 .f32) (b2 g2 be2 : FVec Ideal S1024 .f32) :
    refTerm (F := Ideal) x W0 b0 g0 be0 W1 b1 g1 be1 W2 b2 g2 be2
      = Net.arr3 (Net.netC (cur3 x) (cur2 W0) (cur1 b0) (cur1 g0) (cur1 be0) (cur2 W1) (cur1 b1) (cur1 g1) (cur1 be1)
          (cur2 W2) (cur1 b2) (cur1 g2) (cur1 be2)) := by
  funext j
  obtain ⟨b, ch, n, rfl⟩ : ∃ (b : Fin 8) (ch : Fin 1088) (n : Fin 16384), j = ix3 b ch n := ⟨j 0, j 1, j 2, eq_ix3 j⟩
  unfold refTerm
  rw [stackT_apply, layer2_eq, layer1_eq, layer0_eq]
  rfl

/-- Every weakly fair execution of the reference terminates with its result the network's output, centred form, of the
    arguments' contents read by coordinates, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v75)
        = Cert.Net.arr3 (Cert.Net.netC (Cert.Net.cur3 (m ((c.tc : Thread nD τ).loc main_arg0))) (Cert.Net.cur2 (m ((c.tc : Thread nD τ).loc main_arg1))) (Cert.Net.cur1 (m ((c.tc : Thread nD τ).loc main_arg2))) (Cert.Net.cur1 (m ((c.tc : Thread nD τ).loc main_arg3))) (Cert.Net.cur1 (m ((c.tc : Thread nD τ).loc main_arg4))) (Cert.Net.cur2 (m ((c.tc : Thread nD τ).loc main_arg5))) (Cert.Net.cur1 (m ((c.tc : Thread nD τ).loc main_arg6))) (Cert.Net.cur1 (m ((c.tc : Thread nD τ).loc main_arg7))) (Cert.Net.cur1 (m ((c.tc : Thread nD τ).loc main_arg8))) (Cert.Net.cur2 (m ((c.tc : Thread nD τ).loc main_arg9))) (Cert.Net.cur1 (m ((c.tc : Thread nD τ).loc main_arg10))) (Cert.Net.cur1 (m ((c.tc : Thread nD τ).loc main_arg11))) (Cert.Net.cur1 (m ((c.tc : Thread nD τ).loc main_arg12))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run (defs (F := Ideal)) _ _).mono (fun _ h c => ⟨((h c).1).trans (refTerm_eq _ _ _ _ _ _ _ _ _ _ _ _ _), (h c).2⟩)
    (run_term m ρ)

end Cert.ReferenceIdeal.RefValue

end
-- ==== Proof.LibBatchNormForms.lean ====
import proofs.«128329_j6322191859819_2_alg».proof.Proof.Net

noncomputable section

namespace Cert.Net

open Idealize.ShloMosaic
open scoped BigOperators

/-!
  # The two forms of batch normalisation agree on finite activations

  Every quantity of a normalisation layer (the mean, the variance in either form, the reciprocal square root of the
  variance plus ε) is, on an activation all of whose entries are real numbers, the image of the corresponding real
  quantity.  Over the reals, with N = 131072 the number of points and m the mean,

      (∑ h²) / N - m²  =  (∑ (h - m)²) / N  ≥ 0,

  so the clamp at zero of the moment form does nothing, both forms take the reciprocal square root of the same positive
  number, and the two affine expressions  (h - m) · r · γ + β  and  h · (γ · r) + (β - m · (γ · r))  are one polynomial
  identity.  Linear maps, rectifiers and normalisations send finite activations to finite activations, so the identity
  propagates through the three layers of the network.
-/

namespace BatchNorm

/-! ## Coercion and finite sums -/

/-- The inclusion of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals in the extended reals commutes with the maximum. -/
theorem coe_max (a b : ℝ) : ((max a b : ℝ) : EReal) = max (a : EReal) (b : EReal) :=
  EReal.coe_strictMono.monotone.map_max

/-- An array of finite extended reals is the image of an array of reals. -/
theorem exists_real {C : Nat} (h : Act C) (hh : ∀ b n o, Fin_ (h b n o)) :
    ∃ hr : Fin 8 → Fin 16384 → Fin C → ℝ, h = fun b n o => (hr b n o : EReal) := by
  choose hr hhr using hh
  exact ⟨hr, by funext b n o; exact hhr b n o⟩

/-! ## The two constants -/

/-- The divisor is the real number 131072. -/
theorem nPts_eq : nPts = ((131072 : ℝ) : EReal) := by
  simp [nPts, Ideal.ofBits, Ideal.ieee, -EReal.coe_mul]; norm_num

/-- ε is a positive real number (10995116 · 2⁻⁴⁰, the single-precision number nearest 10⁻⁵). -/
theorem eps_pos : ∃ e : ℝ, 0 < e ∧ eps = (e : EReal) := by
  refine ⟨10995116 * (2 : ℝ) ^ (-40 : ℤ), by positivity, ?_⟩
  simp [eps, Ideal.ofBits, Ideal.ieee, -EReal.coe_mul]

/-! ## Sums over all points, over the reals -/

/-- The sum over all points of a real-valued function. -/
def totR (f : Fin 8 → Fin 16384 → ℝ) : ℝ := ∑ b : Fin 8, ∑ n : Fin 16384, f b n

/-- The sum over all points of real numbers, taken in the extended reals, is the real sum. -/
theorem tot_coe (f : Fin 8 → Fin 16384 → ℝ) : tot (fun b n => (f b n : EReal)) = ((totR f : ℝ) : EReal) := by
  simp only [tot, totR, coe_sum]

/-- The sum over all points is additive. -/
theorem totR_add (f g : Fin 8 → Fin 16384 → ℝ) : totR (fun b n => f b n + g b n) = totR f + totR g := by
  simp only [totR, Finset.sum_add_distrib]

/-- The sum over all points commutes with subtraction. -/
theorem totR_sub (f g : Fin 8 → Fin 16384 → ℝ) : totR (fun b n => f b n - g b n) = totR f - totR g := by
  simp only [totR, Finset.sum_sub_distrib]

/-- A constant factor comes out of the sum over all points. -/
theorem totR_const_mul (c : ℝ) (f : Fin 8 → Fin 16384 → ℝ) : totR (fun b n => c * f b n) = c * totR f := by
  simp only [totR, Finset.mul_sum]

/-- The sum of a constant over all points is the number of points, 8 · 16384 = 131072, times the constant. -/
theorem totR_const (c : ℝ) : totR (fun _ _ => c) = 131072 * c := by
  simp only [totR, Finset.sum_const, Finset.card_univ, Fintype.card_fin, nsmul_eq_mul]
  push_cast; ring

/-- A sum of nonnegative numbers over all points is nonnegative. -/
theorem totR_nonneg (f : Fin 8 → Fin 16384 → ℝ) (hf : ∀ b n, 0 ≤ f b n) : 0 ≤ totR f :=
  Finset.sum_nonneg fun b _ => Finset.sum_nonneg fun n _ => hf b n

/-- The sum of the squared deviations from m is the sum of the squares minus N m², when the sum itself is N m
    (N = 131072, the number of points): expand the square and sum term by term. -/
theorem totR_sq_dev (f : Fin 8 → Fin 16384 → ℝ) (m : ℝ) (hm : totR f = 131072 * m) :
    totR (fun b n => (f b n - m) * (f b n - m)) = totR (fun b n => f b n * f b n) - 131072 * (m * m) := by
  have h1 : (fun b n => (f b n - m) * (f b n - m)) = fun b n => (f b n * f b n - (2 * m) * f b n) + m * m := by
    funext b n; ring
  rw [h1, totR_add, totR_sub, totR_const_mul, totR_const, hm]; ring

/-! ## The statistics of a real activation -/

section Stats

variable {C : Nat} (hr : Fin 8 → Fin 16384 → Fin C → ℝ)

/-- A channel's mean over all points, over the reals. -/
def meanR (o : Fin C) : ℝ := totR (fun b n => hr b n o) * (1 / 131072)

/-- A channel's variance over the reals: the mean of the squared deviations from the mean. -/
def varR (o : Fin C) : ℝ :=
  totR (fun b n => (hr b n o - meanR hr o) * (hr b n o - meanR hr o)) * (1 / 131072)

/-- The variance is nonnegative: it is a positive multiple of a sum of squares. -/
theorem varR_nonneg (o : Fin C) : 0 ≤ varR hr o :=
  mul_nonneg (totR_nonneg _ fun _ _ => mul_self_nonneg _) (by norm_num)

/-- The mean of the squares minus the square of the mean is the variance. -/
theorem moment_eq_varR (o : Fin C) :
    totR (fun b n => hr b n o * hr b n o) * (1 / 131072) - meanR hr o * meanR hr o = varR hr o := by
  unfold varR
  rw [totR_sq_dev (fun b n => hr b n o) (meanR hr o) (by unfold meanR; ring)]; ring

/-- The mean of an activation with real entries is the real mean. -/
theorem mean_coe (o : Fin C) : mean (fun b n o => (hr b n o : EReal)) o = ((meanR hr o : ℝ) : EReal) := by
  show Ideal.div (tot fun b n => (hr b n o : EReal)) nPts = _
  rw [nPts_eq, Ideal.div_coe (by norm_num), tot_coe, ← EReal.coe_mul]; rfl

/-- The centred variance of an activation with real entries is the real variance. -/
theorem varC_coe (o : Fin C) : varC (fun b n o => (hr b n o : EReal)) o = ((varR hr o : ℝ) : EReal) := by
  show Ideal.div (tot fun b n => ((hr b n o : EReal) - mean (fun b n o => (hr b n o : EReal)) o)
      * ((hr b n o : EReal) - mean (fun b n o => (hr b n o : EReal)) o)) nPts = _
  rw [mean_coe]
  simp only [← EReal.coe_sub, ← EReal.coe_mul]
  rw [nPts_eq, Ideal.div_coe (by norm_num), tot_coe, ← EReal.coe_mul]; rfl

/-- The moment-form variance of an activation with real entries is the same real variance: the mean of the squares
    minus the square of the mean is the mean of the squared deviations, which is nonnegative, so the clamp at zero
    leaves it alone. -/
theorem varM_coe (o : Fin C) : varM (fun b n o => (hr b n o : EReal)) o = ((varR hr o : ℝ) : EReal) := by
  show max (Ideal.div (tot fun b n => (hr b n o : EReal) * (hr b n o : EReal)) nPts
      - mean (fun b n o => (hr b n o : EReal)) o * mean (fun b n o => (hr b n o : EReal)) o) 0 = _
  rw [mean_coe]
  simp only [← EReal.coe_mul]
  rw [nPts_eq, Ideal.div_coe (by norm_num), tot_coe, ← EReal.coe_mul, ← EReal.coe_sub, moment_eq_varR]
  exact max_eq_left (EReal.coe_nonneg.mpr (varR_nonneg hr o))

end Stats

/-- The reciprocal square root of a nonnegative real plus ε is a real number: the argument is positive. -/
theorem rsqrt_add_eps_fin {v : ℝ} (hv : 0 ≤ v) : Fin_ (Ideal.rsqrt ((v : EReal) + eps)) := by
  obtain ⟨e, he, hE⟩ := eps_pos
  have hpos : 0 < v + e := add_pos_of_nonneg_of_pos hv he
  rw [hE, ← EReal.coe_add, Ideal.rsqrt_coe, if_neg (not_lt.mpr hpos.le), if_neg hpos.ne']
  exact ⟨_, rfl⟩

/-! ## One layer -/

/-- On an activation with real entries, with real scale and shift parameters, the moment form and the centred form
    of the normalisation are both the image of one real number. -/
theorem bn_coe {C : Nat} (hr : Fin 8 → Fin 16384 → Fin C → ℝ) (g be : Fin C → EReal)
    (hg : ∀ o, Fin_ (g o)) (hbe : ∀ o, Fin_ (be o)) (b : Fin 8) (n : Fin 16384) (o : Fin C) :
    ∃ y : ℝ, bnM (fun b n o => (hr b n o : EReal)) g be b n o = (y : EReal)
      ∧ bnC (fun b n o => (hr b n o : EReal)) g be b n o = (y : EReal) := by
  obtain ⟨gr, hgr⟩ := hg o
  obtain ⟨br, hbr⟩ := hbe o
  obtain ⟨r, hr'⟩ := rsqrt_add_eps_fin (varR_nonneg hr o)
  refine ⟨(hr b n o - meanR hr o) * r * gr + br, ?_, ?_⟩
  · show (hr b n o : EReal) * (g o * Ideal.rsqrt (varM (fun b n o => (hr b n o : EReal)) o + eps))
        + (be o - mean (fun b n o => (hr b n o : EReal)) o
            * (g o * Ideal.rsqrt (varM (fun b n o => (hr b n o : EReal)) o + eps))) = _
    rw [varM_coe, mean_coe, hr', hgr, hbr]
    simp only [← EReal.coe_mul, ← EReal.coe_sub, ← EReal.coe_add]
    congr 1; ring
  · show ((hr b n o : EReal) - mean (fun b n o => (hr b n o : EReal)) o)
        * Ideal.rsqrt (varC (fun b n o => (hr b n o : EReal)) o + eps) * g o + be o = _
    rw [varC_coe, mean_coe, hr', hgr, hbr]
    simp only [← EReal.coe_mul, ← EReal.coe_sub, ← EReal.coe_add]

/-- The two forms of batch normalisation agree on a finite activation with finite parameters. -/
theorem bnM_eq_bnC {C : Nat} (h : Act C) (g be : Fin C → EReal) (hh : ∀ b n o, Fin_ (h b n o))
    (hg : ∀ o, Fin_ (g o)) (hbe : ∀ o, Fin_ (be o)) : bnM h g be = bnC h g be := by
  obtain ⟨hr, rfl⟩ := exists_real h hh
  funext b n o
  obtain ⟨y, h1, h2⟩ := bn_coe hr g be hg hbe b n o
  rw [h1, h2]

/-- Batch normalisation of a finite activation with finite parameters is finite. -/
theorem bnC_fin {C : Nat} (h : Act C) (g be : Fin C → EReal) (hh : ∀ b n o, Fin_ (h b n o))
    (hg : ∀ o, Fin_ (g o)) (hbe : ∀ o, Fin_ (be o)) : ∀ b n o, Fin_ (bnC h g be b n o) := by
  obtain ⟨hr, rfl⟩ := exists_real h hh
  intro b n o
  obtain ⟨y, _, h2⟩ := bn_coe hr g be hg hbe b n o
  exact ⟨y, h2⟩

/-- A linear map with finite weights and bias sends a finite activation to a finite activation. -/
theorem lin_fin {Ci Co : Nat} (x : Act Ci) (W : Fin Co → Fin Ci → EReal) (bias : Fin Co → EReal)
    (hx : ∀ b n c, Fin_ (x b n c)) (hW : ∀ o c, Fin_ (W o c)) (hb : ∀ o, Fin_ (bias o)) :
    ∀ b n o, Fin_ (lin x W bias b n o) := by
  intro b n o
  choose xr hxr using hx
  choose Wr hWr using hW
  obtain ⟨br, hbr⟩ := hb o
  refine ⟨(∑ c, xr b n c * Wr o c) + br, ?_⟩
  simp only [lin, hxr, hWr, hbr, EReal.coe_add, coe_sum, EReal.coe_mul]

/-- The rectifier sends a finite activation to a finite activation. -/
theorem relu_fin {C : Nat} (h : Act C) (hh : ∀ b n o, Fin_ (h b n o)) : ∀ b n o, Fin_ (relu h b n o) := by
  intro b n o
  obtain ⟨r, hr⟩ := hh b n o
  refine ⟨max r 0, ?_⟩
  show max (h b n o) 0 = _
  rw [hr, coe_max]; rfl

end BatchNorm

/-! ## The network -/

open BatchNorm in
/-- The network with the moment form in every layer is the network with the centred form in every layer, on finite
    inputs and parameters: layer by layer from the inside, the activation entering a normalisation is finite, so the
    two forms agree on it, and their common value is finite again. -/
theorem netM_eq_netC (x : Act 3) (W0 : Fin 64 → Fin 3 → EReal) (b0 g0 be0 : Fin 64 → EReal)
    (W1 : Fin 128 → Fin 64 → EReal) (b1 g1 be1 : Fin 128 → EReal)
    (W2 : Fin 1024 → Fin 128 → EReal) (b2 g2 be2 : Fin 1024 → EReal)
    (hx : ∀ b n c, Fin_ (x b n c)) (hW0 : ∀ o c, Fin_ (W0 o c)) (hb0 : ∀ o, Fin_ (b0 o)) (hg0 : ∀ o, Fin_ (g0 o)) (hbe0 : ∀ o, Fin_ (be0 o))
    (hW1 : ∀ o c, Fin_ (W1 o c)) (hb1 : ∀ o, Fin_ (b1 o)) (hg1 : ∀ o, Fin_ (g1 o)) (hbe1 : ∀ o, Fin_ (be1 o))
    (hW2 : ∀ o c, Fin_ (W2 o c)) (hb2 : ∀ o, Fin_ (b2 o)) (hg2 : ∀ o, Fin_ (g2 o)) (hbe2 : ∀ o, Fin_ (be2 o)) :
    netM x W0 b0 g0 be0 W1 b1 g1 be1 W2 b2 g2 be2 = netC x W0 b0 g0 be0 W1 b1 g1 be1 W2 b2 g2 be2 := by
  have f0 := lin_fin x W0 b0 hx hW0 hb0
  have e0 := bnM_eq_bnC (lin x W0 b0) g0 be0 f0 hg0 hbe0
  have a0 := relu_fin _ (bnC_fin (lin x W0 b0) g0 be0 f0 hg0 hbe0)
  have f1 := lin_fin _ W1 b1 a0 hW1 hb1
  have e1 := bnM_eq_bnC _ g1 be1 f1 hg1 hbe1
  have a1 := relu_fin _ (bnC_fin _ g1 be1 f1 hg1 hbe1)
  have f2 := lin_fin _ W2 b2 a1 hW2 hb2
  have e2 := bnM_eq_bnC _ g2 be2 f2 hg2 hbe2
  unfold netM netC
  rw [e0, e1, e2]

end Cert.Net
end
-- ==== Proof.FinPre.lean ====
import proofs.«128329_j6322191859819_2_alg».proof.Defs
import proofs.«128329_j6322191859819_2_alg».proof.Proof.Gen.Pre_finite_inputs
import proofs.«128329_j6322191859819_2_alg».proof.Proof.Net
import Idealize.ShloMosaic.Lib.ReduceAll

noncomputable section

namespace Cert.FinPre

open Idealize.ShloMosaic Idealize.SL.Sem
open Cert.Net (Fin_)

/-!
  # Every argument is finite under the precondition

  The precondition is the conjunction, over the thirteen argument arrays, of "every entry's absolute value is below +∞".
  An extended real whose absolute value max x (-x) is below +∞ is neither +∞ nor -∞, hence a real number.  The
  conjunction over an array is a reduction by "and" from the constant 1 to a single word; that word being 1 says every
  entry's comparison is 1.
-/

/-- The shape with no axes has exactly one index. -/
instance : Subsingleton Cert.Pre_finite_inputs.S_.Idx := ⟨fun a b => funext fun d => d.elim0⟩

/-- The pattern 0x7F800000 denotes +∞. -/
theorem ofBits_inf : Ideal.ofBits .f32 0x7F800000#32 = ⊤ := by
  simp [Ideal.ofBits, Ideal.ieee]

/-- An extended real whose absolute value max x (-x) compares below +∞ is a real number: at +∞ the maximum is +∞, at -∞
    it is -(-∞) = +∞, and +∞ is not below itself. -/
theorem fin_of_abs_lt (x : EReal)
    (h : Ideal.cmp .olt (max x (-x)) (Ideal.ofBits .f32 0x7F800000#32) = 1#1) : Fin_ x := by
  rw [ofBits_inf] at h
  induction x using EReal.rec with
  | bot => simp [Ideal.cmp] at h
  | coe r => exact ⟨r, rfl⟩
  | top => simp [Ideal.cmp] at h

/-- One argument: when the reduction by "and" of the entrywise comparisons |x| < +∞ is 1, every entry of the array is a
    real number. -/
theorem all_fin {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hS : 0 < Cert.Pre_finite_inputs.S_.numel)
    (init : IVec Cert.Pre_finite_inputs.S_ 1)
    (e : Host.reduce IntOp.andi
          (cmpf .olt (Host.absf x) (broadcastInDim s ![] hb (constant Cert.Pre_finite_inputs.S_ .f32 0x7F800000#32)))
          init hr hS ValueIdx.ix0 = 1#1)
    (i : s.Idx) : Fin_ (x i) :=
  fin_of_abs_lt (x i) (Host.reduce_andi_all _ init hr hS _ e i)

open Cert.Pre_finite_inputs in
/-- The precondition's function over thirteen arbitrary arrays: when its one word is 1, every entry of every array is a
    real number.  The word is the "and" of thirteen reductions, one per array. -/
theorem fn_fin [Cert.Pre_finite_inputs.Facts]
    (a0 : FVec Ideal S8x16384x3 .f32) (a1 : FVec Ideal S64x3 .f32) (a2 a3 a4 : FVec Ideal S64 .f32)
    (a5 : FVec Ideal S128x64 .f32) (a6 a7 a8 : FVec Ideal S128 .f32) (a9 : FVec Ideal S1024x128 .f32)
    (a10 a11 a12 : FVec Ideal S1024 .f32)
    (e : Cert.Pre_finite_inputs.fn (F := Ideal) a0 a1 a2 a3 a4 a5 a6 a7 a8 a9 a10 a11 a12 = fun _ => 1#1) :
    (∀ i, Fin_ (a0 i)) ∧ (∀ i, Fin_ (a1 i)) ∧ (∀ i, Fin_ (a2 i)) ∧ (∀ i, Fin_ (a3 i)) ∧ (∀ i, Fin_ (a4 i))
      ∧ (∀ i, Fin_ (a5 i)) ∧ (∀ i, Fin_ (a6 i)) ∧ (∀ i, Fin_ (a7 i)) ∧ (∀ i, Fin_ (a8 i)) ∧ (∀ i, Fin_ (a9 i))
      ∧ (∀ i, Fin_ (a10 i)) ∧ (∀ i, Fin_ (a11 i)) ∧ (∀ i, Fin_ (a12 i)) := by
  have e0 := congrFun e ValueIdx.ix0
  dsimp only [Cert.Pre_finite_inputs.fn, fn_part1, fn_part2, fn_part3] at e0
  simp only [Idealize.ShloMosaic.andi, IntOp.andi_eq_one] at e0
  obtain ⟨⟨⟨⟨⟨⟨⟨⟨⟨⟨⟨⟨h0, h1⟩, h2⟩, h3⟩, h4⟩, h5⟩, h6⟩, h7⟩, h8⟩, h9⟩, h10⟩, h11⟩, h12⟩ := e0
  exact ⟨all_fin _ _ _ _ _ h0, all_fin _ _ _ _ _ h1, all_fin _ _ _ _ _ h2, all_fin _ _ _ _ _ h3, all_fin _ _ _ _ _ h4,
    all_fin _ _ _ _ _ h5, all_fin _ _ _ _ _ h6, all_fin _ _ _ _ _ h7, all_fin _ _ _ _ _ h8, all_fin _ _ _ _ _ h9,
    all_fin _ _ _ _ _ h10, all_fin _ _ _ _ _ h11, all_fin _ _ _ _ _ h12⟩

/-- Under the precondition, on every device, every entry of every argument array is a real number. -/
theorem fin_of_pre [hPre_finite_inputs : Cert.Pre_finite_inputs.Facts]
    (m : (ℓ : Loc Cert.KernelIdeal.nD Cert.KernelIdeal.τ Cert.KernelIdeal.sig) → Buf (Elt Ideal) ℓ) (h : Cert.Pre_KernelIdeal m) (c : Dev Cert.KernelIdeal.nD) :
    (∀ b n k, Cert.Net.Fin_ (Cert.Net.cur3 (m ((c.tc : Thread Cert.KernelIdeal.nD Cert.KernelIdeal.τ).loc Cert.KernelIdeal.main_arg0)) b n k))
    ∧ (∀ o k, Cert.Net.Fin_ (Cert.Net.cur2 (m ((c.tc : Thread Cert.KernelIdeal.nD Cert.KernelIdeal.τ).loc Cert.KernelIdeal.main_arg1)) o k))
    ∧ (∀ o, Cert.Net.Fin_ (Cert.Net.cur1 (m ((c.tc : Thread Cert.KernelIdeal.nD Cert.KernelIdeal.τ).loc Cert.KernelIdeal.main_arg2)) o))
    ∧ (∀ o, Cert.Net.Fin_ (Cert.Net.cur1 (m ((c.tc : Thread Cert.KernelIdeal.nD Cert.KernelIdeal.τ).loc Cert.KernelIdeal.main_arg3)) o))
    ∧ (∀ o, Cert.Net.Fin_ (Cert.Net.cur1 (m ((c.tc : Thread Cert.KernelIdeal.nD Cert.KernelIdeal.τ).loc Cert.KernelIdeal.main_arg4)) o))
    ∧ (∀ o k, Cert.Net.Fin_ (Cert.Net.cur2 (m ((c.tc : Thread Cert.KernelIdeal.nD Cert.KernelIdeal.τ).loc Cert.KernelIdeal.main_arg5)) o k))
    ∧ (∀ o, Cert.Net.Fin_ (Cert.Net.cur1 (m ((c.tc : Thread Cert.KernelIdeal.nD Cert.KernelIdeal.τ).loc Cert.KernelIdeal.main_arg6)) o))
    ∧ (∀ o, Cert.Net.Fin_ (Cert.Net.cur1 (m ((c.tc : Thread Cert.KernelIdeal.nD Cert.KernelIdeal.τ).loc Cert.KernelIdeal.main_arg7)) o))
    ∧ (∀ o, Cert.Net.Fin_ (Cert.Net.cur1 (m ((c.tc : Thread Cert.KernelIdeal.nD Cert.KernelIdeal.τ).loc Cert.KernelIdeal.main_arg8)) o))
    ∧ (∀ o k, Cert.Net.Fin_ (Cert.Net.cur2 (m ((c.tc : Thread Cert.KernelIdeal.nD Cert.KernelIdeal.τ).loc Cert.KernelIdeal.main_arg9)) o k))
    ∧ (∀ o, Cert.Net.Fin_ (Cert.Net.cur1 (m ((c.tc : Thread Cert.KernelIdeal.nD Cert.KernelIdeal.τ).loc Cert.KernelIdeal.main_arg10)) o))
    ∧ (∀ o, Cert.Net.Fin_ (Cert.Net.cur1 (m ((c.tc : Thread Cert.KernelIdeal.nD Cert.KernelIdeal.τ).loc Cert.KernelIdeal.main_arg11)) o))
    ∧ (∀ o, Cert.Net.Fin_ (Cert.Net.cur1 (m ((c.tc : Thread Cert.KernelIdeal.nD Cert.KernelIdeal.τ).loc Cert.KernelIdeal.main_arg12)) o)) := by
  obtain ⟨f0, f1, f2, f3, f4, f5, f6, f7, f8, f9, f10, f11, f12⟩ := fn_fin _ _ _ _ _ _ _ _ _ _ _ _ _ (h c)
  exact ⟨fun b n k => f0 _, fun o k => f1 _, fun o => f2 _, fun o => f3 _, fun o => f4 _, fun o k => f5 _,
    fun o => f6 _, fun o => f7 _, fun o => f8 _, fun o k => f9 _, fun o => f10 _, fun o => f11 _, fun o => f12 _⟩

end Cert.FinPre

end
-- ==== Proof.lean ====
/-
  The kernel and its reference compute the same network on the extended reals.

  Three layers of a per-point linear map followed by a batch normalisation over all 131072 points (the first two with a
  rectifier), then per batch index the maximum over the positions of the third layer's normalised activation, stacked on
  the transposed first activation.  The kernel normalises in the moment form (sums and sums of squares accumulated
  block by block, variance as second moment minus squared mean clamped at zero, one scale and one shift per channel),
  the reference in the centred form (mean of squared deviations).  Both programs run to completion from any memory with
  their arguments unchanged; the kernel's result is the network in the moment form, the reference's the network in the
  centred form; on finite inputs every activation is finite and the two forms are one function.
-/
import proofs.«128329_j6322191859819_2_alg».proof.Defs
import proofs.«128329_j6322191859819_2_alg».proof.Proof.Gen.Kernel
import proofs.«128329_j6322191859819_2_alg».proof.Proof.Gen.Kernel.Frame
import proofs.«128329_j6322191859819_2_alg».proof.Proof.Gen.KernelIdeal
import proofs.«128329_j6322191859819_2_alg».proof.Proof.Gen.KernelIdeal.Frame
import proofs.«128329_j6322191859819_2_alg».proof.Proof.Gen.ReferenceIdeal
import proofs.«128329_j6322191859819_2_alg».proof.Proof.Gen.Pre_finite_inputs
import proofs.«128329_j6322191859819_2_alg».proof.Proof.KernelRun
import proofs.«128329_j6322191859819_2_alg».proof.Proof.KChain
import proofs.«128329_j6322191859819_2_alg».proof.Proof.RefValue
import proofs.«128329_j6322191859819_2_alg».proof.Proof.LibBatchNormForms
import proofs.«128329_j6322191859819_2_alg».proof.Proof.FinPre
import Idealize.ShloMosaic.Adequacy
import Idealize.ShloMosaic.Init

set_option maxRecDepth 16384

noncomputable section

namespace Cert.Proof

open Idealize.ShloMosaic Idealize.SL.Sem

/-- The kernel program runs with its arguments unchanged. -/
theorem frame_k [Cert.Kernel.Facts] [Cert.Pre_finite_inputs.Facts] : Cert.frame_Kernel :=
  fun m ρ _ => Cert.Kernel.Gen.frame m ρ

/-- The idealized kernel program runs with its arguments unchanged. -/
theorem frame_ki [Cert.KernelIdeal.Facts] [Cert.Pre_finite_inputs.Facts] : Cert.frame_KernelIdeal :=
  fun m ρ _ => Cert.KernelIdeal.Gen.frame m ρ

/-- The reference runs with its arguments unchanged: its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.RefValue.run m ρ)

/-- From memories agreeing on finite arguments both programs end at the same array: the kernel at the moment form of the
    network, the reference at the centred form, which agree on finite inputs. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.KChain.result m c, ?_, ?_⟩
  · exact (θ_run Cert.KernelIdeal.defs _ _).mono
      (fun r h c => ⟨(h c).1.trans (Cert.KernelIdeal.KChain.result_eq m ρ c), (h c).2⟩)
      (Cert.KernelIdeal.KRun.run (F := Ideal) m ρ)
  · refine (θ_run Cert.ReferenceIdeal.defs _ _).mono (fun r h c => ⟨(h c).1.trans ?_, (h c).2⟩)
      (Cert.ReferenceIdeal.RefValue.run m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
    obtain ⟨f0, f1, f2, f3, f4, f5, f6, f7, f8, f9, f10, f11, f12⟩ := Cert.FinPre.fin_of_pre m hpre c
    exact congrArg Cert.Net.arr3 (Cert.Net.netM_eq_netC _ _ _ _ _ _ _ _ _ _ _ _ _ f0 f1 f2 f3 f4 f5 f6 f7 f8 f9 f10 f11 f12).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
